-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096 : Shape := ⟨1, ![4096]⟩
abbrev S4096x8 : Shape := ⟨2, ![4096, 8]⟩
abbrev S100000x128 : Shape := ⟨2, ![100000, 128]⟩
abbrev S32x128 : Shape := ⟨2, ![32, 128]⟩
abbrev S512x256 : Shape := ⟨2, ![512, 256]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S4096 : S_.BroadcastsInDim S4096 (![] : Fin 0 → Fin S4096.rank)
  reducesTo_S4096_S_d0 : S4096.ReducesTo [0] S_
  bcast_S_S4096x8 : S_.BroadcastsInDim S4096x8 (![] : Fin 0 → Fin S4096x8.rank)
  reducesTo_S4096x8_S_d0_1 : S4096x8.ReducesTo [0, 1] S_

variable [Facts]

def fn_part3 {F : FTy → Type} [FloatOps F] (main_v45 : IVec S_ 1) (main_v50 : IVec S4096x8 1) : IVec S_ 1 :=
  let main_c_19 : IVec S_ 1 := constantI S_ 1 1#1
  let main_v51 : IVec S_ 1 := (fun x v => Host.reduce IntOp.andi x v reducesTo_S4096x8_S_d0_1 h_S_) main_v50 main_c_19
  let main_v52 : IVec S_ 1 := andi main_v45 main_v51
  main_v52

def fn_part2 {F : FTy → Type} [FloatOps F] (main_arg0 : IVec S4096 32) (main_arg1 : IVec S4096x8 32) (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S4096 32 := broadcastInDim S4096 ![] bcast_S_S4096 main_c_14
  let main_v40 : IVec S4096 1 := cmpi .sge main_arg0 main_v39
  let main_c_15 : IVec S_ 32 := constantI S_ 32 99999#32
  let main_v41 : IVec S4096 32 := broadcastInDim S4096 ![] bcast_S_S4096 main_c_15
  let main_v42 : IVec S4096 1 := cmpi .sle main_arg0 main_v41
  let main_v43 : IVec S4096 1 := andi main_v40 main_v42
  let main_c_16 : IVec S_ 1 := constantI S_ 1 1#1
  let main_v44 : IVec S_ 1 := (fun x v => Host.reduce IntOp.andi x v reducesTo_S4096_S_d0 h_S_) main_v43 main_c_16
  let main_v45 : IVec S_ 1 := andi main_v38 main_v44
  let main_c_17 : IVec S_ 32 := constantI S_ 32 0#32
  let main_v46 : IVec S4096x8 32 := broadcastInDim S4096x8 ![] bcast_S_S4096x8 main_c_17
  let main_v47 : IVec S4096x8 1 := cmpi .sge main_arg1 main_v46
  let main_c_18 : IVec S_ 32 := constantI S_ 32 31#32
  let main_v48 : IVec S4096x8 32 := broadcastInDim S4096x8 ![] bcast_S_S4096x8 main_c_18
  let main_v49 : IVec S4096x8 1 := cmpi .sle main_arg1 main_v48
  let main_v50 : IVec S4096x8 1 := andi main_v47 main_v49
  fn_part3 (F := F) main_v45 main_v50

def fn_part1 {F : FTy → Type} [FloatOps F] (main_arg0 : IVec S4096 32) (main_arg1 : IVec S4096x8 32) (main_arg6 : FVec F S256x512 .f32) (main_arg7 : FVec F S256 .f32) (main_arg8 : FVec F S128x256 .f32) (main_arg9 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg6
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg0 main_arg1 main_arg9 main_v33

def fn {F : FTy → Type} [FloatOps F] (main_arg0 : IVec S4096 32) (main_arg1 : IVec S4096x8 32) (main_arg2 : FVec F S100000x128 .f32) (main_arg3 : FVec F S32x128 .f32) (main_arg4 : FVec F S512x256 .f32) (main_arg5 : FVec F S512 .f32) (main_arg6 : FVec F S256x512 .f32) (main_arg7 : FVec F S256 .f32) (main_arg8 : FVec F S128x256 .f32) (main_arg9 : FVec F S128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S32x128 .f32 := Host.absf main_arg3
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_arg1 main_arg6 main_arg7 main_arg8 main_arg9 main_v13 main_v16
-- ==== Kernel.lean ====
abbrev S4096 : Shape := ⟨1, ![4096]⟩
abbrev S4096x8 : Shape := ⟨2, ![4096, 8]⟩
abbrev S100000x128 : Shape := ⟨2, ![100000, 128]⟩
abbrev S32x128 : Shape := ⟨2, ![32, 128]⟩
abbrev S512x256 : Shape := ⟨2, ![512, 256]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S4096x128 : Shape := ⟨2, ![4096, 128]⟩
abbrev S128x128 : Shape := ⟨2, ![128, 128]⟩
abbrev S_ : Shape := ⟨0, ![]⟩
abbrev S64x128 : Shape := ⟨2, ![64, 128]⟩
abbrev S64 : Shape := ⟨1, ![64]⟩
abbrev S8x4096 : Shape := ⟨2, ![8, 4096]⟩
abbrev S32x4096 : Shape := ⟨2, ![32, 4096]⟩
abbrev S1x4096 : Shape := ⟨2, ![1, 4096]⟩
abbrev S1x512 : Shape := ⟨2, ![1, 512]⟩
abbrev S1x256 : Shape := ⟨2, ![1, 256]⟩
abbrev S1x128 : Shape := ⟨2, ![1, 128]⟩
abbrev S2048x128 : Shape := ⟨2, ![2048, 128]⟩
abbrev S512x128 : Shape := ⟨2, ![512, 128]⟩
abbrev S2048x512 : Shape := ⟨2, ![2048, 512]⟩
abbrev S2048x256 : Shape := ⟨2, ![2048, 256]⟩
abbrev S2048 : Shape := ⟨1, ![2048]⟩
abbrev S2048x1 : Shape := ⟨2, ![2048, 1]⟩

abbrev nBuf : Table → Nat
  | .hbm => 21
  | .local .tc .vmem => 15
  | .local .scVector .vmem => 2
  | _ => 0

abbrev bufTy : (tb : Table) → Fin (nBuf tb) → BufTy
  | .hbm, ⟨0, _⟩ => ⟨S4096, .i32⟩
  | .hbm, ⟨1, _⟩ => ⟨S4096x8, .i32⟩
  | .hbm, ⟨2, _⟩ => ⟨S100000x128, .f32⟩
  | .hbm, ⟨3, _⟩ => ⟨S32x128, .f32⟩
  | .hbm, ⟨4, _⟩ => ⟨S512x256, .f32⟩
  | .hbm, ⟨5, _⟩ => ⟨S512, .f32⟩
  | .hbm, ⟨6, _⟩ => ⟨S256x512, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S4096x128, .f32⟩
  | .hbm, ⟨11, _⟩ => ⟨S8x4096, .i32⟩
  | .hbm, ⟨12, _⟩ => ⟨S32x128, .bf16⟩
  | .hbm, ⟨13, _⟩ => ⟨S4096x128, .bf16⟩
  | .hbm, ⟨14, _⟩ => ⟨S512x256, .bf16⟩
  | .hbm, ⟨15, _⟩ => ⟨S1x512, .f32⟩
  | .hbm, ⟨16, _⟩ => ⟨S256x512, .bf16⟩
  | .hbm, ⟨17, _⟩ => ⟨S1x256, .f32⟩
  | .hbm, ⟨18, _⟩ => ⟨S128x256, .bf16⟩
  | .hbm, ⟨19, _⟩ => ⟨S1x128, .f32⟩
  | .hbm, ⟨20, _⟩ => ⟨S4096x128, .f32⟩
  | .local .tc .vmem, ⟨0, _⟩ => ⟨S8x4096, .i32⟩
  | .local .tc .vmem, ⟨1, _⟩ => ⟨S32x128, .bf16⟩
  | .local .tc .vmem, ⟨2, _⟩ => ⟨S4096x128, .bf16⟩
  | .local .tc .vmem, ⟨3, _⟩ => ⟨S2048x128, .f32⟩
  | .local .tc .vmem, ⟨4, _⟩ => ⟨S2048x128, .f32⟩
  | .local .tc .vmem, ⟨5, _⟩ => ⟨S2048x128, .bf16⟩
  | .local .tc .vmem, ⟨6, _⟩ => ⟨S2048x128, .bf16⟩
  | .local .tc .vmem, ⟨7, _⟩ => ⟨S512x256, .bf16⟩
  | .local .tc .vmem, ⟨8, _⟩ => ⟨S1x512, .f32⟩
  | .local .tc .vmem, ⟨9, _⟩ => ⟨S256x512, .bf16⟩
  | .local .tc .vmem, ⟨10, _⟩ => ⟨S1x256, .f32⟩
  | .local .tc .vmem, ⟨11, _⟩ => ⟨S128x256, .bf16⟩
  | .local .tc .vmem, ⟨12, _⟩ => ⟨S1x128, .f32⟩
  | .local .tc .vmem, ⟨13, _⟩ => ⟨S2048x128, .f32⟩
  | .local .tc .vmem, ⟨14, _⟩ => ⟨S2048x128, .f32⟩
  | .local .scVector .vmem, ⟨0, _⟩ => ⟨S128, .i32⟩
  | .local .scVector .vmem, ⟨1, _⟩ => ⟨S128x128, .f32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_arg2_scv : Ref sig .scVector := ⟨.hbm, 2, rfl⟩
abbrev main_arg0_scv : Ref sig .scVector := ⟨.hbm, 0, rfl⟩
abbrev main_v0_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_stg6_0 : Ref sig .tc := ⟨.vmem, 11, rfl⟩
abbrev cc2_stg7_0 : Ref sig .tc := ⟨.vmem, 12, rfl⟩
abbrev cc2_stg8_0 : Ref sig .tc := ⟨.vmem, 13, rfl⟩
abbrev cc2_stg8_1 : Ref sig .tc := ⟨.vmem, 14, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem8_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) (c0_i32_13 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v12 : BitVec 32 := Scalar.addi v2 c0_i32_13
  let c0_i32_16 : BitVec 32 := 0#32
  ![v12.toNat, 0]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8x4096 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S32x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2048x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S128x128_S64x128_0_0 : ∀ a, (![0, 0] : Fin 2 → Nat) a + S64x128.size a ≤ S128x128.size a
  inb_S128_S64_0 : ∀ a, (![0] : Fin 1 → Nat) a + S64.size a ≤ S128.size a
  inb_S100000x128_S100000x128_0_0 : ∀ a, (![0, 0] : Fin 2 → Nat) a + S100000x128.size a ≤ S100000x128.size a
  gathers_S100000x128_S64x128 : S100000x128.Gathers 0 S64x128
  inb_S128x128_S64x128_64_0 : ∀ a, (![64, 0] : Fin 2 → Nat) a + S64x128.size a ≤ S128x128.size a
  inb_S128_S64_64 : ∀ a, (![64] : Fin 1 → Nat) a + S64.size a ≤ S128.size a
  transposes_S4096x8_S8x4096_1_0 : S4096x8.Transposes [1, 0] S8x4096
  bitsLt_bf16_f32 : FTy.bits .bf16 < FTy.bits .f32
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  iota_S32x4096_d0_w32 : S32x4096.Iotas .tc 32 [0]
  slices_S8x4096_o0_0_S1x4096 : S8x4096.Slices ![0, 0] S1x4096
  broadcasts_S1x4096_S32x4096 : S1x4096.Broadcasts S32x4096
  natLt_1_32 : 1 < 32
  slices_S8x4096_o1_0_S1x4096 : S8x4096.Slices ![1, 0] S1x4096
  slices_S8x4096_o2_0_S1x4096 : S8x4096.Slices ![2, 0] S1x4096
  slices_S8x4096_o3_0_S1x4096 : S8x4096.Slices ![3, 0] S1x4096
  slices_S8x4096_o4_0_S1x4096 : S8x4096.Slices ![4, 0] S1x4096
  slices_S8x4096_o5_0_S1x4096 : S8x4096.Slices ![5, 0] S1x4096
  slices_S8x4096_o6_0_S1x4096 : S8x4096.Slices ![6, 0] S1x4096
  slices_S8x4096_o7_0_S1x4096 : S8x4096.Slices ![7, 0] S1x4096
  inb_S32x128_S32x128_0_0 : ∀ a, (![0, 0] : Fin 2 → Nat) a + S32x128.size a ≤ S32x128.size a
  h_S32x128 : 0 < S32x128.numel
  shapeCasts_S32x128_S32x128 : S32x128.ShapeCasts S32x128
  iota_S32x128_d0_w32 : S32x128.Iotas .tc 32 [0]
  inb_S4096x128_S4096x128_0_0 : ∀ a, (![0, 0] : Fin 2 → Nat) a + S4096x128.size a ≤ S4096x128.size a
  h_S4096x128 : 0 < S4096x128.numel
  packedbf16_S4096x128_S4096x128_0_0 : (Rect.unit (s := S4096x128) ![0, 0] S4096x128.size inb_S4096x128_S4096x128_0_0).PackedRows (EltTy.packing .bf16)
  shapeCasts_S512_S1x512 : S512.ShapeCasts S1x512
  shapeCasts_S256_S1x256 : S256.ShapeCasts S1x256
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S512x256_o0_0_S512x128 : S512x256.Slices ![0, 0] S512x128
  slices_S512x256_o0_128_S512x128 : S512x256.Slices ![0, 128] S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  dot_S32x4096_S32x128_S4096x128_0_0_1_1_n_n_wf : DotDims.WF S32x4096 S32x128 S4096x128 [0] [0] [1] [1] [] []
  dot_S2048x128_S512x128_S2048x512_1_1_0_0_n_n_wf : DotDims.WF S2048x128 S512x128 S2048x512 [1] [1] [0] [0] [] []
  dot_S2048x512_S256x512_S2048x256_1_1_0_0_n_n_wf : DotDims.WF S2048x512 S256x512 S2048x256 [1] [1] [0] [0] [] []
  dot_S2048x256_S128x256_S2048x128_1_1_0_0_n_n_wf : DotDims.WF S2048x256 S128x256 S2048x128 [1] [1] [0] [0] [] []
  hcc0_scratch2 : 0 + S_.numel ≤ 20
  hcc0_scratch3 : 1 + S_.numel ≤ 20
  hcc0_scratch4 : 2 + S_.numel ≤ 20
  hcc0_scratch5 : 3 + S_.numel ≤ 20
  hcc0_scoped0 : 4 + S_.numel ≤ 20
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S4096.size a
  k0_off2_inb : ∀ i : grid0.Coords, ∀ (r : Fin 2), ∀ a, (k0_off2 i (BitVec.ofNat 32 (64 * r.val))) a + S64x128.size a ≤ S4096x128.size a
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S8x4096.size a ≤ S8x4096.size a
  hwx1_0 : ∀ i : grid1.Coords, EltTy.bits .i32 = 32 ∨ (Rect.block (s := S8x4096) S8x4096.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .bf16 = 32 ∨ (Rect.block (s := S32x128) S32x128.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x128.size a
  hwx1_2 : ∀ i : grid1.Coords, EltTy.bits .bf16 = 32 ∨ (Rect.block (s := S4096x128) S4096x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S4096x128.size a
  hwx2_0 : ∀ i : grid2.Coords, EltTy.bits .f32 = 32 ∨ (Rect.block (s := S4096x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S4096x128.size a
  hwx2_1 : ∀ i : grid2.Coords, EltTy.bits .bf16 = 32 ∨ (Rect.block (s := S4096x128) S2048x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S512x256.size a
  hwx2_2 : ∀ i : grid2.Coords, EltTy.bits .bf16 = 32 ∨ (Rect.block (s := S512x256) S512x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x512.size a ≤ S256x512.size a
  hwx2_4 : ∀ i : grid2.Coords, EltTy.bits .bf16 = 32 ∨ (Rect.block (s := S256x512) S256x512.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x256.size a ≤ S128x256.size a
  hwx2_6 : ∀ i : grid2.Coords, EltTy.bits .bf16 = 32 ∨ (Rect.block (s := S128x256) S128x256.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x128.size a ≤ S4096x128.size a
  hwx2_8 : ∀ i : grid2.Coords, EltTy.bits .f32 = 32 ∨ (Rect.block (s := S4096x128) S2048x128.size (cc2_transform_8 i) (hinb2_8 i)).WholeWords (EltTy.packing .f32)

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scoped0 : DmaSems sig S_ := SemArray.consecutive 4 S_ hcc0_scoped0
def dot_S32x4096_S32x128_S4096x128_0_0_1_1_n_n : DotDims S32x4096 S32x128 S4096x128 where
  lhsContracting := [0]
  rhsContracting := [0]
  lhsNonContracting := [1]
  rhsNonContracting := [1]
  lhsBatch := []
  rhsBatch := []
  wf := dot_S32x4096_S32x128_S4096x128_0_0_1_1_n_n_wf
def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf
def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf

abbrev win1_0 : Pipeline.Window sig grid1 :=
  Pipeline.Window.ofSpec (Memref.whole main_v1) S8x4096.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S4096x128.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S512x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S256x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S128x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v9) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v10) S2048x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4096 : Shape := ⟨1, ![4096]⟩
abbrev S4096x8 : Shape := ⟨2, ![4096, 8]⟩
abbrev S100000x128 : Shape := ⟨2, ![100000, 128]⟩
abbrev S32x128 : Shape := ⟨2, ![32, 128]⟩
abbrev S512x256 : Shape := ⟨2, ![512, 256]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩
abbrev S4096x8x1 : Shape := ⟨3, ![4096, 8, 1]⟩
abbrev S1x1x1 : Shape := ⟨3, ![1, 1, 1]⟩
abbrev S4096x8x128 : Shape := ⟨3, ![4096, 8, 128]⟩
abbrev S4096x256 : Shape := ⟨2, ![4096, 256]⟩
abbrev S4096x512 : Shape := ⟨2, ![4096, 512]⟩
abbrev S1x512 : Shape := ⟨2, ![1, 512]⟩
abbrev S1x256 : Shape := ⟨2, ![1, 256]⟩
abbrev S256x128 : Shape := ⟨2, ![256, 128]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x8, .i32⟩
  | .hbm, ⟨2, _⟩ => ⟨S100000x128, .f32⟩
  | .hbm, ⟨3, _⟩ => ⟨S32x128, .f32⟩
  | .hbm, ⟨4, _⟩ => ⟨S512x256, .f32⟩
  | .hbm, ⟨5, _⟩ => ⟨S512, .f32⟩
  | .hbm, ⟨6, _⟩ => ⟨S256x512, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S1, .i32⟩
  | .hbm, ⟨19, _⟩ => ⟨S_, .i32⟩
  | .hbm, ⟨20, _⟩ => ⟨S4096x1, .i32⟩
  | .hbm, ⟨21, _⟩ => ⟨S4096x1, .i1⟩
  | .hbm, ⟨22, _⟩ => ⟨S1x1, .i32⟩
  | .hbm, ⟨23, _⟩ => ⟨S4096x1, .i32⟩
  | .hbm, ⟨24, _⟩ => ⟨S4096x1, .i1⟩
  | .hbm, ⟨25, _⟩ => ⟨S4096x1, .i1⟩
  | .hbm, ⟨26, _⟩ => ⟨S_, .i1⟩
  | .hbm, ⟨27, _⟩ => ⟨S4096, .i1⟩
  | .hbm, ⟨28, _⟩ => ⟨S4096x128, .f32⟩
  | .hbm, ⟨29, _⟩ => ⟨S4096x128, .i1⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S_, .i32⟩
  | .hbm, ⟨34, _⟩ => ⟨S1, .i32⟩
  | .hbm, ⟨35, _⟩ => ⟨S_, .f32⟩
  | .hbm, ⟨36, _⟩ => ⟨S128, .f32⟩
  | .hbm, ⟨37, _⟩ => ⟨S32x128, .f32⟩
  | .hbm, ⟨38, _⟩ => ⟨S_, .i32⟩
  | .hbm, ⟨39, _⟩ => ⟨S4096x8, .i32⟩
  | .hbm, ⟨40, _⟩ => ⟨S4096x8, .i1⟩
  | .hbm, ⟨41, _⟩ => ⟨S_, .i32⟩
  | .hbm, ⟨42, _⟩ => ⟨S4096x8, .i32⟩
  | .hbm, ⟨43, _⟩ => ⟨S4096x8, .i32⟩
  | .hbm, ⟨44, _⟩ => ⟨S4096x8, .i32⟩
  | .hbm, ⟨45, _⟩ => ⟨S4096x8x1, .i32⟩
  | .hbm, ⟨46, _⟩ => ⟨S1, .i32⟩
  | .hbm, ⟨47, _⟩ => ⟨S_, .i32⟩
  | .hbm, ⟨48, _⟩ => ⟨S4096x8x1, .i32⟩
  | .hbm, ⟨49, _⟩ => ⟨S4096x8x1, .i1⟩
  | .hbm, ⟨50, _⟩ => ⟨S1x1x1, .i32⟩
  | .hbm, ⟨51, _⟩ => ⟨S4096x8x1, .i32⟩
  | .hbm, ⟨52, _⟩ => ⟨S4096x8x1, .i1⟩
  | .hbm, ⟨53, _⟩ => ⟨S4096x8x1, .i1⟩
  | .hbm, ⟨54, _⟩ => ⟨S_, .i1⟩
  | .hbm, ⟨55, _⟩ => ⟨S4096x8, .i1⟩
  | .hbm, ⟨56, _⟩ => ⟨S4096x8x128, .f32⟩
  | .hbm, ⟨57, _⟩ => ⟨S4096x8x128, .i1⟩
  | .hbm, ⟨58, _⟩ => ⟨S_, .f32⟩
  | .hbm, ⟨59, _⟩ => ⟨S4096x8x128, .f32⟩
  | .hbm, ⟨60, _⟩ => ⟨S4096x8x128, .f32⟩
  | .hbm, ⟨61, _⟩ => ⟨S_, .f32⟩
  | .hbm, ⟨62, _⟩ => ⟨S4096x128, .f32⟩
  | .hbm, ⟨63, _⟩ => ⟨S_, .f32⟩
  | .hbm, ⟨64, _⟩ => ⟨S4096x128, .f32⟩
  | .hbm, ⟨65, _⟩ => ⟨S4096x128, .f32⟩
  | .hbm, ⟨66, _⟩ => ⟨S4096x256, .f32⟩
  | .hbm, ⟨67, _⟩ => ⟨S256x512, .f32⟩
  | .hbm, ⟨68, _⟩ => ⟨S4096x512, .f32⟩
  | .hbm, ⟨69, _⟩ => ⟨S1x512, .f32⟩
  | .hbm, ⟨70, _⟩ => ⟨S4096x512, .f32⟩
  | .hbm, ⟨71, _⟩ => ⟨S4096x512, .f32⟩
  | .hbm, ⟨72, _⟩ => ⟨S_, .f32⟩
  | .hbm, ⟨73, _⟩ => ⟨S4096x512, .f32⟩
  | .hbm, ⟨74, _⟩ => ⟨S4096x512, .f32⟩
  | .hbm, ⟨75, _⟩ => ⟨S512x256, .f32⟩
  | .hbm, ⟨76, _⟩ => ⟨S4096x256, .f32⟩
  | .hbm, ⟨77, _⟩ => ⟨S1x256, .f32⟩
  | .hbm, ⟨78, _⟩ => ⟨S4096x256, .f32⟩
  | .hbm, ⟨79, _⟩ => ⟨S4096x256, .f32⟩
  | .hbm, ⟨80, _⟩ => ⟨S_, .f32⟩
  | .hbm, ⟨81, _⟩ => ⟨S4096x256, .f32⟩
  | .hbm, ⟨82, _⟩ => ⟨S4096x256, .f32⟩
  | .hbm, ⟨83, _⟩ => ⟨S256x128, .f32⟩
  | .hbm, ⟨84, _⟩ => ⟨S4096x128, .f32⟩
  | .hbm, ⟨85, _⟩ => ⟨S1x128, .f32⟩
  | .hbm, ⟨86, _⟩ => ⟨S4096x128, .f32⟩
  | .hbm, ⟨87, _⟩ => ⟨S4096x128, .f32⟩
  | .hbm, ⟨88, _⟩ => ⟨S_, .f32⟩
  | .hbm, ⟨89, _⟩ => ⟨S4096x128, .f32⟩
  | .hbm, ⟨90, _⟩ => ⟨S4096x128, .f32⟩
  | .hbm, ⟨91, _⟩ => ⟨S4096x128, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S4096x128, .f32⟩
  | .hbm, ⟨100, _⟩ => ⟨S4096x128, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_c : Ref sig .tc := ⟨.hbm, 33, rfl⟩
abbrev main_v1 : Ref sig .tc := ⟨.hbm, 34, rfl⟩
abbrev main_cst : Ref sig .tc := ⟨.hbm, 35, rfl⟩
abbrev main_v2 : Ref sig .tc := ⟨.hbm, 36, rfl⟩
abbrev main_v3 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v4 : Ref sig .tc := ⟨.hbm, 60, rfl⟩
abbrev main_cst_0 : Ref sig .tc := ⟨.hbm, 61, rfl⟩
abbrev main_v5 : Ref sig .tc := ⟨.hbm, 62, rfl⟩
abbrev main_cst_1 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_call2_cst : Ref sig .tc := ⟨.hbm, 72, rfl⟩
abbrev main_call2_v0 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_call3_cst : Ref sig .tc := ⟨.hbm, 80, rfl⟩
abbrev main_call3_v0 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_call4_cst : Ref sig .tc := ⟨.hbm, 88, rfl⟩
abbrev main_call4_v0 : Ref sig .tc := ⟨.hbm, 89, rfl⟩
abbrev main_v26 : Ref sig .tc := ⟨.hbm, 90, rfl⟩
abbrev main_call5_v0 : Ref sig .tc := ⟨.hbm, 91, rfl⟩
abbrev main_call5_cst : Ref sig .tc := ⟨.hbm, 92, rfl⟩
abbrev main_call5_v1 : Ref sig .tc := ⟨.hbm, 93, rfl⟩
abbrev main_call5_v2 : Ref sig .tc := ⟨.hbm, 94, rfl⟩
abbrev main_v27 : Ref sig .tc := ⟨.hbm, 95, rfl⟩
abbrev main_cst_2 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  bcast_S_S1 : S_.BroadcastsInDim S1 (![] : Fin 0 → Fin S1.rank)
  bcast_S_S128 : S_.BroadcastsInDim S128 (![] : Fin 0 → Fin S128.rank)
  bcast_S_S4096x8 : S_.BroadcastsInDim S4096x8 (![] : Fin 0 → Fin S4096x8.rank)
  bcast_S4096x8_S4096x8x1_0_1 : S4096x8.BroadcastsInDim S4096x8x1 (![0, 1] : Fin 2 → Fin S4096x8x1.rank)
  bcast_S_S4096x8x1 : S_.BroadcastsInDim S4096x8x1 (![] : Fin 0 → Fin S4096x8x1.rank)
  bcast_S1_S1x1x1_2 : S1.BroadcastsInDim S1x1x1 (![2] : Fin 1 → Fin S1x1x1.rank)
  bcast_S1x1x1_S4096x8x1_0_1_2 : S1x1x1.BroadcastsInDim S4096x8x1 (![0, 1, 2] : Fin 3 → Fin S4096x8x1.rank)
  reducesTo_S4096x8x1_S4096x8_d2 : S4096x8x1.ReducesTo [2] S4096x8
  bcast_S4096x8_S4096x8x128_0_1 : S4096x8.BroadcastsInDim S4096x8x128 (![0, 1] : Fin 2 → Fin S4096x8x128.rank)
  bcast_S_S4096x8x128 : S_.BroadcastsInDim S4096x8x128 (![] : Fin 0 → Fin S4096x8x128.rank)
  reducesTo_S4096x8x128_S4096x128_d1 : S4096x8x128.ReducesTo [1] S4096x128
  concatenates_S4096x128_S4096x128_S4096x256_d1 : Shape.Concatenates [S4096x128, S4096x128] S4096x256 1
  transposes_S512x256_S256x512_1_0 : S512x256.Transposes [1, 0] S256x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  transposes_S256x512_S512x256_1_0 : S256x512.Transposes [1, 0] S512x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S128x256_S256x128_1_0 : S128x256.Transposes [1, 0] S256x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  reducesTo_S4096x128_S4096_d1 : S4096x128.ReducesTo [1] S4096
  bcast_S4096x1_S4096x128_0_1 : S4096x1.BroadcastsInDim S4096x128 (![0, 1] : Fin 2 → Fin S4096x128.rank)
  gather_S100000x128_S4096x1_S4096x128_1_0_n_n_0_1_1128_wf : GatherDims.WF S100000x128 S4096x1 S4096x128 [1] [0] [] [0] [] 1 ![1, 128]
  scatter_S32x128_S1_S128_0_0_0_0_wf : ScatterDims.WF S32x128 S1 S128 [0] [0] [0] 0
  gather_S32x128_S4096x8x1_S4096x8x128_2_0_n_n_0_2_1128_wf : GatherDims.WF S32x128 S4096x8x1 S4096x8x128 [2] [0] [] [0] [] 2 ![1, 128]
  dot_S4096x256_S256x512_S4096x512_1_0_0_1_n_n_wf : DotDims.WF S4096x256 S256x512 S4096x512 [1] [0] [0] [1] [] []
  dot_S4096x512_S512x256_S4096x256_1_0_0_1_n_n_wf : DotDims.WF S4096x512 S512x256 S4096x256 [1] [0] [0] [1] [] []
  dot_S4096x256_S256x128_S4096x128_1_0_0_1_n_n_wf : DotDims.WF S4096x256 S256x128 S4096x128 [1] [0] [0] [1] [] []

variable [Facts₀]

def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def scatter_S32x128_S1_S128_0_0_0_0 : ScatterDims S32x128 S1 S128 where
  updateWindowDims := [0]
  insertedWindowDims := [0]
  scatterDimsToOperandDims := [0]
  indexVectorDim := 0
  wf := scatter_S32x128_S1_S128_0_0_0_0_wf
def gather_S32x128_S4096x8x1_S4096x8x128_2_0_n_n_0_2_1128 : GatherDims S32x128 S4096x8x1 S4096x8x128 where
  offsetDims := [2]
  collapsedSliceDims := [0]
  operandBatchingDims := []
  startIndicesBatchingDims := []
  startIndexMap := [0]
  indexVectorDim := 2
  sliceSizes := ![1, 128]
  wf := gather_S32x128_S4096x8x1_S4096x8x128_2_0_n_n_0_2_1128_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

class Facts : Prop extends Facts₀ where

variable [Facts]
-- ==== Proof.PreDecode.lean ====
/-
  THE PRECONDITION DECODED. The printed predicate `Cert.Pre_input_domain.fn` is the conjunction of ten
  tests, each an "and" over every entry of one argument: |x| < +∞ for the entries of the eight float
  arguments, 0 ≤ w ≤ 99999 (signed) for the entries of the first integer argument and 0 ≤ w ≤ 31 (signed)
  for those of the second. Assumed equal to 1, it gives: every entry of the first integer argument,
  read unsigned, is at most 99999; every entry of the second at most 31; and, where a float is an
  extended real, every float entry is a real number (an extended real x with max x (−x) < ⊤ is neither
  ⊤ nor ⊥).

  `split` does the decoding once, at any float instance: the conjunction is taken apart (an "and" of two
  bits is 1 exactly when both are) and each "and over all entries" that is 1 had a 1 at every entry. No
  fact about floats is used there.
-/
import proofs.«216483_g44830868636102_cont_8to1c4_483_48_alg».proof.Pre_input_domain
import proofs.«216483_g44830868636102_cont_8to1c4_483_48_alg».proof.Proof.Gen.Pre_input_domain
import Idealize.ShloMosaic.Lib.ReduceAll
import Idealize.ShloMosaic.Lib.ValueIdx
import Idealize.ShloMosaic.PureOps.Ideal

noncomputable section

namespace Cert.PreDecode

open Idealize.ShloMosaic Cert.Pre_input_domain

/-- The rank-0 shape has one index. -/
instance : Subsingleton S_.Idx := ⟨fun a b => funext fun d => d.elim0⟩

/-- The "and" of two rank-0 bit arrays, read at the index. -/
theorem andi_apply (x y : IVec S_ 1) (j : S_.Idx) : andi x y j = IntOp.andi (x j) (y j) := rfl

/-- A word w with 0 ≤ w ≤ c signed, c a nonnegative constant n: w read unsigned is at most n. -/
theorem toNat_le_of_signed (w c : BitVec 32) (n : Nat) (hc : c.toInt = (n : Int))
    (h : IntOp.andi (IntOp.cmpi .sge w 0#32) (IntOp.cmpi .sle w c) = 1#1) : w.toNat ≤ n := by
  obtain ⟨h0, h1⟩ := IntOp.andi_eq_one.1 h
  rw [IntOp.cmpi_sge, show (0#32 : BitVec 32).toInt = 0 from by decide, BitVec.toInt_pos_iff] at h0
  rw [IntOp.cmpi_sle, hc, BitVec.toInt_eq_toNat_of_lt h0] at h1
  exact_mod_cast h1

/-- An extended real x with |x| < +∞ (max x (−x) below the value of the pattern 0x7F800000, which is ⊤) is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

section Split
variable {F : FTy → Type} [FloatOps F] [Cert.Pre_input_domain.Facts]
variable (a0 : IVec S4096 32) (a1 : IVec S4096x8 32) (a2 : FVec F S100000x128 .f32) (a3 : FVec F S32x128 .f32)
  (a4 : FVec F S512x256 .f32) (a5 : FVec F S512 .f32) (a6 : FVec F S256x512 .f32) (a7 : FVec F S256 .f32)
  (a8 : FVec F S128x256 .f32) (a9 : FVec F S128 .f32)

/-- The ten tests, entry by entry, at any float instance. -/
theorem split (h : Cert.Pre_input_domain.fn (F := F) a0 a1 a2 a3 a4 a5 a6 a7 a8 a9 = fun _ => 1#1) :
    (∀ j, IntOp.andi (IntOp.cmpi .sge (a0 j) 0#32) (IntOp.cmpi .sle (a0 j) 99999#32) = 1#1)
    ∧ (∀ j, IntOp.andi (IntOp.cmpi .sge (a1 j) 0#32) (IntOp.cmpi .sle (a1 j) 31#32) = 1#1)
    ∧ (∀ j, FloatOps.cmpf .olt (FloatOps.hostAbsf (a2 j)) (FloatOps.ofBits (F := F) .f32 0x7F800000#32) = 1#1)
    ∧ (∀ j, FloatOps.cmpf .olt (FloatOps.hostAbsf (a3 j)) (FloatOps.ofBits (F := F) .f32 0x7F800000#32) = 1#1)
    ∧ (∀ j, FloatOps.cmpf .olt (FloatOps.hostAbsf (a4 j)) (FloatOps.ofBits (F := F) .f32 0x7F800000#32) = 1#1)
    ∧ (∀ j, FloatOps.cmpf .olt (FloatOps.hostAbsf (a5 j)) (FloatOps.ofBits (F := F) .f32 0x7F800000#32) = 1#1)
    ∧ (∀ j, FloatOps.cmpf .olt (FloatOps.hostAbsf (a6 j)) (FloatOps.ofBits (F := F) .f32 0x7F800000#32) = 1#1)
    ∧ (∀ j, FloatOps.cmpf .olt (FloatOps.hostAbsf (a7 j)) (FloatOps.ofBits (F := F) .f32 0x7F800000#32) = 1#1)
    ∧ (∀ j, FloatOps.cmpf .olt (FloatOps.hostAbsf (a8 j)) (FloatOps.ofBits (F := F) .f32 0x7F800000#32) = 1#1)
    ∧ (∀ j, FloatOps.cmpf .olt (FloatOps.hostAbsf (a9 j)) (FloatOps.ofBits (F := F) .f32 0x7F800000#32) = 1#1) := by
  have e := congrFun h ValueIdx.ix0
  unfold Cert.Pre_input_domain.fn Cert.Pre_input_domain.fn_part1 Cert.Pre_input_domain.fn_part2
    Cert.Pre_input_domain.fn_part3 at e
  dsimp only at e
  simp only [andi_apply, IntOp.andi_eq_one] at e
  obtain ⟨⟨⟨⟨⟨⟨⟨⟨⟨h2, h3⟩, h4⟩, h5⟩, h6⟩, h7⟩, h8⟩, h9⟩, h0⟩, h1⟩ := e
  exact ⟨fun j => Host.reduce_andi_all _ _ _ _ _ h0 j, fun j => Host.reduce_andi_all _ _ _ _ _ h1 j,
    fun j => Host.reduce_andi_all _ _ _ _ _ h2 j, fun j => Host.reduce_andi_all _ _ _ _ _ h3 j,
    fun j => Host.reduce_andi_all _ _ _ _ _ h4 j, fun j => Host.reduce_andi_all _ _ _ _ _ h5 j,
    fun j => Host.reduce_andi_all _ _ _ _ _ h6 j, fun j => Host.reduce_andi_all _ _ _ _ _ h7 j,
    fun j => Host.reduce_andi_all _ _ _ _ _ h8 j, fun j => Host.reduce_andi_all _ _ _ _ _ h9 j⟩

/-- Every entry of the first integer argument, read unsigned, is at most 99999. -/
theorem ids_le (h : Cert.Pre_input_domain.fn (F := F) a0 a1 a2 a3 a4 a5 a6 a7 a8 a9 = fun _ => 1#1) :
    ∀ j, (a0 j).toNat ≤ 99999 :=
  fun j => toNat_le_of_signed (a0 j) 99999#32 99999 (by decide) ((split a0 a1 a2 a3 a4 a5 a6 a7 a8 a9 h).1 j)

/-- Every entry of the second integer argument, read unsigned, is at most 31. -/
theorem genres_le (h : Cert.Pre_input_domain.fn (F := F) a0 a1 a2 a3 a4 a5 a6 a7 a8 a9 = fun _ => 1#1) :
    ∀ j, (a1 j).toNat ≤ 31 :=
  fun j => toNat_le_of_signed (a1 j) 31#32 31 (by decide) ((split a0 a1 a2 a3 a4 a5 a6 a7 a8 a9 h).2.1 j)

end Split

section Reals
variable [Cert.Pre_input_domain.Facts]
variable (a0 : IVec S4096 32) (a1 : IVec S4096x8 32) (a2 : FVec Ideal S100000x128 .f32) (a3 : FVec Ideal S32x128 .f32)
  (a4 : FVec Ideal S512x256 .f32) (a5 : FVec Ideal S512 .f32) (a6 : FVec Ideal S256x512 .f32) (a7 : FVec Ideal S256 .f32)
  (a8 : FVec Ideal S128x256 .f32) (a9 : FVec Ideal S128 .f32)

/-! Where a float is an extended real, every float entry is a real number. -/

theorem real2 (h : Cert.Pre_input_domain.fn (F := Ideal) a0 a1 a2 a3 a4 a5 a6 a7 a8 a9 = fun _ => 1#1) :
    ∀ j, ∃ r : ℝ, a2 j = (r : EReal) :=
  fun j => real_of_abs_lt_inf (a2 j) ((split a0 a1 a2 a3 a4 a5 a6 a7 a8 a9 h).2.2.1 j)

theorem real3 (h : Cert.Pre_input_domain.fn (F := Ideal) a0 a1 a2 a3 a4 a5 a6 a7 a8 a9 = fun _ => 1#1) :
    ∀ j, ∃ r : ℝ, a3 j = (r : EReal) :=
  fun j => real_of_abs_lt_inf (a3 j) ((split a0 a1 a2 a3 a4 a5 a6 a7 a8 a9 h).2.2.2.1 j)

theorem real4 (h : Cert.Pre_input_domain.fn (F := Ideal) a0 a1 a2 a3 a4 a5 a6 a7 a8 a9 = fun _ => 1#1) :
    ∀ j, ∃ r : ℝ, a4 j = (r : EReal) :=
  fun j => real_of_abs_lt_inf (a4 j) ((split a0 a1 a2 a3 a4 a5 a6 a7 a8 a9 h).2.2.2.2.1 j)

theorem real5 (h : Cert.Pre_input_domain.fn (F := Ideal) a0 a1 a2 a3 a4 a5 a6 a7 a8 a9 = fun _ => 1#1) :
    ∀ j, ∃ r : ℝ, a5 j = (r : EReal) :=
  fun j => real_of_abs_lt_inf (a5 j) ((split a0 a1 a2 a3 a4 a5 a6 a7 a8 a9 h).2.2.2.2.2.1 j)

theorem real6 (h : Cert.Pre_input_domain.fn (F := Ideal) a0 a1 a2 a3 a4 a5 a6 a7 a8 a9 = fun _ => 1#1) :
    ∀ j, ∃ r : ℝ, a6 j = (r : EReal) :=
  fun j => real_of_abs_lt_inf (a6 j) ((split a0 a1 a2 a3 a4 a5 a6 a7 a8 a9 h).2.2.2.2.2.2.1 j)

theorem real7 (h : Cert.Pre_input_domain.fn (F := Ideal) a0 a1 a2 a3 a4 a5 a6 a7 a8 a9 = fun _ => 1#1) :
    ∀ j, ∃ r : ℝ, a7 j = (r : EReal) :=
  fun j => real_of_abs_lt_inf (a7 j) ((split a0 a1 a2 a3 a4 a5 a6 a7 a8 a9 h).2.2.2.2.2.2.2.1 j)

theorem real8 (h : Cert.Pre_input_domain.fn (F := Ideal) a0 a1 a2 a3 a4 a5 a6 a7 a8 a9 = fun _ => 1#1) :
    ∀ j, ∃ r : ℝ, a8 j = (r : EReal) :=
  fun j => real_of_abs_lt_inf (a8 j) ((split a0 a1 a2 a3 a4 a5 a6 a7 a8 a9 h).2.2.2.2.2.2.2.2.1 j)

theorem real9 (h : Cert.Pre_input_domain.fn (F := Ideal) a0 a1 a2 a3 a4 a5 a6 a7 a8 a9 = fun _ => 1#1) :
    ∀ j, ∃ r : ℝ, a9 j = (r : EReal) :=
  fun j => real_of_abs_lt_inf (a9 j) ((split a0 a1 a2 a3 a4 a5 a6 a7 a8 a9 h).2.2.2.2.2.2.2.2.2 j)

end Reals

end Cert.PreDecode

end
-- ==== Proof.KSetup.lean ====
/-
  The program as the launch theorem of a SparseCore program sees it, and the algebra of ghost state its proof uses:
  the handshakes between the TensorCore, the sequencers and the tiles (a rounds library over numbered duties), the
  staging cells of the two TensorCore pipelines (a rounds library over unnamed duties), and the counters of the
  transfers a tile starts and waits for by itself. Generic in the float instance.
-/
import proofs.«216483_g44830868636102_cont_8to1c4_483_48_alg».proof.KernelIdeal
import proofs.«216483_g44830868636102_cont_8to1c4_483_48_alg».proof.Proof.Gen.KernelIdeal
import proofs.«216483_g44830868636102_cont_8to1c4_483_48_alg».proof.Proof.Gen.KernelIdeal.Skeleton
import proofs.«216483_g44830868636102_cont_8to1c4_483_48_alg».proof.Proof.Gen.KernelIdeal.Launch
import proofs.«216483_g44830868636102_cont_8to1c4_483_48_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.KS

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra of ghost state -/

abbrev UH : Type := URounds (GSem nD τ sig) ℕ
abbrev UP : Type := URounds (GSem nD τ sig) Unit
abbrev UU : Type := UH × (UP × Counters)

/-- The handshakes' rounds library is the left factor; -/
abbrev EH : Emb UH (MT nD τ sig (HIx 1) (Elt F) ℕ UU ℕ) := embL
/-- the pipelines' staging cells live in the left factor of the right factor; the counters are found by instance. -/
abbrev EP : Emb UP (MT nD τ sig (HIx 1) (Elt F) ℕ UU ℕ) := (Emb.inl : Emb UP (UP × Counters)).trans embR

/-! ## The arrays of the gather call, as the TensorCore names them -/

abbrev idsLoc (d : Dev nD) : Loc nD τ sig := (SparseCore.T d).loc main_arg0
abbrev tabLoc (d : Dev nD) : Loc nD τ sig := (SparseCore.T d).loc main_arg2
abbrev outLoc (d : Dev nD) : Loc nD τ sig := (SparseCore.T d).loc main_v0

end Cert.KernelIdeal.KS

end
-- ==== Proof.KPhi.lean ====
/-
  The invariant a pipeline's body keeps between grid points when it touches nothing but its windows' staging buffers:
  the core's scoped buffers that are no staging buffer of the pipeline, each at some contents, and the generator
  register at some state. Stated at this program's machine algebra, for any pipeline's windows.
-/
import proofs.«216483_g44830868636102_cont_8to1c4_483_48_alg».proof.Proof.KSetup
import Idealize.ShloMosaic.Lib.Pipeline.Frame

noncomputable section

namespace Cert.KernelIdeal.KS

open Cert.KernelIdeal
open Idealize.ShloMosaic Idealize.ShloMosaic.TcCoe
open Idealize.ShloMosaic.SparseCore.Cfg (HIx)
open Idealize.SL Idealize.SL.BI
open scoped Idealize.SL.BI
open Idealize.SL.BI.BIBase Idealize.SL.Sem

variable {F : FTy → Type}

/-- The scoped rest of the core and its generator register, both at anything. -/
def ΦAH {gr W : Nat} (win : Fin W → Pipeline.WinSpec sig gr) (c : Dev nD) : sProp (MT nD τ sig (HIx 1) (Elt F) ℕ UU ℕ) :=
  iprop(Pipeline.scopedRest (Ix := HIx 1) (Name := ℕ) (U := UU) (Lvl := ℕ) (Val := Elt F) win c ∗ ∃ r, prngReg c r)

end Cert.KernelIdeal.KS

end
-- ==== Proof.KRegion1.lean ====
/-
  THE FIRST TENSORCORE CALL'S REGION, its class-A half, at a parameter V: the TensorCore's buffer contents when the
  region is entered. The call has one grid point and three windows: the transposed index table [8, 4096] (window 0,
  input), the embedding table in bf16 [32, 128] (window 1, input) and the result [4096, 128] in bf16 (window 2,
  output). Each window's block at a point is read off its array as the region finds it; the body loads the two
  input buffers whole, loads the output buffer (a value it does not use) and stores one value over the whole output
  buffer, so the output's buffer after the body is that one stored piece, a function of the two input blocks. The
  proof data says so, with the class's invariant (the scoped rest and the generator register, untouched), full
  shares and nothing owed, and the body obligation follows at every point. Generic in the float instance.
-/
import proofs.«216483_g44830868636102_cont_8to1c4_483_48_alg».proof.Proof.KSetup
import proofs.«216483_g44830868636102_cont_8to1c4_483_48_alg».proof.Proof.KPhi
import Idealize.ShloMosaic.Lib.Pipeline.FrameBody
import Idealize.ShloMosaic.Lib.Pipeline.FrameSuffix
import Idealize.ShloMosaic.Lib.Tactic

-- membership in a rectangle of large extents: the structural look recurses once per coordinate of the long axes
set_option maxRecDepth 16384

noncomputable section

namespace Cert.KernelIdeal.KS

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region1
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is V's and whose body leaves the block in place: unfetched, the index has not moved; the window
    is uncut and never idle. -/
theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's, likewise. -/
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S8x4096 := Rect.unit (s := S8x4096) ![0, 0] S8x4096.size inb_S8x4096_S8x4096_0_0
abbrev r1_1 : Rect S32x128 := Rect.unit (s := S32x128) ![0, 0] S32x128.size inb_S32x128_S32x128_0_0
abbrev r1_2 : Rect S4096x128 := Rect.unit (s := S4096x128) ![0, 0] S4096x128.size inb_S4096x128_S4096x128_0_0

/-! ## What the body leaves in the output window's buffer -/

/-- Window 2's staging buffer after the body, from the input windows' blocks: its one store as a piece. -/
def out1_2 (x0 : Vec F S8x4096 .i32) (x1 : Vec F S32x128 .bf16) : Vec F S4096x128 .bf16 :=
  View.canon [⟨r1_2, k1_pay1 (k1_pay2 (View.ld x0 r1_0)) (k1_pay3 (View.ld x1 r1_1))⟩]

/-- The store tiles the buffer (checked by evaluation), so it covers it. -/
theorem cover1_2 (p0 : Vec F S4096x128 .bf16) (y : S4096x128.Idx) :
    ∃ pc ∈ ([⟨r1_2, p0⟩] : List (View.Piece (Elt F) S4096x128 .bf16)), y ∈ pc.1.set :=
  View.cover_of_tiled [⟨r1_2, p0⟩] S4096x128.size (by rfl) y

/-! ## The body's triple -/

set_option maxHeartbeats 1000000 in
/-- The kernel body on whole staging memrefs, the inputs' at read contents and the output's at anything, runs to
    the continuation holding the inputs' as they were and the output's at out1_2 of the inputs': the printed
    functions are their skeletons, which are run statement by statement, through the part call. -/
theorem sound_kernel1 (c : Dev nD) (E : Set ℕ) (i : grid1.Coords) (arg1 : Memref sig .tc .vmem S8x4096 .i32) (harg1 : arg1.IsWhole)
    (arg2 : Memref sig .tc .vmem S32x128 .bf16) (harg2 : arg2.IsWhole) (arg3 : Memref sig .tc .vmem S4096x128 .bf16) (harg3 : arg3.IsWhole)
    (x0 : Vec F S8x4096 .i32) (x1 : Vec F S32x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__genre_body i arg1 harg1 arg2 harg2 arg3 harg3) K := by
  simp only [cc1__genre_body_eq_skeleton]; unfold cc1__genre_body_skel
  simp only [k1_part1_eq_skeleton]; unfold k1_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-! ## The pipeline's proof data -/

/-- The proof data of the first pipeline on core c: the arrays as the region finds them; after the body at point t
    each input's buffer at its block and the output's at out1_2 of the input blocks; the class's invariant (the
    scoped rest and the generator register, untouched: the shared invariant); nothing owed; full shares. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := ΦAH spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt (none : HIx 1) t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt (none : HIx 1) t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's owed duties pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt (none : HIx 1) t.succ = (dat1 V c).owesAt (none : HIx 1) t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none (none : HIx 1) Set.univ := fun t => by
  rw [bigSep_W1, bigSep_W1]
  exact sound_body1 V c t

end Region1

end Cert.KernelIdeal.KS

end
-- ==== Proof.KRegion2.lean ====
/-
  The second TensorCore call (the three dense layers and the normalisation) as a pipeline over two grid points of 2048
  batch rows each: what each window's staging buffer holds when the body runs (its block of the array the region found),
  what the body leaves in the output's buffer (the body's arithmetic of the eight input blocks), the body's triple, and
  the pipeline's proof data with its body obligation. Stated at the buffer contents `V` the region is entered with;
  generic in the float instance.
-/
import proofs.«216483_g44830868636102_cont_8to1c4_483_48_alg».proof.Proof.KSetup
import proofs.«216483_g44830868636102_cont_8to1c4_483_48_alg».proof.Proof.KPhi
import Idealize.ShloMosaic.Lib.Pipeline.FrameBody
import Idealize.ShloMosaic.Lib.Pipeline.FrameSuffix
import Idealize.ShloMosaic.Lib.Tactic

-- membership in a rectangle of these extents recurses once per coordinate of the long axes
set_option maxRecDepth 16384

noncomputable section

namespace Cert.KernelIdeal.KS

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the block
    index has not moved). -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the block
    index has not moved). -/
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the block
    index has not moved). -/
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the block
    index has not moved). -/
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the block
    index has not moved). -/
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, the block
    index has not moved). -/
theorem before2_5_of {c : Dev nD} (dat : Dat τ (Elt F) (HIx 1) ℕ UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (unfetched, the block
    index has not moved). -/
theorem before2_6_of {c : Dev nD} (dat : Dat τ (Elt F) (HIx 1) ℕ UU ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (unfetched, the block
    index has not moved). -/
theorem before2_7_of {c : Dev nD} (dat : Dat τ (Elt F) (HIx 1) ℕ UU ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole staging buffer -/

abbrev r2_0 : Rect S2048x128 := Rect.unit (s := S2048x128) ![0, 0] S2048x128.size inb_S2048x128_S2048x128_0_0
abbrev r2_1 : Rect S2048x128 := Rect.unit (s := S2048x128) ![0, 0] S2048x128.size inb_S2048x128_S2048x128_0_0
abbrev r2_2 : Rect S512x256 := Rect.unit (s := S512x256) ![0, 0] S512x256.size inb_S512x256_S512x256_0_0
abbrev r2_3 : Rect S1x512 := Rect.unit (s := S1x512) ![0, 0] S1x512.size inb_S1x512_S1x512_0_0
abbrev r2_4 : Rect S256x512 := Rect.unit (s := S256x512) ![0, 0] S256x512.size inb_S256x512_S256x512_0_0
abbrev r2_5 : Rect S1x256 := Rect.unit (s := S1x256) ![0, 0] S1x256.size inb_S1x256_S1x256_0_0
abbrev r2_6 : Rect S128x256 := Rect.unit (s := S128x256) ![0, 0] S128x256.size inb_S128x256_S128x256_0_0
abbrev r2_7 : Rect S1x128 := Rect.unit (s := S1x128) ![0, 0] S1x128.size inb_S1x128_S1x128_0_0
abbrev r2_8 : Rect S2048x128 := Rect.unit (s := S2048x128) ![0, 0] S2048x128.size inb_S2048x128_S2048x128_0_0

/-! ## What the body leaves in the output window's buffer -/

/-- The output's staging buffer after the body, from the input windows' blocks: its one store, of the body's arithmetic
    of the eight loaded blocks. -/
def out2_8 (x0 : Vec F S2048x128 .f32) (x1 : Vec F S2048x128 .bf16) (x2 : Vec F S512x256 .bf16) (x3 : Vec F S1x512 .f32) (x4 : Vec F S256x512 .bf16) (x5 : Vec F S1x256 .f32) (x6 : Vec F S128x256 .bf16) (x7 : Vec F S1x128 .f32) : Vec F S2048x128 .f32 :=
  View.canon [⟨r2_8, k2_pay1 (k2_pay2 (View.ld x0 r2_0) (View.ld x1 r2_1) (View.ld x2 r2_2) (View.ld x3 r2_3) (View.ld x4 r2_4) (View.ld x5 r2_5) (View.ld x6 r2_6) (View.ld x7 r2_7)) (Scalar.ofBits .f32 0x00000000#32)⟩]

/-- The store is of the whole buffer, so it covers it. -/
theorem cover2_8 (p0 : Vec F S2048x128 .f32) (y : S2048x128.Idx) :
    ∃ pc ∈ ([⟨r2_8, p0⟩] : List (View.Piece (Elt F) S2048x128 .f32)), y ∈ pc.1.set :=
  View.cover_of_tiled [⟨r2_8, p0⟩] S2048x128.size (by rfl) y

/-! ## The body's triple -/

set_option maxHeartbeats 1000000 in
/-- The body on whole staging memrefs, the inputs' at contents `x0 … x7` and the output's at anything, runs to the
    continuation holding the inputs' as they were and the output's at `out2_8` of them. -/
theorem sound_kernel2 (c : Dev nD) (E : Set ℕ) (i : grid2.Coords)
    (arg1 : Memref sig .tc .vmem S2048x128 .f32) (harg1 : arg1.IsWhole)
    (arg2 : Memref sig .tc .vmem S2048x128 .bf16) (harg2 : arg2.IsWhole)
    (arg3 : Memref sig .tc .vmem S512x256 .bf16) (harg3 : arg3.IsWhole)
    (arg4 : Memref sig .tc .vmem S1x512 .f32) (harg4 : arg4.IsWhole)
    (arg5 : Memref sig .tc .vmem S256x512 .bf16) (harg5 : arg5.IsWhole)
    (arg6 : Memref sig .tc .vmem S1x256 .f32) (harg6 : arg6.IsWhole)
    (arg7 : Memref sig .tc .vmem S128x256 .bf16) (harg7 : arg7.IsWhole)
    (arg8 : Memref sig .tc .vmem S1x128 .f32) (harg8 : arg8.IsWhole)
    (arg9 : Memref sig .tc .vmem S2048x128 .f32) (harg9 : arg9.IsWhole)
    (x0 : Vec F S2048x128 .f32) (x1 : Vec F S2048x128 .bf16) (x2 : Vec F S512x256 .bf16) (x3 : Vec F S1x512 .f32) (x4 : Vec F S256x512 .bf16) (x5 : Vec F S1x256 .f32) (x6 : Vec F S128x256 .bf16) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E
          (cc2__mlp_body i arg1 harg1 arg2 harg2 arg3 harg3 arg4 harg4 arg5 harg5 arg6 harg6 arg7 harg7 arg8 harg8 arg9 harg9) K := by
  simp only [cc2__mlp_body_eq_skeleton]; unfold cc2__mlp_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2_8 _)

/-! ## The pipeline's proof data -/

/-- The proof data of the pipeline on core `c`: the arrays as the region finds them; after the body at point `t` each
    input's buffer at its block and the output's at `out2_8` of the input blocks; the invariant the scoped rest and the
    generator register, untouched; nothing owed; full shares. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := ΦAH spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt (none : HIx 1) t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt (none : HIx 1) t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so `sound_kernel2` applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt (none : HIx 1) t.succ = (dat2 V c).owesAt (none : HIx 1) t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none (none : HIx 1) Set.univ := fun t => by
  rw [bigSep_W2, bigSep_W2]
  exact sound_body2 V c t

end Region

end Cert.KernelIdeal.KS

end
-- ==== Proof.Spec.lean ====
/-
  The function both programs compute, index by index on the extended reals.

  A batch row b has a movie id and eight genre ids. Its input vector is the movie table's row at the id, followed by
  the mean of the eight genre-table rows at the genre ids, where the genre table's row 0 counts as zero (a padding
  row). Three dense layers follow, each `max (x · Wᵀ + c) 0`, and the last layer's output row is divided by its
  Euclidean norm, the norm bounded below by a small constant.

  Nothing here mentions a program: arrays are functions on indices of literal shapes, coefficient matrices of the dense
  layers are functions of two coordinates.
-/
import Idealize.ShloMosaic.PureOps.Ideal
import Idealize.ShloMosaic.Lib.ValueIdx

noncomputable section

open scoped BigOperators

namespace Cert.Spec

open Idealize.ShloMosaic Idealize.ShloMosaic.ValueIdx

/-- A float matrix, a float vector, an integer matrix and an integer vector as functions on their indices. -/
abbrev Mat (a b : Nat) := (⟨2, ![a, b]⟩ : Shape).Idx → EReal
abbrev Vct (a : Nat) := (⟨1, ![a]⟩ : Shape).Idx → EReal
abbrev IMat (a b : Nat) := (⟨2, ![a, b]⟩ : Shape).Idx → BitVec 32
abbrev IVct (a : Nat) := (⟨1, ![a]⟩ : Shape).Idx → BitVec 32

/-- The movie-table row a word names: the word read unsigned, bounded by the last row. -/
def movieRow (w : BitVec 32) : Fin 100000 := ⟨min w.toNat 99999, by omega⟩
/-- The genre-table row a word names: the word read unsigned, bounded by the last row. -/
def genreRow (w : BitVec 32) : Fin 32 := ⟨min w.toNat 31, by omega⟩

/-- The lower bound of the norm, and the number of genres per row, as the words both programs carry. -/
def eps : EReal := Ideal.ofBits .f32 0x2B8CBCCC#32
def eight : EReal := Ideal.ofBits .f32 0x41000000#32

/-- Entry d of the movie vector of batch row b. -/
def movieVec (ids : IVct 4096) (E : Mat 100000 128) (b : Fin 4096) (d : Fin 128) : EReal :=
  E (ix2 (movieRow (ids (ix1 b))) d)

/-- The genre table with its padding row 0 read as zero. -/
def genreTab (Ge : Mat 32 128) (g : Fin 32) (d : Fin 128) : EReal :=
  if g.val = 0 then 0 else Ge (ix2 g d)

/-- Entry d of the genre vector of batch row b: the mean of the eight genre rows. -/
def genreVec (gen : IMat 4096 8) (Ge : Mat 32 128) (b : Fin 4096) (d : Fin 128) : EReal :=
  Ideal.div (∑ s : Fin 8, genreTab Ge (genreRow (gen (ix2 b s))) d) eight

/-- The input row of the first layer: 128 movie entries, then 128 genre entries. -/
def xrow (mv gv : Fin 128 → EReal) (k : Fin 256) : EReal :=
  if h : k.val < 128 then mv ⟨k.val, h⟩ else gv ⟨k.val - 128, by omega⟩

/-- One dense layer with its rectifier at output n. -/
def dense {K N : Nat} (x : Fin K → EReal) (W : Fin N → Fin K → EReal) (c : Fin N → EReal) (n : Fin N) : EReal :=
  max (∑ k : Fin K, x k * W n k + c n) 0

/-- The three layers applied to one input row. -/
def hidden (x : Fin 256 → EReal) (W1 : Fin 512 → Fin 256 → EReal) (c1 : Fin 512 → EReal)
    (W2 : Fin 256 → Fin 512 → EReal) (c2 : Fin 256 → EReal) (W3 : Fin 128 → Fin 256 → EReal) (c3 : Fin 128 → EReal) :
    Fin 128 → EReal :=
  dense (dense (dense x W1 c1) W2 c2) W3 c3

/-- The normalised output row at entry d. -/
def outRow (x : Fin 256 → EReal) (W1 : Fin 512 → Fin 256 → EReal) (c1 : Fin 512 → EReal)
    (W2 : Fin 256 → Fin 512 → EReal) (c2 : Fin 256 → EReal) (W3 : Fin 128 → Fin 256 → EReal) (c3 : Fin 128 → EReal)
    (d : Fin 128) : EReal :=
  Ideal.div (hidden x W1 c1 W2 c2 W3 c3 d)
    (max (Ideal.sqrt (∑ e : Fin 128, hidden x W1 c1 W2 c2 W3 c3 e * hidden x W1 c1 W2 c2 W3 c3 e)) eps)

/-- The whole result as a function of the ten argument arrays. -/
def out (ids : IVct 4096) (gen : IMat 4096 8) (E : Mat 100000 128) (Ge : Mat 32 128)
    (W1 : Mat 512 256) (b1 : Vct 512) (W2 : Mat 256 512) (b2 : Vct 256) (W3 : Mat 128 256) (b3 : Vct 128) :
    Mat 4096 128 := fun j =>
  outRow (xrow (movieVec ids E (j 0)) (genreVec gen Ge (j 0)))
    (fun n k => W1 (ix2 n k)) (fun n => b1 (ix1 n)) (fun n k => W2 (ix2 n k)) (fun n => b2 (ix1 n))
    (fun n k => W3 (ix2 n k)) (fun n => b3 (ix1 n)) (j 1)

/-- The same at explicit coordinates. -/
theorem out_apply (ids : IVct 4096) (gen : IMat 4096 8) (E : Mat 100000 128) (Ge : Mat 32 128)
    (W1 : Mat 512 256) (b1 : Vct 512) (W2 : Mat 256 512) (b2 : Vct 256) (W3 : Mat 128 256) (b3 : Vct 128)
    (b : Fin 4096) (d : Fin 128) :
    out ids gen E Ge W1 b1 W2 b2 W3 b3 (ix2 b d)
      = outRow (xrow (movieVec ids E b) (genreVec gen Ge b))
          (fun n k => W1 (ix2 n k)) (fun n => b1 (ix1 n)) (fun n k => W2 (ix2 n k)) (fun n => b2 (ix1 n))
          (fun n k => W3 (ix2 n k)) (fun n => b3 (ix1 n)) d := rfl

end Cert.Spec

end
-- ==== Proof.KGatherPay.lean ====
/-
  The gather call of the program: what its launch hands each SparseCore and each tile, and what comes back.

  The call reads 4096 ids and a table of 100000 rows of 128 floats and writes 4096 rows: row b of the result is the
  table's row at id b. Thirty-two tiles (two SparseCores of sixteen) run the same body; tile (c, i) has the number
  w = 2 i + c and works on the rows [128 w, 128 w + 128). The ids and the result are cut into 32 blocks of 128 rows
  along axis 0, block w going to tile w; the table, which every tile reads whole and nobody writes, goes out as read
  shares: each SparseCore one half, each of its tiles one token of that half, the remainder kept aside while the tiles
  run. A tile's block of the result comes back at the ONE whole-array function `gathered`, so that the blocks join with
  no further argument.
-/
import proofs.«216483_g44830868636102_cont_8to1c4_483_48_alg».proof.Proof.KSetup
import proofs.«216483_g44830868636102_cont_8to1c4_483_48_alg».proof.Proof.Spec
import Idealize.ShloMosaic.Lib.Transfers
import Idealize.ShloMosaic.Lib.ValueIdx

noncomputable section

namespace Cert.KernelIdeal.KS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks pointsTo_toks_split pointsTo_toks_join)

variable {F : FTy → Type}

local notation "𝕄" => MT nD τ sig (HIx 1) (Elt F) ℕ UU ℕ

variable (m : (ℓ : Loc nD τ sig) → Buf (Elt F) ℓ)

/-! ## What the call computes -/

/-- Every id names a row of the table. -/
def IdsOK : Prop := ∀ (d : Dev nD) (j : S4096.Idx), (m (idsLoc d) j).toNat ≤ 99999

/-- What the call leaves in its result: row b is the table's row at id b. -/
def gathered (d : Dev nD) : Buf (Elt F) (outLoc d) := fun j =>
  m (tabLoc d) (ValueIdx.ix2 (Cert.Spec.movieRow (m (idsLoc d) (ValueIdx.ix1 (j 0)))) (j 1))

/-! ## The cut into the tiles' blocks -/

theorem hdivI : 32 ∣ S4096.size 0 := ⟨128, rfl⟩
theorem hdivO : 32 ∣ S4096x128.size 0 := ⟨128, rfl⟩

/-- The ids and the result rows of tile number `w`. -/
abbrev idsPart (w : Fin 32) : Finset S4096.Idx := (Rect.part (s := S4096) (a₀ := 0) hdivI w).set
abbrev outPart (w : Fin 32) : Finset S4096x128.Idx := (Rect.part (s := S4096x128) (a₀ := 0) hdivO w).set

/-- The number of tile `i` of SparseCore `c`. -/
def tileNo (c : Fin 2) (i : Fin 16) : Fin 32 := ⟨2 * i.val + c.val, by omega⟩

/-- A SparseCore's half of the table's share, and a tile's token of it. -/
def coreShare (c : Fin 2) : PosShare TreeShare := if c.val = 0 then fullShare.left else fullShare.right
abbrev tileShare (c : Fin 2) (i : Fin 16) : PosShare TreeShare := shareTok (coreShare c) 16 i

/-! ## The payloads -/

abbrev idsBlk (d : Dev nD) (w : Fin 32) : sProp 𝕄 := idsLoc d ↦[idsPart w]{fullShare} m (idsLoc d)
abbrev outBlk (d : Dev nD) (w : Fin 32) (f : Buf (Elt F) (outLoc d)) : sProp 𝕄 := outLoc d ↦[outPart w]{fullShare} f
abbrev tabAt (d : Dev nD) (q : PosShare TreeShare) : sProp 𝕄 := tabLoc d ↦{q} m (tabLoc d)

/-- What a tile is handed (its ids, a token of the table, its rows of the result at `f`), -/
def forTile (d : Dev nD) (c : Fin 2) (i : Fin 16) (f : Buf (Elt F) (outLoc d)) : sProp 𝕄 :=
  iprop(idsBlk m d (tileNo c i) ∗ tabAt m d (tileShare c i) ∗ outBlk d (tileNo c i) f)
/-- and a SparseCore (its tiles' ids, its half of the table, its tiles' rows of the result at `f`). -/
def forCore (d : Dev nD) (c : Fin 2) (f : Buf (Elt F) (outLoc d)) : sProp 𝕄 :=
  iprop((bigSep Finset.univ fun i : Fin 16 => idsBlk m d (tileNo c i)) ∗ tabAt m d (coreShare c)
    ∗ bigSep Finset.univ fun i : Fin 16 => outBlk d (tileNo c i) f)

/-- The call's payloads: the result's rows go out at the launch contents and come back at `gathered`. -/
def P : (K (F := F)).Pay (nD := nD) (Val := Elt F) (Name := ℕ) (U := UU) where
  st := fun q d c => match q with | 0 => forCore m d (Fin.cast nCore_zero c) (m (outLoc d))
  dn := fun q d c => match q with | 0 => forCore m d (Fin.cast nCore_zero c) (gathered m d)
  go := fun q d c i => match q with | 0 => forTile m d (Fin.cast nCore_zero c) (Fin.cast nSub_zero i) (m (outLoc d))
  td := fun q d c i => match q with | 0 => forTile m d (Fin.cast nCore_zero c) (Fin.cast nSub_zero i) (gathered m d)
  x := fun _ _ => iprop(emp)

instance forTile_storable (d : Dev nD) (c : Fin 2) (i : Fin 16) (f : Buf (Elt F) (outLoc d)) :
    BI.Storable (upEmb : UEmb _ 𝕄) (forTile m d c i f) := by unfold forTile; infer_instance
instance forCore_storable (d : Dev nD) (c : Fin 2) (f : Buf (Elt F) (outLoc d)) :
    BI.Storable (upEmb : UEmb _ 𝕄) (forCore m d c f) := by unfold forCore; infer_instance

instance P_storable : (P (F := F) m).IsStorable where
  st q d c := match q with | 0 => (inferInstance : BI.Storable (upEmb : UEmb _ 𝕄) (forCore m d (Fin.cast nCore_zero c) (m (outLoc d))))
  dn q d c := match q with | 0 => (inferInstance : BI.Storable (upEmb : UEmb _ 𝕄) (forCore m d (Fin.cast nCore_zero c) (gathered m d)))
  go q d c i := match q with | 0 => (inferInstance : BI.Storable (upEmb : UEmb _ 𝕄) (forTile m d (Fin.cast nCore_zero c) (Fin.cast nSub_zero i) (m (outLoc d))))
  td q d c i := match q with | 0 => (inferInstance : BI.Storable (upEmb : UEmb _ 𝕄) (forTile m d (Fin.cast nCore_zero c) (Fin.cast nSub_zero i) (gathered m d)))

end Cert.KernelIdeal.KS

end
-- ==== Proof.KSegs.lean ====
/-
  @main after the gather call, as a list of segments: two host operations (the genre ids transposed, the genre table's
  format changed), the first TensorCore call, six host operations (three weight matrices' format changed, three bias
  vectors reshaped to rows), the second TensorCore call. The buffer contents at each segment boundary are a fold from
  the memory the gather call leaves: a host stretch applies its operations, a call leaves its arrays at what the
  pipeline's write-backs make of them and every other buffer as it was. Every pipeline's proof data is taken at its
  region's entry contents, and each call is a region over the thread state "every unscoped buffer at the boundary's
  contents, the generator register at some state, nothing owed". Generic in the float instance.
-/
import proofs.«216483_g44830868636102_cont_8to1c4_483_48_alg».proof.Proof.KSetup
import proofs.«216483_g44830868636102_cont_8to1c4_483_48_alg».proof.Proof.KPhi
import proofs.«216483_g44830868636102_cont_8to1c4_483_48_alg».proof.Proof.KRegion1
import proofs.«216483_g44830868636102_cont_8to1c4_483_48_alg».proof.Proof.KRegion2
import proofs.«216483_g44830868636102_cont_8to1c4_483_48_alg».proof.Proof.KGatherPay
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.KS

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The host operations between the calls -/

/-- The two operations before the first TensorCore call. -/
abbrev hostOpsA : List (HloOp τ sig (Elt F)) :=
  [ StableHlo.unary main_arg1 main_v1 ((transpose S8x4096 [1, 0] · transposes_S4096x8_S8x4096_1_0) : (⟨S4096x8, .i32⟩ : BufTy).Contents (Elt F) → (⟨S8x4096, .i32⟩ : BufTy).Contents (Elt F)),
    StableHlo.unary main_arg3 main_v2 ((truncf .bf16 · bitsLt_bf16_f32) : (⟨S32x128, .f32⟩ : BufTy).Contents (Elt F) → (⟨S32x128, .bf16⟩ : BufTy).Contents (Elt F)) ]
theorem hostOpsA_sub : (hostOpsA : List (HloOp τ sig (Elt F))).Forall fun op => op.bufs ⊆ StableHlo.tcRefs τ sig :=
  ⟨StableHlo.unary_bufs_sub .., StableHlo.unary_bufs_sub ..⟩
theorem hostOpsA_fresh : (hostOpsA : List (HloOp τ sig (Elt F))).Forall fun op => op.fresh = ∅ := by
  simp only [List.Forall]; repeat' constructor

/-- The six operations between the two TensorCore calls. -/
abbrev hostOpsB : List (HloOp τ sig (Elt F)) :=
  [ StableHlo.unary main_arg4 main_v4 ((truncf .bf16 · bitsLt_bf16_f32) : (⟨S512x256, .f32⟩ : BufTy).Contents (Elt F) → (⟨S512x256, .bf16⟩ : BufTy).Contents (Elt F)),
    StableHlo.reshape main_arg5 main_v5 rfl shapeCasts_S512_S1x512,
    StableHlo.unary main_arg6 main_v6 ((truncf .bf16 · bitsLt_bf16_f32) : (⟨S256x512, .f32⟩ : BufTy).Contents (Elt F) → (⟨S256x512, .bf16⟩ : BufTy).Contents (Elt F)),
    StableHlo.reshape main_arg7 main_v7 rfl shapeCasts_S256_S1x256,
    StableHlo.unary main_arg8 main_v8 ((truncf .bf16 · bitsLt_bf16_f32) : (⟨S128x256, .f32⟩ : BufTy).Contents (Elt F) → (⟨S128x256, .bf16⟩ : BufTy).Contents (Elt F)),
    StableHlo.reshape main_arg9 main_v9 rfl shapeCasts_S128_S1x128 ]
theorem hostOpsB_sub : (hostOpsB : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub ..,
    StableHlo.unary_bufs_sub .., StableHlo.reshape_bufs_sub ..⟩
theorem hostOpsB_fresh : (hostOpsB : List (HloOp τ sig (Elt F))).Forall fun op => op.fresh = ∅ := by
  simp only [List.Forall]; repeat' constructor

variable (m : (ℓ : Loc nD τ sig) → Buf (Elt F) ℓ)

/-! ## The buffer contents at each segment boundary -/

/-- Core `c`'s buffers at launch. -/
abbrev W0 : Dev nD → Valuation τ sig (Elt F) := fun c b => m ((c : Dev nD), b)
/-- After the gather call: its result array at the gathered rows, everything else as launched. -/
def W1 (c : Dev nD) : Valuation τ sig (Elt F) := Function.update (W0 m c) (Proc.devRef .tc (main_v0 : Ref sig .tc)) (gathered m c)
/-- After the two host operations (the first TensorCore call's entry). -/
abbrev W2 : Dev nD → Valuation τ sig (Elt F) := fun c => StableHlo.after hostOpsA (W1 m c)
abbrev V2 : (c : Dev nD) → (b : Ref sig .tc) → Buf (Elt F) ((c : Thread nD τ).loc b) := fun c b => W2 m c b
/-- At the first call's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the six host operations (the second TensorCore call's entry). -/
abbrev W4 : Dev nD → Valuation τ sig (Elt F) := fun c => StableHlo.after hostOpsB (W3 m c)
abbrev V4 : (c : Dev nD) → (b : Ref sig .tc) → Buf (Elt F) ((c : Thread nD τ).loc b) := fun c b => W4 m c b
/-- At the second call's exit. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at its region's entry contents: a literal match. -/
def pdats : (p : Fin 2) → (c : Dev nD) → Dat τ (Elt F) (HIx 1) ℕ UU ℕ (Pipeline.pin (pcfgs (F := F)) adm p) c
  | ⟨0, _⟩ => fun c => dat1 (V2 m) c
  | ⟨1, _⟩ => fun c => dat2 (V4 m) c
/-- The levels are the launch's: the handshakes'. -/
abbrev LL : GSem nD τ sig → Finset (HIx 1) := (K (F := F)).L
abbrev lvv : GSem nD τ sig → HIx 1 → ℕ := (K (F := F)).lev
/-- What rides beside the buffers through every segment: the generator register at some state and the core's `owes`, at
    nothing. -/
abbrev RR (c : Dev nD) : sProp 𝕄 := iprop((∃ r, prngReg c r) ∗ ∃ W, owes (c : Thread nD τ) (0 : CellTallies nD τ sig (HIx 1)) W)
/-- A host stretch as a segment over the unscoped references from the contents `W`, `RR` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (LL (F := F)) (lvv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

/-! ## The two calls as regions -/

set_option backward.isDefEq.respectTransparency.types false in
/-- The region of pipeline 0 over the thread state: entered from every unscoped buffer at `V2`, left at `V3`. Its
    arrays split out of the unscoped buffers and put back at the exit contents; the generator register into the body's
    invariant and out; nothing owed; no semaphore of the kernel's own. -/
def reg1 : Pipeline.RegionSeg (pcfgs (F := F)) adm (pdats m) (none : HIx 1) defs₀ 𝒱₀ (LL (F := F)) (lvv (F := F)) 0 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ (LL (F := F)) (lvv (F := F)) 0 fun _ _ => rfl
  pre c := iprop(StableHlo.held (c : Thread nD τ) (Pipeline.ucRefs τ sig) (W2 m c) ∗ RR c)
  post c := iprop(StableHlo.held (c : Thread nD τ) (Pipeline.ucRefs τ sig) (W3 m c) ∗ RR c)
  X c := iprop(∃ r, prngReg c r)
  Y c := iprop(∃ r, prngReg c r)
  Z c := Pipeline.unscopedRest (Ix := HIx 1) (Name := ℕ) (U := UU) (Lvl := ℕ) spec1 c (V2 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = ΦAH spec1 c from rfl]; unfold ΦAH
    iintro ⟨Hp, -, Hr⟩
    isplitl [Hr]; · iexact Hr
    iexact Hp
  hout c := by
    rw [Pipeline.ownSems0_none, show (pdats m 0 c).Φ (Fin.last _) = ΦAH spec1 c from rfl]; unfold ΦAH
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V2 m c) (V3 m c) ((pdats m 0 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of pipeline 1 over the thread state: entered from every unscoped buffer at `V4`, left at `V5`. Its
    arrays split out of the unscoped buffers and put back at the exit contents; the generator register into the body's
    invariant and out; nothing owed; no semaphore of the kernel's own. -/
def reg2 : Pipeline.RegionSeg (pcfgs (F := F)) adm (pdats m) (none : HIx 1) defs₀ 𝒱₀ (LL (F := F)) (lvv (F := F)) 1 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ (LL (F := F)) (lvv (F := F)) 1 fun _ _ => rfl
  pre c := iprop(StableHlo.held (c : Thread nD τ) (Pipeline.ucRefs τ sig) (W4 m c) ∗ RR c)
  post c := iprop(StableHlo.held (c : Thread nD τ) (Pipeline.ucRefs τ sig) (W5 m c) ∗ RR c)
  X c := iprop(∃ r, prngReg c r)
  Y c := iprop(∃ r, prngReg c r)
  Z c := Pipeline.unscopedRest (Ix := HIx 1) (Name := ℕ) (U := UU) (Lvl := ℕ) spec2 c (V4 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = ΦAH spec2 c from rfl]; unfold ΦAH
    iintro ⟨Hp, -, Hr⟩
    isplitl [Hr]; · iexact Hr
    iexact Hp
  hout c := by
    rw [Pipeline.ownSems0_none, show (pdats m 1 c).Φ (Fin.last _) = ΦAH spec2 c from rfl]; unfold ΦAH
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V4 m c) (V5 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main after the gather call: its four segments in order. -/
abbrev segs : List (Pipeline.Seg (pcfgs (F := F)) adm (pdats m) (none : HIx 1) defs₀ 𝒱₀ (LL (F := F)) (lvv (F := F))) :=
  [ .host (hseg hostOpsA hostOpsA_sub hostOpsA_fresh (W1 m)),
    .region (reg1 m),
    .host (hseg hostOpsB hostOpsB_sub hostOpsB_fresh (W3 m)),
    .region (reg2 m) ]

end Cert.KernelIdeal.KS

end
-- ==== Proof.KGatherSplit.lean ====
/-
  The gather call's split: how what the call hands a SparseCore goes out to its sixteen tiles and comes back, and how the
  two SparseCores' shares are the three arrays held whole. The ids and the result are cut into the 32 tiles' blocks of
  128 rows (the tiles are numbered 2 i + c, a bijection of pairs (c, i) with the numbers below 32); the table's share
  is halved between the SparseCores and a half dealt as one token per tile, the remainder set aside until the tiles
  are back.
-/
import proofs.«216483_g44830868636102_cont_8to1c4_483_48_alg».proof.Proof.KGatherPay

noncomputable section

namespace Cert.KernelIdeal.KS

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks pointsTo_toks_split pointsTo_toks_join)

variable {F : FTy → Type}

local notation "𝕄" => MT nD τ sig (HIx 1) (Elt F) ℕ UU ℕ

variable (m : (ℓ : Loc nD τ sig) → Buf (Elt F) ℓ)

/-! ## The tiles' numbers -/

/-- Tile `(c, i)` has the number `2 i + c`: every number below 32 once. -/
def tileEquiv : Fin 2 × Fin 16 ≃ Fin 32 where
  toFun p := tileNo p.1 p.2
  invFun w := (⟨w.val % 2, Nat.mod_lt _ (by decide)⟩, ⟨w.val / 2, by omega⟩)
  left_inv p := by
    rcases p with ⟨c, i⟩
    exact Prod.ext (Fin.ext (by show (2 * i.val + c.val) % 2 = c.val; omega)) (Fin.ext (by show (2 * i.val + c.val) / 2 = i.val; omega))
  right_inv w := Fin.ext (by show 2 * (w.val / 2) + w.val % 2 = w.val; omega)

omit m in
/-- An array cut into 32 pairwise disjoint blocks that cover it is its blocks, tile by tile. -/
theorem blocks_join {ℓ : Loc nD τ sig} (Kp : Fin 32 → Finset (Idx ℓ)) (hdis : ∀ w w', w ≠ w' → Disjoint (Kp w) (Kp w'))
    (hcov : (Finset.univ : Finset (Fin 32)).biUnion Kp = Finset.univ) (f : Buf (Elt F) ℓ) :
    (bigSep Finset.univ fun c : Fin 2 => bigSep Finset.univ fun i : Fin 16 => (ℓ ↦[Kp (tileNo c i)]{fullShare} f : sProp 𝕄))
      = ℓ ↦{fullShare} f := by
  rw [← BI.bigSep_univ_prod (fun p : Fin 2 × Fin 16 => (ℓ ↦[Kp (tileNo p.1 p.2)]{fullShare} f : sProp 𝕄))]
  rw [show (bigSep Finset.univ fun p : Fin 2 × Fin 16 => (ℓ ↦[Kp (tileNo p.1 p.2)]{fullShare} f : sProp 𝕄))
      = bigSep Finset.univ fun w : Fin 32 => (ℓ ↦[Kp w]{fullShare} f : sProp 𝕄) from
    (BI.bigSep_univ_equiv tileEquiv (fun w : Fin 32 => (ℓ ↦[Kp w]{fullShare} f : sProp 𝕄))).symm]
  rw [← pointsTo_biUnion Finset.univ (ℓ := ℓ) Kp (fun w _ w' _ h => hdis w w' h), hcov]

omit m in
theorem ids_join (d : Dev nD) (f : Buf (Elt F) (idsLoc d)) :
    (bigSep Finset.univ fun c : Fin 2 => bigSep Finset.univ fun i : Fin 16 => (idsLoc d ↦[idsPart (tileNo c i)]{fullShare} f : sProp 𝕄))
      = idsLoc d ↦{fullShare} f :=
  blocks_join (ℓ := idsLoc d) idsPart (fun _ _ h => Rect.part_disjoint hdivI h) (Rect.biUnion_part hdivI) f
omit m in
theorem out_join (d : Dev nD) (f : Buf (Elt F) (outLoc d)) :
    (bigSep Finset.univ fun c : Fin 2 => bigSep Finset.univ fun i : Fin 16 => (outLoc d ↦[outPart (tileNo c i)]{fullShare} f : sProp 𝕄))
      = outLoc d ↦{fullShare} f :=
  blocks_join (ℓ := outLoc d) outPart (fun _ _ h => Rect.part_disjoint hdivO h) (Rect.biUnion_part hdivO) f

omit m in
/-- The two SparseCores' halves of a share are the share. -/
theorem tab_join (d : Dev nD) (f : Buf (Elt F) (tabLoc d)) :
    (bigSep Finset.univ fun c : Fin 2 => (tabLoc d ↦{coreShare c} f : sProp 𝕄)) = tabLoc d ↦{fullShare} f := by
  rw [bigSep_univ_two]
  show iprop((tabLoc d ↦{fullShare.left} f) ∗ tabLoc d ↦{fullShare.right} f) = _
  have hu : (tabLoc d ↦{fullShare} f : sProp 𝕄) ⊣⊢ iprop((tabLoc d ↦{fullShare.left} f) ∗ tabLoc d ↦{fullShare.right} f) :=
    pointsTo_share (PosShare.mem_left_op_right fullShare)
  exact (BI.equiv_iff.mp ⟨hu.1, hu.2⟩).symm

/-- What the two SparseCores hold together: the three arrays whole. -/
theorem core_join (d : Dev nD) (f : Buf (Elt F) (outLoc d)) :
    (bigSep Finset.univ fun c : Fin 2 => forCore m d c f)
      = iprop((idsLoc d ↦{fullShare} m (idsLoc d)) ∗ (tabLoc d ↦{fullShare} m (tabLoc d)) ∗ (outLoc d ↦{fullShare} f)) := by
  unfold forCore
  rw [bigSep_sep', bigSep_sep', ids_join, tab_join, out_join]

theorem st0_eq (d : Dev nD) :
    (bigSep Finset.univ fun c : Fin ((K (F := F)).nCore 0) => (P m).st 0 d c)
      = iprop((idsLoc d ↦{fullShare} m (idsLoc d)) ∗ (tabLoc d ↦{fullShare} m (tabLoc d)) ∗ (outLoc d ↦{fullShare} m (outLoc d))) :=
  core_join m d (m (outLoc d))

theorem dn0_eq (d : Dev nD) :
    (bigSep Finset.univ fun c : Fin ((K (F := F)).nCore 0) => (P m).dn 0 d c)
      = iprop((idsLoc d ↦{fullShare} m (idsLoc d)) ∗ (tabLoc d ↦{fullShare} m (tabLoc d)) ∗ (outLoc d ↦{fullShare} gathered m d)) :=
  core_join m d (gathered m d)

/-- A SparseCore's share goes out to its tiles, the table's remainder set aside, and comes back with the result's rows at
    whatever the tiles left. -/
theorem core_split (d : Dev nD) (c : Fin 2) (f g : Buf (Elt F) (outLoc d)) :
    forCore m d c f ⊢ |={Set.univ}=> iprop((bigSep Finset.univ fun i : Fin 16 => forTile m d c i f)
      ∗ ((bigSep Finset.univ fun i : Fin 16 => forTile m d c i g) -∗ forCore m d c g)) := by
  unfold forCore forTile
  rw [bigSep_sep', bigSep_sep', bigSep_sep', bigSep_sep']
  iintro ⟨Hi, Ht, Ho⟩
  ihave Ht' := (pointsTo_toks_split (coreShare c) 16) $$ Ht
  icases Ht' with ⟨Hrem, Htoks⟩
  imodintro
  isplitl [Hi Htoks Ho]
  · isplitl [Hi]; · iexact Hi
    isplitl [Htoks]; · iexact Htoks
    iexact Ho
  iintro ⟨Hi, Htoks, Ho⟩
  isplitl [Hi]; · iexact Hi
  isplitl [Hrem Htoks]
  · iapply (pointsTo_toks_join (coreShare c) 16)
    isplitl [Hrem]; · iexact Hrem
    iexact Htoks
  iexact Ho

theorem vecSplit : (K (F := F)).VecSplit' (P m) 0 := by
  intro d c
  exact core_split m d (Fin.cast nCore_zero c) (m (outLoc d)) (gathered m d)

end Cert.KernelIdeal.KS

end
-- ==== Proof.KRun.lean ====
/-
  @main on the TensorCore, and the launch element. @main is the gather call followed by the four segments; the call
  hands the SparseCores the ids, the table and the result array and takes them back with the result at the gathered
  rows; the segments run from the thread state that leaves. The launch element funds, beside the handshakes, the
  staging cells of both pipelines. Generic in the float instance.
-/
import proofs.«216483_g44830868636102_cont_8to1c4_483_48_alg».proof.Proof.KSegs
import proofs.«216483_g44830868636102_cont_8to1c4_483_48_alg».proof.Proof.KGatherSplit

set_option maxRecDepth 16384

noncomputable section

namespace Cert.KernelIdeal.KS

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main is the call, then the segments -/

theorem main_eq (d : Dev nD) :
    main (F := F) d = ((K (F := F)).run d 0 >>= fun _ => SparseCore.liftProg (Q := 1) (Pipeline.Seg.run (segs m))) := by
  rfl

/-! ## The launch element -/

omit [FloatOps F] in
theorem bigSep_emp' {I : Type} (s : Finset I) : (bigSep s fun _ => iprop(emp)) = (iprop(emp) : sProp 𝕄) := bigSep_emp_const s

/-- The pipelines' staging cells' ghost state on core `d`, as the launch deals it. -/
abbrev GG (d : Dev nD) : sProp 𝕄 := Pipeline.ghostOn (pcfgs (F := F)) adm (EP (F := F)) Finset.univ d

/-- The handshakes' cells and tokens; the two pipelines' staging cells and tokens; no transfer counted yet. -/
def u₀ : UU :=
  (initOf (K (F := F)).hsCells (K (F := F)).hsToks,
    (initOf (Pipeline.cells (cfgs) cellOf_inj) (Pipeline.launchToks (cfgs) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (cfgs) (EP (F := F)) cellOf_inj) $$ HP with ⟨Hc, Ht⟩
  imodintro
  isplitl [HH]; · iexact HH
  isplitl [Hc Ht]
  · have hG : ∀ d : Dev nD, GG (F := F) d
        = iprop((bigSep Finset.univ fun p : Fin 2 => Pipeline.cellsGhost cfgs (EP (F := F)) p d)
            ∗ (bigSep Finset.univ fun p : Fin 2 => Pipeline.toksInit cfgs (EP (F := F)) p d)) := fun d => bigSep_sep' ..
    rw [bigSep_congr fun d _ => hG d, bigSep_sep']
    isplitl [Hc] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The gather call's three arrays among the TensorCore's unscoped buffers. -/
abbrev T3 : Finset (DevRef τ sig) :=
  {Proc.devRef .tc (main_arg0 : Ref sig .tc), Proc.devRef .tc (main_arg2 : Ref sig .tc), Proc.devRef .tc (main_v0 : Ref sig .tc)}

theorem T3_sub : (T3 : Finset (DevRef τ sig)) ⊆ Pipeline.ucRefs τ sig := by decide

omit [FloatOps F] in
theorem held_T3 (d : Dev nD) (W : Valuation τ sig (Elt F)) :
    (held (T d) T3 W : sProp 𝕄)
      = iprop((idsLoc d ↦{fullShare} W (Proc.devRef .tc (main_arg0 : Ref sig .tc))) ∗ (tabLoc d ↦{fullShare} W (Proc.devRef .tc (main_arg2 : Ref sig .tc)))
          ∗ outLoc d ↦{fullShare} W (Proc.devRef .tc (main_v0 : Ref sig .tc))) := by
  unfold held T3
  rw [SparseCore.bigSep_insert' (by decide), SparseCore.bigSep_insert' (by decide), bigSep_singleton]

/-- The gather call changes the result array only. -/
theorem W1_ids (d : Dev nD) : W1 m d (Proc.devRef .tc (main_arg0 : Ref sig .tc)) = m (idsLoc d) :=
  Function.update_of_ne (show (Proc.devRef .tc (main_arg0 : Ref sig .tc) : DevRef τ sig) ≠ Proc.devRef .tc (main_v0 : Ref sig .tc) by decide) _ _
theorem W1_tab (d : Dev nD) : W1 m d (Proc.devRef .tc (main_arg2 : Ref sig .tc)) = m (tabLoc d) :=
  Function.update_of_ne (show (Proc.devRef .tc (main_arg2 : Ref sig .tc) : DevRef τ sig) ≠ Proc.devRef .tc (main_v0 : Ref sig .tc) by decide) _ _
theorem W1_out (d : Dev nD) : W1 m d (Proc.devRef .tc (main_v0 : Ref sig .tc)) = gathered m d := Function.update_self _ _ _
theorem held_rest_W1 (d : Dev nD) :
    (held (T d) (Pipeline.ucRefs τ sig \ T3) (W1 m d) : sProp 𝕄) = held (T d) (Pipeline.ucRefs τ sig \ T3) (W0 m d) :=
  held_congr (T d) fun b hb => Function.update_of_ne
    (fun (e : b = Proc.devRef .tc (main_v0 : Ref sig .tc)) => (Finset.mem_sdiff.mp hb).2 (by rw [e]; decide)) _ _

/-- After its one SparseCore call the TensorCore owes nothing: its state before "call 1" gives up its `owes` at nothing
    and takes any such back (with one call every recorded pair sits below the bound the state asks). -/
theorem tcSt_open (d : Dev nD) :
    ((K (F := F)).tcSt (EH (F := F)) d 1 : sProp 𝕄)
      ⊢ iprop((∃ W, owes (T d) (0 : CellTallies nD τ sig (HIx 1)) W)
          ∗ ((∃ W, owes (T d) (0 : CellTallies nD τ sig (HIx 1)) W) -∗ (K (F := F)).tcSt (EH (F := F)) d 1)) := by
  unfold SparseCore.Cfg.tcSt
  rw [(K (F := F)).Otc_end d (le_refl 1)]
  iintro ⟨⟨%W, -, HO⟩, Hrest⟩
  isplitl [HO]; · iexists W; iexact HO
  iintro ⟨%W', HO'⟩
  isplitl [HO']
  · iexists W'; isplitr
    · ipureintro
      intro p _
      rcases p with ⟨s, _ | q⟩
      · show (K (F := F)).lev _ none ≤ _; rw [SparseCore.Cfg.lev_none]; exact Nat.zero_le _
      · exact ((K (F := F)).lev_some_le _ q).trans (by have := q.isLt; omega)
    · iexact HO'
  iexact Hrest

/-- What @main leaves the claim to read: every unscoped buffer at the last boundary's contents. -/
abbrev FIN (d : Dev nD) : sProp 𝕄 := held (T d) (Pipeline.ucRefs τ sig) (W5 m d)

set_option backward.isDefEq.respectTransparency.types false in
/-- @main on device `d`'s TensorCore: the gather call from the ids, the table and the result array; then the four segments
    from every unscoped buffer at what the call left, the staging cells funded at launch, nothing owed. -/
theorem hmain (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = held (T d) (Pipeline.ucRefs τ sig) (W0 m d)
    from Pipeline.unscopedBufs_held d (W0 m d), held_sub_split (T d) T3_sub (W0 m d), held_T3]
  rw [main_eq m d, wp_bind]
  iintro ⟨#Hctx, Hst, ⟨Hb, ⟨⟨Hi, Ht, Ho⟩, Hrest⟩, -, Hprng⟩, HG⟩
  iapply ((K (F := F)).wp_run (D (F := F)) 𝒱 (EH := EH) (P := P m) κ d 0) $$ [Hst Hi Ht Ho Hb Hrest Hprng HG]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  ihave Hst1 := (Entails.of_eq (show ((K (F := F)).tcSt (EH (F := F)) d ((0 : Fin 1).val + 1) : sProp 𝕄) = (K (F := F)).tcSt (EH (F := F)) d 1 from rfl)) $$ Hst
  ihave Hop := (tcSt_open (F := F) d) $$ Hst1
  icases Hop with ⟨HO, Hback⟩
  ihave #Hlv := (SparseCore.Cfg.ctx_levAts κ) $$ Hctx
  iapply ((K (F := F)).wp_liftProg (D (F := F)) 𝒱 (SparseCore.T d) Set.univ none (Pipeline.Seg.run (segs m)) _)
  iapply (Pipeline.wp_segs (pcfgs (F := F)) adm (pdats m) (none : HIx 1) cellOf_inj (EP (F := F)) defs₀ 𝒱₀ (LL (F := F)) (lvv (F := F)) d
      (segs m) Finset.univ
      (fun c => iprop(held (c : Thread nD τ) (Pipeline.ucRefs τ sig) (W1 m c) ∗ RR c))
      (fun c => iprop(held (c : Thread nD τ) (Pipeline.ucRefs τ sig) (W5 m c) ∗ RR c))
      (by simp only [segs, Pipeline.Seg.pipes_host, Pipeline.Seg.pipes_region, Pipeline.Seg.pipes_nil]; decide)
      (fun p _ => Finset.mem_univ p)
      ⟨fun _ => .rfl, fun _ => .rfl, fun _ => .rfl, fun _ => .rfl, fun _ => .rfl⟩) $$ [Hb Hi Ht Ho Hrest Hprng HO HG Hback]
  isplitl [Hback]
  · iintro ⟨-, Hh, -, HO⟩
    isplitl [Hback HO]
    · iapply Hback; iexact HO
    · iexact Hh
  isplitl [Hb]; · iexact Hb
  isplitl [Hi Ht Ho Hrest Hprng HO]
  · isplitl [Hi Ht Ho Hrest]
    · rw [held_sub_split (T d) T3_sub (W1 m d), held_T3, W1_ids, W1_tab, W1_out, held_rest_W1]
      isplitl [Hi Ht Ho]
      · isplitl [Hi]; · iexact Hi
        isplitl [Ht]; · iexact Ht
        iexact Ho
      · iexact Hrest
    · isplitl [Hprng]; · iexists _; iexact Hprng
      iexact HO
  isplitr; · iexact Hlv
  iexact HG

end Cert.KernelIdeal.KS

end
-- ==== Proof.KLaunch.lean ====
/-
  The program's run: every weakly fair execution of the TensorCore's @main, the sequencers and the tiles terminates,
  nothing faulting, and the final memory holds every unscoped buffer of the TensorCore at the last boundary's contents
  of the fold through @main. From the launch theorem of a SparseCore program: the tiles' task (a parameter here), how a
  SparseCore's operands split among its tiles, @main's proof, the launch element, and the reading of the final state.
  Generic in the float instance.
-/
import proofs.«216483_g44830868636102_cont_8to1c4_483_48_alg».proof.Proof.KRun

noncomputable section

namespace Cert.KernelIdeal.KS

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-- What is read off a final state on device `d`: every unscoped buffer at the last boundary's contents. -/
def fq (d : Dev nD) (s' : Phys nD τ sig (Elt F)) : Prop :=
  ∀ b ∈ Pipeline.ucRefs τ sig, s'.mem.mem ((d : Dev nD), b) = W5 m d b

theorem hfin (d : Dev nD) (s' : Phys nD τ sig (Elt F)) : iprop(FIN m d ∗ SI s') ⊢ (⌜fq m d s'⌝ : sProp 𝕄) := by
  show iprop((bigSep (Pipeline.ucRefs τ sig) fun b => (((d : Dev nD), b) : Loc nD τ sig) ↦{fullShare} W5 m d b) ∗ SI s') ⊢ _
  iintro ⟨Hh, HSI⟩
  ihave H := (pointsTo_read_all (Pipeline.ucRefs τ sig) (fun b => ((d : Dev nD), b)) (W5 m d) s') $$ [Hh HSI]
  · isplitl [Hh] <;> iassumption
  icases H with ⟨%h, -⟩
  ipureintro; exact h

/-- The run's post: on every device, every unscoped buffer of the TensorCore at the fold's last contents. -/
def QC : PUnit × MemSt nD τ sig (Elt F) → Prop := fun r =>
  ∀ c : Dev nD, ∀ b ∈ Pipeline.ucRefs τ sig, r.2.mem ((c : Dev nD), b) = W5 m c b

theorem run [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (GG (F := F)) (FIN m) (u₀ (F := F)) (sep_elim_left.trans (hu₀ m)) (hmain m ρ) (fq m) (hfin m) (QC m) (fun _ h => h)

/-- An unscoped reference of the TensorCore is among those the final state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.KS

end
-- ==== Proof.KGatherSets.lean ====
/-
  The gather call on one tile: the tile's names for the arrays and its scratch, and the index sets the body's slices
  cover. The printed offsets of tile (c, i) are, in closed form, row 256 i + 128 c = 128 (2 i + c) and that row plus 64:
  its ids are block 2 i + c of the cut of the ids into 32, its two halves of the result's rows split block 2 i + c of the
  cut of the result; the two halves of either scratch split the scratch.
-/
import proofs.«216483_g44830868636102_cont_8to1c4_483_48_alg».proof.Proof.KGatherPay

noncomputable section

namespace Cert.KernelIdeal.KS

open Cert.KernelIdeal Cert.KernelIdeal.Gen

open Idealize.ShloMosaic
open Idealize.ShloMosaic.SparseCore (S V T)
open Idealize.SL Idealize.SL.RA Idealize.SL.BI

section Tile

variable (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The tile's number. -/
abbrev wL (L : grid0.Coords) : Fin 32 := tileNo (cL L) (jL L)

/-- The arrays and the scratch as the body table passes them. -/
abbrev tabV : Memref sig .scVector .hbm S100000x128 .f32 := Memref.whole main_arg2_scv
abbrev idsV : Memref sig .scVector .hbm S4096 .i32 := Memref.whole main_arg0_scv
abbrev outV : Memref sig .scVector .hbm S4096x128 .f32 := Memref.whole main_v0_scv
abbrev sIds : Memref sig .scVector .vmem S128 .i32 := Memref.whole cc0_scratch0
abbrev sRows : Memref sig .scVector .vmem S128x128 .f32 := Memref.whole cc0_scratch1

/-- The table as the body slices it (whole), the tile's ids, and the two halves of its rows of the result. -/
abbrev tabK : Memref sig .scVector .hbm S100000x128 .f32 :=
  (tabV : Memref sig .scVector .hbm S100000x128 .f32).slice (Rect.unit (s := S100000x128) ![0, 0] S100000x128.size inb_S100000x128_S100000x128_0_0) (fun _ => rfl)
abbrev idsK (L : grid0.Coords) : Memref sig .scVector .hbm S128 .i32 :=
  (idsV : Memref sig .scVector .hbm S4096 .i32).slice (Rect.unit (s := S4096) (k0_off1 L) S128.size (k0_off1_inb L)) (fun _ => rfl)
abbrev outK0 (L : grid0.Coords) : Memref sig .scVector .hbm S64x128 .f32 :=
  (outV : Memref sig .scVector .hbm S4096x128 .f32).slice (Rect.unit (s := S4096x128) (k0_off2 L 0#32) S64x128.size (k0_off2_inb L 0)) (fun _ => rfl)
abbrev outK1 (L : grid0.Coords) : Memref sig .scVector .hbm S64x128 .f32 :=
  (outV : Memref sig .scVector .hbm S4096x128 .f32).slice (Rect.unit (s := S4096x128) (k0_off2 L 64#32) S64x128.size (k0_off2_inb L 1)) (fun _ => rfl)
/-- The halves of the row scratch and of the id scratch. -/
abbrev rows0 : Memref sig .scVector .vmem S64x128 .f32 :=
  (sRows : Memref sig .scVector .vmem S128x128 .f32).slice (Rect.unit (s := S128x128) ![0, 0] S64x128.size inb_S128x128_S64x128_0_0) (fun _ => rfl)
abbrev rows1 : Memref sig .scVector .vmem S64x128 .f32 :=
  (sRows : Memref sig .scVector .vmem S128x128 .f32).slice (Rect.unit (s := S128x128) ![64, 0] S64x128.size inb_S128x128_S64x128_64_0) (fun _ => rfl)
abbrev offs0 : Memref sig .scVector .vmem S64 .i32 :=
  (sIds : Memref sig .scVector .vmem S128 .i32).slice (Rect.unit (s := S128) ![0] S64.size inb_S128_S64_0) (fun _ => rfl)
abbrev offs1 : Memref sig .scVector .vmem S64 .i32 :=
  (sIds : Memref sig .scVector .vmem S128 .i32).slice (Rect.unit (s := S128) ![64] S64.size inb_S128_S64_64) (fun _ => rfl)

/-! ## The slices' index sets -/

theorem set_tabK : (tabK).view.set = Finset.univ := by
  show ((View.whole (main_arg2_scv : Ref sig .scVector)).slice (Rect.unit (s := S100000x128) ![0, 0] S100000x128.size inb_S100000x128_S100000x128_0_0)).set = _
  rw [View.set_slice_whole]
  exact Rect.set_eq_univ_of_whole _ fun a => by fin_cases a <;> exact ⟨rfl, rfl, rfl⟩

theorem set_offs0 : (offs0).view.set = (Rect.unit (s := S128) ![0] S64.size inb_S128_S64_0).set :=
  View.set_slice_whole (cc0_scratch0 : Ref sig .scVector) _
theorem set_offs1 : (offs1).view.set = (Rect.unit (s := S128) ![64] S64.size inb_S128_S64_64).set :=
  View.set_slice_whole (cc0_scratch0 : Ref sig .scVector) _
theorem set_rows0 : (rows0).view.set = (Rect.unit (s := S128x128) ![0, 0] S64x128.size inb_S128x128_S64x128_0_0).set :=
  View.set_slice_whole (cc0_scratch1 : Ref sig .scVector) _
theorem set_rows1 : (rows1).view.set = (Rect.unit (s := S128x128) ![64, 0] S64x128.size inb_S128x128_S64x128_64_0).set :=
  View.set_slice_whole (cc0_scratch1 : Ref sig .scVector) _
theorem set_idsK' : (idsK L).view.set = (Rect.unit (s := S4096) (k0_off1 L) S128.size (k0_off1_inb L)).set :=
  View.set_slice_whole (main_arg0_scv : Ref sig .scVector) _
theorem set_outK0' : (outK0 L).view.set = (Rect.unit (s := S4096x128) (k0_off2 L 0#32) S64x128.size (k0_off2_inb L 0)).set :=
  View.set_slice_whole (main_v0_scv : Ref sig .scVector) _
theorem set_outK1' : (outK1 L).view.set = (Rect.unit (s := S4096x128) (k0_off2 L 64#32) S64x128.size (k0_off2_inb L 1)).set :=
  View.set_slice_whole (main_v0_scv : Ref sig .scVector) _

/-- The halves of the id scratch split it. -/
theorem offs_disjoint : Disjoint (offs0).view.set (offs1).view.set := by
  rw [set_offs0, set_offs1, Finset.disjoint_left]
  intro x h0 h1
  have a0 := (Rect.mem_set_unit.mp h0) 0
  have a1 := (Rect.mem_set_unit.mp h1) 0
  simp only [Matrix.cons_val_zero] at a0 a1
  have : S64.size 0 = 64 := rfl
  omega
theorem offs_cover : (offs0).view.set ∪ (offs1).view.set = Finset.univ := by
  rw [set_offs0, set_offs1]
  refine Finset.eq_univ_of_forall fun x => Finset.mem_union.mpr ?_
  have hx : (x 0).val < 128 := (x 0).isLt
  by_cases h : (x 0).val < 64
  · refine .inl (Rect.mem_set_unit.mpr fun a => ?_)
    obtain rfl : a = 0 := Subsingleton.elim _ _
    simp only [Matrix.cons_val_zero]; have : S64.size 0 = 64 := rfl; omega
  · refine .inr (Rect.mem_set_unit.mpr fun a => ?_)
    obtain rfl : a = 0 := Subsingleton.elim _ _
    simp only [Matrix.cons_val_zero]; have : S64.size 0 = 64 := rfl; omega

/-- The halves of the row scratch split it. -/
theorem rows_disjoint : Disjoint (rows0).view.set (rows1).view.set := by
  rw [set_rows0, set_rows1, Finset.disjoint_left]
  intro x h0 h1
  have a0 := (Rect.mem_set_unit.mp h0) 0
  have a1 := (Rect.mem_set_unit.mp h1) 0
  simp only [Matrix.cons_val_zero] at a0 a1
  have : S64x128.size 0 = 64 := rfl
  omega
theorem rows_cover : (rows0).view.set ∪ (rows1).view.set = Finset.univ := by
  rw [set_rows0, set_rows1]
  refine Finset.eq_univ_of_forall fun x => Finset.mem_union.mpr ?_
  have hx : (x 0).val < 128 := (x 0).isLt
  have hy : (x 1).val < 128 := (x 1).isLt
  have s0 : S64x128.size 0 = 64 := rfl
  have s1 : S64x128.size 1 = 128 := rfl
  by_cases h : (x 0).val < 64
  · refine .inl (Rect.mem_set_unit.mpr fun a => ?_)
    fin_cases a
    · show (![0, 0] : Fin 2 → Nat) 0 ≤ (x 0).val ∧ (x 0).val < (![0, 0] : Fin 2 → Nat) 0 + S64x128.size 0
      simp only [Matrix.cons_val_zero]; omega
    · show (![0, 0] : Fin 2 → Nat) 1 ≤ (x 1).val ∧ (x 1).val < (![0, 0] : Fin 2 → Nat) 1 + S64x128.size 1
      simp only [Matrix.cons_val_one, Matrix.cons_val_zero]; omega
  · refine .inr (Rect.mem_set_unit.mpr fun a => ?_)
    fin_cases a
    · show (![64, 0] : Fin 2 → Nat) 0 ≤ (x 0).val ∧ (x 0).val < (![64, 0] : Fin 2 → Nat) 0 + S64x128.size 0
      simp only [Matrix.cons_val_zero]; omega
    · show (![64, 0] : Fin 2 → Nat) 1 ≤ (x 1).val ∧ (x 1).val < (![64, 0] : Fin 2 → Nat) 1 + S64x128.size 1
      simp only [Matrix.cons_val_one, Matrix.cons_val_zero]; omega

/-- The tile's number in the printed offsets' closed form. -/
theorem wL_val : (wL L).val = 2 * (L 1).val + (L 0).val := rfl

/-- The tile's ids are its block of the cut of the ids. -/
theorem set_idsK : (idsK L).view.set = idsPart (wL L) := by
  rw [set_idsK']
  ext x
  rw [Rect.mem_set_unit, Rect.mem_set_unit, k0_off1_eq]
  refine forall_congr' fun a => ?_
  obtain rfl : a = 0 := Subsingleton.elim _ _
  have e1 : S4096.partIx 0 (wL L).val 0 * S4096.partSize 0 32 0 = 256 * (L 1).val + 128 * (L 0).val := by
    show (2 * (L 1).val + (L 0).val) * (4096 / 32) = _; omega
  have e2 : S4096.partSize 0 32 0 = S128.size 0 := rfl
  rw [e1, e2]; rfl

/-- The two halves of the tile's rows of the result split its block of the cut of the result. -/
theorem out_disjoint : Disjoint (outK0 L).view.set (outK1 L).view.set := by
  rw [set_outK0', set_outK1', Finset.disjoint_left]
  intro x h0 h1
  have a0 := (Rect.mem_set_unit.mp h0) 0
  have a1 := (Rect.mem_set_unit.mp h1) 0
  rw [show (0#32 : BitVec 32) = BitVec.ofNat 32 (64 * (0 : Fin 2).val) from rfl, k0_off2_eq] at a0
  rw [show (64#32 : BitVec 32) = BitVec.ofNat 32 (64 * (1 : Fin 2).val) from rfl, k0_off2_eq] at a1
  simp only [Matrix.cons_val_zero] at a0 a1
  have : S64x128.size 0 = 64 := rfl
  have : ((0 : Fin 2) : Nat) = 0 := rfl
  have : ((1 : Fin 2) : Nat) = 1 := rfl
  omega

theorem out_cover : (outK0 L).view.set ∪ (outK1 L).view.set = outPart (wL L) := by
  rw [set_outK0', set_outK1']
  ext x
  rw [Finset.mem_union, Rect.mem_set_unit, Rect.mem_set_unit, Rect.mem_set_unit,
    show (0#32 : BitVec 32) = BitVec.ofNat 32 (64 * (0 : Fin 2).val) from rfl, k0_off2_eq,
    show (64#32 : BitVec 32) = BitVec.ofNat 32 (64 * (1 : Fin 2).val) from rfl, k0_off2_eq]
  have hy : (x 1).val < 128 := (x 1).isLt
  have s0 : S64x128.size 0 = 64 := rfl
  have s1 : S64x128.size 1 = 128 := rfl
  have z0 : ((0 : Fin 2) : Nat) = 0 := rfl
  have z1 : ((1 : Fin 2) : Nat) = 1 := rfl
  have p0 : S4096x128.partIx 0 (wL L).val 0 = 2 * (L 1).val + (L 0).val := rfl
  have p1 : S4096x128.partIx 0 (wL L).val 1 = 0 := rfl
  have q0 : S4096x128.partSize 0 32 0 = 128 := rfl
  have q1 : S4096x128.partSize 0 32 1 = 128 := rfl
  simp only [Fin.forall_fin_two, Matrix.cons_val_zero, Matrix.cons_val_one, p0, p1, q0, q1, s0, s1, z0, z1]
  omega

end Tile

end Cert.KernelIdeal.KS

end
-- ==== Proof.KGatherValue.lean ====
/-
  The gather call on one tile: what its transfers leave in the result.

  A tile's ids land in its id scratch: entry k of the scratch is id 128 w + k. Either gather writes, at row k of its half
  of the row scratch, the table's row at the id its half of the id scratch holds at k; every id names a row of the
  table, so that row is the one the specification reads. The copy-out of a half writes row k of it at row
  128 w + 64 h + k of the result: the result's rows of the tile are, entry by entry, the whole-array function `gathered`.
-/
import proofs.«216483_g44830868636102_cont_8to1c4_483_48_alg».proof.Proof.KGatherSets
import Idealize.ShloMosaic.Lib.SparseCore.Stream
import Idealize.ShloMosaic.Lib.Writes

noncomputable section

namespace Cert.KernelIdeal.KS

open Cert.KernelIdeal Cert.KernelIdeal.Gen

open Idealize.ShloMosaic
open Idealize.ShloMosaic.SparseCore (S V T)
open Idealize.SL Idealize.SL.RA Idealize.SL.BI

variable {F : FTy → Type}

variable (m : (ℓ : Loc nD τ sig) → Buf (Elt F) ℓ)

section Tile

variable (d : Dev nD) (L : grid0.Coords)

abbrev thr (d : Dev nD) (L : grid0.Coords) : Thread nD τ := V d (cV L) (jV L)

/-- What the id scratch holds once the tile's ids have landed in it: the tile's block of the ids. -/
abbrev landed (fi : Buf (Elt F) ((thr d L).loc cc0_scratch0)) : Buf (Elt F) ((thr d L).loc cc0_scratch0) :=
  View.write (Elt F) (sIds : Memref sig .scVector .vmem S128 .i32).view fi
    (ReadAs.same.apply (View.read (Elt F) (idsK L).view (m (idsLoc d)))) Finset.univ

theorem landed_apply (fi : Buf (Elt F) ((thr d L).loc cc0_scratch0)) (j : S128.Idx) :
    landed m d L fi j = m (idsLoc d) ((idsK L).view.emb j) := by
  have e : landed m d L fi = ReadAs.same.apply (View.read (Elt F) (idsK L).view (m (idsLoc d))) := View.write_whole_univ _ _ _
  rw [e]; rfl

/-- The ids a gather reads off either half of the id scratch name rows of the table. -/
theorem hin0 (hpre : IdsOK m) (fi : Buf (Elt F) ((thr d L).loc cc0_scratch0)) :
    ∀ x, ((offs0).view.read (Elt F) (landed m d L fi) x).toNat < S100000x128.size gathers_S100000x128_S64x128.axis := by
  intro x
  show ((landed m d L fi) ((offs0).view.emb x)).toNat < 100000
  rw [landed_apply]
  exact Nat.lt_succ_of_le (hpre d _)
theorem hin1 (hpre : IdsOK m) (fi : Buf (Elt F) ((thr d L).loc cc0_scratch0)) :
    ∀ x, ((offs1).view.read (Elt F) (landed m d L fi) x).toNat < S100000x128.size gathers_S100000x128_S64x128.axis := by
  intro x
  show ((landed m d L fi) ((offs1).view.emb x)).toNat < 100000
  rw [landed_apply]
  exact Nat.lt_succ_of_le (hpre d _)

/-! ## The gather's payload, entry by entry -/

omit m in
/-- The table read through the body's (whole) slice of it is the table. -/
theorem tabK_emb (y : S100000x128.Idx) : (tabK).view.emb y = y := by
  funext a; apply Fin.ext
  show (![0, 0] : Fin 2 → Nat) a + 1 * (y a).val = (y a).val
  fin_cases a <;> simp

omit m in
/-- The entry of a list of 64 offsets at row-major position `k` is its entry `k`. -/
theorem rowMajor_symm_S64 (k : Fin S64.numel) : S64.rowMajor.symm k = ValueIdx.ix1 (⟨k.val, k.isLt⟩ : Fin 64) := by
  have h1 : (S64.rowMajor (S64.rowMajor.symm k)).val = ((S64.rowMajor.symm k) 0).val := Shape.rowMajor_val_one _
  rw [Equiv.apply_symm_apply] at h1
  funext a
  obtain rfl : a = 0 := Subsingleton.elim _ _
  exact Fin.ext h1.symm

omit m in
/-- Row `x 0` of the gather's destination holds the source's row at offset `x 0` of the list. -/
theorem gather_apply (idx : S64.Idx → Elt F .i32) (hn : S64.numel = S64x128.size gathers_S100000x128_S64x128.axis')
    (h : ∀ x, (idx x).toNat < S100000x128.size gathers_S100000x128_S64x128.axis)
    (g : S100000x128.Idx → Elt F .f32) (x : S64x128.Idx) :
    SparseCore.gatherPayload gathers_S100000x128_S64x128 g (SparseCore.rows idx hn h) x
      = g (ValueIdx.ix2 (⟨(idx (ValueIdx.ix1 (x 0))).toNat, h _⟩ : Fin 100000) (x 1)) := by
  unfold SparseCore.gatherPayload
  congr 1
  funext b
  apply Fin.ext
  fin_cases b
  · show (gathers_S100000x128_S64x128.idx (SparseCore.rows idx hn h) x 0).val = (idx (ValueIdx.ix1 (x 0))).toNat
    unfold Shape.Gathers.idx
    split
    · show (idx (S64.rowMajor.symm ((x gathers_S100000x128_S64x128.axis').cast hn.symm))).toNat = _
      rw [rowMajor_symm_S64]
      rfl
    · rename_i hb; exact absurd rfl hb
  · show (gathers_S100000x128_S64x128.idx (SparseCore.rows idx hn h) x 1).val = (x 1).val
    unfold Shape.Gathers.idx
    split
    · rename_i hb; exact absurd hb (by decide)
    · rfl

/-- One entry of a gathered half: where the list's entry `k` is id `B + k` and the entry lands at row `B + x 0` of the
    result, it is the result the specification names there. -/
theorem value_core (hpre : IdsOK m) (B : Nat) (idx : S64.Idx → Elt F .i32) (hn : S64.numel = S64x128.size gathers_S100000x128_S64x128.axis')
    (h : ∀ x, (idx x).toNat < S100000x128.size gathers_S100000x128_S64x128.axis)
    (hidx : ∀ (y : S64.Idx) (z : S4096.Idx), (z 0).val = B + (y 0).val → idx y = m (idsLoc d) z)
    (x : S64x128.Idx) (j : S4096x128.Idx) (hj0 : (j 0).val = B + (x 0).val) (hj1 : (j 1).val = (x 1).val) :
    SparseCore.gatherPayload gathers_S100000x128_S64x128 (View.read (Elt F) (tabK).view (m (tabLoc d))) (SparseCore.rows idx hn h) x
      = gathered m d j := by
  rw [gather_apply]
  show m (tabLoc d) ((tabK).view.emb _) = m (tabLoc d) _
  rw [tabK_emb]
  congr 1
  funext b
  apply Fin.ext
  fin_cases b
  · show (idx (ValueIdx.ix1 (x 0))).toNat = min (m (idsLoc d) (ValueIdx.ix1 (j 0))).toNat 99999
    rw [hidx (ValueIdx.ix1 (x 0)) (ValueIdx.ix1 (j 0)) hj0, Nat.min_eq_left (hpre d _)]
  · exact hj1.symm

/-! ## The two halves -/

omit m in
theorem k0_off2_zero : k0_off2 L 0#32 = ![256 * (L 1).val + 128 * (L 0).val, 0] := by
  have h := k0_off2_eq L 0
  simpa using h
omit m in
theorem k0_off2_one : k0_off2 L 64#32 = ![256 * (L 1).val + 128 * (L 0).val + 64, 0] := by
  have h := k0_off2_eq L 1
  simpa using h

/-- What either copy-out leaves on its rows of the result is `gathered`. -/
theorem out0_value (hpre : IdsOK m) (fi : Buf (Elt F) ((thr d L).loc cc0_scratch0)) (fr : Buf (Elt F) ((thr d L).loc cc0_scratch1))
    (hn : S64.numel = S64x128.size gathers_S100000x128_S64x128.axis')
    (hin : ∀ x, ((offs0).view.read (Elt F) (landed m d L fi) x).toNat < S100000x128.size gathers_S100000x128_S64x128.axis) :
    ∀ i ∈ (outK0 L).view.set,
      (outK0 L).view.writes (Elt F) (m (outLoc d)) [⟨Rect.whole S64x128,
        ReadAs.same.apply (View.read (Elt F) (rows0).view ((rows0).view.writes (Elt F) fr [⟨Rect.whole S64x128,
          SparseCore.gatherPayload gathers_S100000x128_S64x128 (View.read (Elt F) (tabK).view (m (tabLoc d)))
            (SparseCore.rows (View.read (Elt F) (offs0).view (landed m d L fi)) hn hin)⟩]))⟩] i = gathered m d i := by
  intro i hi
  obtain ⟨x, -, rfl⟩ := Finset.mem_map.mp hi
  have e1 := View.read_writes_cons_emb (outK0 L).view (m (outLoc d)) (Rect.whole S64x128)
    (ReadAs.same.apply (View.read (Elt F) (rows0).view ((rows0).view.writes (Elt F) fr [⟨Rect.whole S64x128,
          SparseCore.gatherPayload gathers_S100000x128_S64x128 (View.read (Elt F) (tabK).view (m (tabLoc d)))
            (SparseCore.rows (View.read (Elt F) (offs0).view (landed m d L fi)) hn hin)⟩]))) [] x
  rw [Rect.emb_whole_apply] at e1
  refine ((View.read_apply _ _).trans (cast_eq _ _)).symm.trans (e1.trans ?_)
  have e2 := View.read_writes_cons_emb (rows0).view fr (Rect.whole S64x128)
    (SparseCore.gatherPayload gathers_S100000x128_S64x128 (View.read (Elt F) (tabK).view (m (tabLoc d)))
            (SparseCore.rows (View.read (Elt F) (offs0).view (landed m d L fi)) hn hin)) [] x
  rw [Rect.emb_whole_apply] at e2
  refine e2.trans ?_
  refine value_core m d hpre (256 * (L 1).val + 128 * (L 0).val) _ hn hin ?_ x _ ?_ ?_
  · intro y z hz
    show landed m d L fi ((offs0).view.emb y) = _
    rw [landed_apply]
    have e : ((idsK L).view.emb ((offs0).view.emb y) : S4096.Idx) = z := by
      funext a
      have ha : a.val = 0 := Nat.lt_one_iff.mp a.isLt
      obtain ⟨av, hav⟩ := a
      dsimp only at ha
      subst ha
      apply Fin.ext
      show k0_off1 L 0 + 1 * ((![0] : Fin 1 → Nat) 0 + 1 * (y 0).val) = (z 0).val
      rw [k0_off1_eq, hz]; simp
    exact congrArg (m (idsLoc d)) e
  · show k0_off2 L 0#32 0 + 1 * (x 0).val = _
    rw [k0_off2_zero]; simp
  · show k0_off2 L 0#32 1 + 1 * (x 1).val = _
    rw [k0_off2_zero]; simp

theorem out1_value (hpre : IdsOK m) (fi : Buf (Elt F) ((thr d L).loc cc0_scratch0)) (fr : Buf (Elt F) ((thr d L).loc cc0_scratch1))
    (hn : S64.numel = S64x128.size gathers_S100000x128_S64x128.axis')
    (hin : ∀ x, ((offs1).view.read (Elt F) (landed m d L fi) x).toNat < S100000x128.size gathers_S100000x128_S64x128.axis) :
    ∀ i ∈ (outK1 L).view.set,
      (outK1 L).view.writes (Elt F) (m (outLoc d)) [⟨Rect.whole S64x128,
        ReadAs.same.apply (View.read (Elt F) (rows1).view ((rows1).view.writes (Elt F) fr [⟨Rect.whole S64x128,
          SparseCore.gatherPayload gathers_S100000x128_S64x128 (View.read (Elt F) (tabK).view (m (tabLoc d)))
            (SparseCore.rows (View.read (Elt F) (offs1).view (landed m d L fi)) hn hin)⟩]))⟩] i = gathered m d i := by
  intro i hi
  obtain ⟨x, -, rfl⟩ := Finset.mem_map.mp hi
  have e1 := View.read_writes_cons_emb (outK1 L).view (m (outLoc d)) (Rect.whole S64x128)
    (ReadAs.same.apply (View.read (Elt F) (rows1).view ((rows1).view.writes (Elt F) fr [⟨Rect.whole S64x128,
          SparseCore.gatherPayload gathers_S100000x128_S64x128 (View.read (Elt F) (tabK).view (m (tabLoc d)))
            (SparseCore.rows (View.read (Elt F) (offs1).view (landed m d L fi)) hn hin)⟩]))) [] x
  rw [Rect.emb_whole_apply] at e1
  refine ((View.read_apply _ _).trans (cast_eq _ _)).symm.trans (e1.trans ?_)
  have e2 := View.read_writes_cons_emb (rows1).view fr (Rect.whole S64x128)
    (SparseCore.gatherPayload gathers_S100000x128_S64x128 (View.read (Elt F) (tabK).view (m (tabLoc d)))
            (SparseCore.rows (View.read (Elt F) (offs1).view (landed m d L fi)) hn hin)) [] x
  rw [Rect.emb_whole_apply] at e2
  refine e2.trans ?_
  refine value_core m d hpre (256 * (L 1).val + 128 * (L 0).val + 64) _ hn hin ?_ x _ ?_ ?_
  · intro y z hz
    show landed m d L fi ((offs1).view.emb y) = _
    rw [landed_apply]
    have e : ((idsK L).view.emb ((offs1).view.emb y) : S4096.Idx) = z := by
      funext a
      have ha : a.val = 0 := Nat.lt_one_iff.mp a.isLt
      obtain ⟨av, hav⟩ := a
      dsimp only at ha
      subst ha
      apply Fin.ext
      show k0_off1 L 0 + 1 * ((![64] : Fin 1 → Nat) 0 + 1 * (y 0).val) = (z 0).val
      rw [k0_off1_eq, hz]; simp; omega
    exact congrArg (m (idsLoc d)) e
  · show k0_off2 L 64#32 0 + 1 * (x 0).val = _
    rw [k0_off2_one]; simp
  · show k0_off2 L 64#32 1 + 1 * (x 1).val = _
    rw [k0_off2_one]; simp

end Tile

end Cert.KernelIdeal.KS

end
-- ==== Proof.KGatherBody.lean ====
/-
  The gather call's body on one tile, at a symbolic tile, and the launch theorem's obligation for it.

  The tile copies its 128 ids into its id scratch and waits; starts two gathers of 64 table rows each, one per half of the
  id scratch, into the two halves of its row scratch, each on a semaphore of its own; waits for the first and copies its
  half out to the tile's first 64 rows of the result; waits for the second and copies its half out to the other 64; waits
  for both copies. Every transfer has its own semaphore, the destinations are disjoint, and nothing writes a source
  while it is read: the transfers and waits are steps of the schedule-free protocol over the counters. While both
  gathers are in flight each holds one half of the tile's share of the table.
-/
import proofs.«216483_g44830868636102_cont_8to1c4_483_48_alg».proof.Proof.KGatherValue

noncomputable section

namespace Cert.KernelIdeal.KS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ)

section Tile

variable (d : Dev nD) (L : grid0.Coords)

/-- The tile's five DMA semaphores: the id copy's, the two gathers', the two copy-outs'. -/
abbrev cellI (d : Dev nD) (L : grid0.Coords) : GSem nD τ sig := (thr d L, .dma cc0_scoped0.sem)
abbrev cellG0 (d : Dev nD) (L : grid0.Coords) : GSem nD τ sig := (thr d L, .dma cc0_scratch2.sem)
abbrev cellG1 (d : Dev nD) (L : grid0.Coords) : GSem nD τ sig := (thr d L, .dma cc0_scratch3.sem)
abbrev cellO0 (d : Dev nD) (L : grid0.Coords) : GSem nD τ sig := (thr d L, .dma cc0_scratch4.sem)
abbrev cellO1 (d : Dev nD) (L : grid0.Coords) : GSem nD τ sig := (thr d L, .dma cc0_scratch5.sem)

omit m in
theorem cell_mem (a : DmaSem sig) (h : (SemLoc.dma a : SemLoc sig).isScoped .scVector = true) :
    ((thr d L, SemLoc.dma a) : GSem nD τ sig) ∈ ownCells (thr d L) := mem_ownCells.mpr ⟨rfl, h⟩
omit m in
theorem cell_ne {a b : DmaSem sig} (h : a ≠ b) : ((thr d L, SemLoc.dma a) : GSem nD τ sig) ≠ (thr d L, SemLoc.dma b) :=
  fun e => h (SemLoc.dma.inj (Prod.mk.inj e).2)

omit m in
/-- The tile's own semaphores are these five, at zero, and the rest. -/
theorem ownSems0_V :
    (ownSems0 (thr d L) : sProp 𝕄)
      = iprop(semVal (cellI d L) 0 ∗ semVal (cellG0 d L) 0 ∗ semVal (cellG1 d L) 0 ∗ semVal (cellO0 d L) 0 ∗ semVal (cellO1 d L) 0
          ∗ bigSep ((((((ownCells (thr d L)).erase (cellI d L)).erase (cellG0 d L)).erase (cellG1 d L)).erase (cellO0 d L)).erase (cellO1 d L))
              fun g => semVal g 0) := by
  unfold SparseCore.Cfg.ownSems0
  rw [SparseCore.bigSep_erase' (cell_mem d L cc0_scoped0.sem (by decide)),
    SparseCore.bigSep_erase' (Finset.mem_erase.mpr ⟨cell_ne d L (a := cc0_scratch2.sem) (b := cc0_scoped0.sem) (by decide), cell_mem d L cc0_scratch2.sem (by decide)⟩),
    SparseCore.bigSep_erase' (Finset.mem_erase.mpr ⟨cell_ne d L (a := cc0_scratch3.sem) (b := cc0_scratch2.sem) (by decide),
      Finset.mem_erase.mpr ⟨cell_ne d L (a := cc0_scratch3.sem) (b := cc0_scoped0.sem) (by decide), cell_mem d L cc0_scratch3.sem (by decide)⟩⟩),
    SparseCore.bigSep_erase' (Finset.mem_erase.mpr ⟨cell_ne d L (a := cc0_scratch4.sem) (b := cc0_scratch3.sem) (by decide),
      Finset.mem_erase.mpr ⟨cell_ne d L (a := cc0_scratch4.sem) (b := cc0_scratch2.sem) (by decide),
        Finset.mem_erase.mpr ⟨cell_ne d L (a := cc0_scratch4.sem) (b := cc0_scoped0.sem) (by decide), cell_mem d L cc0_scratch4.sem (by decide)⟩⟩⟩),
    SparseCore.bigSep_erase' (Finset.mem_erase.mpr ⟨cell_ne d L (a := cc0_scratch5.sem) (b := cc0_scratch4.sem) (by decide),
      Finset.mem_erase.mpr ⟨cell_ne d L (a := cc0_scratch5.sem) (b := cc0_scratch3.sem) (by decide),
        Finset.mem_erase.mpr ⟨cell_ne d L (a := cc0_scratch5.sem) (b := cc0_scratch2.sem) (by decide),
          Finset.mem_erase.mpr ⟨cell_ne d L (a := cc0_scratch5.sem) (b := cc0_scoped0.sem) (by decide), cell_mem d L cc0_scratch5.sem (by decide)⟩⟩⟩⟩)]

omit m in
/-- The two scratch buffers are among the tile's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The arrays as the tile's memrefs address them -/

omit m in
theorem pts_tab (q : PosShare TreeShare) (f : Buf (Elt F) (tabLoc d)) :
    ((tabV : Memref sig .scVector .hbm S100000x128 .f32).view.loc (thr d L) ↦{q} f : sProp 𝕄) = tabLoc d ↦{q} f := rfl
omit m in
theorem pts_sIds (f : Buf (Elt F) ((thr d L).loc cc0_scratch0)) :
    ((sIds : Memref sig .scVector .vmem S128 .i32).view.loc (thr d L) ↦{fullShare} f : sProp 𝕄) = (thr d L).loc cc0_scratch0 ↦{fullShare} f := rfl
omit m in
theorem pts_sRows (f : Buf (Elt F) ((thr d L).loc cc0_scratch1)) :
    ((sRows : Memref sig .scVector .vmem S128x128 .f32).view.loc (thr d L) ↦{fullShare} f : sProp 𝕄) = (thr d L).loc cc0_scratch1 ↦{fullShare} f := rfl
omit m in
theorem pts_idsK (f : Buf (Elt F) (idsLoc d)) :
    ((idsK L).view.loc (thr d L) ↦[(idsK L).view.set]{fullShare} f : sProp 𝕄) = idsLoc d ↦[idsPart (wL L)]{fullShare} f := by
  rw [set_idsK]
omit m in
theorem pts_outK0 (f : Buf (Elt F) (outLoc d)) :
    ((outK0 L).view.loc (thr d L) ↦[(outK0 L).view.set]{fullShare} f : sProp 𝕄) = outLoc d ↦[(outK0 L).view.set]{fullShare} f := rfl
omit m in
theorem pts_outK1 (f : Buf (Elt F) (outLoc d)) :
    ((outK1 L).view.loc (thr d L) ↦[(outK1 L).view.set]{fullShare} f : sProp 𝕄) = outLoc d ↦[(outK1 L).view.set]{fullShare} f := rfl

omit m in
/-- The tile's rows of the result are the two halves the body copies out to. -/
theorem out_halves (f : Buf (Elt F) (outLoc d)) :
    (outLoc d ↦[outPart (wL L)]{fullShare} f : sProp 𝕄)
      ⊣⊢ iprop((outLoc d ↦[(outK0 L).view.set]{fullShare} f) ∗ (outLoc d ↦[(outK1 L).view.set]{fullShare} f)) := by
  have h : (outLoc d ↦[(outK0 L).view.set ∪ (outK1 L).view.set]{fullShare} f : sProp 𝕄)
      ⊣⊢ iprop((outLoc d ↦[(outK0 L).view.set]{fullShare} f) ∗ (outLoc d ↦[(outK1 L).view.set]{fullShare} f)) :=
    pointsTo_union (out_disjoint L)
  rw [out_cover] at h
  exact h
omit m in
/-- The id scratch held whole is its two halves, each as the body slices it; -/
theorem sIds_halves (f : Buf (Elt F) ((thr d L).loc cc0_scratch0)) :
    ((sIds : Memref sig .scVector .vmem S128 .i32).view.loc (thr d L) ↦{fullShare} f : sProp 𝕄)
      ⊣⊢ iprop(((offs0).view.loc (thr d L) ↦[(offs0).view.set]{fullShare} f) ∗ ((offs1).view.loc (thr d L) ↦[(offs1).view.set]{fullShare} f)) := by
  have h : ((thr d L).loc cc0_scratch0 ↦[(offs0).view.set ∪ (offs1).view.set]{fullShare} f : sProp 𝕄)
      ⊣⊢ iprop(((thr d L).loc cc0_scratch0 ↦[(offs0).view.set]{fullShare} f) ∗ ((thr d L).loc cc0_scratch0 ↦[(offs1).view.set]{fullShare} f)) :=
    pointsTo_union offs_disjoint
  rw [offs_cover] at h
  exact h
omit m in
/-- and so is the row scratch, -/
theorem sRows_halves (f : Buf (Elt F) ((thr d L).loc cc0_scratch1)) :
    ((sRows : Memref sig .scVector .vmem S128x128 .f32).view.loc (thr d L) ↦{fullShare} f : sProp 𝕄)
      ⊣⊢ iprop(((rows0).view.loc (thr d L) ↦[(rows0).view.set]{fullShare} f) ∗ ((rows1).view.loc (thr d L) ↦[(rows1).view.set]{fullShare} f)) := by
  have h : ((thr d L).loc cc0_scratch1 ↦[(rows0).view.set ∪ (rows1).view.set]{fullShare} f : sProp 𝕄)
      ⊣⊢ iprop(((thr d L).loc cc0_scratch1 ↦[(rows0).view.set]{fullShare} f) ∗ ((thr d L).loc cc0_scratch1 ↦[(rows1).view.set]{fullShare} f)) :=
    pointsTo_union rows_disjoint
  rw [rows_cover] at h
  exact h
omit m in
/-- whose halves, each at what its gather left, are the scratch at some contents. -/
theorem sRows_join (f g : Buf (Elt F) ((thr d L).loc cc0_scratch1)) :
    iprop(((rows0).view.loc (thr d L) ↦[(rows0).view.set]{fullShare} f) ∗ ((rows1).view.loc (thr d L) ↦[(rows1).view.set]{fullShare} g))
      ⊢ (iprop(∃ h, (thr d L).loc cc0_scratch1 ↦{fullShare} h) : sProp 𝕄) := by
  have h : iprop(((thr d L).loc cc0_scratch1 ↦[(rows0).view.set]{fullShare} f) ∗ ((thr d L).loc cc0_scratch1 ↦[(rows1).view.set]{fullShare} g))
      ⊢ ((thr d L).loc cc0_scratch1 ↦[(rows0).view.set ∪ (rows1).view.set]{fullShare} ((rows1).view.set.piecewise g f) : sProp 𝕄) :=
    pointsTo_join rows_disjoint
  rw [rows_cover] at h
  iintro H
  iexists _
  iapply h; iexact H
omit m in
/-- A share of the table is its two halves: one for each of the two gathers in flight together. -/
theorem tab_halves (q : PosShare TreeShare) (f : Buf (Elt F) (tabLoc d)) :
    ((tabV : Memref sig .scVector .hbm S100000x128 .f32).view.loc (thr d L) ↦{q} f : sProp 𝕄)
      ⊣⊢ iprop(((tabV : Memref sig .scVector .hbm S100000x128 .f32).view.loc (thr d L) ↦{q.left} f)
          ∗ ((tabV : Memref sig .scVector .hbm S100000x128 .f32).view.loc (thr d L) ↦{q.right} f)) :=
  pointsTo_share (PosShare.mem_left_op_right q)

theorem forTile_eq (c : Fin 2) (i : Fin 16) (f : Buf (Elt F) (outLoc d)) :
    forTile m d c i f = iprop((idsLoc d ↦[idsPart (tileNo c i)]{fullShare} m (idsLoc d)) ∗ (tabLoc d ↦{tileShare c i} m (tabLoc d))
      ∗ (outLoc d ↦[outPart (tileNo c i)]{fullShare} f)) := rfl

/-! ## The body -/

/-- The body on tile `(L 0, L 1)` of device `d`: from the tile's ids, its token of the table and its rows of the result,
    to the same with the rows at `gathered`. -/
theorem tile_body [FloatOps F] (hF : (K (F := F)).Facts) (hpre : IdsOK m) (O : CellTallies nD τ sig (HIx 1)) (W : Waits sig (HIx 1))
    (hO : ∀ g, O g none = 0) :
    iprop((levAts (K (F := F)).L (K (F := F)).lev : sProp 𝕄) ∗ emp ∗ forTile m d (cL L) (jL L) (m (outLoc d))
        ∗ scopedBufs (thr d L) ∗ scopedSems0 (thr d L) ∗ owes (thr d L) O W)
      ⊢ wp frame (wpE (defs₀ (F := F)) 𝒱₀ (thr d L) none) Set.univ
          (cc0_gather_kernel L tabV (Memref.isWhole_whole _) idsV (Memref.isWhole_whole _) outV (Memref.isWhole_whole _)
            sIds (Memref.isWhole_whole _) sRows (Memref.isWhole_whole _) cc0_scratch2 cc0_scratch3 cc0_scratch4 cc0_scratch5 cc0_scoped0)
          fun _ => iprop(forTile m d (cL L) (jL L) (gathered m d) ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  simp only [k0_part1_eq_skeleton]; unfold k0_part1_skel
  rw [(K (F := F)).scopedBufs_V hF d (cV L) (jV L), SparseCore.Cfg.scopedSems0_V (Val := Elt F) d (cV L) (jV L), ownSems0_V, ownBufs_V,
    forTile_eq, forTile_eq]
  iintro ⟨#Hlv, -, ⟨Hi, Ht, Ho⟩, ⟨⟨%fi, Hsi⟩, ⟨%fr, Hsr⟩, Hbufs⟩, ⟨HcI, HcG0, HcG1, HcO0, HcO1, Hsems⟩, HO⟩
  ihave Hmw := ((K (F := F)).mayWaits_none (thr := thr d L) hO) $$ Hlv
  -- the arrays as the tile's memrefs address them; the result's rows, the row scratch and the table's token in halves
  ihave Hi' := (Entails.of_eq (pts_idsK (F := F) d L _).symm) $$ Hi
  ihave Ho2 := (out_halves (F := F) d L _).1 $$ Ho
  icases Ho2 with ⟨Ho0, Ho1⟩
  ihave Ho0' := (Entails.of_eq (pts_outK0 (F := F) d L _).symm) $$ Ho0
  ihave Ho1' := (Entails.of_eq (pts_outK1 (F := F) d L _).symm) $$ Ho1
  ihave Hsi' := (Entails.of_eq (pts_sIds (F := F) d L _).symm) $$ Hsi
  ihave Hsr' := (Entails.of_eq (pts_sRows (F := F) d L _).symm) $$ Hsr
  ihave Ht' := (Entails.of_eq (pts_tab (F := F) d L _ _).symm) $$ Ht
  ihave Ht2 := (tab_halves (F := F) d L _ _).1 $$ Ht'
  icases Ht2 with ⟨Ht0, Ht1⟩
  ihave Hsr2 := (sRows_halves (F := F) d L _).1 $$ Hsr'
  icases Hsr2 with ⟨Hr0, Hr1⟩
  -- the tile's ids into the id scratch, and the wait for them
  sl_exec
  -- the id scratch in halves, each gather's list; the ids they hold name rows of the table
  ihave Hsi2 := (sIds_halves (F := F) d L _).1 $$ Hsi'
  icases Hsi2 with ⟨Hs0, Hs1⟩
  have hi0 := hin0 m d L hpre
  have hi1 := hin1 m d L hpre
  -- the two gathers, the waits, the two copies out and their waits
  sl_exec
  sl_step
  -- what the tile hands back: its ids, its token of the table whole again, its rows of the result at `gathered`
  isplitl [Hi' Ht0 Ht1 Ho0' Ho1']
  · isplitl [Hi']; · iapply (Entails.of_eq (pts_idsK (F := F) d L _)); iexact Hi'
    isplitl [Ht0 Ht1]
    · iapply (Entails.of_eq (pts_tab (F := F) d L _ _))
      iapply (tab_halves (F := F) d L _ _).2
      isplitl [Ht0]; · iexact Ht0
      iexact Ht1
    · iapply (out_halves (F := F) d L _).2
      isplitl [Ho0']
      · iapply (Entails.of_eq ((pts_outK0 (F := F) d L _).trans (pointsTo_congr (out0_value m d L hpre fi fr _ (hi0 fi)))))
        iexact Ho0'
      · iapply (Entails.of_eq ((pts_outK1 (F := F) d L _).trans (pointsTo_congr (out1_value m d L hpre fi fr _ (hi1 fi)))))
        iexact Ho1'
  -- the scratch, at whatever it holds
  isplitl [Hs0 Hs1 Hr0 Hr1 Hbufs]
  · isplitl [Hs0 Hs1]
    · iexists _
      iapply (Entails.of_eq (pts_sIds (F := F) d L _))
      iapply (sIds_halves (F := F) d L _).2
      isplitl [Hs0]; · iexact Hs0
      iexact Hs1
    isplitl [Hr0 Hr1]
    · iapply (sRows_join (F := F) d L _ _)
      isplitl [Hr0]; · iexact Hr0
      iexact Hr1
    · iexact Hbufs
  -- the semaphores, at zero
  isplitl [HcI HcG0 HcG1 HcO0 HcO1 Hsems]
  · isplitl [HcI]; · iexact HcI
    isplitl [HcG0]; · iexact HcG0
    isplitl [HcG1]; · iexact HcG1
    isplitl [HcO0]; · iexact HcO0
    isplitl [HcO1]; · iexact HcO1
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0_gather_kernel (coordsV c s)
          tabV (Memref.isWhole_whole _) idsV (Memref.isWhole_whole _) outV (Memref.isWhole_whole _)
          sIds (Memref.isWhole_whole _) sRows (Memref.isWhole_whole _) cc0_scratch2 cc0_scratch3 cc0_scratch4 cc0_scratch5 cc0_scoped0) ⟨⟩ c s := rfl

omit m in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- `TileObl` at the gather call: every tile runs `tile_body` at its own coordinates. -/
theorem tileObl [FloatOps F] (hpre : IdsOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre O W hO).trans (wp_mono frame _ _ fun _ => obl_post)

end Cert.KernelIdeal.KS

end
-- ==== Proof.KBridgeArgs.lean ====
/-
  THE ARGUMENTS END AS LAUNCHED. Through the segments of the program after the gather call — two host operations,
  the first TensorCore call, six host operations, the second TensorCore call — a buffer that is no window's array of
  either call, that no host operation writes and that is not the gather call's result holds at the end what it held
  at launch. Each of the ten argument arrays is such a buffer. Generic in the float instance.
-/
import proofs.«216483_g44830868636102_cont_8to1c4_483_48_alg».proof.Proof.KSegs

set_option maxRecDepth 16384

noncomputable section

namespace Cert.KernelIdeal.KS

open Cert.KernelIdeal Cert.KernelIdeal.Gen
open Idealize.ShloMosaic Idealize.ShloMosaic.TcCoe

variable {F : FTy → Type} [FloatOps F]
variable (m : (ℓ : Loc nD τ sig) → Buf (Elt F) ℓ)

/-- The two host operations before the first call write the transposed ids and the converted table only. -/
theorem hostOpsA_not_writes (b : Ref sig .tc) (h : b ≠ main_v1 ∧ b ≠ main_v2) :
    ∀ op ∈ (hostOpsA : List (HloOp τ sig (Elt F))), Proc.devRef (τ := τ) .tc b ∉ op.writes :=
  List.forall_iff_forall_mem.mp (by
    simp only [hostOpsA, List.Forall, StableHlo.unary_writes, Finset.mem_singleton]
    exact ⟨StableHlo.devRef_ne_of_ne h.1, StableHlo.devRef_ne_of_ne h.2⟩)

/-- The six host operations between the calls write the converted weights and the reshaped biases only. -/
theorem hostOpsB_not_writes (b : Ref sig .tc)
    (h : b ≠ main_v4 ∧ b ≠ main_v5 ∧ b ≠ main_v6 ∧ b ≠ main_v7 ∧ b ≠ main_v8 ∧ b ≠ main_v9) :
    ∀ op ∈ (hostOpsB : List (HloOp τ sig (Elt F))), Proc.devRef (τ := τ) .tc b ∉ op.writes :=
  List.forall_iff_forall_mem.mp (by
    simp only [hostOpsB, List.Forall, StableHlo.unary_writes, StableHlo.reshape_writes, Finset.mem_singleton]
    exact ⟨StableHlo.devRef_ne_of_ne h.1, StableHlo.devRef_ne_of_ne h.2.1, StableHlo.devRef_ne_of_ne h.2.2.1,
      StableHlo.devRef_ne_of_ne h.2.2.2.1, StableHlo.devRef_ne_of_ne h.2.2.2.2.1, StableHlo.devRef_ne_of_ne h.2.2.2.2.2⟩)

/-- A buffer other than the gather call's result holds after that call what it held at launch. -/
theorem W1_untouched (c : Dev nD) (b : Ref sig .tc) (h0 : b ≠ main_v0) :
    W1 m c (Proc.devRef .tc b) = m ((c : Thread nD τ).loc b) := by
  unfold W1; exact Function.update_of_ne (StableHlo.devRef_ne_of_ne h0) _ _

/-- The same at the first TensorCore call's entry, for a buffer the two host operations do not write; -/
theorem W2_untouched (c : Dev nD) (b : Ref sig .tc) (hA : b ≠ main_v1 ∧ b ≠ main_v2) (h0 : b ≠ main_v0) :
    W2 m c (Proc.devRef .tc b) = m ((c : Thread nD τ).loc b) :=
  (StableHlo.after_of_forall_not_mem (b := Proc.devRef .tc b) _ _ (hostOpsA_not_writes b hA)).trans (W1_untouched m c b h0)

/-- at its exit, for one that is no array of its windows; -/
theorem W3_untouched (c : Dev nD) (b : Ref sig .tc) (h1 : ∀ w, Pipeline.arrRef spec1 w ≠ b)
    (hA : b ≠ main_v1 ∧ b ≠ main_v2) (h0 : b ≠ main_v0) :
    W3 m c (Proc.devRef .tc b) = m ((c : Thread nD τ).loc b) :=
  (W3_of_ne m c b h1).trans (W2_untouched m c b hA h0)

/-- at the second call's entry, for one the six host operations do not write; -/
theorem W4_untouched (c : Dev nD) (b : Ref sig .tc)
    (hB : b ≠ main_v4 ∧ b ≠ main_v5 ∧ b ≠ main_v6 ∧ b ≠ main_v7 ∧ b ≠ main_v8 ∧ b ≠ main_v9)
    (h1 : ∀ w, Pipeline.arrRef spec1 w ≠ b) (hA : b ≠ main_v1 ∧ b ≠ main_v2) (h0 : b ≠ main_v0) :
    W4 m c (Proc.devRef .tc b) = m ((c : Thread nD τ).loc b) :=
  (StableHlo.after_of_forall_not_mem (b := Proc.devRef .tc b) _ _ (hostOpsB_not_writes b hB)).trans (W3_untouched m c b h1 hA h0)

/-- and at its exit, for one that is no array of its windows: a buffer nothing writes after launch holds at the end
    what it held at launch. -/
theorem W5_untouched (c : Dev nD) (b : Ref sig .tc) (h2 : ∀ w, Pipeline.arrRef spec2 w ≠ b)
    (hB : b ≠ main_v4 ∧ b ≠ main_v5 ∧ b ≠ main_v6 ∧ b ≠ main_v7 ∧ b ≠ main_v8 ∧ b ≠ main_v9)
    (h1 : ∀ w, Pipeline.arrRef spec1 w ≠ b) (hA : b ≠ main_v1 ∧ b ≠ main_v2) (h0 : b ≠ main_v0) :
    W5 m c (Proc.devRef .tc b) = m ((c : Thread nD τ).loc b) :=
  (W5_of_ne m c b h2).trans (W4_untouched m c b hB h1 hA h0)

theorem W5_main_arg0 (c : Dev nD) : W5 m c (Proc.devRef .tc main_arg0) = m ((c : Thread nD τ).loc main_arg0) :=
  W5_untouched m c main_arg0 (by decide) (by decide) (by decide) (by decide) (by decide)
theorem W5_main_arg1 (c : Dev nD) : W5 m c (Proc.devRef .tc main_arg1) = m ((c : Thread nD τ).loc main_arg1) :=
  W5_untouched m c main_arg1 (by decide) (by decide) (by decide) (by decide) (by decide)
theorem W5_main_arg2 (c : Dev nD) : W5 m c (Proc.devRef .tc main_arg2) = m ((c : Thread nD τ).loc main_arg2) :=
  W5_untouched m c main_arg2 (by decide) (by decide) (by decide) (by decide) (by decide)
theorem W5_main_arg3 (c : Dev nD) : W5 m c (Proc.devRef .tc main_arg3) = m ((c : Thread nD τ).loc main_arg3) :=
  W5_untouched m c main_arg3 (by decide) (by decide) (by decide) (by decide) (by decide)
theorem W5_main_arg4 (c : Dev nD) : W5 m c (Proc.devRef .tc main_arg4) = m ((c : Thread nD τ).loc main_arg4) :=
  W5_untouched m c main_arg4 (by decide) (by decide) (by decide) (by decide) (by decide)
theorem W5_main_arg5 (c : Dev nD) : W5 m c (Proc.devRef .tc main_arg5) = m ((c : Thread nD τ).loc main_arg5) :=
  W5_untouched m c main_arg5 (by decide) (by decide) (by decide) (by decide) (by decide)
theorem W5_main_arg6 (c : Dev nD) : W5 m c (Proc.devRef .tc main_arg6) = m ((c : Thread nD τ).loc main_arg6) :=
  W5_untouched m c main_arg6 (by decide) (by decide) (by decide) (by decide) (by decide)
theorem W5_main_arg7 (c : Dev nD) : W5 m c (Proc.devRef .tc main_arg7) = m ((c : Thread nD τ).loc main_arg7) :=
  W5_untouched m c main_arg7 (by decide) (by decide) (by decide) (by decide) (by decide)
theorem W5_main_arg8 (c : Dev nD) : W5 m c (Proc.devRef .tc main_arg8) = m ((c : Thread nD τ).loc main_arg8) :=
  W5_untouched m c main_arg8 (by decide) (by decide) (by decide) (by decide) (by decide)
theorem W5_main_arg9 (c : Dev nD) : W5 m c (Proc.devRef .tc main_arg9) = m ((c : Thread nD τ).loc main_arg9) :=
  W5_untouched m c main_arg9 (by decide) (by decide) (by decide) (by decide) (by decide)

end Cert.KernelIdeal.KS

end
-- ==== Proof.KValAlg.lean ====
/-
  Algebra on the extended reals used by the value lemmas of the two dense bodies.

  Everything here is about sums, products and maxima of extended reals that are known to be real numbers: a finite sum of
  reals is a real, a product with a counting factor distributes, a sum over 256 terms splits into two halves of 128, a
  dense layer of reals is real, and division by a positive real is multiplication by its reciprocal.
-/
import Idealize.ShloMosaic.PureOps.Ideal
import Idealize.ShloMosaic.PureOps.Ideal.Laws
import proofs.«216483_g44830868636102_cont_8to1c4_483_48_alg».proof.Proof.Spec

noncomputable section

open scoped BigOperators

namespace Cert.KVal

open Idealize.ShloMosaic

/-! ## Reals among the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A finite sum of reals is a real. -/
theorem real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- The coercion of a maximum of reals is the maximum of the coercions. -/
theorem coe_max (a b : ℝ) : ((max a b : ℝ) : EReal) = max (a : EReal) (b : EReal) :=
  EReal.coe_strictMono.monotone.map_max

theorem real_max_zero {x : EReal} (hx : ∃ r : ℝ, x = (r : EReal)) : ∃ r : ℝ, max x 0 = (r : EReal) := by
  obtain ⟨a, rfl⟩ := hx
  refine ⟨max a 0, ?_⟩
  rw [← EReal.coe_zero, ← coe_max]

/-! ## Counting factors -/

/-- A sum over classes of (the number of members of the class) times (the class's value) is the sum of the members'
    values, for real values: exchange the two sums and let the indicator pick its one term. -/
theorem sum_count_mul {J G : Nat} (row : Fin J → Fin G) (tab : Fin G → EReal)
    (htab : ∀ g, ∃ r : ℝ, tab g = (r : EReal)) :
    ∑ g : Fin G, ((∑ j : Fin J, (if row j = g then (1 : ℝ) else 0) : ℝ) : EReal) * tab g = ∑ j : Fin J, tab (row j) := by
  choose t ht using htab
  have hreal : ∑ g : Fin G, (∑ j : Fin J, (if row j = g then (1 : ℝ) else 0)) * t g = ∑ j : Fin J, t (row j) := by
    simp_rw [Finset.sum_mul]
    rw [Finset.sum_comm]
    refine Finset.sum_congr rfl fun j _ => ?_
    simp [ite_mul]
  calc ∑ g : Fin G, ((∑ j : Fin J, (if row j = g then (1 : ℝ) else 0) : ℝ) : EReal) * tab g
      = ∑ g : Fin G, (((∑ j : Fin J, (if row j = g then (1 : ℝ) else 0)) * t g : ℝ) : EReal) :=
        Finset.sum_congr rfl fun g _ => by rw [ht g, EReal.coe_mul]
    _ = ((∑ j : Fin J, t (row j) : ℝ) : EReal) := by rw [← coe_sum, hreal]
    _ = ∑ j : Fin J, tab (row j) := by rw [coe_sum]; exact Finset.sum_congr rfl fun j _ => (ht _).symm

/-! ## The two words of the mean: one eighth, and eight -/

theorem ofBits_eighth : Ideal.ofBits .f32 0x3E000000#32 = ((1 / 8 : ℝ) : EReal) := by
  simp [Ideal.ofBits, Ideal.ieee]
  rw [← EReal.coe_mul]
  congr 1
  norm_num

theorem ofBits_eight : Ideal.ofBits .f32 0x41000000#32 = ((8 : ℝ) : EReal) := by
  simp [Ideal.ofBits, Ideal.ieee]
  rw [← EReal.coe_mul]
  norm_num

/-- Multiplying by one eighth is dividing by eight. -/
theorem mul_eighth (x : EReal) : x * Ideal.ofBits .f32 0x3E000000#32 = Ideal.div x Cert.Spec.eight := by
  rw [Cert.Spec.eight, ofBits_eight, ofBits_eighth, Ideal.div_coe (by norm_num : (8 : ℝ) ≠ 0)]

/-- Dividing a real by eight gives a real. -/
theorem real_div_eight {x : EReal} (hx : ∃ r : ℝ, x = (r : EReal)) : ∃ r : ℝ, Ideal.div x Cert.Spec.eight = (r : EReal) := by
  rw [Cert.Spec.eight, ofBits_eight, Ideal.div_coe (by norm_num : (8 : ℝ) ≠ 0)]
  exact real_mul hx ⟨_, rfl⟩

/-! ## A sum of 256 terms in two halves -/

/-- A sum over 256 indices is the sum over the first 128 plus the sum over the last 128. -/
theorem sum_256_split (f : Fin 256 → EReal) :
    ∑ k : Fin 256, f k
      = ∑ k : Fin 128, f ⟨k.val, by omega⟩ + ∑ k : Fin 128, f ⟨128 + k.val, by omega⟩ := by
  exact Fin.sum_univ_add (M := EReal) (a := 128) (b := 128) (f : Fin (128 + 128) → EReal)

/-- The first layer's inner product over the joined row is the movie half plus the genre half. -/
theorem xrow_dot (mv gv : Fin 128 → EReal) (W : Fin 256 → EReal) :
    ∑ k : Fin 256, Cert.Spec.xrow mv gv k * W k
      = ∑ k : Fin 128, mv k * W ⟨0 + k.val, by omega⟩ + ∑ k : Fin 128, gv k * W ⟨128 + k.val, by omega⟩ := by
  rw [sum_256_split]
  refine congrArg₂ (· + ·) (Finset.sum_congr rfl fun k _ => ?_) (Finset.sum_congr rfl fun k _ => ?_)
  · have hk : k.val < 128 := k.isLt
    have e : (⟨k.val, by omega⟩ : Fin 256) = ⟨0 + k.val, by omega⟩ := Fin.ext (Nat.zero_add _).symm
    rw [← e]
    unfold Cert.Spec.xrow
    rw [dif_pos (show (⟨k.val, by omega⟩ : Fin 256).val < 128 from hk)]
  · unfold Cert.Spec.xrow
    rw [dif_neg (show ¬ (⟨128 + k.val, by omega⟩ : Fin 256).val < 128 from by simp)]
    congr 2
    exact Fin.ext (by simp)

/-! ## Dense layers of reals -/

/-- The joined input row of reals is real. -/
theorem real_xrow {mv gv : Fin 128 → EReal} (hmv : ∀ k, ∃ r : ℝ, mv k = (r : EReal)) (hgv : ∀ k, ∃ r : ℝ, gv k = (r : EReal))
    (k : Fin 256) : ∃ r : ℝ, Cert.Spec.xrow mv gv k = (r : EReal) := by
  unfold Cert.Spec.xrow
  split
  · exact hmv _
  · exact hgv _

/-- A dense layer with real input, coefficients and offsets has real outputs. -/
theorem real_dense {K N : Nat} {x : Fin K → EReal} {W : Fin N → Fin K → EReal} {c : Fin N → EReal}
    (hx : ∀ k, ∃ r : ℝ, x k = (r : EReal)) (hW : ∀ n k, ∃ r : ℝ, W n k = (r : EReal)) (hc : ∀ n, ∃ r : ℝ, c n = (r : EReal))
    (n : Fin N) : ∃ r : ℝ, Cert.Spec.dense x W c n = (r : EReal) :=
  real_max_zero (real_add (real_sum _ _ fun k => real_mul (hx k) (hW n k)) (hc n))

/-! ## Division by the bounded norm -/

/-- The lower bound of the norm is a positive real. -/
theorem eps_pos : ∃ e : ℝ, 0 < e ∧ Cert.Spec.eps = (e : EReal) := by
  simp [Cert.Spec.eps, Ideal.ofBits, Ideal.ieee]
  exact ⟨9223372 * (2 ^ 63)⁻¹, by positivity, (EReal.coe_mul _ _).symm⟩

/-- The square root of a real, bounded below by the positive constant, is a positive real. -/
theorem norm_pos {s : EReal} (hs : ∃ r : ℝ, s = (r : EReal)) :
    ∃ m : ℝ, m ≠ 0 ∧ max (Ideal.sqrt s) Cert.Spec.eps = (m : EReal) := by
  obtain ⟨r, rfl⟩ := hs
  obtain ⟨e, he, hE⟩ := eps_pos
  rw [hE, Ideal.sqrt_coe]
  split
  · exact ⟨e, he.ne', max_eq_right bot_le⟩
  · refine ⟨max (Real.sqrt r) e, (lt_of_lt_of_le he (le_max_right _ _)).ne', ?_⟩
    rw [coe_max]

/-- Multiplying by the reciprocal of a nonzero real is dividing by it. -/
theorem mul_div_one {m : EReal} (hm : ∃ r : ℝ, r ≠ 0 ∧ m = (r : EReal)) (h : EReal) :
    h * Ideal.div 1 m = Ideal.div h m := by
  obtain ⟨r, hr, rfl⟩ := hm
  rw [Ideal.div_coe hr, Ideal.div_coe hr, one_mul]

end Cert.KVal

end
-- ==== Proof.KValGenre.lean ====
/-
  The genre body's arithmetic at the extended reals.

  The body counts, for every genre g and batch row b, how many of the row's eight genre ids equal g, contracts the
  counts with the genre table (its row 0 replaced by zeros) over g, and multiplies by one eighth. For ids below 32 and a
  real-valued table that is the mean of the eight table rows the ids name.
-/
import Idealize.ShloMosaic.Lib.ValueIdx
import Idealize.ShloMosaic.Lib.ValueLayout
import Idealize.ShloMosaic.Lib.Pipeline.Value
import proofs.«216483_g44830868636102_cont_8to1c4_483_48_alg».proof.Proof.Gen.KernelIdeal.Skeleton
import proofs.«216483_g44830868636102_cont_8to1c4_483_48_alg».proof.Proof.KValAlg

noncomputable section

open scoped BigOperators

namespace Cert.KVal

open Idealize.ShloMosaic Idealize.ShloMosaic.ValueIdx
open Cert.KernelIdeal

/-! ## A product contracting the first axis of both operands -/

/-- A matrix product contracting the FIRST axis of both operands, accumulated into zero, read at (a, b): the inner
    product of column a of the left operand with column b of the right. -/
theorem matmul_cols_apply {m n k : Nat} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    FloatOps.matmul (⟨[0], [0], [1], [1], [], [], w⟩ : DotDims _ _ _) prec A B
        (constant ⟨2, ![m, n]⟩ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The body's product of the counts with the table, read at (b, d). -/
theorem mm0_apply (A : FVec Ideal S32x4096 .bf16) (B : FVec Ideal S32x128 .bf16) (b : Fin 4096) (d : Fin 128) :
    matmul dot_S32x4096_S32x128_S4096x128_0_0_1_1_n_n none A B (constant S4096x128 .f32 0x00000000#32) (ix2 b d)
      = ∑ g : Fin 32, A (ix2 g b) * B (ix2 g d) :=
  matmul_cols_apply Gen.dot_S32x4096_S32x128_S4096x128_0_0_1_1_n_n_wf none A B b d

/-! ## The indicator of one id -/

/-- The comparison bit of two words, widened and read as a signed integer, is 1 where they agree and 0 elsewhere. -/
theorem eqbit_toInt (x y : BitVec 32) :
    (((IntOp.cmpi .eq x y).setWidth 32).toInt : ℝ) = if x = y then 1 else 0 := by
  unfold IntOp.cmpi
  by_cases h : x = y
  · subst h; simp
  · have hb : (x == y) = false := by simpa using h
    simp [hb, h]

/-- An integer comparison at an index compares the elements. -/
theorem cmpi_apply {s : Shape} {w : Nat} (p : CmpIPredicate) (x y : IVec s w) (i : s.Idx) :
    cmpi p x y i = IntOp.cmpi p (x i) (y i) := rfl

/-- A signed word read as a float at the extended reals is its integer. -/
theorem sitofp_ideal (x : BitVec 32) : FloatOps.sitofp (F := Ideal) .f32 x = ((x.toInt : ℝ) : EReal) := rfl

/-- One of the eight terms of the count: row o of the ids broadcast over the genres, compared with the genre number,
    widened and converted, is the indicator of "id (o, b) is g". -/
theorem onehot_apply (x1 : IVec S8x4096 32) (o : Nat) (ho : o < 8) (h : S8x4096.Slices ![o, 0] S1x4096)
    (g : Fin 32) (b : Fin 4096) :
    (sitofp (F := Ideal) .f32 (extui 32 (cmpi .eq
        (broadcastTo S32x4096 (extractStridedSlice S1x4096 ![o, 0] x1 h) Gen.broadcasts_S1x4096_S32x4096)
        (iota .tc S32x4096 32 [0] Gen.iota_S32x4096_d0_w32)) Gen.natLt_1_32) : FVec Ideal S32x4096 .f32) (ix2 g b)
      = ((if x1 (ix2 ⟨o, ho⟩ b) = BitVec.ofNat 32 g.val then (1 : ℝ) else 0 : ℝ) : EReal) := by
  rw [sitofp_apply, extui_apply, cmpi_apply, broadcastTo_1b_ab_apply, slice2_axis0_eq, iota_single_apply,
    sitofp_ideal, eqbit_toInt]
  have e : (⟨o + (0 : Fin 1).val, Nat.lt_of_lt_of_le (Nat.add_lt_add_left (0 : Fin 1).isLt o) (h.2 0)⟩ : Fin 8) = ⟨o, ho⟩ :=
    Fin.ext (Nat.add_zero o)
  rw [e]

set_option maxRecDepth 65536 in
/-- The counts: entry (g, b) is the number of the eight ids of batch row b that equal g. -/
theorem k1_pay2_apply (x0 : Vec Ideal S8x4096 .i32) (g : Fin 32) (b : Fin 4096) :
    Gen.k1_pay2 (F := Ideal) x0 (ix2 g b)
      = ((∑ j : Fin 8, (if x0 (ix2 j b) = BitVec.ofNat 32 g.val then (1 : ℝ) else 0) : ℝ) : EReal) := by
  unfold Gen.k1_pay2
  simp only [addf_apply, shapeCast_self]
  rw [onehot_apply x0 0 (by decide), onehot_apply x0 1 (by decide), onehot_apply x0 2 (by decide),
    onehot_apply x0 3 (by decide), onehot_apply x0 4 (by decide), onehot_apply x0 5 (by decide),
    onehot_apply x0 6 (by decide), onehot_apply x0 7 (by decide), broadcast_apply, Ideal.ofBits_def,
    Ideal.ofBits_zero_f32, zero_add, Fin.sum_univ_eight]
  simp only [EReal.coe_add]
  rfl

/-! ## The table with its padding row zeroed -/

/-- The sixteen-bit zero word is zero. -/
theorem ofBits_zero_bf16 : Ideal.ofBits .bf16 0x0000#16 = 0 := by simp [Ideal.ofBits, Ideal.ieee]

/-- The table with "row number is 0" selected to zero, read at (g, d). -/
theorem tab_apply (v53 : FVec Ideal S32x128 .bf16) (g : Fin 32) (d : Fin 128) :
    select (cmpi .eq (iota .tc S32x128 32 [0] Gen.iota_S32x128_d0_w32) (broadcast S32x128 0#32))
        (broadcast S32x128 (Scalar.ofBits (F := Ideal) .bf16 0x0000#16)) v53 (ix2 g d)
      = if g.val = 0 then 0 else v53 (ix2 g d) := by
  rw [select_apply, cmpi_apply, iota_single_apply, broadcast_apply, broadcast_apply]
  show Scalar.select (IntOp.cmpi .eq (BitVec.ofNat 32 g.val) 0#32) (Ideal.ofBits .bf16 0x0000#16) (v53 (ix2 g d)) = _
  rw [ofBits_zero_bf16]
  unfold IntOp.cmpi
  by_cases h : g.val = 0
  · rw [if_pos h, h]; rfl
  · rw [if_neg h]
    have hne : (BitVec.ofNat 32 g.val == 0#32) = false := by
      rw [beq_eq_false_iff_ne]
      intro e
      have h2 := congrArg BitVec.toNat e
      simp only [BitVec.toNat_ofNat, BitVec.toNat_zero] at h2
      have := g.isLt
      omega
    simp [hne, Scalar.select]

set_option maxRecDepth 65536 in
/-- The body's result at (b, d): the counts of row b contracted with the zeroed table's column d, times one eighth. -/
theorem k1_pay1_apply (v51 : FVec Ideal S32x4096 .f32) (v53 : FVec Ideal S32x128 .bf16) (b : Fin 4096) (d : Fin 128) :
    Gen.k1_pay1 (F := Ideal) v51 v53 (ix2 b d)
      = (∑ g : Fin 32, v51 (ix2 g b) * (if g.val = 0 then 0 else v53 (ix2 g d))) * Ideal.ofBits .f32 0x3E000000#32 := by
  unfold Gen.k1_pay1
  simp only [truncf_apply, mulf_apply]
  rw [mm0_apply, broadcast_apply]
  refine congrArg (· * _) (Finset.sum_congr rfl fun g _ => ?_)
  rw [truncf_apply, tab_apply]

/-! ## The mean of the eight table rows -/

/-- A word at most 31 equals the word of g exactly when the table row it names is g. -/
theorem word_eq_iff (w : BitVec 32) (hw : w.toNat ≤ 31) (g : Fin 32) :
    w = BitVec.ofNat 32 g.val ↔ Cert.Spec.genreRow w = g := by
  have hg := g.isLt
  constructor
  · intro h
    apply Fin.ext
    show min w.toNat 31 = g.val
    rw [h, BitVec.toNat_ofNat]
    omega
  · intro h
    apply BitVec.eq_of_toNat_eq
    have h2 : min w.toNat 31 = g.val := congrArg Fin.val h
    rw [BitVec.toNat_ofNat]
    omega

/-- An entry of the table with its padding row zeroed is real when the table is. -/
theorem real_genreTab {Ge : Cert.Spec.Mat 32 128} (hGe : ∀ j, ∃ r : ℝ, Ge j = (r : EReal)) (g : Fin 32) (d : Fin 128) :
    ∃ r : ℝ, Cert.Spec.genreTab Ge g d = (r : EReal) := by
  unfold Cert.Spec.genreTab
  split
  · exact ⟨0, EReal.coe_zero.symm⟩
  · exact hGe _

/-- The genre vector of a real table is real. -/
theorem genreVec_real (gen : Vec Ideal S4096x8 .i32) (Ge : Vec Ideal S32x128 .f32)
    (hGe : ∀ j, ∃ r : ℝ, Ge j = (r : EReal)) (b : Fin 4096) (d : Fin 128) :
    ∃ r : ℝ, Cert.Spec.genreVec gen Ge b d = (r : EReal) := by
  unfold Cert.Spec.genreVec
  exact real_div_eight (real_sum _ _ fun s => real_genreTab hGe _ d)

/-- THE GENRE BODY IS THE SPECIFICATION'S GENRE VECTOR: on the transposed ids and the table (in either float format),
    for ids at most 31 and a real table, the body's entry (b, d) is the mean of the eight table rows the ids of batch
    row b name, row 0 counting as zero. -/
theorem genre_eq (gen : Vec Ideal S4096x8 .i32) (Ge : Vec Ideal S32x128 .f32)
    (hgen : ∀ j, (gen j).toNat ≤ 31) (hGe : ∀ j, ∃ r : ℝ, Ge j = (r : EReal)) (b : Fin 4096) (d : Fin 128) :
    Gen.k1_pay1 (F := Ideal)
        (Gen.k1_pay2 (F := Ideal) (transpose S8x4096 [1, 0] gen Gen.transposes_S4096x8_S8x4096_1_0))
        (Gen.k1_pay3 (F := Ideal) (truncf .bf16 (Ge : FVec Ideal S32x128 .f32) Gen.bitsLt_bf16_f32 : FVec Ideal S32x128 .bf16)) (ix2 b d)
      = Cert.Spec.genreVec gen Ge b d := by
  rw [k1_pay1_apply]
  have hc : ∀ g : Fin 32,
      Gen.k1_pay2 (F := Ideal) (transpose S8x4096 [1, 0] gen Gen.transposes_S4096x8_S8x4096_1_0) (ix2 g b)
        = ((∑ j : Fin 8, (if Cert.Spec.genreRow (gen (ix2 b j)) = g then (1 : ℝ) else 0) : ℝ) : EReal) := by
    intro g
    rw [k1_pay2_apply]
    refine congrArg _ (Finset.sum_congr rfl fun j _ => ?_)
    rw [transpose_ix2_apply]
    exact if_congr (word_eq_iff _ (hgen _) g) rfl rfl
  have ht : ∀ g : Fin 32,
      (if g.val = 0 then (0 : EReal) else Gen.k1_pay3 (F := Ideal) (truncf .bf16 (Ge : FVec Ideal S32x128 .f32) Gen.bitsLt_bf16_f32 : FVec Ideal S32x128 .bf16) (ix2 g d))
        = Cert.Spec.genreTab Ge g d := by
    intro g
    unfold Gen.k1_pay3
    simp only [shapeCast_self, truncf_apply]
    rfl
  rw [Finset.sum_congr rfl fun g _ => by rw [hc g, ht g],
    sum_count_mul (fun j => Cert.Spec.genreRow (gen (ix2 b j))) (fun g => Cert.Spec.genreTab Ge g d)
      (fun g => real_genreTab hGe g d), mul_eighth]
  rfl

end Cert.KVal

end
-- ==== Proof.KBridgeGenre.lean ====
/-
  THE FIRST TENSORCORE CALL'S RESULT ARRAY. The call has one grid point and each of its three windows is its whole
  array (block (0, 0) of an array of one block), so a block read at the point is the array, the one write-back writes
  the whole result, and the result array ends at the body's value on the two input arrays as the call finds them:
  the transposed genre ids and the genre table with its format changed, both host operations of the arguments. On
  ids at most 31 and a real table that value is, entry by entry, the specification's genre vector.
-/
import proofs.«216483_g44830868636102_cont_8to1c4_483_48_alg».proof.Proof.KSegs
import proofs.«216483_g44830868636102_cont_8to1c4_483_48_alg».proof.Proof.KBridgeArgs
import proofs.«216483_g44830868636102_cont_8to1c4_483_48_alg».proof.Proof.KValGenre
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.KS

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.ShloMosaic.Pipeline (Dat Cfg Window)

theorem zero_offsets : (![0, 0] : Fin 2 → Nat) = fun _ => 0 := funext fun a => by fin_cases a <;> rfl

/-- The first call's windows sit at block (0, 0) at its one point. -/
theorem index1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

section Blocks
variable {F : FTy → Type} [FloatOps F]

/-! ## A block read at the point is the array -/

theorem read_blk1_0 (t : Fin cfg1.N) (X : S8x4096.Idx → Elt F .i32) :
    (((cfg1.win 0).blk t).view.read (Elt F) X : S8x4096.Idx → Elt F .i32) = X := by
  obtain ⟨e0, e1, -⟩ := index1 t
  funext x
  rw [View.read_apply]
  refine congrArg X ?_
  funext a
  apply Fin.ext
  match a with
  | ⟨0, _⟩ => show win1_0.index t 0 * 8 + 1 * (x 0).val = (x 0).val; rw [e0]; omega
  | ⟨1, _⟩ => show win1_0.index t 1 * 4096 + 1 * (x 1).val = (x 1).val; rw [e1]; omega

theorem read_blk1_1 (t : Fin cfg1.N) (X : S32x128.Idx → Elt F .bf16) :
    (((cfg1.win 1).blk t).view.read (Elt F) X : S32x128.Idx → Elt F .bf16) = X := by
  obtain ⟨-, -, e0, e1, -⟩ := index1 t
  funext x
  rw [View.read_apply]
  refine congrArg X ?_
  funext a
  apply Fin.ext
  match a with
  | ⟨0, _⟩ => show win1_1.index t 0 * 32 + 1 * (x 0).val = (x 0).val; rw [e0]; omega
  | ⟨1, _⟩ => show win1_1.index t 1 * 128 + 1 * (x 1).val = (x 1).val; rw [e1]; omega

theorem read_blk1_2 (t : Fin cfg1.N) (X : S4096x128.Idx → Elt F .bf16) :
    (((cfg1.win 2).blk t).view.read (Elt F) X : S4096x128.Idx → Elt F .bf16) = X := by
  obtain ⟨-, -, -, -, e0, e1⟩ := index1 t
  funext x
  rw [View.read_apply]
  refine congrArg X ?_
  funext a
  apply Fin.ext
  match a with
  | ⟨0, _⟩ => show win1_2.index t 0 * 4096 + 1 * (x 0).val = (x 0).val; rw [e0]; omega
  | ⟨1, _⟩ => show win1_2.index t 1 * 128 + 1 * (x 1).val = (x 1).val; rw [e1]; omega

variable (V : (c : Dev nD) → (b : Ref sig .tc) → Buf (Elt F) ((c : Thread nD τ).loc b))

theorem iblk1_0 (c : Dev nD) (t : Fin cfg1.N) : (iblk1 V c 0 t : Vec F S8x4096 .i32) = (V c main_v1 : S8x4096.Idx → Elt F .i32) :=
  read_blk1_0 t _
theorem iblk1_1 (c : Dev nD) (t : Fin cfg1.N) : (iblk1 V c 1 t : Vec F S32x128 .bf16) = (V c main_v2 : S32x128.Idx → Elt F .bf16) :=
  read_blk1_1 t _

/-- An index of the result array is in the point's block iff each coordinate is in the block's range on its axis. -/
theorem mem_blk1_2 (t : Fin cfg1.N) (i : S4096x128.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_v3).slice (win1_2.rect t)).set ↔ _
  rw [View.set_slice_whole, Rect.mem_set_unit]
  exact Iff.rfl

/-- The one point's block is the whole result array. -/
theorem cover1 (i : S4096x128.Idx) : ∃ t : Fin cfg1.N, (cfg1.win 2).flush t = true ∧ i ∈ ((cfg1.win 2).blk t).view.set := by
  refine ⟨t1_0, flush1_2 t1_0, ?_⟩
  obtain ⟨-, -, -, -, e0, e1⟩ := index1 t1_0
  rw [mem_blk1_2]
  intro a
  match a with
  | ⟨0, _⟩ => show win1_2.index t1_0 0 * 4096 ≤ (i 0).val ∧ (i 0).val < win1_2.index t1_0 0 * 4096 + 4096; have h0 : (i 0).val < 4096 := (i 0).isLt; rw [e0]; omega
  | ⟨1, _⟩ => show win1_2.index t1_0 1 * 128 ≤ (i 1).val ∧ (i 1).val < win1_2.index t1_0 1 * 128 + 128; have h1 : (i 1).val < 128 := (i 1).isLt; rw [e1]; omega

/-- What the one point writes back, as the body's value on the two input arrays the call finds. -/
theorem flushed1 (c : Dev nD) (t : Fin cfg1.N) :
    (dat1 V c).flushed 2 t = ((cfg1.win 2).blk t).view.read (Elt F)
      (k1_pay1 (k1_pay2 (V c main_v1 : S8x4096.Idx → Elt F .i32)) (k1_pay3 (V c main_v2 : S32x128.Idx → Elt F .bf16)) : S4096x128.Idx → Elt F .bf16) := by
  show (cfg1.win 2).cut (grid1.coords t) ((dat1 V c).after 2 t) = _
  rw [after1_2, read_blk1_2]
  unfold out1_2
  rw [View.canon_unit_zero zero_offsets]
  simp only [View.ld_unit_zero (S := S8x4096) zero_offsets, View.ld_unit_zero (S := S32x128) zero_offsets]
  rw [iblk1_0, iblk1_1]
  rfl

/-- The first call's result array at its exit. -/
theorem final1 (c : Dev nD) : (dat1 V c).arrAt 2 cfg1.N
    = (k1_pay1 (k1_pay2 (V c main_v1 : S8x4096.Idx → Elt F .i32)) (k1_pay3 (V c main_v2 : S32x128.Idx → Elt F .bf16)) : S4096x128.Idx → Elt F .bf16) :=
  (dat1 V c).arrAt_eq_of_cover 2 _ (fun t _ => flushed1 V c t) cover1

end Blocks

/-! ## The two input arrays as host operations of the arguments -/

section Inputs
variable {F : FTy → Type} [FloatOps F]
variable (m : (ℓ : Loc nD τ sig) → Buf (Elt F) ℓ)

/-- The first window's array is the genre ids transposed. -/
theorem V2_v1 (c : Dev nD) : (V2 m c main_v1 : S8x4096.Idx → Elt F .i32)
    = transpose S8x4096 [1, 0] (m ((c : Thread nD τ).loc main_arg1) : S4096x8.Idx → Elt F .i32) transposes_S4096x8_S8x4096_1_0 := by
  dsimp only [V2, W2, hostOpsA]
  after_results
  rw [W1_untouched m c main_arg1 (by decide)]

/-- The second window's array is the genre table with its format changed. -/
theorem V2_v2 (c : Dev nD) : (V2 m c main_v2 : S32x128.Idx → Elt F .bf16)
    = (truncf .bf16 (m ((c : Thread nD τ).loc main_arg3) : FVec F S32x128 .f32) bitsLt_bf16_f32 : FVec F S32x128 .bf16) := by
  dsimp only [V2, W2, hostOpsA]
  after_results
  rw [W1_untouched m c main_arg3 (by decide)]

end Inputs

/-! ## The result array is the specification's genre vectors -/

section Ideal
variable (m : (ℓ : Loc nD τ sig) → Buf (Elt Ideal) ℓ)

/-- The genre vectors of all batch rows, as an array. -/
abbrev genreArr (c : Dev nD) : S4096x128.Idx → EReal := fun i =>
  Cert.Spec.genreVec (m ((c : Thread nD τ).loc main_arg1)) (m ((c : Thread nD τ).loc main_arg3)) (i 0) (i 1)

/-- At the first call's exit its result array holds the genre vectors. -/
theorem W3_v3 (c : Dev nD) (hgen : ∀ j, (m ((c : Thread nD τ).loc main_arg1) j).toNat ≤ 31)
    (h3 : ∀ j, ∃ r : ℝ, m ((c : Thread nD τ).loc main_arg3) j = (r : EReal)) :
    (W3 m c (Proc.devRef .tc main_v3) : S4096x128.Idx → EReal) = genreArr m c := by
  refine (W3_arr m c 2).trans ((final1 (V2 m) c).trans ?_)
  rw [V2_v1, V2_v2]
  funext j
  obtain ⟨b, d, rfl⟩ : ∃ (b : Fin 4096) (d : Fin 128), j = ix2 b d := ⟨j 0, j 1, eq_ix2 j⟩
  exact Cert.KVal.genre_eq (m ((c : Thread nD τ).loc main_arg1)) (m ((c : Thread nD τ).loc main_arg3)) hgen h3 b d

/-- Every entry of it is real. -/
theorem genreArr_real (c : Dev nD) (h3 : ∀ j, ∃ r : ℝ, m ((c : Thread nD τ).loc main_arg3) j = (r : EReal)) (i : S4096x128.Idx) :
    ∃ r : ℝ, genreArr m c i = (r : EReal) :=
  Cert.KVal.genreVec_real _ _ h3 (i 0) (i 1)

end Ideal

end Cert.KernelIdeal.KS

end
-- ==== Proof.KBridgeIn.lean ====
/-
  THE SECOND TENSORCORE CALL, READ. Its grid has two points. The gathered movie rows, the genre vectors and the result,
  arrays of 4096 rows, move with the point in blocks of 2048 rows: block t is rows [2048 t, 2048 t + 2048). The three
  weight matrices and the three bias rows are whole-array windows, the same block at both points. So what point t
  writes back is the body's value on rows [2048 t, 2048 t + 2048) of the two moving inputs and on the six whole
  arrays, and the two write-backs cover the result array. The arrays the call finds are, through the fold of the
  segments: the gather call's result, the first call's result, and host operations of the arguments (a change of
  format for the weights, a reshape to one row for the biases). Generic in the float instance.
-/
import proofs.«216483_g44830868636102_cont_8to1c4_483_48_alg».proof.Proof.KSegs
import proofs.«216483_g44830868636102_cont_8to1c4_483_48_alg».proof.Proof.KBridgeArgs
import proofs.«216483_g44830868636102_cont_8to1c4_483_48_alg».proof.Proof.KBridgeGenre
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.KS

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.ShloMosaic.Pipeline (Dat Cfg Window)

/-! ## The windows' block indices at a point, decided over the grid -/

theorem index2_0 : ∀ t : Fin cfg2.N, win2_0.index t (0 : Fin 2) = t.val ∧ win2_0.index t (1 : Fin 2) = 0 :=
  (by decide +kernel : ∀ t : Fin grid2.N, _)
theorem index2_1 : ∀ t : Fin cfg2.N, win2_1.index t (0 : Fin 2) = t.val ∧ win2_1.index t (1 : Fin 2) = 0 :=
  (by decide +kernel : ∀ t : Fin grid2.N, _)
theorem index2_2 : ∀ t : Fin cfg2.N, win2_2.index t (0 : Fin 2) = 0 ∧ win2_2.index t (1 : Fin 2) = 0 :=
  (by decide +kernel : ∀ t : Fin grid2.N, _)
theorem index2_3 : ∀ t : Fin cfg2.N, win2_3.index t (0 : Fin 2) = 0 ∧ win2_3.index t (1 : Fin 2) = 0 :=
  (by decide +kernel : ∀ t : Fin grid2.N, _)
theorem index2_4 : ∀ t : Fin cfg2.N, win2_4.index t (0 : Fin 2) = 0 ∧ win2_4.index t (1 : Fin 2) = 0 :=
  (by decide +kernel : ∀ t : Fin grid2.N, _)
theorem index2_5 : ∀ t : Fin cfg2.N, win2_5.index t (0 : Fin 2) = 0 ∧ win2_5.index t (1 : Fin 2) = 0 :=
  (by decide +kernel : ∀ t : Fin grid2.N, _)
theorem index2_6 : ∀ t : Fin cfg2.N, win2_6.index t (0 : Fin 2) = 0 ∧ win2_6.index t (1 : Fin 2) = 0 :=
  (by decide +kernel : ∀ t : Fin grid2.N, _)
theorem index2_7 : ∀ t : Fin cfg2.N, win2_7.index t (0 : Fin 2) = 0 ∧ win2_7.index t (1 : Fin 2) = 0 :=
  (by decide +kernel : ∀ t : Fin grid2.N, _)
theorem index2_8 : ∀ t : Fin cfg2.N, win2_8.index t (0 : Fin 2) = t.val ∧ win2_8.index t (1 : Fin 2) = 0 :=
  (by decide +kernel : ∀ t : Fin grid2.N, _)

section Blocks
variable {F : FTy → Type} [FloatOps F]

/-! ## A window's block read at a point -/

/-- Window 0's block at point t is rows [2048 t, 2048 t + 2048) of its array. -/
theorem read_blk2_0 (t : Fin cfg2.N) (X : S4096x128.Idx → Elt F .f32) (x : S2048x128.Idx) (k : S4096x128.Idx)
    (hk0 : (k 0).val = 2048 * t.val + (x 0).val) (hk1 : (k 1).val = (x 1).val) :
    (((cfg2.win 0).blk t).view.read (Elt F) X : S2048x128.Idx → Elt F .f32) x = X k := by
  obtain ⟨e0, e1⟩ := index2_0 t
  rw [View.read_apply]
  refine congrArg X ?_
  funext a
  apply Fin.ext
  match a with
  | ⟨0, _⟩ => show win2_0.index t 0 * 2048 + 1 * (x 0).val = (k 0).val; rw [e0, hk0]; omega
  | ⟨1, _⟩ => show win2_0.index t 1 * 128 + 1 * (x 1).val = (k 1).val; rw [e1, hk1]; omega

/-- Window 1's block at point t is rows [2048 t, 2048 t + 2048) of its array. -/
theorem read_blk2_1 (t : Fin cfg2.N) (X : S4096x128.Idx → Elt F .bf16) (x : S2048x128.Idx) (k : S4096x128.Idx)
    (hk0 : (k 0).val = 2048 * t.val + (x 0).val) (hk1 : (k 1).val = (x 1).val) :
    (((cfg2.win 1).blk t).view.read (Elt F) X : S2048x128.Idx → Elt F .bf16) x = X k := by
  obtain ⟨e0, e1⟩ := index2_1 t
  rw [View.read_apply]
  refine congrArg X ?_
  funext a
  apply Fin.ext
  match a with
  | ⟨0, _⟩ => show win2_1.index t 0 * 2048 + 1 * (x 0).val = (k 0).val; rw [e0, hk0]; omega
  | ⟨1, _⟩ => show win2_1.index t 1 * 128 + 1 * (x 1).val = (k 1).val; rw [e1, hk1]; omega

/-- Window 2's block at every point is its whole array. -/
theorem read_blk2_2 (t : Fin cfg2.N) (X : S512x256.Idx → Elt F .bf16) :
    (((cfg2.win 2).blk t).view.read (Elt F) X : S512x256.Idx → Elt F .bf16) = X := by
  obtain ⟨e0, e1⟩ := index2_2 t
  funext x
  rw [View.read_apply]
  refine congrArg X ?_
  funext a
  apply Fin.ext
  match a with
  | ⟨0, _⟩ => show win2_2.index t 0 * 512 + 1 * (x 0).val = (x 0).val; rw [e0]; omega
  | ⟨1, _⟩ => show win2_2.index t 1 * 256 + 1 * (x 1).val = (x 1).val; rw [e1]; omega

/-- Window 3's block at every point is its whole array. -/
theorem read_blk2_3 (t : Fin cfg2.N) (X : S1x512.Idx → Elt F .f32) :
    (((cfg2.win 3).blk t).view.read (Elt F) X : S1x512.Idx → Elt F .f32) = X := by
  obtain ⟨e0, e1⟩ := index2_3 t
  funext x
  rw [View.read_apply]
  refine congrArg X ?_
  funext a
  apply Fin.ext
  match a with
  | ⟨0, _⟩ => show win2_3.index t 0 * 1 + 1 * (x 0).val = (x 0).val; rw [e0]; omega
  | ⟨1, _⟩ => show win2_3.index t 1 * 512 + 1 * (x 1).val = (x 1).val; rw [e1]; omega

/-- Window 4's block at every point is its whole array. -/
theorem read_blk2_4 (t : Fin cfg2.N) (X : S256x512.Idx → Elt F .bf16) :
    (((cfg2.win 4).blk t).view.read (Elt F) X : S256x512.Idx → Elt F .bf16) = X := by
  obtain ⟨e0, e1⟩ := index2_4 t
  funext x
  rw [View.read_apply]
  refine congrArg X ?_
  funext a
  apply Fin.ext
  match a with
  | ⟨0, _⟩ => show win2_4.index t 0 * 256 + 1 * (x 0).val = (x 0).val; rw [e0]; omega
  | ⟨1, _⟩ => show win2_4.index t 1 * 512 + 1 * (x 1).val = (x 1).val; rw [e1]; omega

/-- Window 5's block at every point is its whole array. -/
theorem read_blk2_5 (t : Fin cfg2.N) (X : S1x256.Idx → Elt F .f32) :
    (((cfg2.win 5).blk t).view.read (Elt F) X : S1x256.Idx → Elt F .f32) = X := by
  obtain ⟨e0, e1⟩ := index2_5 t
  funext x
  rw [View.read_apply]
  refine congrArg X ?_
  funext a
  apply Fin.ext
  match a with
  | ⟨0, _⟩ => show win2_5.index t 0 * 1 + 1 * (x 0).val = (x 0).val; rw [e0]; omega
  | ⟨1, _⟩ => show win2_5.index t 1 * 256 + 1 * (x 1).val = (x 1).val; rw [e1]; omega

/-- Window 6's block at every point is its whole array. -/
theorem read_blk2_6 (t : Fin cfg2.N) (X : S128x256.Idx → Elt F .bf16) :
    (((cfg2.win 6).blk t).view.read (Elt F) X : S128x256.Idx → Elt F .bf16) = X := by
  obtain ⟨e0, e1⟩ := index2_6 t
  funext x
  rw [View.read_apply]
  refine congrArg X ?_
  funext a
  apply Fin.ext
  match a with
  | ⟨0, _⟩ => show win2_6.index t 0 * 128 + 1 * (x 0).val = (x 0).val; rw [e0]; omega
  | ⟨1, _⟩ => show win2_6.index t 1 * 256 + 1 * (x 1).val = (x 1).val; rw [e1]; omega

/-- Window 7's block at every point is its whole array. -/
theorem read_blk2_7 (t : Fin cfg2.N) (X : S1x128.Idx → Elt F .f32) :
    (((cfg2.win 7).blk t).view.read (Elt F) X : S1x128.Idx → Elt F .f32) = X := by
  obtain ⟨e0, e1⟩ := index2_7 t
  funext x
  rw [View.read_apply]
  refine congrArg X ?_
  funext a
  apply Fin.ext
  match a with
  | ⟨0, _⟩ => show win2_7.index t 0 * 1 + 1 * (x 0).val = (x 0).val; rw [e0]; omega
  | ⟨1, _⟩ => show win2_7.index t 1 * 128 + 1 * (x 1).val = (x 1).val; rw [e1]; omega

/-- Window 8's block at point t is rows [2048 t, 2048 t + 2048) of its array. -/
theorem read_blk2_8 (t : Fin cfg2.N) (X : S4096x128.Idx → Elt F .f32) (x : S2048x128.Idx) (k : S4096x128.Idx)
    (hk0 : (k 0).val = 2048 * t.val + (x 0).val) (hk1 : (k 1).val = (x 1).val) :
    (((cfg2.win 8).blk t).view.read (Elt F) X : S2048x128.Idx → Elt F .f32) x = X k := by
  obtain ⟨e0, e1⟩ := index2_8 t
  rw [View.read_apply]
  refine congrArg X ?_
  funext a
  apply Fin.ext
  match a with
  | ⟨0, _⟩ => show win2_8.index t 0 * 2048 + 1 * (x 0).val = (k 0).val; rw [e0, hk0]; omega
  | ⟨1, _⟩ => show win2_8.index t 1 * 128 + 1 * (x 1).val = (k 1).val; rw [e1, hk1]; omega

variable (V : (c : Dev nD) → (b : Ref sig .tc) → Buf (Elt F) ((c : Thread nD τ).loc b))

/-! ## The input blocks as the call finds them -/

theorem iblk2_0_apply (c : Dev nD) (t : Fin cfg2.N) (x : S2048x128.Idx) (k : S4096x128.Idx)
    (hk0 : (k 0).val = 2048 * t.val + (x 0).val) (hk1 : (k 1).val = (x 1).val) :
    (iblk2 V c 0 t : Vec F S2048x128 .f32) x = (V c main_v0 : S4096x128.Idx → Elt F .f32) k :=
  read_blk2_0 t _ x k hk0 hk1
theorem iblk2_1_apply (c : Dev nD) (t : Fin cfg2.N) (x : S2048x128.Idx) (k : S4096x128.Idx)
    (hk0 : (k 0).val = 2048 * t.val + (x 0).val) (hk1 : (k 1).val = (x 1).val) :
    (iblk2 V c 1 t : Vec F S2048x128 .bf16) x = (V c main_v3 : S4096x128.Idx → Elt F .bf16) k :=
  read_blk2_1 t _ x k hk0 hk1
theorem iblk2_2 (c : Dev nD) (t : Fin cfg2.N) : (iblk2 V c 2 t : Vec F S512x256 .bf16) = (V c main_v4 : S512x256.Idx → Elt F .bf16) :=
  read_blk2_2 t _
theorem iblk2_3 (c : Dev nD) (t : Fin cfg2.N) : (iblk2 V c 3 t : Vec F S1x512 .f32) = (V c main_v5 : S1x512.Idx → Elt F .f32) :=
  read_blk2_3 t _
theorem iblk2_4 (c : Dev nD) (t : Fin cfg2.N) : (iblk2 V c 4 t : Vec F S256x512 .bf16) = (V c main_v6 : S256x512.Idx → Elt F .bf16) :=
  read_blk2_4 t _
theorem iblk2_5 (c : Dev nD) (t : Fin cfg2.N) : (iblk2 V c 5 t : Vec F S1x256 .f32) = (V c main_v7 : S1x256.Idx → Elt F .f32) :=
  read_blk2_5 t _
theorem iblk2_6 (c : Dev nD) (t : Fin cfg2.N) : (iblk2 V c 6 t : Vec F S128x256 .bf16) = (V c main_v8 : S128x256.Idx → Elt F .bf16) :=
  read_blk2_6 t _
theorem iblk2_7 (c : Dev nD) (t : Fin cfg2.N) : (iblk2 V c 7 t : Vec F S1x128 .f32) = (V c main_v9 : S1x128.Idx → Elt F .f32) :=
  read_blk2_7 t _

/-! ## What a point writes back, and the cover -/

/-- What point t writes back is the body's value on the eight input blocks at t. -/
theorem flushed2 (c : Dev nD) (t : Fin cfg2.N) :
    (dat2 V c).flushed 8 t
      = (k2_pay1 (k2_pay2 (iblk2 V c 0 t) (iblk2 V c 1 t) (iblk2 V c 2 t) (iblk2 V c 3 t) (iblk2 V c 4 t) (iblk2 V c 5 t) (iblk2 V c 6 t) (iblk2 V c 7 t))
          (Scalar.ofBits .f32 0x00000000#32) : S2048x128.Idx → Elt F .f32) := by
  show (cfg2.win 8).cut (grid2.coords t) ((dat2 V c).after 8 t) = _
  rw [after2_8]
  unfold out2_8
  rw [View.canon_unit_zero zero_offsets]
  simp only [View.ld_unit_zero (S := S2048x128) zero_offsets, View.ld_unit_zero (S := S512x256) zero_offsets, View.ld_unit_zero (S := S1x512) zero_offsets, View.ld_unit_zero (S := S256x512) zero_offsets, View.ld_unit_zero (S := S1x256) zero_offsets, View.ld_unit_zero (S := S128x256) zero_offsets, View.ld_unit_zero (S := S1x128) zero_offsets]
  rfl

/-- An index of the result array is in point t's block iff each coordinate is in the block's range on its axis. -/
theorem mem_blk2_8 (t : Fin cfg2.N) (i : S4096x128.Idx) :
    i ∈ ((cfg2.win 8).blk t).view.set ↔ ∀ a : Fin 2, win2_8.index t a * S2048x128.size a ≤ (i a).val ∧ (i a).val < win2_8.index t a * S2048x128.size a + S2048x128.size a := by
  show i ∈ ((View.whole main_v10).slice (win2_8.rect t)).set ↔ _
  rw [View.set_slice_whole, Rect.mem_set_unit]
  exact Iff.rfl

/-- Row r of the result array is in the block of point r / 2048. -/
theorem cover2 (i : S4096x128.Idx) : ∃ t : Fin cfg2.N, (cfg2.win 8).flush t = true ∧ i ∈ ((cfg2.win 8).blk t).view.set := by
  have h0 : (i 0).val < 4096 := (i 0).isLt
  have h1 : (i 1).val < 128 := (i 1).isLt
  have hN : cfg2.N = 2 := N_2
  obtain ⟨t, ht⟩ : ∃ t : Fin cfg2.N, t.val = (i 0).val / 2048 := ⟨⟨(i 0).val / 2048, by rw [hN]; omega⟩, rfl⟩
  refine ⟨t, flush2_8 t, ?_⟩
  obtain ⟨e0, e1⟩ := index2_8 t
  rw [mem_blk2_8]
  intro a
  match a with
  | ⟨0, _⟩ => show win2_8.index t 0 * 2048 ≤ (i 0).val ∧ (i 0).val < win2_8.index t 0 * 2048 + 2048; rw [e0, ht]; omega
  | ⟨1, _⟩ => show win2_8.index t 1 * 128 ≤ (i 1).val ∧ (i 1).val < win2_8.index t 1 * 128 + 128; rw [e1]; omega

end Blocks

/-! ## The arrays the call finds, through the fold -/

section Inputs
variable {F : FTy → Type} [FloatOps F]
variable (m : (ℓ : Loc nD τ sig) → Buf (Elt F) ℓ)

/-- The movie rows are the gather call's result: nothing between writes it. -/
theorem V4_v0 (c : Dev nD) : V4 m c main_v0 = gathered m c := by
  show W4 m c (Proc.devRef .tc main_v0) = _
  refine (StableHlo.after_of_forall_not_mem (b := Proc.devRef .tc main_v0) _ _ (hostOpsB_not_writes main_v0 (by decide))).trans ?_
  refine (W3_of_ne m c main_v0 (by decide)).trans ?_
  refine (StableHlo.after_of_forall_not_mem (b := Proc.devRef .tc main_v0) _ _ (hostOpsA_not_writes main_v0 (by decide))).trans ?_
  unfold W1
  exact Function.update_self ..

/-- The genre vectors are the first call's result: the six host operations do not write it. -/
theorem V4_v3 (c : Dev nD) : V4 m c main_v3 = W3 m c (Proc.devRef .tc main_v3) :=
  StableHlo.after_of_forall_not_mem (b := Proc.devRef .tc main_v3) _ _ (hostOpsB_not_writes main_v3 (by decide))

/-- A weight matrix with its format changed. -/
theorem V4_v4 (c : Dev nD) : (V4 m c main_v4 : S512x256.Idx → Elt F .bf16)
    = (truncf .bf16 (m ((c : Thread nD τ).loc main_arg4) : FVec F S512x256 .f32) bitsLt_bf16_f32 : FVec F S512x256 .bf16) := by
  dsimp only [V4, W4, hostOpsB]
  after_results
  rw [W3_untouched m c main_arg4 (by decide) (by decide) (by decide)]

/-- A weight matrix with its format changed. -/
theorem V4_v6 (c : Dev nD) : (V4 m c main_v6 : S256x512.Idx → Elt F .bf16)
    = (truncf .bf16 (m ((c : Thread nD τ).loc main_arg6) : FVec F S256x512 .f32) bitsLt_bf16_f32 : FVec F S256x512 .bf16) := by
  dsimp only [V4, W4, hostOpsB]
  after_results
  rw [W3_untouched m c main_arg6 (by decide) (by decide) (by decide)]

/-- A weight matrix with its format changed. -/
theorem V4_v8 (c : Dev nD) : (V4 m c main_v8 : S128x256.Idx → Elt F .bf16)
    = (truncf .bf16 (m ((c : Thread nD τ).loc main_arg8) : FVec F S128x256 .f32) bitsLt_bf16_f32 : FVec F S128x256 .bf16) := by
  dsimp only [V4, W4, hostOpsB]
  after_results
  rw [W3_untouched m c main_arg8 (by decide) (by decide) (by decide)]

/-- A bias vector reshaped to one row. -/
theorem V4_v5 (c : Dev nD) : (V4 m c main_v5 : S1x512.Idx → Elt F .f32)
    = shapeCast S1x512 (m ((c : Thread nD τ).loc main_arg5) : S512.Idx → Elt F .f32) shapeCasts_S512_S1x512 := by
  dsimp only [V4, W4, hostOpsB]
  after_results
  rw [W3_untouched m c main_arg5 (by decide) (by decide) (by decide)]
  rfl

/-- A bias vector reshaped to one row. -/
theorem V4_v7 (c : Dev nD) : (V4 m c main_v7 : S1x256.Idx → Elt F .f32)
    = shapeCast S1x256 (m ((c : Thread nD τ).loc main_arg7) : S256.Idx → Elt F .f32) shapeCasts_S256_S1x256 := by
  dsimp only [V4, W4, hostOpsB]
  after_results
  rw [W3_untouched m c main_arg7 (by decide) (by decide) (by decide)]
  rfl

/-- A bias vector reshaped to one row. -/
theorem V4_v9 (c : Dev nD) : (V4 m c main_v9 : S1x128.Idx → Elt F .f32)
    = shapeCast S1x128 (m ((c : Thread nD τ).loc main_arg9) : S128.Idx → Elt F .f32) shapeCasts_S128_S1x128 := by
  dsimp only [V4, W4, hostOpsB]
  after_results
  rw [W3_untouched m c main_arg9 (by decide) (by decide) (by decide)]
  rfl

end Inputs

end Cert.KernelIdeal.KS

end
-- ==== Proof.LibRowDot.lean ====
/-
  Inner products of rows.

  Contracting an `[m, k]` matrix `A` with an `[n, k]` matrix `B` along the last axis of both gives the `[m, n]`
  table of inner products of their rows: entry `(a, b)` is `∑ c, A (a, c) · B (b, c)`, the product `A · Bᵀ`.
  At the ideal values a matrix product accumulated into zero is exactly that sum.
-/
import Idealize.ShloMosaic.PureOps.Ideal
import Idealize.ShloMosaic.PureOps.Ideal.Laws
import Idealize.ShloMosaic.Lib.ValueIdx

noncomputable section

namespace Idealize.ShloMosaic.RowDot

open Idealize.ShloMosaic Idealize.ShloMosaic.ValueIdx

variable {m n : Nat}

/-- A matrix product contracting the last axis of both operands, accumulated into zero, read at `(a, b)`: the inner
    product of row `a` of the left operand with row `b` of the right. `w` is the record's well-formedness, which a
    program states. -/
theorem matmul_rows_apply {k : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims _ _ _) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.RowDot

end
-- ==== Proof.LibKeepdims.lean ====
/-
  Row statistics kept as a column.

  A row-wise reduction of an `[a, b]` matrix gives one number per row; kept as an `[a, 1]` column and broadcast
  back over the `b` columns, every entry of row `p` sees row `p`'s number. These are the three index facts of
  that pattern: the reduced index with the column put back, the vector cast to a column, the column broadcast
  over the columns.
-/
import Idealize.ShloMosaic.PureOps.Ideal
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- The row index `p` with column `k` put back is `(p, k)`. -/
theorem lift_row {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the columns of an `[a, b]` matrix, read at row `p`, is the sum of that row's entries. -/
theorem rowSum_apply {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] ⟨1, ![a]⟩ x acc h hφ hacc (ix1 p) = ∑ k : Fin b, x (ix2 p k) := by
  rw [Ideal.multiReduction_add_single]
  exact Finset.sum_congr rfl fun k _ => congrArg x (lift_row h p k)

/-- An `[a]` vector cast to an `[a, 1]` column reads, at `(p, u)`, the vector at `p`. -/
theorem shapeCast_a_a1_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KValMlp.lean ====
/-
  The dense body's arithmetic at the extended reals.

  The body applies three dense layers to each row — the first on the movie half and the genre half of the joined row
  separately, against the two halves of its coefficient matrix — and divides the rectified last layer by its Euclidean
  norm bounded below. Read at one entry of one row, with every operand real, that is the specification's output row.
-/
import Idealize.ShloMosaic.Lib.ValueIdx
import Idealize.ShloMosaic.Lib.ValueLayout
import Idealize.ShloMosaic.Lib.Pipeline.Value
import proofs.«216483_g44830868636102_cont_8to1c4_483_48_alg».proof.Proof.Gen.KernelIdeal.Skeleton
import proofs.«216483_g44830868636102_cont_8to1c4_483_48_alg».proof.Proof.KValAlg
import proofs.«216483_g44830868636102_cont_8to1c4_483_48_alg».proof.Proof.LibRowDot
import proofs.«216483_g44830868636102_cont_8to1c4_483_48_alg».proof.Proof.LibKeepdims

noncomputable section

open scoped BigOperators

namespace Cert.KVal

open Idealize.ShloMosaic Idealize.ShloMosaic.ValueIdx
open Cert.KernelIdeal

/-! ## The three products, each the inner products of rows -/

theorem mm1_apply (A : FVec Ideal S2048x128 .bf16) (B : FVec Ideal S512x128 .bf16) (r : Fin 2048) (n : Fin 512) :
    matmul dot_S2048x128_S512x128_S2048x512_1_1_0_0_n_n none A B (constant S2048x512 .f32 0x00000000#32) (ix2 r n)
      = ∑ c : Fin 128, A (ix2 r c) * B (ix2 n c) :=
  RowDot.matmul_rows_apply Gen.dot_S2048x128_S512x128_S2048x512_1_1_0_0_n_n_wf none A B r n

theorem mm2_apply (A : FVec Ideal S2048x512 .bf16) (B : FVec Ideal S256x512 .bf16) (r : Fin 2048) (n : Fin 256) :
    matmul dot_S2048x512_S256x512_S2048x256_1_1_0_0_n_n none A B (constant S2048x256 .f32 0x00000000#32) (ix2 r n)
      = ∑ c : Fin 512, A (ix2 r c) * B (ix2 n c) :=
  RowDot.matmul_rows_apply Gen.dot_S2048x512_S256x512_S2048x256_1_1_0_0_n_n_wf none A B r n

theorem mm3_apply (A : FVec Ideal S2048x256 .bf16) (B : FVec Ideal S128x256 .bf16) (r : Fin 2048) (n : Fin 128) :
    matmul dot_S2048x256_S128x256_S2048x128_1_1_0_0_n_n none A B (constant S2048x128 .f32 0x00000000#32) (ix2 r n)
      = ∑ c : Fin 256, A (ix2 r c) * B (ix2 n c) :=
  RowDot.matmul_rows_apply Gen.dot_S2048x256_S128x256_S2048x128_1_1_0_0_n_n_wf none A B r n

/-! ## Offset, rectifier and format change at an index -/

/-- A product plus a row of offsets broadcast over the rows, rectified and narrowed, read at (r, j). -/
theorem relu_bias_apply {m n : Nat} (P : FVec Ideal ⟨2, ![m, n]⟩ .f32) (c : FVec Ideal ⟨2, ![1, n]⟩ .f32)
    (hb : (⟨2, ![1, n]⟩ : Shape).Broadcasts ⟨2, ![m, n]⟩) (hlt : FTy.bits .bf16 < FTy.bits .f32) (r : Fin m) (j : Fin n) :
    (truncf .bf16 (maximumf (addf P (broadcastTo ⟨2, ![m, n]⟩ c hb))
        (broadcast ⟨2, ![m, n]⟩ (Scalar.ofBits (F := Ideal) .f32 0x00000000#32))) hlt : FVec Ideal ⟨2, ![m, n]⟩ .bf16) (ix2 r j)
      = max (P (ix2 r j) + c (ix2 (0 : Fin 1) j)) 0 := by
  rw [truncf_apply, maximumf_apply, addf_apply, broadcastTo_1b_ab_apply, broadcast_apply]
  show max _ (Ideal.ofBits .f32 0x00000000#32) = _
  rw [Ideal.ofBits_zero_f32]

set_option maxRecDepth 65536 in
/-- The three layers before the last rectifier, read at (r, d). -/
theorem k2_pay2_apply (mv : Vec Ideal S2048x128 .f32) (gv : Vec Ideal S2048x128 .bf16)
    (w1 : Vec Ideal S512x256 .bf16) (c1 : Vec Ideal S1x512 .f32) (w2 : Vec Ideal S256x512 .bf16) (c2 : Vec Ideal S1x256 .f32)
    (w3 : Vec Ideal S128x256 .bf16) (c3 : Vec Ideal S1x128 .f32) (r : Fin 2048) (d : Fin 128) :
    Gen.k2_pay2 (F := Ideal) mv gv w1 c1 w2 c2 w3 c3 (ix2 r d)
      = ∑ k : Fin 256,
          Cert.Spec.dense (Cert.Spec.dense (Cert.Spec.xrow (fun k => mv (ix2 r k)) (fun k => gv (ix2 r k)))
              (fun n k => w1 (ix2 n k)) (fun n => c1 (ix2 0 n))) (fun n k => w2 (ix2 n k)) (fun n => c2 (ix2 0 n)) k
            * w3 (ix2 d k)
        + c3 (ix2 0 d) := by
  unfold Gen.k2_pay2
  simp only [shapeCast_self, addf_apply]
  rw [mm3_apply, broadcastTo_1b_ab_apply]
  refine congrArg (· + _) (Finset.sum_congr rfl fun k _ => congrArg (· * _) ?_)
  -- the second layer at (r, k)
  rw [relu_bias_apply, mm2_apply]
  unfold Cert.Spec.dense
  refine congrArg (max · 0) (congrArg (· + _) (Finset.sum_congr rfl fun n _ => congrArg (· * _) ?_))
  -- the first layer at (r, n)
  rw [relu_bias_apply, addf_apply, mm1_apply, mm1_apply, xrow_dot]
  refine congrArg (max · 0) (congrArg (· + _)
    (congrArg₂ (· + ·) (Finset.sum_congr rfl fun j _ => ?_) (Finset.sum_congr rfl fun j _ => ?_)))
  · rw [truncf_apply, slice2_axis1_eq]
  · rw [slice2_axis1_eq]

/-! ## The normalisation -/

/-- A square root at an index is the square root of the element. -/
theorem sqrt_apply {s : Shape} {φ : FTy} (x : FVec Ideal s φ) (i : s.Idx) : sqrt x i = Ideal.sqrt (x i) := rfl

/-- The sum along the columns of a [2048, 128] block, read at row r. -/
theorem rowSum2048_apply (x : FVec Ideal S2048x128 .f32) (r : Fin 2048) :
    multiReduction (F := Ideal) .add [1] S2048 x 0x00000000#32 Gen.reduces_S2048x128_S2048 (.inl rfl) rfl (ix1 r)
      = ∑ k : Fin 128, x (ix2 r k) :=
  Keepdims.rowSum_apply x _ _ _ _ r

/-- The word of one is one. -/
theorem ofBits_one : Ideal.ofBits .f32 0x3F800000#32 = 1 := by
  simp [Ideal.ofBits, Ideal.ieee]
  rw [← EReal.coe_mul, ← EReal.coe_one]
  congr 1
  norm_num

set_option maxRecDepth 65536 in
/-- The rectified last layer divided by its bounded norm, read at (r, d). -/
theorem k2_pay1_apply (v35 : FVec Ideal S2048x128 .f32) (r : Fin 2048) (d : Fin 128) :
    Gen.k2_pay1 (F := Ideal) v35 (Scalar.ofBits .f32 0x00000000#32) (ix2 r d)
      = max (v35 (ix2 r d)) 0
          * Ideal.div 1 (max (Ideal.sqrt (∑ k : Fin 128, max (v35 (ix2 r k)) 0 * max (v35 (ix2 r k)) 0)) Cert.Spec.eps) := by
  unfold Gen.k2_pay1
  simp only [mulf_apply]
  rw [Keepdims.broadcastTo_a1_ab_apply]
  simp only [divf_apply, maximumf_apply, sqrt_apply, broadcast_apply]
  rw [Keepdims.shapeCast_a_a1_apply, rowSum2048_apply]
  simp only [mulf_apply, maximumf_apply, broadcast_apply, Ideal.ofBits_def, Ideal.ofBits_zero_f32]
  rw [ofBits_one]
  rfl

/-! ## The body is the specification's output row -/

/-- Three dense layers of reals are real. -/
theorem real_hidden {x : Fin 256 → EReal} {W1 : Fin 512 → Fin 256 → EReal} {c1 : Fin 512 → EReal}
    {W2 : Fin 256 → Fin 512 → EReal} {c2 : Fin 256 → EReal} {W3 : Fin 128 → Fin 256 → EReal} {c3 : Fin 128 → EReal}
    (hx : ∀ k, ∃ r : ℝ, x k = (r : EReal)) (hW1 : ∀ n k, ∃ r : ℝ, W1 n k = (r : EReal)) (hc1 : ∀ n, ∃ r : ℝ, c1 n = (r : EReal))
    (hW2 : ∀ n k, ∃ r : ℝ, W2 n k = (r : EReal)) (hc2 : ∀ n, ∃ r : ℝ, c2 n = (r : EReal))
    (hW3 : ∀ n k, ∃ r : ℝ, W3 n k = (r : EReal)) (hc3 : ∀ n, ∃ r : ℝ, c3 n = (r : EReal)) (e : Fin 128) :
    ∃ r : ℝ, Cert.Spec.hidden x W1 c1 W2 c2 W3 c3 e = (r : EReal) := by
  unfold Cert.Spec.hidden
  exact real_dense (real_dense (real_dense hx hW1 hc1) hW2 hc2) hW3 hc3 e

/-- THE DENSE BODY IS THE SPECIFICATION'S OUTPUT ROW: with every entry of every operand real, the body's entry (r, d) is
    the three layers applied to the joined row r, divided by the Euclidean norm of the result bounded below. -/
theorem mlp_eq (mv : Vec Ideal S2048x128 .f32) (gv : Vec Ideal S2048x128 .bf16)
    (w1 : Vec Ideal S512x256 .bf16) (c1 : Vec Ideal S1x512 .f32) (w2 : Vec Ideal S256x512 .bf16) (c2 : Vec Ideal S1x256 .f32)
    (w3 : Vec Ideal S128x256 .bf16) (c3 : Vec Ideal S1x128 .f32)
    (hmv : ∀ j, ∃ r : ℝ, mv j = (r : EReal)) (hgv : ∀ j, ∃ r : ℝ, gv j = (r : EReal))
    (hw1 : ∀ j, ∃ r : ℝ, w1 j = (r : EReal)) (hc1 : ∀ j, ∃ r : ℝ, c1 j = (r : EReal))
    (hw2 : ∀ j, ∃ r : ℝ, w2 j = (r : EReal)) (hc2 : ∀ j, ∃ r : ℝ, c2 j = (r : EReal))
    (hw3 : ∀ j, ∃ r : ℝ, w3 j = (r : EReal)) (hc3 : ∀ j, ∃ r : ℝ, c3 j = (r : EReal))
    (r : Fin 2048) (d : Fin 128) :
    Gen.k2_pay1 (F := Ideal) (Gen.k2_pay2 (F := Ideal) mv gv w1 c1 w2 c2 w3 c3) (Scalar.ofBits .f32 0x00000000#32) (ix2 r d)
      = Cert.Spec.outRow (Cert.Spec.xrow (fun k => mv (ix2 r k)) (fun k => gv (ix2 r k)))
          (fun n k => w1 (ix2 n k)) (fun n => c1 (ix2 0 n)) (fun n k => w2 (ix2 n k)) (fun n => c2 (ix2 0 n))
          (fun n k => w3 (ix2 n k)) (fun n => c3 (ix2 0 n)) d := by
  rw [k2_pay1_apply]
  have hv : ∀ e : Fin 128, max (Gen.k2_pay2 (F := Ideal) mv gv w1 c1 w2 c2 w3 c3 (ix2 r e)) 0
      = Cert.Spec.hidden (Cert.Spec.xrow (fun k => mv (ix2 r k)) (fun k => gv (ix2 r k)))
          (fun n k => w1 (ix2 n k)) (fun n => c1 (ix2 0 n)) (fun n k => w2 (ix2 n k)) (fun n => c2 (ix2 0 n))
          (fun n k => w3 (ix2 n k)) (fun n => c3 (ix2 0 n)) e := by
    intro e
    rw [k2_pay2_apply]
    rfl
  rw [hv d, Finset.sum_congr rfl fun k _ => by rw [hv k]]
  unfold Cert.Spec.outRow
  have hh := real_hidden (real_xrow (fun k => hmv (ix2 r k)) (fun k => hgv (ix2 r k)))
    (fun n k => hw1 (ix2 n k)) (fun n => hc1 (ix2 0 n)) (fun n k => hw2 (ix2 n k)) (fun n => hc2 (ix2 0 n))
    (fun n k => hw3 (ix2 n k)) (fun n => hc3 (ix2 0 n))
  obtain ⟨m, hm, he⟩ := norm_pos (real_sum Finset.univ _ fun e => real_mul (hh e) (hh e))
  exact mul_div_one ⟨m, hm, he⟩ _

end Cert.KVal

end
-- ==== Proof.KBridgeOut.lean ====
/-
  THE KERNEL'S RESULT ARRAY IS THE SPECIFICATION. At the extended reals, for genre ids at most 31 and real entries in
  every float argument, the array the second TensorCore call leaves is, entry (b, d), the specification's output row of
  batch row b at d. Row b lies in block t = b / 2048 at row r = b − 2048 t; what point t writes back is the dense body's
  value on the eight input blocks at t, which at (r, d) is the three layers and the normalisation applied to the joined
  row r of the two moving blocks (the dense body's value lemma); the movie block's row r is the gathered row b, the
  genre block's row r is row b of the first call's result, the genre vector of b; the weights are the arguments (a
  change of format is the identity on the extended reals) and the bias rows are the argument vectors. The two blocks
  cover the array.
-/
import proofs.«216483_g44830868636102_cont_8to1c4_483_48_alg».proof.Defs
import proofs.«216483_g44830868636102_cont_8to1c4_483_48_alg».proof.Proof.KSegs
import proofs.«216483_g44830868636102_cont_8to1c4_483_48_alg».proof.Proof.KBridgeArgs
import proofs.«216483_g44830868636102_cont_8to1c4_483_48_alg».proof.Proof.KBridgeGenre
import proofs.«216483_g44830868636102_cont_8to1c4_483_48_alg».proof.Proof.KBridgeIn
import proofs.«216483_g44830868636102_cont_8to1c4_483_48_alg».proof.Proof.KValMlp
import proofs.«216483_g44830868636102_cont_8to1c4_483_48_alg».proof.Proof.PreDecode
import Idealize.ShloMosaic.Lib.Pipeline.Value
import Idealize.ShloMosaic.Lib.ValueIdx
import Idealize.ShloMosaic.Lib.ValueLayout

set_option maxRecDepth 16384

noncomputable section

namespace Cert.KernelIdeal.KS

open Cert.KernelIdeal Cert.KernelIdeal.Gen
open Idealize.ShloMosaic Idealize.ShloMosaic.TcCoe Idealize.ShloMosaic.ValueIdx
open Idealize.ShloMosaic.SparseCore.Cfg (HIx)
open Idealize.ShloMosaic.Pipeline (Dat Cfg Window)

/-! ## One entry of a block, over variables -/

/-- Entry (r, d) of the dense body's value on eight blocks whose rows and entries are the specification's operands
    for batch row b is the specification's result at (b, d). -/
theorem row_eq (mv : Vec Ideal S2048x128 .f32) (gv : Vec Ideal S2048x128 .bf16)
    (w1 : Vec Ideal S512x256 .bf16) (c1 : Vec Ideal S1x512 .f32) (w2 : Vec Ideal S256x512 .bf16) (c2 : Vec Ideal S1x256 .f32)
    (w3 : Vec Ideal S128x256 .bf16) (c3 : Vec Ideal S1x128 .f32)
    (ids : Cert.Spec.IVct 4096) (gen : Cert.Spec.IMat 4096 8) (E : Cert.Spec.Mat 100000 128) (Ge : Cert.Spec.Mat 32 128)
    (W1 : Cert.Spec.Mat 512 256) (b1 : Cert.Spec.Vct 512) (W2 : Cert.Spec.Mat 256 512) (b2 : Cert.Spec.Vct 256)
    (W3 : Cert.Spec.Mat 128 256) (b3 : Cert.Spec.Vct 128)
    (hmv : ∀ j, ∃ r : ℝ, mv j = (r : EReal)) (hgv : ∀ j, ∃ r : ℝ, gv j = (r : EReal))
    (hw1 : ∀ j, ∃ r : ℝ, w1 j = (r : EReal)) (hc1 : ∀ j, ∃ r : ℝ, c1 j = (r : EReal))
    (hw2 : ∀ j, ∃ r : ℝ, w2 j = (r : EReal)) (hc2 : ∀ j, ∃ r : ℝ, c2 j = (r : EReal))
    (hw3 : ∀ j, ∃ r : ℝ, w3 j = (r : EReal)) (hc3 : ∀ j, ∃ r : ℝ, c3 j = (r : EReal))
    (r : Fin 2048) (b : Fin 4096) (d : Fin 128)
    (emv : ∀ k, mv (ix2 r k) = Cert.Spec.movieVec ids E b k) (egv : ∀ k, gv (ix2 r k) = Cert.Spec.genreVec gen Ge b k)
    (ew1 : ∀ n k, w1 (ix2 n k) = W1 (ix2 n k)) (ec1 : ∀ n, c1 (ix2 (0 : Fin 1) n) = b1 (ix1 n))
    (ew2 : ∀ n k, w2 (ix2 n k) = W2 (ix2 n k)) (ec2 : ∀ n, c2 (ix2 (0 : Fin 1) n) = b2 (ix1 n))
    (ew3 : ∀ n k, w3 (ix2 n k) = W3 (ix2 n k)) (ec3 : ∀ n, c3 (ix2 (0 : Fin 1) n) = b3 (ix1 n)) :
    k2_pay1 (F := Ideal) (k2_pay2 (F := Ideal) mv gv w1 c1 w2 c2 w3 c3) (Scalar.ofBits .f32 0x00000000#32) (ix2 r d)
      = Cert.Spec.out ids gen E Ge W1 b1 W2 b2 W3 b3 (ix2 b d) := by
  rw [Cert.KVal.mlp_eq mv gv w1 c1 w2 c2 w3 c3 hmv hgv hw1 hc1 hw2 hc2 hw3 hc3 r d, Cert.Spec.out_apply]
  rw [show (fun k => mv (ix2 r k)) = Cert.Spec.movieVec ids E b from funext emv,
    show (fun k => gv (ix2 r k)) = Cert.Spec.genreVec gen Ge b from funext egv,
    show (fun n k => w1 (ix2 n k)) = (fun n k => W1 (ix2 n k)) from funext fun n => funext (ew1 n),
    show (fun n => c1 (ix2 (0 : Fin 1) n)) = (fun n => b1 (ix1 n)) from funext ec1,
    show (fun n k => w2 (ix2 n k)) = (fun n k => W2 (ix2 n k)) from funext fun n => funext (ew2 n),
    show (fun n => c2 (ix2 (0 : Fin 1) n)) = (fun n => b2 (ix1 n)) from funext ec2,
    show (fun n k => w3 (ix2 n k)) = (fun n k => W3 (ix2 n k)) from funext fun n => funext (ew3 n),
    show (fun n => c3 (ix2 (0 : Fin 1) n)) = (fun n => b3 (ix1 n)) from funext ec3]

/-- A vector reshaped to one row is real where the vector is, and reads the vector. -/
theorem row_apply {a : ℕ} (x : (⟨1, ![a]⟩ : Shape).Idx → EReal) (h : (⟨1, ![a]⟩ : Shape).ShapeCasts ⟨2, ![1, a]⟩) (n : Fin a) :
    shapeCast ⟨2, ![1, a]⟩ x h (ix2 (0 : Fin 1) n) = x (ix1 n) := shapeCast_a_1a_apply x h 0 n
theorem row_real {a : ℕ} (x : (⟨1, ![a]⟩ : Shape).Idx → EReal) (h : (⟨1, ![a]⟩ : Shape).ShapeCasts ⟨2, ![1, a]⟩)
    (hx : ∀ j, ∃ r : ℝ, x j = (r : EReal)) (j : (⟨2, ![1, a]⟩ : Shape).Idx) : ∃ r : ℝ, shapeCast ⟨2, ![1, a]⟩ x h j = (r : EReal) := by
  obtain ⟨u, n, rfl⟩ : ∃ (u : Fin 1) (n : Fin a), j = ix2 u n := ⟨j 0, j 1, eq_ix2 j⟩
  rw [shapeCast_a_1a_apply x h u n]
  exact hx _

section Ideal
variable (m : (ℓ : Loc nD τ sig) → Buf (Elt Ideal) ℓ)

/-- The specification's result on the launch memory's ten argument arrays. -/
abbrev specOut (c : Dev nD) : S4096x128.Idx → EReal :=
  Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## The two moving blocks at a point -/

/-- Row r of the movie block at point t is the specification's movie vector of batch row 2048 t + r. -/
theorem movie_block_apply (c : Dev nD) (t : Fin cfg2.N) (r : Fin 2048) (b : Fin 4096) (hb : b.val = 2048 * t.val + r.val) (k : Fin 128) :
    (iblk2 (V4 m) c 0 t : Vec Ideal S2048x128 .f32) (ix2 r k)
      = Cert.Spec.movieVec (m ((c : Thread nD τ).loc main_arg0)) (m ((c : Thread nD τ).loc main_arg2)) b k := by
  rw [iblk2_0_apply (V4 m) c t (ix2 r k) (ix2 b k) hb rfl, V4_v0]
  rfl

theorem movie_block_real (c : Dev nD) (h2 : ∀ j, ∃ r : ℝ, m ((c : Thread nD τ).loc main_arg2) j = (r : EReal)) (t : Fin cfg2.N) (j : S2048x128.Idx) :
    ∃ r : ℝ, (iblk2 (V4 m) c 0 t : Vec Ideal S2048x128 .f32) j = (r : EReal) := by
  have hN : cfg2.N = 2 := N_2
  have ht : t.val < 2 := by have := t.isLt; omega
  have hj : (j 0).val < 2048 := (j 0).isLt
  rw [iblk2_0_apply (V4 m) c t j (ix2 ⟨2048 * t.val + (j 0).val, by omega⟩ (j 1)) rfl rfl, V4_v0]
  exact h2 _

/-- Row r of the genre block at point t is the specification's genre vector of batch row 2048 t + r. -/
theorem genre_block_apply (c : Dev nD) (hgen : ∀ j, (m ((c : Thread nD τ).loc main_arg1) j).toNat ≤ 31) (h3 : ∀ j, ∃ r : ℝ, m ((c : Thread nD τ).loc main_arg3) j = (r : EReal))
    (t : Fin cfg2.N) (r : Fin 2048) (b : Fin 4096) (hb : b.val = 2048 * t.val + r.val) (k : Fin 128) :
    (iblk2 (V4 m) c 1 t : Vec Ideal S2048x128 .bf16) (ix2 r k)
      = Cert.Spec.genreVec (m ((c : Thread nD τ).loc main_arg1)) (m ((c : Thread nD τ).loc main_arg3)) b k := by
  rw [iblk2_1_apply (V4 m) c t (ix2 r k) (ix2 b k) hb rfl, V4_v3, W3_v3 m c hgen h3]

theorem genre_block_real (c : Dev nD) (hgen : ∀ j, (m ((c : Thread nD τ).loc main_arg1) j).toNat ≤ 31) (h3 : ∀ j, ∃ r : ℝ, m ((c : Thread nD τ).loc main_arg3) j = (r : EReal))
    (t : Fin cfg2.N) (j : S2048x128.Idx) :
    ∃ r : ℝ, (iblk2 (V4 m) c 1 t : Vec Ideal S2048x128 .bf16) j = (r : EReal) := by
  have hN : cfg2.N = 2 := N_2
  have ht : t.val < 2 := by have := t.isLt; omega
  have hj : (j 0).val < 2048 := (j 0).isLt
  rw [iblk2_1_apply (V4 m) c t j (ix2 ⟨2048 * t.val + (j 0).val, by omega⟩ (j 1)) rfl rfl, V4_v3, W3_v3 m c hgen h3]
  exact genreArr_real m c h3 _

/-! ## What a point writes back is its block of the specification's result -/

theorem flushed2_spec (c : Dev nD) (hids : ∀ j, (m ((c : Thread nD τ).loc main_arg0) j).toNat ≤ 99999)
    (hgen : ∀ j, (m ((c : Thread nD τ).loc main_arg1) j).toNat ≤ 31)
    (h2 : ∀ j, ∃ r : ℝ, m ((c : Thread nD τ).loc main_arg2) j = (r : EReal)) (h3 : ∀ j, ∃ r : ℝ, m ((c : Thread nD τ).loc main_arg3) j = (r : EReal)) (h4 : ∀ j, ∃ r : ℝ, m ((c : Thread nD τ).loc main_arg4) j = (r : EReal)) (h5 : ∀ j, ∃ r : ℝ, m ((c : Thread nD τ).loc main_arg5) j = (r : EReal))
    (h6 : ∀ j, ∃ r : ℝ, m ((c : Thread nD τ).loc main_arg6) j = (r : EReal)) (h7 : ∀ j, ∃ r : ℝ, m ((c : Thread nD τ).loc main_arg7) j = (r : EReal)) (h8 : ∀ j, ∃ r : ℝ, m ((c : Thread nD τ).loc main_arg8) j = (r : EReal)) (h9 : ∀ j, ∃ r : ℝ, m ((c : Thread nD τ).loc main_arg9) j = (r : EReal)) (t : Fin cfg2.N) :
    (dat2 (V4 m) c).flushed 8 t = ((cfg2.win 8).blk t).view.read (Elt Ideal) (specOut m c) := by
  rw [flushed2]
  have hN : cfg2.N = 2 := N_2
  have ht : t.val < 2 := by have := t.isLt; omega
  funext x
  obtain ⟨r, d, rfl⟩ : ∃ (r : Fin 2048) (d : Fin 128), x = ix2 r d := ⟨x 0, x 1, eq_ix2 x⟩
  have hr : r.val < 2048 := r.isLt
  have hb : 2048 * t.val + r.val < 4096 := by omega
  refine Eq.trans ?_ (read_blk2_8 (F := Ideal) t (specOut m c) (ix2 r d) (ix2 ⟨2048 * t.val + r.val, hb⟩ d) rfl rfl).symm
  refine row_eq _ _ _ _ _ _ _ _ _ _ _ _ _ _ _ _ _ _
    (movie_block_real m c h2 t) (genre_block_real m c hgen h3 t) ?_ ?_ ?_ ?_ ?_ ?_ r ⟨2048 * t.val + r.val, hb⟩ d
    (movie_block_apply m c t r _ rfl) (genre_block_apply m c hgen h3 t r _ rfl) ?_ ?_ ?_ ?_ ?_ ?_
  · intro j; rw [iblk2_2, V4_v4, truncf_apply]; exact h4 j
  · rw [iblk2_3, V4_v5]; exact row_real _ _ h5
  · intro j; rw [iblk2_4, V4_v6, truncf_apply]; exact h6 j
  · rw [iblk2_5, V4_v7]; exact row_real _ _ h7
  · intro j; rw [iblk2_6, V4_v8, truncf_apply]; exact h8 j
  · rw [iblk2_7, V4_v9]; exact row_real _ _ h9
  · intro n k; rw [iblk2_2, V4_v4, truncf_apply]
  · intro n; rw [iblk2_3, V4_v5]; exact row_apply _ _ n
  · intro n k; rw [iblk2_4, V4_v6, truncf_apply]
  · intro n; rw [iblk2_5, V4_v7]; exact row_apply _ _ n
  · intro n k; rw [iblk2_6, V4_v8, truncf_apply]
  · intro n; rw [iblk2_7, V4_v9]; exact row_apply _ _ n

/-! ## The result array -/

/-- THE RESULT ARRAY at the end of the program is the specification's result on the launch memory's arguments. -/
theorem out_eq (c : Dev nD) (hids : ∀ j, (m ((c : Thread nD τ).loc main_arg0) j).toNat ≤ 99999)
    (hgen : ∀ j, (m ((c : Thread nD τ).loc main_arg1) j).toNat ≤ 31)
    (h2 : ∀ j, ∃ r : ℝ, m ((c : Thread nD τ).loc main_arg2) j = (r : EReal)) (h3 : ∀ j, ∃ r : ℝ, m ((c : Thread nD τ).loc main_arg3) j = (r : EReal)) (h4 : ∀ j, ∃ r : ℝ, m ((c : Thread nD τ).loc main_arg4) j = (r : EReal)) (h5 : ∀ j, ∃ r : ℝ, m ((c : Thread nD τ).loc main_arg5) j = (r : EReal))
    (h6 : ∀ j, ∃ r : ℝ, m ((c : Thread nD τ).loc main_arg6) j = (r : EReal)) (h7 : ∀ j, ∃ r : ℝ, m ((c : Thread nD τ).loc main_arg7) j = (r : EReal)) (h8 : ∀ j, ∃ r : ℝ, m ((c : Thread nD τ).loc main_arg8) j = (r : EReal)) (h9 : ∀ j, ∃ r : ℝ, m ((c : Thread nD τ).loc main_arg9) j = (r : EReal)) :
    (W5 m c (Proc.devRef .tc main_v10) : S4096x128.Idx → EReal) = specOut m c :=
  (W5_arr m c 8).trans
    ((dat2 (V4 m) c).arrAt_eq_of_cover 8 (specOut m c)
      (fun t _ => flushed2_spec m c hids hgen h2 h3 h4 h5 h6 h7 h8 h9 t) cover2)

/-- The same from the program's precondition. -/
theorem out_eq_of_pre (hpre : Cert.Pre_KernelIdeal m) (c : Dev nD) :
    (W5 m c (Proc.devRef .tc main_v10) : S4096x128.Idx → EReal) = specOut m c :=
  out_eq m c
    (Cert.PreDecode.ids_le _ _ _ _ _ _ _ _ _ _ (hpre c)) (Cert.PreDecode.genres_le _ _ _ _ _ _ _ _ _ _ (hpre c))
    (Cert.PreDecode.real2 _ _ _ _ _ _ _ _ _ _ (hpre c)) (Cert.PreDecode.real3 _ _ _ _ _ _ _ _ _ _ (hpre c))
    (Cert.PreDecode.real4 _ _ _ _ _ _ _ _ _ _ (hpre c)) (Cert.PreDecode.real5 _ _ _ _ _ _ _ _ _ _ (hpre c))
    (Cert.PreDecode.real6 _ _ _ _ _ _ _ _ _ _ (hpre c)) (Cert.PreDecode.real7 _ _ _ _ _ _ _ _ _ _ (hpre c))
    (Cert.PreDecode.real8 _ _ _ _ _ _ _ _ _ _ (hpre c)) (Cert.PreDecode.real9 _ _ _ _ _ _ _ _ _ _ (hpre c))

end Ideal

end Cert.KernelIdeal.KS

end
-- ==== Proof.WSetup.lean ====
/-
  The program as the launch theorem of a SparseCore program sees it, and the algebra of ghost state its proof uses:
  the handshakes between the TensorCore, the sequencers and the tiles (a rounds library over numbered duties), the
  staging cells of the two TensorCore pipelines (a rounds library over unnamed duties), and the counters of the
  transfers a tile starts and waits for by itself. Generic in the float instance.
-/
import proofs.«216483_g44830868636102_cont_8to1c4_483_48_alg».proof.Kernel
import proofs.«216483_g44830868636102_cont_8to1c4_483_48_alg».proof.Proof.Gen.Kernel
import proofs.«216483_g44830868636102_cont_8to1c4_483_48_alg».proof.Proof.Gen.Kernel.Skeleton
import proofs.«216483_g44830868636102_cont_8to1c4_483_48_alg».proof.Proof.Gen.Kernel.Launch
import proofs.«216483_g44830868636102_cont_8to1c4_483_48_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.KS

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra of ghost state -/

abbrev UH : Type := URounds (GSem nD τ sig) ℕ
abbrev UP : Type := URounds (GSem nD τ sig) Unit
abbrev UU : Type := UH × (UP × Counters)

/-- The handshakes' rounds library is the left factor; -/
abbrev EH : Emb UH (MT nD τ sig (HIx 1) (Elt F) ℕ UU ℕ) := embL
/-- the pipelines' staging cells live in the left factor of the right factor; the counters are found by instance. -/
abbrev EP : Emb UP (MT nD τ sig (HIx 1) (Elt F) ℕ UU ℕ) := (Emb.inl : Emb UP (UP × Counters)).trans embR

/-! ## The arrays of the gather call, as the TensorCore names them -/

abbrev idsLoc (d : Dev nD) : Loc nD τ sig := (SparseCore.T d).loc main_arg0
abbrev tabLoc (d : Dev nD) : Loc nD τ sig := (SparseCore.T d).loc main_arg2
abbrev outLoc (d : Dev nD) : Loc nD τ sig := (SparseCore.T d).loc main_v0

end Cert.Kernel.KS

end
-- ==== Proof.WPhi.lean ====
/-
  The invariant a pipeline's body keeps between grid points when it touches nothing but its windows' staging buffers:
  the core's scoped buffers that are no staging buffer of the pipeline, each at some contents, and the generator
  register at some state. Stated at this program's machine algebra, for any pipeline's windows.
-/
import proofs.«216483_g44830868636102_cont_8to1c4_483_48_alg».proof.Proof.WSetup
import Idealize.ShloMosaic.Lib.Pipeline.Frame

noncomputable section

namespace Cert.Kernel.KS

open Cert.Kernel
open Idealize.ShloMosaic Idealize.ShloMosaic.TcCoe
open Idealize.ShloMosaic.SparseCore.Cfg (HIx)
open Idealize.SL Idealize.SL.BI
open scoped Idealize.SL.BI
open Idealize.SL.BI.BIBase Idealize.SL.Sem

variable {F : FTy → Type}

/-- The scoped rest of the core and its generator register, both at anything. -/
def ΦAH {gr W : Nat} (win : Fin W → Pipeline.WinSpec sig gr) (c : Dev nD) : sProp (MT nD τ sig (HIx 1) (Elt F) ℕ UU ℕ) :=
  iprop(Pipeline.scopedRest (Ix := HIx 1) (Name := ℕ) (U := UU) (Lvl := ℕ) (Val := Elt F) win c ∗ ∃ r, prngReg c r)

end Cert.Kernel.KS

end
-- ==== Proof.WRegion1.lean ====
/-
  THE FIRST TENSORCORE CALL'S REGION, its class-A half, at a parameter V: the TensorCore's buffer contents when the
  region is entered. The call has one grid point and three windows: the transposed index table [8, 4096] (window 0,
  input), the embedding table in bf16 [32, 128] (window 1, input) and the result [4096, 128] in bf16 (window 2,
  output). Each window's block at a point is read off its array as the region finds it; the body loads the two
  input buffers whole, loads the output buffer (a value it does not use) and stores one value over the whole output
  buffer, so the output's buffer after the body is that one stored piece, a function of the two input blocks. The
  proof data says so, with the class's invariant (the scoped rest and the generator register, untouched), full
  shares and nothing owed, and the body obligation follows at every point. Generic in the float instance.
-/
import proofs.«216483_g44830868636102_cont_8to1c4_483_48_alg».proof.Proof.WSetup
import proofs.«216483_g44830868636102_cont_8to1c4_483_48_alg».proof.Proof.WPhi
import Idealize.ShloMosaic.Lib.Pipeline.FrameBody
import Idealize.ShloMosaic.Lib.Pipeline.FrameSuffix
import Idealize.ShloMosaic.Lib.Tactic

-- membership in a rectangle of large extents: the structural look recurses once per coordinate of the long axes
set_option maxRecDepth 16384

noncomputable section

namespace Cert.Kernel.KS

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region1
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is V's and whose body leaves the block in place: unfetched, the index has not moved; the window
    is uncut and never idle. -/
theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's, likewise. -/
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S8x4096 := Rect.unit (s := S8x4096) ![0, 0] S8x4096.size inb_S8x4096_S8x4096_0_0
abbrev r1_1 : Rect S32x128 := Rect.unit (s := S32x128) ![0, 0] S32x128.size inb_S32x128_S32x128_0_0
abbrev r1_2 : Rect S4096x128 := Rect.unit (s := S4096x128) ![0, 0] S4096x128.size inb_S4096x128_S4096x128_0_0

/-! ## What the body leaves in the output window's buffer -/

/-- Window 2's staging buffer after the body, from the input windows' blocks: its one store as a piece. -/
def out1_2 (x0 : Vec F S8x4096 .i32) (x1 : Vec F S32x128 .bf16) : Vec F S4096x128 .bf16 :=
  View.canon [⟨r1_2, k1_pay1 (k1_pay2 (View.ld x0 r1_0)) (k1_pay3 (View.ld x1 r1_1))⟩]

/-- The store tiles the buffer (checked by evaluation), so it covers it. -/
theorem cover1_2 (p0 : Vec F S4096x128 .bf16) (y : S4096x128.Idx) :
    ∃ pc ∈ ([⟨r1_2, p0⟩] : List (View.Piece (Elt F) S4096x128 .bf16)), y ∈ pc.1.set :=
  View.cover_of_tiled [⟨r1_2, p0⟩] S4096x128.size (by rfl) y

/-! ## The body's triple -/

set_option maxHeartbeats 1000000 in
/-- The kernel body on whole staging memrefs, the inputs' at read contents and the output's at anything, runs to
    the continuation holding the inputs' as they were and the output's at out1_2 of the inputs': the printed
    functions are their skeletons, which are run statement by statement, through the part call. -/
theorem sound_kernel1 (c : Dev nD) (E : Set ℕ) (i : grid1.Coords) (arg1 : Memref sig .tc .vmem S8x4096 .i32) (harg1 : arg1.IsWhole)
    (arg2 : Memref sig .tc .vmem S32x128 .bf16) (harg2 : arg2.IsWhole) (arg3 : Memref sig .tc .vmem S4096x128 .bf16) (harg3 : arg3.IsWhole)
    (x0 : Vec F S8x4096 .i32) (x1 : Vec F S32x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__genre_body i arg1 harg1 arg2 harg2 arg3 harg3) K := by
  simp only [cc1__genre_body_eq_skeleton]; unfold cc1__genre_body_skel
  simp only [k1_part1_eq_skeleton]; unfold k1_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-! ## The pipeline's proof data -/

/-- The proof data of the first pipeline on core c: the arrays as the region finds them; after the body at point t
    each input's buffer at its block and the output's at out1_2 of the input blocks; the class's invariant (the
    scoped rest and the generator register, untouched: the shared invariant); nothing owed; full shares. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := ΦAH spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt (none : HIx 1) t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt (none : HIx 1) t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's owed duties pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt (none : HIx 1) t.succ = (dat1 V c).owesAt (none : HIx 1) t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none (none : HIx 1) Set.univ := fun t => by
  rw [bigSep_W1, bigSep_W1]
  exact sound_body1 V c t

end Region1

end Cert.Kernel.KS

end
-- ==== Proof.WRegion2.lean ====
/-
  The second TensorCore call (the three dense layers and the normalisation) as a pipeline over two grid points of 2048
  batch rows each: what each window's staging buffer holds when the body runs (its block of the array the region found),
  what the body leaves in the output's buffer (the body's arithmetic of the eight input blocks), the body's triple, and
  the pipeline's proof data with its body obligation. Stated at the buffer contents `V` the region is entered with;
  generic in the float instance.
-/
import proofs.«216483_g44830868636102_cont_8to1c4_483_48_alg».proof.Proof.WSetup
import proofs.«216483_g44830868636102_cont_8to1c4_483_48_alg».proof.Proof.WPhi
import Idealize.ShloMosaic.Lib.Pipeline.FrameBody
import Idealize.ShloMosaic.Lib.Pipeline.FrameSuffix
import Idealize.ShloMosaic.Lib.Tactic

-- membership in a rectangle of these extents recurses once per coordinate of the long axes
set_option maxRecDepth 16384

noncomputable section

namespace Cert.Kernel.KS

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the block
    index has not moved). -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the block
    index has not moved). -/
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the block
    index has not moved). -/
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the block
    index has not moved). -/
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the block
    index has not moved). -/
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, the block
    index has not moved). -/
theorem before2_5_of {c : Dev nD} (dat : Dat τ (Elt F) (HIx 1) ℕ UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (unfetched, the block
    index has not moved). -/
theorem before2_6_of {c : Dev nD} (dat : Dat τ (Elt F) (HIx 1) ℕ UU ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (unfetched, the block
    index has not moved). -/
theorem before2_7_of {c : Dev nD} (dat : Dat τ (Elt F) (HIx 1) ℕ UU ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole staging buffer -/

abbrev r2_0 : Rect S2048x128 := Rect.unit (s := S2048x128) ![0, 0] S2048x128.size inb_S2048x128_S2048x128_0_0
abbrev r2_1 : Rect S2048x128 := Rect.unit (s := S2048x128) ![0, 0] S2048x128.size inb_S2048x128_S2048x128_0_0
abbrev r2_2 : Rect S512x256 := Rect.unit (s := S512x256) ![0, 0] S512x256.size inb_S512x256_S512x256_0_0
abbrev r2_3 : Rect S1x512 := Rect.unit (s := S1x512) ![0, 0] S1x512.size inb_S1x512_S1x512_0_0
abbrev r2_4 : Rect S256x512 := Rect.unit (s := S256x512) ![0, 0] S256x512.size inb_S256x512_S256x512_0_0
abbrev r2_5 : Rect S1x256 := Rect.unit (s := S1x256) ![0, 0] S1x256.size inb_S1x256_S1x256_0_0
abbrev r2_6 : Rect S128x256 := Rect.unit (s := S128x256) ![0, 0] S128x256.size inb_S128x256_S128x256_0_0
abbrev r2_7 : Rect S1x128 := Rect.unit (s := S1x128) ![0, 0] S1x128.size inb_S1x128_S1x128_0_0
abbrev r2_8 : Rect S2048x128 := Rect.unit (s := S2048x128) ![0, 0] S2048x128.size inb_S2048x128_S2048x128_0_0

/-! ## What the body leaves in the output window's buffer -/

/-- The output's staging buffer after the body, from the input windows' blocks: its one store, of the body's arithmetic
    of the eight loaded blocks. -/
def out2_8 (x0 : Vec F S2048x128 .f32) (x1 : Vec F S2048x128 .bf16) (x2 : Vec F S512x256 .bf16) (x3 : Vec F S1x512 .f32) (x4 : Vec F S256x512 .bf16) (x5 : Vec F S1x256 .f32) (x6 : Vec F S128x256 .bf16) (x7 : Vec F S1x128 .f32) : Vec F S2048x128 .f32 :=
  View.canon [⟨r2_8, k2_pay1 (k2_pay2 (View.ld x0 r2_0) (View.ld x1 r2_1) (View.ld x2 r2_2) (View.ld x3 r2_3) (View.ld x4 r2_4) (View.ld x5 r2_5) (View.ld x6 r2_6) (View.ld x7 r2_7)) (Scalar.ofBits .f32 0x00000000#32)⟩]

/-- The store is of the whole buffer, so it covers it. -/
theorem cover2_8 (p0 : Vec F S2048x128 .f32) (y : S2048x128.Idx) :
    ∃ pc ∈ ([⟨r2_8, p0⟩] : List (View.Piece (Elt F) S2048x128 .f32)), y ∈ pc.1.set :=
  View.cover_of_tiled [⟨r2_8, p0⟩] S2048x128.size (by rfl) y

/-! ## The body's triple -/

set_option maxHeartbeats 1000000 in
/-- The body on whole staging memrefs, the inputs' at contents `x0 … x7` and the output's at anything, runs to the
    continuation holding the inputs' as they were and the output's at `out2_8` of them. -/
theorem sound_kernel2 (c : Dev nD) (E : Set ℕ) (i : grid2.Coords)
    (arg1 : Memref sig .tc .vmem S2048x128 .f32) (harg1 : arg1.IsWhole)
    (arg2 : Memref sig .tc .vmem S2048x128 .bf16) (harg2 : arg2.IsWhole)
    (arg3 : Memref sig .tc .vmem S512x256 .bf16) (harg3 : arg3.IsWhole)
    (arg4 : Memref sig .tc .vmem S1x512 .f32) (harg4 : arg4.IsWhole)
    (arg5 : Memref sig .tc .vmem S256x512 .bf16) (harg5 : arg5.IsWhole)
    (arg6 : Memref sig .tc .vmem S1x256 .f32) (harg6 : arg6.IsWhole)
    (arg7 : Memref sig .tc .vmem S128x256 .bf16) (harg7 : arg7.IsWhole)
    (arg8 : Memref sig .tc .vmem S1x128 .f32) (harg8 : arg8.IsWhole)
    (arg9 : Memref sig .tc .vmem S2048x128 .f32) (harg9 : arg9.IsWhole)
    (x0 : Vec F S2048x128 .f32) (x1 : Vec F S2048x128 .bf16) (x2 : Vec F S512x256 .bf16) (x3 : Vec F S1x512 .f32) (x4 : Vec F S256x512 .bf16) (x5 : Vec F S1x256 .f32) (x6 : Vec F S128x256 .bf16) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E
          (cc2__mlp_body i arg1 harg1 arg2 harg2 arg3 harg3 arg4 harg4 arg5 harg5 arg6 harg6 arg7 harg7 arg8 harg8 arg9 harg9) K := by
  simp only [cc2__mlp_body_eq_skeleton]; unfold cc2__mlp_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2_8 _)

/-! ## The pipeline's proof data -/

/-- The proof data of the pipeline on core `c`: the arrays as the region finds them; after the body at point `t` each
    input's buffer at its block and the output's at `out2_8` of the input blocks; the invariant the scoped rest and the
    generator register, untouched; nothing owed; full shares. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := ΦAH spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt (none : HIx 1) t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt (none : HIx 1) t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so `sound_kernel2` applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt (none : HIx 1) t.succ = (dat2 V c).owesAt (none : HIx 1) t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none (none : HIx 1) Set.univ := fun t => by
  rw [bigSep_W2, bigSep_W2]
  exact sound_body2 V c t

end Region

end Cert.Kernel.KS

end
-- ==== Proof.WGatherPay.lean ====
/-
  The gather call of the program: what its launch hands each SparseCore and each tile, and what comes back.

  The call reads 4096 ids and a table of 100000 rows of 128 floats and writes 4096 rows: row b of the result is the
  table's row at id b. Thirty-two tiles (two SparseCores of sixteen) run the same body; tile (c, i) has the number
  w = 2 i + c and works on the rows [128 w, 128 w + 128). The ids and the result are cut into 32 blocks of 128 rows
  along axis 0, block w going to tile w; the table, which every tile reads whole and nobody writes, goes out as read
  shares: each SparseCore one half, each of its tiles one token of that half, the remainder kept aside while the tiles
  run. A tile's block of the result comes back at the ONE whole-array function `gathered`, so that the blocks join with
  no further argument.
-/
import proofs.«216483_g44830868636102_cont_8to1c4_483_48_alg».proof.Proof.WSetup
import proofs.«216483_g44830868636102_cont_8to1c4_483_48_alg».proof.Proof.Spec
import Idealize.ShloMosaic.Lib.Transfers
import Idealize.ShloMosaic.Lib.ValueIdx

noncomputable section

namespace Cert.Kernel.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks pointsTo_toks_split pointsTo_toks_join)

variable {F : FTy → Type}

local notation "𝕄" => MT nD τ sig (HIx 1) (Elt F) ℕ UU ℕ

variable (m : (ℓ : Loc nD τ sig) → Buf (Elt F) ℓ)

/-! ## What the call computes -/

/-- Every id names a row of the table. -/
def IdsOK : Prop := ∀ (d : Dev nD) (j : S4096.Idx), (m (idsLoc d) j).toNat ≤ 99999

/-- What the call leaves in its result: row b is the table's row at id b. -/
def gathered (d : Dev nD) : Buf (Elt F) (outLoc d) := fun j =>
  m (tabLoc d) (ValueIdx.ix2 (Cert.Spec.movieRow (m (idsLoc d) (ValueIdx.ix1 (j 0)))) (j 1))

/-! ## The cut into the tiles' blocks -/

theorem hdivI : 32 ∣ S4096.size 0 := ⟨128, rfl⟩
theorem hdivO : 32 ∣ S4096x128.size 0 := ⟨128, rfl⟩

/-- The ids and the result rows of tile number `w`. -/
abbrev idsPart (w : Fin 32) : Finset S4096.Idx := (Rect.part (s := S4096) (a₀ := 0) hdivI w).set
abbrev outPart (w : Fin 32) : Finset S4096x128.Idx := (Rect.part (s := S4096x128) (a₀ := 0) hdivO w).set

/-- The number of tile `i` of SparseCore `c`. -/
def tileNo (c : Fin 2) (i : Fin 16) : Fin 32 := ⟨2 * i.val + c.val, by omega⟩

/-- A SparseCore's half of the table's share, and a tile's token of it. -/
def coreShare (c : Fin 2) : PosShare TreeShare := if c.val = 0 then fullShare.left else fullShare.right
abbrev tileShare (c : Fin 2) (i : Fin 16) : PosShare TreeShare := shareTok (coreShare c) 16 i

/-! ## The payloads -/

abbrev idsBlk (d : Dev nD) (w : Fin 32) : sProp 𝕄 := idsLoc d ↦[idsPart w]{fullShare} m (idsLoc d)
abbrev outBlk (d : Dev nD) (w : Fin 32) (f : Buf (Elt F) (outLoc d)) : sProp 𝕄 := outLoc d ↦[outPart w]{fullShare} f
abbrev tabAt (d : Dev nD) (q : PosShare TreeShare) : sProp 𝕄 := tabLoc d ↦{q} m (tabLoc d)

/-- What a tile is handed (its ids, a token of the table, its rows of the result at `f`), -/
def forTile (d : Dev nD) (c : Fin 2) (i : Fin 16) (f : Buf (Elt F) (outLoc d)) : sProp 𝕄 :=
  iprop(idsBlk m d (tileNo c i) ∗ tabAt m d (tileShare c i) ∗ outBlk d (tileNo c i) f)
/-- and a SparseCore (its tiles' ids, its half of the table, its tiles' rows of the result at `f`). -/
def forCore (d : Dev nD) (c : Fin 2) (f : Buf (Elt F) (outLoc d)) : sProp 𝕄 :=
  iprop((bigSep Finset.univ fun i : Fin 16 => idsBlk m d (tileNo c i)) ∗ tabAt m d (coreShare c)
    ∗ bigSep Finset.univ fun i : Fin 16 => outBlk d (tileNo c i) f)

/-- The call's payloads: the result's rows go out at the launch contents and come back at `gathered`. -/
def P : (K (F := F)).Pay (nD := nD) (Val := Elt F) (Name := ℕ) (U := UU) where
  st := fun q d c => match q with | 0 => forCore m d (Fin.cast nCore_zero c) (m (outLoc d))
  dn := fun q d c => match q with | 0 => forCore m d (Fin.cast nCore_zero c) (gathered m d)
  go := fun q d c i => match q with | 0 => forTile m d (Fin.cast nCore_zero c) (Fin.cast nSub_zero i) (m (outLoc d))
  td := fun q d c i => match q with | 0 => forTile m d (Fin.cast nCore_zero c) (Fin.cast nSub_zero i) (gathered m d)
  x := fun _ _ => iprop(emp)

instance forTile_storable (d : Dev nD) (c : Fin 2) (i : Fin 16) (f : Buf (Elt F) (outLoc d)) :
    BI.Storable (upEmb : UEmb _ 𝕄) (forTile m d c i f) := by unfold forTile; infer_instance
instance forCore_storable (d : Dev nD) (c : Fin 2) (f : Buf (Elt F) (outLoc d)) :
    BI.Storable (upEmb : UEmb _ 𝕄) (forCore m d c f) := by unfold forCore; infer_instance

instance P_storable : (P (F := F) m).IsStorable where
  st q d c := match q with | 0 => (inferInstance : BI.Storable (upEmb : UEmb _ 𝕄) (forCore m d (Fin.cast nCore_zero c) (m (outLoc d))))
  dn q d c := match q with | 0 => (inferInstance : BI.Storable (upEmb : UEmb _ 𝕄) (forCore m d (Fin.cast nCore_zero c) (gathered m d)))
  go q d c i := match q with | 0 => (inferInstance : BI.Storable (upEmb : UEmb _ 𝕄) (forTile m d (Fin.cast nCore_zero c) (Fin.cast nSub_zero i) (m (outLoc d))))
  td q d c i := match q with | 0 => (inferInstance : BI.Storable (upEmb : UEmb _ 𝕄) (forTile m d (Fin.cast nCore_zero c) (Fin.cast nSub_zero i) (gathered m d)))

end Cert.Kernel.KS

end
-- ==== Proof.WSegs.lean ====
/-
  @main after the gather call, as a list of segments: two host operations (the genre ids transposed, the genre table's
  format changed), the first TensorCore call, six host operations (three weight matrices' format changed, three bias
  vectors reshaped to rows), the second TensorCore call. The buffer contents at each segment boundary are a fold from
  the memory the gather call leaves: a host stretch applies its operations, a call leaves its arrays at what the
  pipeline's write-backs make of them and every other buffer as it was. Every pipeline's proof data is taken at its
  region's entry contents, and each call is a region over the thread state "every unscoped buffer at the boundary's
  contents, the generator register at some state, nothing owed". Generic in the float instance.
-/
import proofs.«216483_g44830868636102_cont_8to1c4_483_48_alg».proof.Proof.WSetup
import proofs.«216483_g44830868636102_cont_8to1c4_483_48_alg».proof.Proof.WPhi
import proofs.«216483_g44830868636102_cont_8to1c4_483_48_alg».proof.Proof.WRegion1
import proofs.«216483_g44830868636102_cont_8to1c4_483_48_alg».proof.Proof.WRegion2
import proofs.«216483_g44830868636102_cont_8to1c4_483_48_alg».proof.Proof.WGatherPay
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.KS

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The host operations between the calls -/

/-- The two operations before the first TensorCore call. -/
abbrev hostOpsA : List (HloOp τ sig (Elt F)) :=
  [ StableHlo.unary main_arg1 main_v1 ((transpose S8x4096 [1, 0] · transposes_S4096x8_S8x4096_1_0) : (⟨S4096x8, .i32⟩ : BufTy).Contents (Elt F) → (⟨S8x4096, .i32⟩ : BufTy).Contents (Elt F)),
    StableHlo.unary main_arg3 main_v2 ((truncf .bf16 · bitsLt_bf16_f32) : (⟨S32x128, .f32⟩ : BufTy).Contents (Elt F) → (⟨S32x128, .bf16⟩ : BufTy).Contents (Elt F)) ]
theorem hostOpsA_sub : (hostOpsA : List (HloOp τ sig (Elt F))).Forall fun op => op.bufs ⊆ StableHlo.tcRefs τ sig :=
  ⟨StableHlo.unary_bufs_sub .., StableHlo.unary_bufs_sub ..⟩
theorem hostOpsA_fresh : (hostOpsA : List (HloOp τ sig (Elt F))).Forall fun op => op.fresh = ∅ := by
  simp only [List.Forall]; repeat' constructor

/-- The six operations between the two TensorCore calls. -/
abbrev hostOpsB : List (HloOp τ sig (Elt F)) :=
  [ StableHlo.unary main_arg4 main_v4 ((truncf .bf16 · bitsLt_bf16_f32) : (⟨S512x256, .f32⟩ : BufTy).Contents (Elt F) → (⟨S512x256, .bf16⟩ : BufTy).Contents (Elt F)),
    StableHlo.reshape main_arg5 main_v5 rfl shapeCasts_S512_S1x512,
    StableHlo.unary main_arg6 main_v6 ((truncf .bf16 · bitsLt_bf16_f32) : (⟨S256x512, .f32⟩ : BufTy).Contents (Elt F) → (⟨S256x512, .bf16⟩ : BufTy).Contents (Elt F)),
    StableHlo.reshape main_arg7 main_v7 rfl shapeCasts_S256_S1x256,
    StableHlo.unary main_arg8 main_v8 ((truncf .bf16 · bitsLt_bf16_f32) : (⟨S128x256, .f32⟩ : BufTy).Contents (Elt F) → (⟨S128x256, .bf16⟩ : BufTy).Contents (Elt F)),
    StableHlo.reshape main_arg9 main_v9 rfl shapeCasts_S128_S1x128 ]
theorem hostOpsB_sub : (hostOpsB : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub ..,
    StableHlo.unary_bufs_sub .., StableHlo.reshape_bufs_sub ..⟩
theorem hostOpsB_fresh : (hostOpsB : List (HloOp τ sig (Elt F))).Forall fun op => op.fresh = ∅ := by
  simp only [List.Forall]; repeat' constructor

variable (m : (ℓ : Loc nD τ sig) → Buf (Elt F) ℓ)

/-! ## The buffer contents at each segment boundary -/

/-- Core `c`'s buffers at launch. -/
abbrev W0 : Dev nD → Valuation τ sig (Elt F) := fun c b => m ((c : Dev nD), b)
/-- After the gather call: its result array at the gathered rows, everything else as launched. -/
def W1 (c : Dev nD) : Valuation τ sig (Elt F) := Function.update (W0 m c) (Proc.devRef .tc (main_v0 : Ref sig .tc)) (gathered m c)
/-- After the two host operations (the first TensorCore call's entry). -/
abbrev W2 : Dev nD → Valuation τ sig (Elt F) := fun c => StableHlo.after hostOpsA (W1 m c)
abbrev V2 : (c : Dev nD) → (b : Ref sig .tc) → Buf (Elt F) ((c : Thread nD τ).loc b) := fun c b => W2 m c b
/-- At the first call's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the six host operations (the second TensorCore call's entry). -/
abbrev W4 : Dev nD → Valuation τ sig (Elt F) := fun c => StableHlo.after hostOpsB (W3 m c)
abbrev V4 : (c : Dev nD) → (b : Ref sig .tc) → Buf (Elt F) ((c : Thread nD τ).loc b) := fun c b => W4 m c b
/-- At the second call's exit. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at its region's entry contents: a literal match. -/
def pdats : (p : Fin 2) → (c : Dev nD) → Dat τ (Elt F) (HIx 1) ℕ UU ℕ (Pipeline.pin (pcfgs (F := F)) adm p) c
  | ⟨0, _⟩ => fun c => dat1 (V2 m) c
  | ⟨1, _⟩ => fun c => dat2 (V4 m) c
/-- The levels are the launch's: the handshakes'. -/
abbrev LL : GSem nD τ sig → Finset (HIx 1) := (K (F := F)).L
abbrev lvv : GSem nD τ sig → HIx 1 → ℕ := (K (F := F)).lev
/-- What rides beside the buffers through every segment: the generator register at some state and the core's `owes`, at
    nothing. -/
abbrev RR (c : Dev nD) : sProp 𝕄 := iprop((∃ r, prngReg c r) ∗ ∃ W, owes (c : Thread nD τ) (0 : CellTallies nD τ sig (HIx 1)) W)
/-- A host stretch as a segment over the unscoped references from the contents `W`, `RR` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (LL (F := F)) (lvv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

/-! ## The two calls as regions -/

set_option backward.isDefEq.respectTransparency.types false in
/-- The region of pipeline 0 over the thread state: entered from every unscoped buffer at `V2`, left at `V3`. Its
    arrays split out of the unscoped buffers and put back at the exit contents; the generator register into the body's
    invariant and out; nothing owed; no semaphore of the kernel's own. -/
def reg1 : Pipeline.RegionSeg (pcfgs (F := F)) adm (pdats m) (none : HIx 1) defs₀ 𝒱₀ (LL (F := F)) (lvv (F := F)) 0 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ (LL (F := F)) (lvv (F := F)) 0 fun _ _ => rfl
  pre c := iprop(StableHlo.held (c : Thread nD τ) (Pipeline.ucRefs τ sig) (W2 m c) ∗ RR c)
  post c := iprop(StableHlo.held (c : Thread nD τ) (Pipeline.ucRefs τ sig) (W3 m c) ∗ RR c)
  X c := iprop(∃ r, prngReg c r)
  Y c := iprop(∃ r, prngReg c r)
  Z c := Pipeline.unscopedRest (Ix := HIx 1) (Name := ℕ) (U := UU) (Lvl := ℕ) spec1 c (V2 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = ΦAH spec1 c from rfl]; unfold ΦAH
    iintro ⟨Hp, -, Hr⟩
    isplitl [Hr]; · iexact Hr
    iexact Hp
  hout c := by
    rw [Pipeline.ownSems0_none, show (pdats m 0 c).Φ (Fin.last _) = ΦAH spec1 c from rfl]; unfold ΦAH
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V2 m c) (V3 m c) ((pdats m 0 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of pipeline 1 over the thread state: entered from every unscoped buffer at `V4`, left at `V5`. Its
    arrays split out of the unscoped buffers and put back at the exit contents; the generator register into the body's
    invariant and out; nothing owed; no semaphore of the kernel's own. -/
def reg2 : Pipeline.RegionSeg (pcfgs (F := F)) adm (pdats m) (none : HIx 1) defs₀ 𝒱₀ (LL (F := F)) (lvv (F := F)) 1 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ (LL (F := F)) (lvv (F := F)) 1 fun _ _ => rfl
  pre c := iprop(StableHlo.held (c : Thread nD τ) (Pipeline.ucRefs τ sig) (W4 m c) ∗ RR c)
  post c := iprop(StableHlo.held (c : Thread nD τ) (Pipeline.ucRefs τ sig) (W5 m c) ∗ RR c)
  X c := iprop(∃ r, prngReg c r)
  Y c := iprop(∃ r, prngReg c r)
  Z c := Pipeline.unscopedRest (Ix := HIx 1) (Name := ℕ) (U := UU) (Lvl := ℕ) spec2 c (V4 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = ΦAH spec2 c from rfl]; unfold ΦAH
    iintro ⟨Hp, -, Hr⟩
    isplitl [Hr]; · iexact Hr
    iexact Hp
  hout c := by
    rw [Pipeline.ownSems0_none, show (pdats m 1 c).Φ (Fin.last _) = ΦAH spec2 c from rfl]; unfold ΦAH
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V4 m c) (V5 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main after the gather call: its four segments in order. -/
abbrev segs : List (Pipeline.Seg (pcfgs (F := F)) adm (pdats m) (none : HIx 1) defs₀ 𝒱₀ (LL (F := F)) (lvv (F := F))) :=
  [ .host (hseg hostOpsA hostOpsA_sub hostOpsA_fresh (W1 m)),
    .region (reg1 m),
    .host (hseg hostOpsB hostOpsB_sub hostOpsB_fresh (W3 m)),
    .region (reg2 m) ]

end Cert.Kernel.KS

end
-- ==== Proof.WGatherSplit.lean ====
/-
  The gather call's split: how what the call hands a SparseCore goes out to its sixteen tiles and comes back, and how the
  two SparseCores' shares are the three arrays held whole. The ids and the result are cut into the 32 tiles' blocks of
  128 rows (the tiles are numbered 2 i + c, a bijection of pairs (c, i) with the numbers below 32); the table's share
  is halved between the SparseCores and a half dealt as one token per tile, the remainder set aside until the tiles
  are back.
-/
import proofs.«216483_g44830868636102_cont_8to1c4_483_48_alg».proof.Proof.WGatherPay

noncomputable section

namespace Cert.Kernel.KS

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks pointsTo_toks_split pointsTo_toks_join)

variable {F : FTy → Type}

local notation "𝕄" => MT nD τ sig (HIx 1) (Elt F) ℕ UU ℕ

variable (m : (ℓ : Loc nD τ sig) → Buf (Elt F) ℓ)

/-! ## The tiles' numbers -/

/-- Tile `(c, i)` has the number `2 i + c`: every number below 32 once. -/
def tileEquiv : Fin 2 × Fin 16 ≃ Fin 32 where
  toFun p := tileNo p.1 p.2
  invFun w := (⟨w.val % 2, Nat.mod_lt _ (by decide)⟩, ⟨w.val / 2, by omega⟩)
  left_inv p := by
    rcases p with ⟨c, i⟩
    exact Prod.ext (Fin.ext (by show (2 * i.val + c.val) % 2 = c.val; omega)) (Fin.ext (by show (2 * i.val + c.val) / 2 = i.val; omega))
  right_inv w := Fin.ext (by show 2 * (w.val / 2) + w.val % 2 = w.val; omega)

omit m in
/-- An array cut into 32 pairwise disjoint blocks that cover it is its blocks, tile by tile. -/
theorem blocks_join {ℓ : Loc nD τ sig} (Kp : Fin 32 → Finset (Idx ℓ)) (hdis : ∀ w w', w ≠ w' → Disjoint (Kp w) (Kp w'))
    (hcov : (Finset.univ : Finset (Fin 32)).biUnion Kp = Finset.univ) (f : Buf (Elt F) ℓ) :
    (bigSep Finset.univ fun c : Fin 2 => bigSep Finset.univ fun i : Fin 16 => (ℓ ↦[Kp (tileNo c i)]{fullShare} f : sProp 𝕄))
      = ℓ ↦{fullShare} f := by
  rw [← BI.bigSep_univ_prod (fun p : Fin 2 × Fin 16 => (ℓ ↦[Kp (tileNo p.1 p.2)]{fullShare} f : sProp 𝕄))]
  rw [show (bigSep Finset.univ fun p : Fin 2 × Fin 16 => (ℓ ↦[Kp (tileNo p.1 p.2)]{fullShare} f : sProp 𝕄))
      = bigSep Finset.univ fun w : Fin 32 => (ℓ ↦[Kp w]{fullShare} f : sProp 𝕄) from
    (BI.bigSep_univ_equiv tileEquiv (fun w : Fin 32 => (ℓ ↦[Kp w]{fullShare} f : sProp 𝕄))).symm]
  rw [← pointsTo_biUnion Finset.univ (ℓ := ℓ) Kp (fun w _ w' _ h => hdis w w' h), hcov]

omit m in
theorem ids_join (d : Dev nD) (f : Buf (Elt F) (idsLoc d)) :
    (bigSep Finset.univ fun c : Fin 2 => bigSep Finset.univ fun i : Fin 16 => (idsLoc d ↦[idsPart (tileNo c i)]{fullShare} f : sProp 𝕄))
      = idsLoc d ↦{fullShare} f :=
  blocks_join (ℓ := idsLoc d) idsPart (fun _ _ h => Rect.part_disjoint hdivI h) (Rect.biUnion_part hdivI) f
omit m in
theorem out_join (d : Dev nD) (f : Buf (Elt F) (outLoc d)) :
    (bigSep Finset.univ fun c : Fin 2 => bigSep Finset.univ fun i : Fin 16 => (outLoc d ↦[outPart (tileNo c i)]{fullShare} f : sProp 𝕄))
      = outLoc d ↦{fullShare} f :=
  blocks_join (ℓ := outLoc d) outPart (fun _ _ h => Rect.part_disjoint hdivO h) (Rect.biUnion_part hdivO) f

omit m in
/-- The two SparseCores' halves of a share are the share. -/
theorem tab_join (d : Dev nD) (f : Buf (Elt F) (tabLoc d)) :
    (bigSep Finset.univ fun c : Fin 2 => (tabLoc d ↦{coreShare c} f : sProp 𝕄)) = tabLoc d ↦{fullShare} f := by
  rw [bigSep_univ_two]
  show iprop((tabLoc d ↦{fullShare.left} f) ∗ tabLoc d ↦{fullShare.right} f) = _
  have hu : (tabLoc d ↦{fullShare} f : sProp 𝕄) ⊣⊢ iprop((tabLoc d ↦{fullShare.left} f) ∗ tabLoc d ↦{fullShare.right} f) :=
    pointsTo_share (PosShare.mem_left_op_right fullShare)
  exact (BI.equiv_iff.mp ⟨hu.1, hu.2⟩).symm

/-- What the two SparseCores hold together: the three arrays whole. -/
theorem core_join (d : Dev nD) (f : Buf (Elt F) (outLoc d)) :
    (bigSep Finset.univ fun c : Fin 2 => forCore m d c f)
      = iprop((idsLoc d ↦{fullShare} m (idsLoc d)) ∗ (tabLoc d ↦{fullShare} m (tabLoc d)) ∗ (outLoc d ↦{fullShare} f)) := by
  unfold forCore
  rw [bigSep_sep', bigSep_sep', ids_join, tab_join, out_join]

theorem st0_eq (d : Dev nD) :
    (bigSep Finset.univ fun c : Fin ((K (F := F)).nCore 0) => (P m).st 0 d c)
      = iprop((idsLoc d ↦{fullShare} m (idsLoc d)) ∗ (tabLoc d ↦{fullShare} m (tabLoc d)) ∗ (outLoc d ↦{fullShare} m (outLoc d))) :=
  core_join m d (m (outLoc d))

theorem dn0_eq (d : Dev nD) :
    (bigSep Finset.univ fun c : Fin ((K (F := F)).nCore 0) => (P m).dn 0 d c)
      = iprop((idsLoc d ↦{fullShare} m (idsLoc d)) ∗ (tabLoc d ↦{fullShare} m (tabLoc d)) ∗ (outLoc d ↦{fullShare} gathered m d)) :=
  core_join m d (gathered m d)

/-- A SparseCore's share goes out to its tiles, the table's remainder set aside, and comes back with the result's rows at
    whatever the tiles left. -/
theorem core_split (d : Dev nD) (c : Fin 2) (f g : Buf (Elt F) (outLoc d)) :
    forCore m d c f ⊢ |={Set.univ}=> iprop((bigSep Finset.univ fun i : Fin 16 => forTile m d c i f)
      ∗ ((bigSep Finset.univ fun i : Fin 16 => forTile m d c i g) -∗ forCore m d c g)) := by
  unfold forCore forTile
  rw [bigSep_sep', bigSep_sep', bigSep_sep', bigSep_sep']
  iintro ⟨Hi, Ht, Ho⟩
  ihave Ht' := (pointsTo_toks_split (coreShare c) 16) $$ Ht
  icases Ht' with ⟨Hrem, Htoks⟩
  imodintro
  isplitl [Hi Htoks Ho]
  · isplitl [Hi]; · iexact Hi
    isplitl [Htoks]; · iexact Htoks
    iexact Ho
  iintro ⟨Hi, Htoks, Ho⟩
  isplitl [Hi]; · iexact Hi
  isplitl [Hrem Htoks]
  · iapply (pointsTo_toks_join (coreShare c) 16)
    isplitl [Hrem]; · iexact Hrem
    iexact Htoks
  iexact Ho

theorem vecSplit : (K (F := F)).VecSplit' (P m) 0 := by
  intro d c
  exact core_split m d (Fin.cast nCore_zero c) (m (outLoc d)) (gathered m d)

end Cert.Kernel.KS

end
-- ==== Proof.WRun.lean ====
/-
  @main on the TensorCore, and the launch element. @main is the gather call followed by the four segments; the call
  hands the SparseCores the ids, the table and the result array and takes them back with the result at the gathered
  rows; the segments run from the thread state that leaves. The launch element funds, beside the handshakes, the
  staging cells of both pipelines. Generic in the float instance.
-/
import proofs.«216483_g44830868636102_cont_8to1c4_483_48_alg».proof.Proof.WSegs
import proofs.«216483_g44830868636102_cont_8to1c4_483_48_alg».proof.Proof.WGatherSplit

set_option maxRecDepth 16384

noncomputable section

namespace Cert.Kernel.KS

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main is the call, then the segments -/

theorem main_eq (d : Dev nD) :
    main (F := F) d = ((K (F := F)).run d 0 >>= fun _ => SparseCore.liftProg (Q := 1) (Pipeline.Seg.run (segs m))) := by
  rfl

/-! ## The launch element -/

omit [FloatOps F] in
theorem bigSep_emp' {I : Type} (s : Finset I) : (bigSep s fun _ => iprop(emp)) = (iprop(emp) : sProp 𝕄) := bigSep_emp_const s

/-- The pipelines' staging cells' ghost state on core `d`, as the launch deals it. -/
abbrev GG (d : Dev nD) : sProp 𝕄 := Pipeline.ghostOn (pcfgs (F := F)) adm (EP (F := F)) Finset.univ d

/-- The handshakes' cells and tokens; the two pipelines' staging cells and tokens; no transfer counted yet. -/
def u₀ : UU :=
  (initOf (K (F := F)).hsCells (K (F := F)).hsToks,
    (initOf (Pipeline.cells (cfgs) cellOf_inj) (Pipeline.launchToks (cfgs) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (cfgs) (EP (F := F)) cellOf_inj) $$ HP with ⟨Hc, Ht⟩
  imodintro
  isplitl [HH]; · iexact HH
  isplitl [Hc Ht]
  · have hG : ∀ d : Dev nD, GG (F := F) d
        = iprop((bigSep Finset.univ fun p : Fin 2 => Pipeline.cellsGhost cfgs (EP (F := F)) p d)
            ∗ (bigSep Finset.univ fun p : Fin 2 => Pipeline.toksInit cfgs (EP (F := F)) p d)) := fun d => bigSep_sep' ..
    rw [bigSep_congr fun d _ => hG d, bigSep_sep']
    isplitl [Hc] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The gather call's three arrays among the TensorCore's unscoped buffers. -/
abbrev T3 : Finset (DevRef τ sig) :=
  {Proc.devRef .tc (main_arg0 : Ref sig .tc), Proc.devRef .tc (main_arg2 : Ref sig .tc), Proc.devRef .tc (main_v0 : Ref sig .tc)}

theorem T3_sub : (T3 : Finset (DevRef τ sig)) ⊆ Pipeline.ucRefs τ sig := by decide

omit [FloatOps F] in
theorem held_T3 (d : Dev nD) (W : Valuation τ sig (Elt F)) :
    (held (T d) T3 W : sProp 𝕄)
      = iprop((idsLoc d ↦{fullShare} W (Proc.devRef .tc (main_arg0 : Ref sig .tc))) ∗ (tabLoc d ↦{fullShare} W (Proc.devRef .tc (main_arg2 : Ref sig .tc)))
          ∗ outLoc d ↦{fullShare} W (Proc.devRef .tc (main_v0 : Ref sig .tc))) := by
  unfold held T3
  rw [SparseCore.bigSep_insert' (by decide), SparseCore.bigSep_insert' (by decide), bigSep_singleton]

/-- The gather call changes the result array only. -/
theorem W1_ids (d : Dev nD) : W1 m d (Proc.devRef .tc (main_arg0 : Ref sig .tc)) = m (idsLoc d) :=
  Function.update_of_ne (show (Proc.devRef .tc (main_arg0 : Ref sig .tc) : DevRef τ sig) ≠ Proc.devRef .tc (main_v0 : Ref sig .tc) by decide) _ _
theorem W1_tab (d : Dev nD) : W1 m d (Proc.devRef .tc (main_arg2 : Ref sig .tc)) = m (tabLoc d) :=
  Function.update_of_ne (show (Proc.devRef .tc (main_arg2 : Ref sig .tc) : DevRef τ sig) ≠ Proc.devRef .tc (main_v0 : Ref sig .tc) by decide) _ _
theorem W1_out (d : Dev nD) : W1 m d (Proc.devRef .tc (main_v0 : Ref sig .tc)) = gathered m d := Function.update_self _ _ _
theorem held_rest_W1 (d : Dev nD) :
    (held (T d) (Pipeline.ucRefs τ sig \ T3) (W1 m d) : sProp 𝕄) = held (T d) (Pipeline.ucRefs τ sig \ T3) (W0 m d) :=
  held_congr (T d) fun b hb => Function.update_of_ne
    (fun (e : b = Proc.devRef .tc (main_v0 : Ref sig .tc)) => (Finset.mem_sdiff.mp hb).2 (by rw [e]; decide)) _ _

/-- After its one SparseCore call the TensorCore owes nothing: its state before "call 1" gives up its `owes` at nothing
    and takes any such back (with one call every recorded pair sits below the bound the state asks). -/
theorem tcSt_open (d : Dev nD) :
    ((K (F := F)).tcSt (EH (F := F)) d 1 : sProp 𝕄)
      ⊢ iprop((∃ W, owes (T d) (0 : CellTallies nD τ sig (HIx 1)) W)
          ∗ ((∃ W, owes (T d) (0 : CellTallies nD τ sig (HIx 1)) W) -∗ (K (F := F)).tcSt (EH (F := F)) d 1)) := by
  unfold SparseCore.Cfg.tcSt
  rw [(K (F := F)).Otc_end d (le_refl 1)]
  iintro ⟨⟨%W, -, HO⟩, Hrest⟩
  isplitl [HO]; · iexists W; iexact HO
  iintro ⟨%W', HO'⟩
  isplitl [HO']
  · iexists W'; isplitr
    · ipureintro
      intro p _
      rcases p with ⟨s, _ | q⟩
      · show (K (F := F)).lev _ none ≤ _; rw [SparseCore.Cfg.lev_none]; exact Nat.zero_le _
      · exact ((K (F := F)).lev_some_le _ q).trans (by have := q.isLt; omega)
    · iexact HO'
  iexact Hrest

/-- What @main leaves the claim to read: every unscoped buffer at the last boundary's contents. -/
abbrev FIN (d : Dev nD) : sProp 𝕄 := held (T d) (Pipeline.ucRefs τ sig) (W5 m d)

set_option backward.isDefEq.respectTransparency.types false in
/-- @main on device `d`'s TensorCore: the gather call from the ids, the table and the result array; then the four segments
    from every unscoped buffer at what the call left, the staging cells funded at launch, nothing owed. -/
theorem hmain (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = held (T d) (Pipeline.ucRefs τ sig) (W0 m d)
    from Pipeline.unscopedBufs_held d (W0 m d), held_sub_split (T d) T3_sub (W0 m d), held_T3]
  rw [main_eq m d, wp_bind]
  iintro ⟨#Hctx, Hst, ⟨Hb, ⟨⟨Hi, Ht, Ho⟩, Hrest⟩, -, Hprng⟩, HG⟩
  iapply ((K (F := F)).wp_run (D (F := F)) 𝒱 (EH := EH) (P := P m) κ d 0) $$ [Hst Hi Ht Ho Hb Hrest Hprng HG]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  ihave Hst1 := (Entails.of_eq (show ((K (F := F)).tcSt (EH (F := F)) d ((0 : Fin 1).val + 1) : sProp 𝕄) = (K (F := F)).tcSt (EH (F := F)) d 1 from rfl)) $$ Hst
  ihave Hop := (tcSt_open (F := F) d) $$ Hst1
  icases Hop with ⟨HO, Hback⟩
  ihave #Hlv := (SparseCore.Cfg.ctx_levAts κ) $$ Hctx
  iapply ((K (F := F)).wp_liftProg (D (F := F)) 𝒱 (SparseCore.T d) Set.univ none (Pipeline.Seg.run (segs m)) _)
  iapply (Pipeline.wp_segs (pcfgs (F := F)) adm (pdats m) (none : HIx 1) cellOf_inj (EP (F := F)) defs₀ 𝒱₀ (LL (F := F)) (lvv (F := F)) d
      (segs m) Finset.univ
      (fun c => iprop(held (c : Thread nD τ) (Pipeline.ucRefs τ sig) (W1 m c) ∗ RR c))
      (fun c => iprop(held (c : Thread nD τ) (Pipeline.ucRefs τ sig) (W5 m c) ∗ RR c))
      (by simp only [segs, Pipeline.Seg.pipes_host, Pipeline.Seg.pipes_region, Pipeline.Seg.pipes_nil]; decide)
      (fun p _ => Finset.mem_univ p)
      ⟨fun _ => .rfl, fun _ => .rfl, fun _ => .rfl, fun _ => .rfl, fun _ => .rfl⟩) $$ [Hb Hi Ht Ho Hrest Hprng HO HG Hback]
  isplitl [Hback]
  · iintro ⟨-, Hh, -, HO⟩
    isplitl [Hback HO]
    · iapply Hback; iexact HO
    · iexact Hh
  isplitl [Hb]; · iexact Hb
  isplitl [Hi Ht Ho Hrest Hprng HO]
  · isplitl [Hi Ht Ho Hrest]
    · rw [held_sub_split (T d) T3_sub (W1 m d), held_T3, W1_ids, W1_tab, W1_out, held_rest_W1]
      isplitl [Hi Ht Ho]
      · isplitl [Hi]; · iexact Hi
        isplitl [Ht]; · iexact Ht
        iexact Ho
      · iexact Hrest
    · isplitl [Hprng]; · iexists _; iexact Hprng
      iexact HO
  isplitr; · iexact Hlv
  iexact HG

end Cert.Kernel.KS

end
-- ==== Proof.WLaunch.lean ====
/-
  The program's run: every weakly fair execution of the TensorCore's @main, the sequencers and the tiles terminates,
  nothing faulting, and the final memory holds every unscoped buffer of the TensorCore at the last boundary's contents
  of the fold through @main. From the launch theorem of a SparseCore program: the tiles' task (a parameter here), how a
  SparseCore's operands split among its tiles, @main's proof, the launch element, and the reading of the final state.
  Generic in the float instance.
-/
import proofs.«216483_g44830868636102_cont_8to1c4_483_48_alg».proof.Proof.WRun

noncomputable section

namespace Cert.Kernel.KS

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-- What is read off a final state on device `d`: every unscoped buffer at the last boundary's contents. -/
def fq (d : Dev nD) (s' : Phys nD τ sig (Elt F)) : Prop :=
  ∀ b ∈ Pipeline.ucRefs τ sig, s'.mem.mem ((d : Dev nD), b) = W5 m d b

theorem hfin (d : Dev nD) (s' : Phys nD τ sig (Elt F)) : iprop(FIN m d ∗ SI s') ⊢ (⌜fq m d s'⌝ : sProp 𝕄) := by
  show iprop((bigSep (Pipeline.ucRefs τ sig) fun b => (((d : Dev nD), b) : Loc nD τ sig) ↦{fullShare} W5 m d b) ∗ SI s') ⊢ _
  iintro ⟨Hh, HSI⟩
  ihave H := (pointsTo_read_all (Pipeline.ucRefs τ sig) (fun b => ((d : Dev nD), b)) (W5 m d) s') $$ [Hh HSI]
  · isplitl [Hh] <;> iassumption
  icases H with ⟨%h, -⟩
  ipureintro; exact h

/-- The run's post: on every device, every unscoped buffer of the TensorCore at the fold's last contents. -/
def QC : PUnit × MemSt nD τ sig (Elt F) → Prop := fun r =>
  ∀ c : Dev nD, ∀ b ∈ Pipeline.ucRefs τ sig, r.2.mem ((c : Dev nD), b) = W5 m c b

theorem run [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (GG (F := F)) (FIN m) (u₀ (F := F)) (sep_elim_left.trans (hu₀ m)) (hmain m ρ) (fq m) (hfin m) (QC m) (fun _ h => h)

/-- An unscoped reference of the TensorCore is among those the final state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.KS

end
-- ==== Proof.WGatherSets.lean ====
/-
  The gather call on one tile: the tile's names for the arrays and its scratch, and the index sets the body's slices
  cover. The printed offsets of tile (c, i) are, in closed form, row 256 i + 128 c = 128 (2 i + c) and that row plus 64:
  its ids are block 2 i + c of the cut of the ids into 32, its two halves of the result's rows split block 2 i + c of the
  cut of the result; the two halves of either scratch split the scratch.
-/
import proofs.«216483_g44830868636102_cont_8to1c4_483_48_alg».proof.Proof.WGatherPay

noncomputable section

namespace Cert.Kernel.KS

open Cert.Kernel Cert.Kernel.Gen

open Idealize.ShloMosaic
open Idealize.ShloMosaic.SparseCore (S V T)
open Idealize.SL Idealize.SL.RA Idealize.SL.BI

section Tile

variable (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The tile's number. -/
abbrev wL (L : grid0.Coords) : Fin 32 := tileNo (cL L) (jL L)

/-- The arrays and the scratch as the body table passes them. -/
abbrev tabV : Memref sig .scVector .hbm S100000x128 .f32 := Memref.whole main_arg2_scv
abbrev idsV : Memref sig .scVector .hbm S4096 .i32 := Memref.whole main_arg0_scv
abbrev outV : Memref sig .scVector .hbm S4096x128 .f32 := Memref.whole main_v0_scv
abbrev sIds : Memref sig .scVector .vmem S128 .i32 := Memref.whole cc0_scratch0
abbrev sRows : Memref sig .scVector .vmem S128x128 .f32 := Memref.whole cc0_scratch1

/-- The table as the body slices it (whole), the tile's ids, and the two halves of its rows of the result. -/
abbrev tabK : Memref sig .scVector .hbm S100000x128 .f32 :=
  (tabV : Memref sig .scVector .hbm S100000x128 .f32).slice (Rect.unit (s := S100000x128) ![0, 0] S100000x128.size inb_S100000x128_S100000x128_0_0) (fun _ => rfl)
abbrev idsK (L : grid0.Coords) : Memref sig .scVector .hbm S128 .i32 :=
  (idsV : Memref sig .scVector .hbm S4096 .i32).slice (Rect.unit (s := S4096) (k0_off1 L) S128.size (k0_off1_inb L)) (fun _ => rfl)
abbrev outK0 (L : grid0.Coords) : Memref sig .scVector .hbm S64x128 .f32 :=
  (outV : Memref sig .scVector .hbm S4096x128 .f32).slice (Rect.unit (s := S4096x128) (k0_off2 L 0#32) S64x128.size (k0_off2_inb L 0)) (fun _ => rfl)
abbrev outK1 (L : grid0.Coords) : Memref sig .scVector .hbm S64x128 .f32 :=
  (outV : Memref sig .scVector .hbm S4096x128 .f32).slice (Rect.unit (s := S4096x128) (k0_off2 L 64#32) S64x128.size (k0_off2_inb L 1)) (fun _ => rfl)
/-- The halves of the row scratch and of the id scratch. -/
abbrev rows0 : Memref sig .scVector .vmem S64x128 .f32 :=
  (sRows : Memref sig .scVector .vmem S128x128 .f32).slice (Rect.unit (s := S128x128) ![0, 0] S64x128.size inb_S128x128_S64x128_0_0) (fun _ => rfl)
abbrev rows1 : Memref sig .scVector .vmem S64x128 .f32 :=
  (sRows : Memref sig .scVector .vmem S128x128 .f32).slice (Rect.unit (s := S128x128) ![64, 0] S64x128.size inb_S128x128_S64x128_64_0) (fun _ => rfl)
abbrev offs0 : Memref sig .scVector .vmem S64 .i32 :=
  (sIds : Memref sig .scVector .vmem S128 .i32).slice (Rect.unit (s := S128) ![0] S64.size inb_S128_S64_0) (fun _ => rfl)
abbrev offs1 : Memref sig .scVector .vmem S64 .i32 :=
  (sIds : Memref sig .scVector .vmem S128 .i32).slice (Rect.unit (s := S128) ![64] S64.size inb_S128_S64_64) (fun _ => rfl)

/-! ## The slices' index sets -/

theorem set_tabK : (tabK).view.set = Finset.univ := by
  show ((View.whole (main_arg2_scv : Ref sig .scVector)).slice (Rect.unit (s := S100000x128) ![0, 0] S100000x128.size inb_S100000x128_S100000x128_0_0)).set = _
  rw [View.set_slice_whole]
  exact Rect.set_eq_univ_of_whole _ fun a => by fin_cases a <;> exact ⟨rfl, rfl, rfl⟩

theorem set_offs0 : (offs0).view.set = (Rect.unit (s := S128) ![0] S64.size inb_S128_S64_0).set :=
  View.set_slice_whole (cc0_scratch0 : Ref sig .scVector) _
theorem set_offs1 : (offs1).view.set = (Rect.unit (s := S128) ![64] S64.size inb_S128_S64_64).set :=
  View.set_slice_whole (cc0_scratch0 : Ref sig .scVector) _
theorem set_rows0 : (rows0).view.set = (Rect.unit (s := S128x128) ![0, 0] S64x128.size inb_S128x128_S64x128_0_0).set :=
  View.set_slice_whole (cc0_scratch1 : Ref sig .scVector) _
theorem set_rows1 : (rows1).view.set = (Rect.unit (s := S128x128) ![64, 0] S64x128.size inb_S128x128_S64x128_64_0).set :=
  View.set_slice_whole (cc0_scratch1 : Ref sig .scVector) _
theorem set_idsK' : (idsK L).view.set = (Rect.unit (s := S4096) (k0_off1 L) S128.size (k0_off1_inb L)).set :=
  View.set_slice_whole (main_arg0_scv : Ref sig .scVector) _
theorem set_outK0' : (outK0 L).view.set = (Rect.unit (s := S4096x128) (k0_off2 L 0#32) S64x128.size (k0_off2_inb L 0)).set :=
  View.set_slice_whole (main_v0_scv : Ref sig .scVector) _
theorem set_outK1' : (outK1 L).view.set = (Rect.unit (s := S4096x128) (k0_off2 L 64#32) S64x128.size (k0_off2_inb L 1)).set :=
  View.set_slice_whole (main_v0_scv : Ref sig .scVector) _

/-- The halves of the id scratch split it. -/
theorem offs_disjoint : Disjoint (offs0).view.set (offs1).view.set := by
  rw [set_offs0, set_offs1, Finset.disjoint_left]
  intro x h0 h1
  have a0 := (Rect.mem_set_unit.mp h0) 0
  have a1 := (Rect.mem_set_unit.mp h1) 0
  simp only [Matrix.cons_val_zero] at a0 a1
  have : S64.size 0 = 64 := rfl
  omega
theorem offs_cover : (offs0).view.set ∪ (offs1).view.set = Finset.univ := by
  rw [set_offs0, set_offs1]
  refine Finset.eq_univ_of_forall fun x => Finset.mem_union.mpr ?_
  have hx : (x 0).val < 128 := (x 0).isLt
  by_cases h : (x 0).val < 64
  · refine .inl (Rect.mem_set_unit.mpr fun a => ?_)
    obtain rfl : a = 0 := Subsingleton.elim _ _
    simp only [Matrix.cons_val_zero]; have : S64.size 0 = 64 := rfl; omega
  · refine .inr (Rect.mem_set_unit.mpr fun a => ?_)
    obtain rfl : a = 0 := Subsingleton.elim _ _
    simp only [Matrix.cons_val_zero]; have : S64.size 0 = 64 := rfl; omega

/-- The halves of the row scratch split it. -/
theorem rows_disjoint : Disjoint (rows0).view.set (rows1).view.set := by
  rw [set_rows0, set_rows1, Finset.disjoint_left]
  intro x h0 h1
  have a0 := (Rect.mem_set_unit.mp h0) 0
  have a1 := (Rect.mem_set_unit.mp h1) 0
  simp only [Matrix.cons_val_zero] at a0 a1
  have : S64x128.size 0 = 64 := rfl
  omega
theorem rows_cover : (rows0).view.set ∪ (rows1).view.set = Finset.univ := by
  rw [set_rows0, set_rows1]
  refine Finset.eq_univ_of_forall fun x => Finset.mem_union.mpr ?_
  have hx : (x 0).val < 128 := (x 0).isLt
  have hy : (x 1).val < 128 := (x 1).isLt
  have s0 : S64x128.size 0 = 64 := rfl
  have s1 : S64x128.size 1 = 128 := rfl
  by_cases h : (x 0).val < 64
  · refine .inl (Rect.mem_set_unit.mpr fun a => ?_)
    fin_cases a
    · show (![0, 0] : Fin 2 → Nat) 0 ≤ (x 0).val ∧ (x 0).val < (![0, 0] : Fin 2 → Nat) 0 + S64x128.size 0
      simp only [Matrix.cons_val_zero]; omega
    · show (![0, 0] : Fin 2 → Nat) 1 ≤ (x 1).val ∧ (x 1).val < (![0, 0] : Fin 2 → Nat) 1 + S64x128.size 1
      simp only [Matrix.cons_val_one, Matrix.cons_val_zero]; omega
  · refine .inr (Rect.mem_set_unit.mpr fun a => ?_)
    fin_cases a
    · show (![64, 0] : Fin 2 → Nat) 0 ≤ (x 0).val ∧ (x 0).val < (![64, 0] : Fin 2 → Nat) 0 + S64x128.size 0
      simp only [Matrix.cons_val_zero]; omega
    · show (![64, 0] : Fin 2 → Nat) 1 ≤ (x 1).val ∧ (x 1).val < (![64, 0] : Fin 2 → Nat) 1 + S64x128.size 1
      simp only [Matrix.cons_val_one, Matrix.cons_val_zero]; omega

/-- The tile's number in the printed offsets' closed form. -/
theorem wL_val : (wL L).val = 2 * (L 1).val + (L 0).val := rfl

/-- The tile's ids are its block of the cut of the ids. -/
theorem set_idsK : (idsK L).view.set = idsPart (wL L) := by
  rw [set_idsK']
  ext x
  rw [Rect.mem_set_unit, Rect.mem_set_unit, k0_off1_eq]
  refine forall_congr' fun a => ?_
  obtain rfl : a = 0 := Subsingleton.elim _ _
  have e1 : S4096.partIx 0 (wL L).val 0 * S4096.partSize 0 32 0 = 256 * (L 1).val + 128 * (L 0).val := by
    show (2 * (L 1).val + (L 0).val) * (4096 / 32) = _; omega
  have e2 : S4096.partSize 0 32 0 = S128.size 0 := rfl
  rw [e1, e2]; rfl

/-- The two halves of the tile's rows of the result split its block of the cut of the result. -/
theorem out_disjoint : Disjoint (outK0 L).view.set (outK1 L).view.set := by
  rw [set_outK0', set_outK1', Finset.disjoint_left]
  intro x h0 h1
  have a0 := (Rect.mem_set_unit.mp h0) 0
  have a1 := (Rect.mem_set_unit.mp h1) 0
  rw [show (0#32 : BitVec 32) = BitVec.ofNat 32 (64 * (0 : Fin 2).val) from rfl, k0_off2_eq] at a0
  rw [show (64#32 : BitVec 32) = BitVec.ofNat 32 (64 * (1 : Fin 2).val) from rfl, k0_off2_eq] at a1
  simp only [Matrix.cons_val_zero] at a0 a1
  have : S64x128.size 0 = 64 := rfl
  have : ((0 : Fin 2) : Nat) = 0 := rfl
  have : ((1 : Fin 2) : Nat) = 1 := rfl
  omega

theorem out_cover : (outK0 L).view.set ∪ (outK1 L).view.set = outPart (wL L) := by
  rw [set_outK0', set_outK1']
  ext x
  rw [Finset.mem_union, Rect.mem_set_unit, Rect.mem_set_unit, Rect.mem_set_unit,
    show (0#32 : BitVec 32) = BitVec.ofNat 32 (64 * (0 : Fin 2).val) from rfl, k0_off2_eq,
    show (64#32 : BitVec 32) = BitVec.ofNat 32 (64 * (1 : Fin 2).val) from rfl, k0_off2_eq]
  have hy : (x 1).val < 128 := (x 1).isLt
  have s0 : S64x128.size 0 = 64 := rfl
  have s1 : S64x128.size 1 = 128 := rfl
  have z0 : ((0 : Fin 2) : Nat) = 0 := rfl
  have z1 : ((1 : Fin 2) : Nat) = 1 := rfl
  have p0 : S4096x128.partIx 0 (wL L).val 0 = 2 * (L 1).val + (L 0).val := rfl
  have p1 : S4096x128.partIx 0 (wL L).val 1 = 0 := rfl
  have q0 : S4096x128.partSize 0 32 0 = 128 := rfl
  have q1 : S4096x128.partSize 0 32 1 = 128 := rfl
  simp only [Fin.forall_fin_two, Matrix.cons_val_zero, Matrix.cons_val_one, p0, p1, q0, q1, s0, s1, z0, z1]
  omega

end Tile

end Cert.Kernel.KS

end
-- ==== Proof.WGatherValue.lean ====
/-
  The gather call on one tile: what its transfers leave in the result.

  A tile's ids land in its id scratch: entry k of the scratch is id 128 w + k. Either gather writes, at row k of its half
  of the row scratch, the table's row at the id its half of the id scratch holds at k; every id names a row of the
  table, so that row is the one the specification reads. The copy-out of a half writes row k of it at row
  128 w + 64 h + k of the result: the result's rows of the tile are, entry by entry, the whole-array function `gathered`.
-/
import proofs.«216483_g44830868636102_cont_8to1c4_483_48_alg».proof.Proof.WGatherSets
import Idealize.ShloMosaic.Lib.SparseCore.Stream
import Idealize.ShloMosaic.Lib.Writes

noncomputable section

namespace Cert.Kernel.KS

open Cert.Kernel Cert.Kernel.Gen

open Idealize.ShloMosaic
open Idealize.ShloMosaic.SparseCore (S V T)
open Idealize.SL Idealize.SL.RA Idealize.SL.BI

variable {F : FTy → Type}

variable (m : (ℓ : Loc nD τ sig) → Buf (Elt F) ℓ)

section Tile

variable (d : Dev nD) (L : grid0.Coords)

abbrev thr (d : Dev nD) (L : grid0.Coords) : Thread nD τ := V d (cV L) (jV L)

/-- What the id scratch holds once the tile's ids have landed in it: the tile's block of the ids. -/
abbrev landed (fi : Buf (Elt F) ((thr d L).loc cc0_scratch0)) : Buf (Elt F) ((thr d L).loc cc0_scratch0) :=
  View.write (Elt F) (sIds : Memref sig .scVector .vmem S128 .i32).view fi
    (ReadAs.same.apply (View.read (Elt F) (idsK L).view (m (idsLoc d)))) Finset.univ

theorem landed_apply (fi : Buf (Elt F) ((thr d L).loc cc0_scratch0)) (j : S128.Idx) :
    landed m d L fi j = m (idsLoc d) ((idsK L).view.emb j) := by
  have e : landed m d L fi = ReadAs.same.apply (View.read (Elt F) (idsK L).view (m (idsLoc d))) := View.write_whole_univ _ _ _
  rw [e]; rfl

/-- The ids a gather reads off either half of the id scratch name rows of the table. -/
theorem hin0 (hpre : IdsOK m) (fi : Buf (Elt F) ((thr d L).loc cc0_scratch0)) :
    ∀ x, ((offs0).view.read (Elt F) (landed m d L fi) x).toNat < S100000x128.size gathers_S100000x128_S64x128.axis := by
  intro x
  show ((landed m d L fi) ((offs0).view.emb x)).toNat < 100000
  rw [landed_apply]
  exact Nat.lt_succ_of_le (hpre d _)
theorem hin1 (hpre : IdsOK m) (fi : Buf (Elt F) ((thr d L).loc cc0_scratch0)) :
    ∀ x, ((offs1).view.read (Elt F) (landed m d L fi) x).toNat < S100000x128.size gathers_S100000x128_S64x128.axis := by
  intro x
  show ((landed m d L fi) ((offs1).view.emb x)).toNat < 100000
  rw [landed_apply]
  exact Nat.lt_succ_of_le (hpre d _)

/-! ## The gather's payload, entry by entry -/

omit m in
/-- The table read through the body's (whole) slice of it is the table. -/
theorem tabK_emb (y : S100000x128.Idx) : (tabK).view.emb y = y := by
  funext a; apply Fin.ext
  show (![0, 0] : Fin 2 → Nat) a + 1 * (y a).val = (y a).val
  fin_cases a <;> simp

omit m in
/-- The entry of a list of 64 offsets at row-major position `k` is its entry `k`. -/
theorem rowMajor_symm_S64 (k : Fin S64.numel) : S64.rowMajor.symm k = ValueIdx.ix1 (⟨k.val, k.isLt⟩ : Fin 64) := by
  have h1 : (S64.rowMajor (S64.rowMajor.symm k)).val = ((S64.rowMajor.symm k) 0).val := Shape.rowMajor_val_one _
  rw [Equiv.apply_symm_apply] at h1
  funext a
  obtain rfl : a = 0 := Subsingleton.elim _ _
  exact Fin.ext h1.symm

omit m in
/-- Row `x 0` of the gather's destination holds the source's row at offset `x 0` of the list. -/
theorem gather_apply (idx : S64.Idx → Elt F .i32) (hn : S64.numel = S64x128.size gathers_S100000x128_S64x128.axis')
    (h : ∀ x, (idx x).toNat < S100000x128.size gathers_S100000x128_S64x128.axis)
    (g : S100000x128.Idx → Elt F .f32) (x : S64x128.Idx) :
    SparseCore.gatherPayload gathers_S100000x128_S64x128 g (SparseCore.rows idx hn h) x
      = g (ValueIdx.ix2 (⟨(idx (ValueIdx.ix1 (x 0))).toNat, h _⟩ : Fin 100000) (x 1)) := by
  unfold SparseCore.gatherPayload
  congr 1
  funext b
  apply Fin.ext
  fin_cases b
  · show (gathers_S100000x128_S64x128.idx (SparseCore.rows idx hn h) x 0).val = (idx (ValueIdx.ix1 (x 0))).toNat
    unfold Shape.Gathers.idx
    split
    · show (idx (S64.rowMajor.symm ((x gathers_S100000x128_S64x128.axis').cast hn.symm))).toNat = _
      rw [rowMajor_symm_S64]
      rfl
    · rename_i hb; exact absurd rfl hb
  · show (gathers_S100000x128_S64x128.idx (SparseCore.rows idx hn h) x 1).val = (x 1).val
    unfold Shape.Gathers.idx
    split
    · rename_i hb; exact absurd hb (by decide)
    · rfl

/-- One entry of a gathered half: where the list's entry `k` is id `B + k` and the entry lands at row `B + x 0` of the
    result, it is the result the specification names there. -/
theorem value_core (hpre : IdsOK m) (B : Nat) (idx : S64.Idx → Elt F .i32) (hn : S64.numel = S64x128.size gathers_S100000x128_S64x128.axis')
    (h : ∀ x, (idx x).toNat < S100000x128.size gathers_S100000x128_S64x128.axis)
    (hidx : ∀ (y : S64.Idx) (z : S4096.Idx), (z 0).val = B + (y 0).val → idx y = m (idsLoc d) z)
    (x : S64x128.Idx) (j : S4096x128.Idx) (hj0 : (j 0).val = B + (x 0).val) (hj1 : (j 1).val = (x 1).val) :
    SparseCore.gatherPayload gathers_S100000x128_S64x128 (View.read (Elt F) (tabK).view (m (tabLoc d))) (SparseCore.rows idx hn h) x
      = gathered m d j := by
  rw [gather_apply]
  show m (tabLoc d) ((tabK).view.emb _) = m (tabLoc d) _
  rw [tabK_emb]
  congr 1
  funext b
  apply Fin.ext
  fin_cases b
  · show (idx (ValueIdx.ix1 (x 0))).toNat = min (m (idsLoc d) (ValueIdx.ix1 (j 0))).toNat 99999
    rw [hidx (ValueIdx.ix1 (x 0)) (ValueIdx.ix1 (j 0)) hj0, Nat.min_eq_left (hpre d _)]
  · exact hj1.symm

/-! ## The two halves -/

omit m in
theorem k0_off2_zero : k0_off2 L 0#32 = ![256 * (L 1).val + 128 * (L 0).val, 0] := by
  have h := k0_off2_eq L 0
  simpa using h
omit m in
theorem k0_off2_one : k0_off2 L 64#32 = ![256 * (L 1).val + 128 * (L 0).val + 64, 0] := by
  have h := k0_off2_eq L 1
  simpa using h

/-- What either copy-out leaves on its rows of the result is `gathered`. -/
theorem out0_value (hpre : IdsOK m) (fi : Buf (Elt F) ((thr d L).loc cc0_scratch0)) (fr : Buf (Elt F) ((thr d L).loc cc0_scratch1))
    (hn : S64.numel = S64x128.size gathers_S100000x128_S64x128.axis')
    (hin : ∀ x, ((offs0).view.read (Elt F) (landed m d L fi) x).toNat < S100000x128.size gathers_S100000x128_S64x128.axis) :
    ∀ i ∈ (outK0 L).view.set,
      (outK0 L).view.writes (Elt F) (m (outLoc d)) [⟨Rect.whole S64x128,
        ReadAs.same.apply (View.read (Elt F) (rows0).view ((rows0).view.writes (Elt F) fr [⟨Rect.whole S64x128,
          SparseCore.gatherPayload gathers_S100000x128_S64x128 (View.read (Elt F) (tabK).view (m (tabLoc d)))
            (SparseCore.rows (View.read (Elt F) (offs0).view (landed m d L fi)) hn hin)⟩]))⟩] i = gathered m d i := by
  intro i hi
  obtain ⟨x, -, rfl⟩ := Finset.mem_map.mp hi
  have e1 := View.read_writes_cons_emb (outK0 L).view (m (outLoc d)) (Rect.whole S64x128)
    (ReadAs.same.apply (View.read (Elt F) (rows0).view ((rows0).view.writes (Elt F) fr [⟨Rect.whole S64x128,
          SparseCore.gatherPayload gathers_S100000x128_S64x128 (View.read (Elt F) (tabK).view (m (tabLoc d)))
            (SparseCore.rows (View.read (Elt F) (offs0).view (landed m d L fi)) hn hin)⟩]))) [] x
  rw [Rect.emb_whole_apply] at e1
  refine ((View.read_apply _ _).trans (cast_eq _ _)).symm.trans (e1.trans ?_)
  have e2 := View.read_writes_cons_emb (rows0).view fr (Rect.whole S64x128)
    (SparseCore.gatherPayload gathers_S100000x128_S64x128 (View.read (Elt F) (tabK).view (m (tabLoc d)))
            (SparseCore.rows (View.read (Elt F) (offs0).view (landed m d L fi)) hn hin)) [] x
  rw [Rect.emb_whole_apply] at e2
  refine e2.trans ?_
  refine value_core m d hpre (256 * (L 1).val + 128 * (L 0).val) _ hn hin ?_ x _ ?_ ?_
  · intro y z hz
    show landed m d L fi ((offs0).view.emb y) = _
    rw [landed_apply]
    have e : ((idsK L).view.emb ((offs0).view.emb y) : S4096.Idx) = z := by
      funext a
      have ha : a.val = 0 := Nat.lt_one_iff.mp a.isLt
      obtain ⟨av, hav⟩ := a
      dsimp only at ha
      subst ha
      apply Fin.ext
      show k0_off1 L 0 + 1 * ((![0] : Fin 1 → Nat) 0 + 1 * (y 0).val) = (z 0).val
      rw [k0_off1_eq, hz]; simp
    exact congrArg (m (idsLoc d)) e
  · show k0_off2 L 0#32 0 + 1 * (x 0).val = _
    rw [k0_off2_zero]; simp
  · show k0_off2 L 0#32 1 + 1 * (x 1).val = _
    rw [k0_off2_zero]; simp

theorem out1_value (hpre : IdsOK m) (fi : Buf (Elt F) ((thr d L).loc cc0_scratch0)) (fr : Buf (Elt F) ((thr d L).loc cc0_scratch1))
    (hn : S64.numel = S64x128.size gathers_S100000x128_S64x128.axis')
    (hin : ∀ x, ((offs1).view.read (Elt F) (landed m d L fi) x).toNat < S100000x128.size gathers_S100000x128_S64x128.axis) :
    ∀ i ∈ (outK1 L).view.set,
      (outK1 L).view.writes (Elt F) (m (outLoc d)) [⟨Rect.whole S64x128,
        ReadAs.same.apply (View.read (Elt F) (rows1).view ((rows1).view.writes (Elt F) fr [⟨Rect.whole S64x128,
          SparseCore.gatherPayload gathers_S100000x128_S64x128 (View.read (Elt F) (tabK).view (m (tabLoc d)))
            (SparseCore.rows (View.read (Elt F) (offs1).view (landed m d L fi)) hn hin)⟩]))⟩] i = gathered m d i := by
  intro i hi
  obtain ⟨x, -, rfl⟩ := Finset.mem_map.mp hi
  have e1 := View.read_writes_cons_emb (outK1 L).view (m (outLoc d)) (Rect.whole S64x128)
    (ReadAs.same.apply (View.read (Elt F) (rows1).view ((rows1).view.writes (Elt F) fr [⟨Rect.whole S64x128,
          SparseCore.gatherPayload gathers_S100000x128_S64x128 (View.read (Elt F) (tabK).view (m (tabLoc d)))
            (SparseCore.rows (View.read (Elt F) (offs1).view (landed m d L fi)) hn hin)⟩]))) [] x
  rw [Rect.emb_whole_apply] at e1
  refine ((View.read_apply _ _).trans (cast_eq _ _)).symm.trans (e1.trans ?_)
  have e2 := View.read_writes_cons_emb (rows1).view fr (Rect.whole S64x128)
    (SparseCore.gatherPayload gathers_S100000x128_S64x128 (View.read (Elt F) (tabK).view (m (tabLoc d)))
            (SparseCore.rows (View.read (Elt F) (offs1).view (landed m d L fi)) hn hin)) [] x
  rw [Rect.emb_whole_apply] at e2
  refine e2.trans ?_
  refine value_core m d hpre (256 * (L 1).val + 128 * (L 0).val + 64) _ hn hin ?_ x _ ?_ ?_
  · intro y z hz
    show landed m d L fi ((offs1).view.emb y) = _
    rw [landed_apply]
    have e : ((idsK L).view.emb ((offs1).view.emb y) : S4096.Idx) = z := by
      funext a
      have ha : a.val = 0 := Nat.lt_one_iff.mp a.isLt
      obtain ⟨av, hav⟩ := a
      dsimp only at ha
      subst ha
      apply Fin.ext
      show k0_off1 L 0 + 1 * ((![64] : Fin 1 → Nat) 0 + 1 * (y 0).val) = (z 0).val
      rw [k0_off1_eq, hz]; simp; omega
    exact congrArg (m (idsLoc d)) e
  · show k0_off2 L 64#32 0 + 1 * (x 0).val = _
    rw [k0_off2_one]; simp
  · show k0_off2 L 64#32 1 + 1 * (x 1).val = _
    rw [k0_off2_one]; simp

end Tile

end Cert.Kernel.KS

end
-- ==== Proof.WGatherBody.lean ====
/-
  The gather call's body on one tile, at a symbolic tile, and the launch theorem's obligation for it.

  The tile copies its 128 ids into its id scratch and waits; starts two gathers of 64 table rows each, one per half of the
  id scratch, into the two halves of its row scratch, each on a semaphore of its own; waits for the first and copies its
  half out to the tile's first 64 rows of the result; waits for the second and copies its half out to the other 64; waits
  for both copies. Every transfer has its own semaphore, the destinations are disjoint, and nothing writes a source
  while it is read: the transfers and waits are steps of the schedule-free protocol over the counters. While both
  gathers are in flight each holds one half of the tile's share of the table.
-/
import proofs.«216483_g44830868636102_cont_8to1c4_483_48_alg».proof.Proof.WGatherValue

noncomputable section

namespace Cert.Kernel.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ)

section Tile

variable (d : Dev nD) (L : grid0.Coords)

/-- The tile's five DMA semaphores: the id copy's, the two gathers', the two copy-outs'. -/
abbrev cellI (d : Dev nD) (L : grid0.Coords) : GSem nD τ sig := (thr d L, .dma cc0_scoped0.sem)
abbrev cellG0 (d : Dev nD) (L : grid0.Coords) : GSem nD τ sig := (thr d L, .dma cc0_scratch2.sem)
abbrev cellG1 (d : Dev nD) (L : grid0.Coords) : GSem nD τ sig := (thr d L, .dma cc0_scratch3.sem)
abbrev cellO0 (d : Dev nD) (L : grid0.Coords) : GSem nD τ sig := (thr d L, .dma cc0_scratch4.sem)
abbrev cellO1 (d : Dev nD) (L : grid0.Coords) : GSem nD τ sig := (thr d L, .dma cc0_scratch5.sem)

omit m in
theorem cell_mem (a : DmaSem sig) (h : (SemLoc.dma a : SemLoc sig).isScoped .scVector = true) :
    ((thr d L, SemLoc.dma a) : GSem nD τ sig) ∈ ownCells (thr d L) := mem_ownCells.mpr ⟨rfl, h⟩
omit m in
theorem cell_ne {a b : DmaSem sig} (h : a ≠ b) : ((thr d L, SemLoc.dma a) : GSem nD τ sig) ≠ (thr d L, SemLoc.dma b) :=
  fun e => h (SemLoc.dma.inj (Prod.mk.inj e).2)

omit m in
/-- The tile's own semaphores are these five, at zero, and the rest. -/
theorem ownSems0_V :
    (ownSems0 (thr d L) : sProp 𝕄)
      = iprop(semVal (cellI d L) 0 ∗ semVal (cellG0 d L) 0 ∗ semVal (cellG1 d L) 0 ∗ semVal (cellO0 d L) 0 ∗ semVal (cellO1 d L) 0
          ∗ bigSep ((((((ownCells (thr d L)).erase (cellI d L)).erase (cellG0 d L)).erase (cellG1 d L)).erase (cellO0 d L)).erase (cellO1 d L))
              fun g => semVal g 0) := by
  unfold SparseCore.Cfg.ownSems0
  rw [SparseCore.bigSep_erase' (cell_mem d L cc0_scoped0.sem (by decide)),
    SparseCore.bigSep_erase' (Finset.mem_erase.mpr ⟨cell_ne d L (a := cc0_scratch2.sem) (b := cc0_scoped0.sem) (by decide), cell_mem d L cc0_scratch2.sem (by decide)⟩),
    SparseCore.bigSep_erase' (Finset.mem_erase.mpr ⟨cell_ne d L (a := cc0_scratch3.sem) (b := cc0_scratch2.sem) (by decide),
      Finset.mem_erase.mpr ⟨cell_ne d L (a := cc0_scratch3.sem) (b := cc0_scoped0.sem) (by decide), cell_mem d L cc0_scratch3.sem (by decide)⟩⟩),
    SparseCore.bigSep_erase' (Finset.mem_erase.mpr ⟨cell_ne d L (a := cc0_scratch4.sem) (b := cc0_scratch3.sem) (by decide),
      Finset.mem_erase.mpr ⟨cell_ne d L (a := cc0_scratch4.sem) (b := cc0_scratch2.sem) (by decide),
        Finset.mem_erase.mpr ⟨cell_ne d L (a := cc0_scratch4.sem) (b := cc0_scoped0.sem) (by decide), cell_mem d L cc0_scratch4.sem (by decide)⟩⟩⟩),
    SparseCore.bigSep_erase' (Finset.mem_erase.mpr ⟨cell_ne d L (a := cc0_scratch5.sem) (b := cc0_scratch4.sem) (by decide),
      Finset.mem_erase.mpr ⟨cell_ne d L (a := cc0_scratch5.sem) (b := cc0_scratch3.sem) (by decide),
        Finset.mem_erase.mpr ⟨cell_ne d L (a := cc0_scratch5.sem) (b := cc0_scratch2.sem) (by decide),
          Finset.mem_erase.mpr ⟨cell_ne d L (a := cc0_scratch5.sem) (b := cc0_scoped0.sem) (by decide), cell_mem d L cc0_scratch5.sem (by decide)⟩⟩⟩⟩)]

omit m in
/-- The two scratch buffers are among the tile's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The arrays as the tile's memrefs address them -/

omit m in
theorem pts_tab (q : PosShare TreeShare) (f : Buf (Elt F) (tabLoc d)) :
    ((tabV : Memref sig .scVector .hbm S100000x128 .f32).view.loc (thr d L) ↦{q} f : sProp 𝕄) = tabLoc d ↦{q} f := rfl
omit m in
theorem pts_sIds (f : Buf (Elt F) ((thr d L).loc cc0_scratch0)) :
    ((sIds : Memref sig .scVector .vmem S128 .i32).view.loc (thr d L) ↦{fullShare} f : sProp 𝕄) = (thr d L).loc cc0_scratch0 ↦{fullShare} f := rfl
omit m in
theorem pts_sRows (f : Buf (Elt F) ((thr d L).loc cc0_scratch1)) :
    ((sRows : Memref sig .scVector .vmem S128x128 .f32).view.loc (thr d L) ↦{fullShare} f : sProp 𝕄) = (thr d L).loc cc0_scratch1 ↦{fullShare} f := rfl
omit m in
theorem pts_idsK (f : Buf (Elt F) (idsLoc d)) :
    ((idsK L).view.loc (thr d L) ↦[(idsK L).view.set]{fullShare} f : sProp 𝕄) = idsLoc d ↦[idsPart (wL L)]{fullShare} f := by
  rw [set_idsK]
omit m in
theorem pts_outK0 (f : Buf (Elt F) (outLoc d)) :
    ((outK0 L).view.loc (thr d L) ↦[(outK0 L).view.set]{fullShare} f : sProp 𝕄) = outLoc d ↦[(outK0 L).view.set]{fullShare} f := rfl
omit m in
theorem pts_outK1 (f : Buf (Elt F) (outLoc d)) :
    ((outK1 L).view.loc (thr d L) ↦[(outK1 L).view.set]{fullShare} f : sProp 𝕄) = outLoc d ↦[(outK1 L).view.set]{fullShare} f := rfl

omit m in
/-- The tile's rows of the result are the two halves the body copies out to. -/
theorem out_halves (f : Buf (Elt F) (outLoc d)) :
    (outLoc d ↦[outPart (wL L)]{fullShare} f : sProp 𝕄)
      ⊣⊢ iprop((outLoc d ↦[(outK0 L).view.set]{fullShare} f) ∗ (outLoc d ↦[(outK1 L).view.set]{fullShare} f)) := by
  have h : (outLoc d ↦[(outK0 L).view.set ∪ (outK1 L).view.set]{fullShare} f : sProp 𝕄)
      ⊣⊢ iprop((outLoc d ↦[(outK0 L).view.set]{fullShare} f) ∗ (outLoc d ↦[(outK1 L).view.set]{fullShare} f)) :=
    pointsTo_union (out_disjoint L)
  rw [out_cover] at h
  exact h
omit m in
/-- The id scratch held whole is its two halves, each as the body slices it; -/
theorem sIds_halves (f : Buf (Elt F) ((thr d L).loc cc0_scratch0)) :
    ((sIds : Memref sig .scVector .vmem S128 .i32).view.loc (thr d L) ↦{fullShare} f : sProp 𝕄)
      ⊣⊢ iprop(((offs0).view.loc (thr d L) ↦[(offs0).view.set]{fullShare} f) ∗ ((offs1).view.loc (thr d L) ↦[(offs1).view.set]{fullShare} f)) := by
  have h : ((thr d L).loc cc0_scratch0 ↦[(offs0).view.set ∪ (offs1).view.set]{fullShare} f : sProp 𝕄)
      ⊣⊢ iprop(((thr d L).loc cc0_scratch0 ↦[(offs0).view.set]{fullShare} f) ∗ ((thr d L).loc cc0_scratch0 ↦[(offs1).view.set]{fullShare} f)) :=
    pointsTo_union offs_disjoint
  rw [offs_cover] at h
  exact h
omit m in
/-- and so is the row scratch, -/
theorem sRows_halves (f : Buf (Elt F) ((thr d L).loc cc0_scratch1)) :
    ((sRows : Memref sig .scVector .vmem S128x128 .f32).view.loc (thr d L) ↦{fullShare} f : sProp 𝕄)
      ⊣⊢ iprop(((rows0).view.loc (thr d L) ↦[(rows0).view.set]{fullShare} f) ∗ ((rows1).view.loc (thr d L) ↦[(rows1).view.set]{fullShare} f)) := by
  have h : ((thr d L).loc cc0_scratch1 ↦[(rows0).view.set ∪ (rows1).view.set]{fullShare} f : sProp 𝕄)
      ⊣⊢ iprop(((thr d L).loc cc0_scratch1 ↦[(rows0).view.set]{fullShare} f) ∗ ((thr d L).loc cc0_scratch1 ↦[(rows1).view.set]{fullShare} f)) :=
    pointsTo_union rows_disjoint
  rw [rows_cover] at h
  exact h
omit m in
/-- whose halves, each at what its gather left, are the scratch at some contents. -/
theorem sRows_join (f g : Buf (Elt F) ((thr d L).loc cc0_scratch1)) :
    iprop(((rows0).view.loc (thr d L) ↦[(rows0).view.set]{fullShare} f) ∗ ((rows1).view.loc (thr d L) ↦[(rows1).view.set]{fullShare} g))
      ⊢ (iprop(∃ h, (thr d L).loc cc0_scratch1 ↦{fullShare} h) : sProp 𝕄) := by
  have h : iprop(((thr d L).loc cc0_scratch1 ↦[(rows0).view.set]{fullShare} f) ∗ ((thr d L).loc cc0_scratch1 ↦[(rows1).view.set]{fullShare} g))
      ⊢ ((thr d L).loc cc0_scratch1 ↦[(rows0).view.set ∪ (rows1).view.set]{fullShare} ((rows1).view.set.piecewise g f) : sProp 𝕄) :=
    pointsTo_join rows_disjoint
  rw [rows_cover] at h
  iintro H
  iexists _
  iapply h; iexact H
omit m in
/-- A share of the table is its two halves: one for each of the two gathers in flight together. -/
theorem tab_halves (q : PosShare TreeShare) (f : Buf (Elt F) (tabLoc d)) :
    ((tabV : Memref sig .scVector .hbm S100000x128 .f32).view.loc (thr d L) ↦{q} f : sProp 𝕄)
      ⊣⊢ iprop(((tabV : Memref sig .scVector .hbm S100000x128 .f32).view.loc (thr d L) ↦{q.left} f)
          ∗ ((tabV : Memref sig .scVector .hbm S100000x128 .f32).view.loc (thr d L) ↦{q.right} f)) :=
  pointsTo_share (PosShare.mem_left_op_right q)

theorem forTile_eq (c : Fin 2) (i : Fin 16) (f : Buf (Elt F) (outLoc d)) :
    forTile m d c i f = iprop((idsLoc d ↦[idsPart (tileNo c i)]{fullShare} m (idsLoc d)) ∗ (tabLoc d ↦{tileShare c i} m (tabLoc d))
      ∗ (outLoc d ↦[outPart (tileNo c i)]{fullShare} f)) := rfl

/-! ## The body -/

/-- The body on tile `(L 0, L 1)` of device `d`: from the tile's ids, its token of the table and its rows of the result,
    to the same with the rows at `gathered`. -/
theorem tile_body [FloatOps F] (hF : (K (F := F)).Facts) (hpre : IdsOK m) (O : CellTallies nD τ sig (HIx 1)) (W : Waits sig (HIx 1))
    (hO : ∀ g, O g none = 0) :
    iprop((levAts (K (F := F)).L (K (F := F)).lev : sProp 𝕄) ∗ emp ∗ forTile m d (cL L) (jL L) (m (outLoc d))
        ∗ scopedBufs (thr d L) ∗ scopedSems0 (thr d L) ∗ owes (thr d L) O W)
      ⊢ wp frame (wpE (defs₀ (F := F)) 𝒱₀ (thr d L) none) Set.univ
          (cc0_gather_kernel L tabV (Memref.isWhole_whole _) idsV (Memref.isWhole_whole _) outV (Memref.isWhole_whole _)
            sIds (Memref.isWhole_whole _) sRows (Memref.isWhole_whole _) cc0_scratch2 cc0_scratch3 cc0_scratch4 cc0_scratch5 cc0_scoped0)
          fun _ => iprop(forTile m d (cL L) (jL L) (gathered m d) ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  simp only [k0_part1_eq_skeleton]; unfold k0_part1_skel
  rw [(K (F := F)).scopedBufs_V hF d (cV L) (jV L), SparseCore.Cfg.scopedSems0_V (Val := Elt F) d (cV L) (jV L), ownSems0_V, ownBufs_V,
    forTile_eq, forTile_eq]
  iintro ⟨#Hlv, -, ⟨Hi, Ht, Ho⟩, ⟨⟨%fi, Hsi⟩, ⟨%fr, Hsr⟩, Hbufs⟩, ⟨HcI, HcG0, HcG1, HcO0, HcO1, Hsems⟩, HO⟩
  ihave Hmw := ((K (F := F)).mayWaits_none (thr := thr d L) hO) $$ Hlv
  -- the arrays as the tile's memrefs address them; the result's rows, the row scratch and the table's token in halves
  ihave Hi' := (Entails.of_eq (pts_idsK (F := F) d L _).symm) $$ Hi
  ihave Ho2 := (out_halves (F := F) d L _).1 $$ Ho
  icases Ho2 with ⟨Ho0, Ho1⟩
  ihave Ho0' := (Entails.of_eq (pts_outK0 (F := F) d L _).symm) $$ Ho0
  ihave Ho1' := (Entails.of_eq (pts_outK1 (F := F) d L _).symm) $$ Ho1
  ihave Hsi' := (Entails.of_eq (pts_sIds (F := F) d L _).symm) $$ Hsi
  ihave Hsr' := (Entails.of_eq (pts_sRows (F := F) d L _).symm) $$ Hsr
  ihave Ht' := (Entails.of_eq (pts_tab (F := F) d L _ _).symm) $$ Ht
  ihave Ht2 := (tab_halves (F := F) d L _ _).1 $$ Ht'
  icases Ht2 with ⟨Ht0, Ht1⟩
  ihave Hsr2 := (sRows_halves (F := F) d L _).1 $$ Hsr'
  icases Hsr2 with ⟨Hr0, Hr1⟩
  -- the tile's ids into the id scratch, and the wait for them
  sl_exec
  -- the id scratch in halves, each gather's list; the ids they hold name rows of the table
  ihave Hsi2 := (sIds_halves (F := F) d L _).1 $$ Hsi'
  icases Hsi2 with ⟨Hs0, Hs1⟩
  have hi0 := hin0 m d L hpre
  have hi1 := hin1 m d L hpre
  -- the two gathers, the waits, the two copies out and their waits
  sl_exec
  sl_step
  -- what the tile hands back: its ids, its token of the table whole again, its rows of the result at `gathered`
  isplitl [Hi' Ht0 Ht1 Ho0' Ho1']
  · isplitl [Hi']; · iapply (Entails.of_eq (pts_idsK (F := F) d L _)); iexact Hi'
    isplitl [Ht0 Ht1]
    · iapply (Entails.of_eq (pts_tab (F := F) d L _ _))
      iapply (tab_halves (F := F) d L _ _).2
      isplitl [Ht0]; · iexact Ht0
      iexact Ht1
    · iapply (out_halves (F := F) d L _).2
      isplitl [Ho0']
      · iapply (Entails.of_eq ((pts_outK0 (F := F) d L _).trans (pointsTo_congr (out0_value m d L hpre fi fr _ (hi0 fi)))))
        iexact Ho0'
      · iapply (Entails.of_eq ((pts_outK1 (F := F) d L _).trans (pointsTo_congr (out1_value m d L hpre fi fr _ (hi1 fi)))))
        iexact Ho1'
  -- the scratch, at whatever it holds
  isplitl [Hs0 Hs1 Hr0 Hr1 Hbufs]
  · isplitl [Hs0 Hs1]
    · iexists _
      iapply (Entails.of_eq (pts_sIds (F := F) d L _))
      iapply (sIds_halves (F := F) d L _).2
      isplitl [Hs0]; · iexact Hs0
      iexact Hs1
    isplitl [Hr0 Hr1]
    · iapply (sRows_join (F := F) d L _ _)
      isplitl [Hr0]; · iexact Hr0
      iexact Hr1
    · iexact Hbufs
  -- the semaphores, at zero
  isplitl [HcI HcG0 HcG1 HcO0 HcO1 Hsems]
  · isplitl [HcI]; · iexact HcI
    isplitl [HcG0]; · iexact HcG0
    isplitl [HcG1]; · iexact HcG1
    isplitl [HcO0]; · iexact HcO0
    isplitl [HcO1]; · iexact HcO1
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0_gather_kernel (coordsV c s)
          tabV (Memref.isWhole_whole _) idsV (Memref.isWhole_whole _) outV (Memref.isWhole_whole _)
          sIds (Memref.isWhole_whole _) sRows (Memref.isWhole_whole _) cc0_scratch2 cc0_scratch3 cc0_scratch4 cc0_scratch5 cc0_scoped0) ⟨⟩ c s := rfl

omit m in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- `TileObl` at the gather call: every tile runs `tile_body` at its own coordinates. -/
theorem tileObl [FloatOps F] (hpre : IdsOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre O W hO).trans (wp_mono frame _ _ fun _ => obl_post)

end Cert.Kernel.KS

end
-- ==== Proof.WBridgeArgs.lean ====
/-
  THE ARGUMENTS END AS LAUNCHED. Through the segments of the program after the gather call — two host operations,
  the first TensorCore call, six host operations, the second TensorCore call — a buffer that is no window's array of
  either call, that no host operation writes and that is not the gather call's result holds at the end what it held
  at launch. Each of the ten argument arrays is such a buffer. Generic in the float instance.
-/
import proofs.«216483_g44830868636102_cont_8to1c4_483_48_alg».proof.Proof.WSegs

set_option maxRecDepth 16384

noncomputable section

namespace Cert.Kernel.KS

open Cert.Kernel Cert.Kernel.Gen
open Idealize.ShloMosaic Idealize.ShloMosaic.TcCoe

variable {F : FTy → Type} [FloatOps F]
variable (m : (ℓ : Loc nD τ sig) → Buf (Elt F) ℓ)

/-- The two host operations before the first call write the transposed ids and the converted table only. -/
theorem hostOpsA_not_writes (b : Ref sig .tc) (h : b ≠ main_v1 ∧ b ≠ main_v2) :
    ∀ op ∈ (hostOpsA : List (HloOp τ sig (Elt F))), Proc.devRef (τ := τ) .tc b ∉ op.writes :=
  List.forall_iff_forall_mem.mp (by
    simp only [hostOpsA, List.Forall, StableHlo.unary_writes, Finset.mem_singleton]
    exact ⟨StableHlo.devRef_ne_of_ne h.1, StableHlo.devRef_ne_of_ne h.2⟩)

/-- The six host operations between the calls write the converted weights and the reshaped biases only. -/
theorem hostOpsB_not_writes (b : Ref sig .tc)
    (h : b ≠ main_v4 ∧ b ≠ main_v5 ∧ b ≠ main_v6 ∧ b ≠ main_v7 ∧ b ≠ main_v8 ∧ b ≠ main_v9) :
    ∀ op ∈ (hostOpsB : List (HloOp τ sig (Elt F))), Proc.devRef (τ := τ) .tc b ∉ op.writes :=
  List.forall_iff_forall_mem.mp (by
    simp only [hostOpsB, List.Forall, StableHlo.unary_writes, StableHlo.reshape_writes, Finset.mem_singleton]
    exact ⟨StableHlo.devRef_ne_of_ne h.1, StableHlo.devRef_ne_of_ne h.2.1, StableHlo.devRef_ne_of_ne h.2.2.1,
      StableHlo.devRef_ne_of_ne h.2.2.2.1, StableHlo.devRef_ne_of_ne h.2.2.2.2.1, StableHlo.devRef_ne_of_ne h.2.2.2.2.2⟩)

/-- A buffer other than the gather call's result holds after that call what it held at launch. -/
theorem W1_untouched (c : Dev nD) (b : Ref sig .tc) (h0 : b ≠ main_v0) :
    W1 m c (Proc.devRef .tc b) = m ((c : Thread nD τ).loc b) := by
  unfold W1; exact Function.update_of_ne (StableHlo.devRef_ne_of_ne h0) _ _

/-- The same at the first TensorCore call's entry, for a buffer the two host operations do not write; -/
theorem W2_untouched (c : Dev nD) (b : Ref sig .tc) (hA : b ≠ main_v1 ∧ b ≠ main_v2) (h0 : b ≠ main_v0) :
    W2 m c (Proc.devRef .tc b) = m ((c : Thread nD τ).loc b) :=
  (StableHlo.after_of_forall_not_mem (b := Proc.devRef .tc b) _ _ (hostOpsA_not_writes b hA)).trans (W1_untouched m c b h0)

/-- at its exit, for one that is no array of its windows; -/
theorem W3_untouched (c : Dev nD) (b : Ref sig .tc) (h1 : ∀ w, Pipeline.arrRef spec1 w ≠ b)
    (hA : b ≠ main_v1 ∧ b ≠ main_v2) (h0 : b ≠ main_v0) :
    W3 m c (Proc.devRef .tc b) = m ((c : Thread nD τ).loc b) :=
  (W3_of_ne m c b h1).trans (W2_untouched m c b hA h0)

/-- at the second call's entry, for one the six host operations do not write; -/
theorem W4_untouched (c : Dev nD) (b : Ref sig .tc)
    (hB : b ≠ main_v4 ∧ b ≠ main_v5 ∧ b ≠ main_v6 ∧ b ≠ main_v7 ∧ b ≠ main_v8 ∧ b ≠ main_v9)
    (h1 : ∀ w, Pipeline.arrRef spec1 w ≠ b) (hA : b ≠ main_v1 ∧ b ≠ main_v2) (h0 : b ≠ main_v0) :
    W4 m c (Proc.devRef .tc b) = m ((c : Thread nD τ).loc b) :=
  (StableHlo.after_of_forall_not_mem (b := Proc.devRef .tc b) _ _ (hostOpsB_not_writes b hB)).trans (W3_untouched m c b h1 hA h0)

/-- and at its exit, for one that is no array of its windows: a buffer nothing writes after launch holds at the end
    what it held at launch. -/
theorem W5_untouched (c : Dev nD) (b : Ref sig .tc) (h2 : ∀ w, Pipeline.arrRef spec2 w ≠ b)
    (hB : b ≠ main_v4 ∧ b ≠ main_v5 ∧ b ≠ main_v6 ∧ b ≠ main_v7 ∧ b ≠ main_v8 ∧ b ≠ main_v9)
    (h1 : ∀ w, Pipeline.arrRef spec1 w ≠ b) (hA : b ≠ main_v1 ∧ b ≠ main_v2) (h0 : b ≠ main_v0) :
    W5 m c (Proc.devRef .tc b) = m ((c : Thread nD τ).loc b) :=
  (W5_of_ne m c b h2).trans (W4_untouched m c b hB h1 hA h0)

theorem W5_main_arg0 (c : Dev nD) : W5 m c (Proc.devRef .tc main_arg0) = m ((c : Thread nD τ).loc main_arg0) :=
  W5_untouched m c main_arg0 (by decide) (by decide) (by decide) (by decide) (by decide)
theorem W5_main_arg1 (c : Dev nD) : W5 m c (Proc.devRef .tc main_arg1) = m ((c : Thread nD τ).loc main_arg1) :=
  W5_untouched m c main_arg1 (by decide) (by decide) (by decide) (by decide) (by decide)
theorem W5_main_arg2 (c : Dev nD) : W5 m c (Proc.devRef .tc main_arg2) = m ((c : Thread nD τ).loc main_arg2) :=
  W5_untouched m c main_arg2 (by decide) (by decide) (by decide) (by decide) (by decide)
theorem W5_main_arg3 (c : Dev nD) : W5 m c (Proc.devRef .tc main_arg3) = m ((c : Thread nD τ).loc main_arg3) :=
  W5_untouched m c main_arg3 (by decide) (by decide) (by decide) (by decide) (by decide)
theorem W5_main_arg4 (c : Dev nD) : W5 m c (Proc.devRef .tc main_arg4) = m ((c : Thread nD τ).loc main_arg4) :=
  W5_untouched m c main_arg4 (by decide) (by decide) (by decide) (by decide) (by decide)
theorem W5_main_arg5 (c : Dev nD) : W5 m c (Proc.devRef .tc main_arg5) = m ((c : Thread nD τ).loc main_arg5) :=
  W5_untouched m c main_arg5 (by decide) (by decide) (by decide) (by decide) (by decide)
theorem W5_main_arg6 (c : Dev nD) : W5 m c (Proc.devRef .tc main_arg6) = m ((c : Thread nD τ).loc main_arg6) :=
  W5_untouched m c main_arg6 (by decide) (by decide) (by decide) (by decide) (by decide)
theorem W5_main_arg7 (c : Dev nD) : W5 m c (Proc.devRef .tc main_arg7) = m ((c : Thread nD τ).loc main_arg7) :=
  W5_untouched m c main_arg7 (by decide) (by decide) (by decide) (by decide) (by decide)
theorem W5_main_arg8 (c : Dev nD) : W5 m c (Proc.devRef .tc main_arg8) = m ((c : Thread nD τ).loc main_arg8) :=
  W5_untouched m c main_arg8 (by decide) (by decide) (by decide) (by decide) (by decide)
theorem W5_main_arg9 (c : Dev nD) : W5 m c (Proc.devRef .tc main_arg9) = m ((c : Thread nD τ).loc main_arg9) :=
  W5_untouched m c main_arg9 (by decide) (by decide) (by decide) (by decide) (by decide)

end Cert.Kernel.KS

end
-- ==== Proof.RefOps.lean ====
/-
  The reference program as a straight line of host operations, and its run.

  The program's six outlined functions are unfolded at their calls: each operation of a callee is listed where the
  call stands, over the buffers that call names. Every weakly fair execution of the program terminates, and each
  buffer of the device ends at the fold of the operations' results over the launch contents.
-/
import proofs.«216483_g44830868636102_cont_8to1c4_483_48_alg».proof.ReferenceIdeal
import Idealize.ShloMosaic.Lib.StableHlo.Run

noncomputable section

namespace Cert.RefRun

open Cert.ReferenceIdeal Cert.ReferenceIdeal.Facts₀ Idealize.ShloMosaic Idealize.ShloMosaic.TcCoe Idealize.SL.Sem Idealize.ShloMosaic.StableHlo

variable [Cert.ReferenceIdeal.Facts] {F : FTy → Type} [FloatOps F]

/-- The program's 91 operations, in order, the calls unfolded. -/
abbrev ops : List (HloOp τ sig (Elt F)) :=
  [ TRef.nullary main_call0.c (constantI S_ 32 0#32),
    TRef.unary main_call0.c main_call0.v0 (broadcastInDim S4096 ![] bcast_S_S4096),
    TRef.binary (.of main_arg0) main_call0.v0 main_call0.v1 (cmpi .slt),
    TRef.nullary main_call0.c_0 (constantI S_ 32 100000#32),
    TRef.unary main_call0.c_0 main_call0.v2 (broadcastInDim S4096 ![] bcast_S_S4096),
    TRef.binary (.of main_arg0) main_call0.v2 main_call0.v3 addi,
    TRef.ternary main_call0.v1 main_call0.v3 (.of main_arg0) main_call0.call0.v0 select,
    TRef.unary main_call0.call0.v0 main_call0.v5 (broadcastInDim S4096x1 ![0] bcast_S4096_S4096x1_0),
    TRef.nullary main_call0.c_1 (constantI S1 32 99999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg2) main_call0.v5 main_call0.v13 (fun x i => Host.gather gather_S100000x128_S4096x1_S4096x128_1_0_n_n_0_1_1128 x i),
    TRef.unary main_call0.v12 main_call0.v14 (broadcastInDim S4096x128 ![0] bcast_S4096_S4096x128_0),
    TRef.nullary main_call0.cst (constant S_ .f32 0x7FC00000#32),
    TRef.unary main_call0.cst main_call0.v15 (broadcastInDim S4096x128 ![] bcast_S_S4096x128),
    TRef.ternary main_call0.v14 main_call0.v13 main_call0.v15 main_call0.v16 select,
    nullary main_c (constantI S_ 32 0#32),
    unary main_c main_v1 (broadcastInDim S1 ![] bcast_S_S1 : (⟨S_, .i32⟩ : BufTy).Contents (Elt F) → (⟨S1, .i32⟩ : BufTy).Contents (Elt F)),
    nullary main_cst (constant S_ .f32 0x00000000#32),
    unary main_cst main_v2 (broadcastInDim S128 ![] bcast_S_S128 : (⟨S_, .f32⟩ : BufTy).Contents (Elt F) → (⟨S128, .f32⟩ : BufTy).Contents (Elt F)),
    ternary main_arg3 main_v1 main_v2 main_v3 ((fun x i u => Host.scatter scatter_S32x128_S1_S128_0_0_0_0 (fun _ b => b) x i u) : (⟨S32x128, .f32⟩ : BufTy).Contents (Elt F) → (⟨S1, .i32⟩ : BufTy).Contents (Elt F) → (⟨S128, .f32⟩ : BufTy).Contents (Elt F) → (⟨S32x128, .f32⟩ : BufTy).Contents (Elt F)),
    TRef.nullary main_call1.c (constantI S_ 32 0#32),
    TRef.unary main_call1.c main_call1.v0 (broadcastInDim S4096x8 ![] bcast_S_S4096x8),
    TRef.binary (.of main_arg1) main_call1.v0 main_call1.v1 (cmpi .slt),
    TRef.nullary main_call1.c_0 (constantI S_ 32 32#32),
    TRef.unary main_call1.c_0 main_call1.v2 (broadcastInDim S4096x8 ![] bcast_S_S4096x8),
    TRef.binary (.of main_arg1) main_call1.v2 main_call1.v3 addi,
    TRef.ternary main_call1.v1 main_call1.v3 (.of main_arg1) main_call1.call0.v0 select,
    TRef.unary main_call1.call0.v0 main_call1.v5 (broadcastInDim S4096x8x1 ![0, 1] bcast_S4096x8_S4096x8x1_0_1),
    TRef.nullary main_call1.c_1 (constantI S1 32 31#32),
    TRef.nullary main_call1.c_2 (constantI S_ 32 0#32),
    TRef.unary main_call1.c_2 main_call1.v6 (broadcastInDim S4096x8x1 ![] bcast_S_S4096x8x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x8x1 ![0, 1, 2] bcast_S1x1x1_S4096x8x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x8x1_S4096x8_d2 h_S_),
    TRef.binary (.of main_v3) main_call1.v5 main_call1.v13 (fun x i => Host.gather gather_S32x128_S4096x8x1_S4096x8x128_2_0_n_n_0_2_1128 x i),
    TRef.unary main_call1.v12 main_call1.v14 (broadcastInDim S4096x8x128 ![0, 1] bcast_S4096x8_S4096x8x128_0_1),
    TRef.nullary main_call1.cst (constant S_ .f32 0x7FC00000#32),
    TRef.unary main_call1.cst main_call1.v15 (broadcastInDim S4096x8x128 ![] bcast_S_S4096x8x128),
    TRef.ternary main_call1.v14 main_call1.v13 main_call1.v15 main_call1.v16 select,
    nullary main_cst_0 (constant S_ .f32 0x00000000#32),
    binary main_v4 main_cst_0 main_v5 ((fun x v => Host.reduceAdd x v reducesTo_S4096x8x128_S4096x128_d1 h_S_) : (⟨S4096x8x128, .f32⟩ : BufTy).Contents (Elt F) → (⟨S_, .f32⟩ : BufTy).Contents (Elt F) → (⟨S4096x128, .f32⟩ : BufTy).Contents (Elt F)),
    nullary main_cst_1 (constant S_ .f32 0x41000000#32),
    unary main_cst_1 main_v6 (broadcastInDim S4096x128 ![] bcast_S_S4096x128 : (⟨S_, .f32⟩ : BufTy).Contents (Elt F) → (⟨S4096x128, .f32⟩ : BufTy).Contents (Elt F)),
    binary main_v5 main_v6 main_v7 (Host.divf : (⟨S4096x128, .f32⟩ : BufTy).Contents (Elt F) → (⟨S4096x128, .f32⟩ : BufTy).Contents (Elt F) → (⟨S4096x128, .f32⟩ : BufTy).Contents (Elt F)),
    binary main_v0 main_v7 main_v8 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    unary main_arg4 main_v9 ((transpose S256x512 [1, 0] · transposes_S512x256_S256x512_1_0) : (⟨S512x256, .f32⟩ : BufTy).Contents (Elt F) → (⟨S256x512, .f32⟩ : BufTy).Contents (Elt F)),
    binary main_v8 main_v9 main_v10 ((fun l r => Host.dotGeneral dot_S4096x256_S256x512_S4096x512_1_0_0_1_n_n none l r) : (⟨S4096x256, .f32⟩ : BufTy).Contents (Elt F) → (⟨S256x512, .f32⟩ : BufTy).Contents (Elt F) → (⟨S4096x512, .f32⟩ : BufTy).Contents (Elt F)),
    unary main_arg5 main_v11 (broadcastInDim S1x512 ![1] bcast_S512_S1x512_1 : (⟨S512, .f32⟩ : BufTy).Contents (Elt F) → (⟨S1x512, .f32⟩ : BufTy).Contents (Elt F)),
    unary main_v11 main_v12 (broadcastInDim S4096x512 ![0, 1] bcast_S1x512_S4096x512_0_1 : (⟨S1x512, .f32⟩ : BufTy).Contents (Elt F) → (⟨S4096x512, .f32⟩ : BufTy).Contents (Elt F)),
    binary main_v10 main_v12 main_v13 (addf : (⟨S4096x512, .f32⟩ : BufTy).Contents (Elt F) → (⟨S4096x512, .f32⟩ : BufTy).Contents (Elt F) → (⟨S4096x512, .f32⟩ : BufTy).Contents (Elt F)),
    TRef.nullary main_call2.cst (constant S_ .f32 0x00000000#32),
    TRef.unary main_call2.cst main_call2.v0 (broadcastInDim S4096x512 ![] bcast_S_S4096x512),
    TRef.binary (.of main_v13) main_call2.v0 main_call2.v1 maximumf,
    unary main_arg6 main_v15 ((transpose S512x256 [1, 0] · transposes_S256x512_S512x256_1_0) : (⟨S256x512, .f32⟩ : BufTy).Contents (Elt F) → (⟨S512x256, .f32⟩ : BufTy).Contents (Elt F)),
    binary main_v14 main_v15 main_v16 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    unary main_arg7 main_v17 (broadcastInDim S1x256 ![1] bcast_S256_S1x256_1 : (⟨S256, .f32⟩ : BufTy).Contents (Elt F) → (⟨S1x256, .f32⟩ : BufTy).Contents (Elt F)),
    unary main_v17 main_v18 (broadcastInDim S4096x256 ![0, 1] bcast_S1x256_S4096x256_0_1 : (⟨S1x256, .f32⟩ : BufTy).Contents (Elt F) → (⟨S4096x256, .f32⟩ : BufTy).Contents (Elt F)),
    binary main_v16 main_v18 main_v19 (addf : (⟨S4096x256, .f32⟩ : BufTy).Contents (Elt F) → (⟨S4096x256, .f32⟩ : BufTy).Contents (Elt F) → (⟨S4096x256, .f32⟩ : BufTy).Contents (Elt F)),
    TRef.nullary main_call3.cst (constant S_ .f32 0x00000000#32),
    TRef.unary main_call3.cst main_call3.v0 (broadcastInDim S4096x256 ![] bcast_S_S4096x256),
    TRef.binary (.of main_v19) main_call3.v0 main_call3.v1 maximumf,
    unary main_arg8 main_v21 ((transpose S256x128 [1, 0] · transposes_S128x256_S256x128_1_0) : (⟨S128x256, .f32⟩ : BufTy).Contents (Elt F) → (⟨S256x128, .f32⟩ : BufTy).Contents (Elt F)),
    binary main_v20 main_v21 main_v22 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg9 main_v23 (broadcastInDim S1x128 ![1] bcast_S128_S1x128_1 : (⟨S128, .f32⟩ : BufTy).Contents (Elt F) → (⟨S1x128, .f32⟩ : BufTy).Contents (Elt F)),
    unary main_v23 main_v24 (broadcastInDim S4096x128 ![0, 1] bcast_S1x128_S4096x128_0_1 : (⟨S1x128, .f32⟩ : BufTy).Contents (Elt F) → (⟨S4096x128, .f32⟩ : BufTy).Contents (Elt F)),
    binary main_v22 main_v24 main_v25 (addf : (⟨S4096x128, .f32⟩ : BufTy).Contents (Elt F) → (⟨S4096x128, .f32⟩ : BufTy).Contents (Elt F) → (⟨S4096x128, .f32⟩ : BufTy).Contents (Elt F)),
    TRef.nullary main_call4.cst (constant S_ .f32 0x00000000#32),
    TRef.unary main_call4.cst main_call4.v0 (broadcastInDim S4096x128 ![] bcast_S_S4096x128),
    TRef.binary (.of main_v25) main_call4.v0 main_call4.v1 maximumf,
    TRef.binary (.of main_v26) (.of main_v26) main_call5.v0 mulf,
    TRef.nullary main_call5.cst (constant S_ .f32 0x00000000#32),
    TRef.binary main_call5.v0 main_call5.cst main_call5.v1 (fun x v => Host.reduceAdd x v reducesTo_S4096x128_S4096_d1 h_S_),
    TRef.unary main_call5.v1 main_call5.v2 (broadcastInDim S4096x1 ![0] bcast_S4096_S4096x1_0),
    TRef.unary main_call5.v2 main_call5.v3 Host.sqrt,
    nullary main_cst_2 (constant S_ .f32 0x2B8CBCCC#32),
    unary main_cst_2 main_v28 (broadcastInDim S4096x1 ![] bcast_S_S4096x1 : (⟨S_, .f32⟩ : BufTy).Contents (Elt F) → (⟨S4096x1, .f32⟩ : BufTy).Contents (Elt F)),
    binary main_v27 main_v28 main_v29 (maximumf : (⟨S4096x1, .f32⟩ : BufTy).Contents (Elt F) → (⟨S4096x1, .f32⟩ : BufTy).Contents (Elt F) → (⟨S4096x1, .f32⟩ : BufTy).Contents (Elt F)),
    unary main_v29 main_v30 (broadcastInDim S4096x128 ![0, 1] bcast_S4096x1_S4096x128_0_1 : (⟨S4096x1, .f32⟩ : BufTy).Contents (Elt F) → (⟨S4096x128, .f32⟩ : BufTy).Contents (Elt F)),
    binary main_v26 main_v30 main_v31 (Host.divf : (⟨S4096x128, .f32⟩ : BufTy).Contents (Elt F) → (⟨S4096x128, .f32⟩ : BufTy).Contents (Elt F) → (⟨S4096x128, .f32⟩ : BufTy).Contents (Elt F)) ]

set_option maxRecDepth 4096 in
/-- The program is that straight line: the callees' definitions unfolded at their calls, sequencing reassociated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Every weakly fair execution of the program terminates with each buffer at the fold of the operations. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.RefTerm.lean ====
/-
  The reference's result as one term of its ten argument arrays, in named stages.

  The stages follow the program: the movie rows (the gather under its range check), the genre table with its first row
  zeroed, the genre rows, their mean, the concatenation, three dense layers with rectifiers, the row norm and the
  division. Each is stated for any float values.
-/
import proofs.«216483_g44830868636102_cont_8to1c4_483_48_alg».proof.ReferenceIdeal

noncomputable section

namespace Cert.RefRun

open Cert.ReferenceIdeal Cert.ReferenceIdeal.Facts₀ Idealize.ShloMosaic Idealize.SL.Sem

variable [Cert.ReferenceIdeal.Facts] {F : FTy → Type} [FloatOps F]

/-! ## The stages of the composed term -/

/-- Movie ids with the negative ones moved up by the table height. -/
def wrapA (ids : IVec S4096 32) : IVec S4096 32 :=
  select (cmpi .slt ids (broadcastInDim S4096 ![] bcast_S_S4096 (constantI S_ 32 0#32)))
    (addi ids (broadcastInDim S4096 ![] bcast_S_S4096 (constantI S_ 32 100000#32))) ids

/-- The same as a column of start indices. -/
def idxA (ids : IVec S4096 32) : IVec S4096x1 32 :=
  broadcastInDim S4096x1 ![0] bcast_S4096_S4096x1_0 (wrapA ids)

/-- Per batch row: is the start index inside the movie table. -/
def okA (ids : IVec S4096 32) : IVec S4096 1 :=
  Host.reduce IntOp.andi
    (andi (cmpi .sge (idxA ids) (broadcastInDim S4096x1 ![] bcast_S_S4096x1 (constantI S_ 32 0#32)))
      (cmpi .sle (idxA ids) (broadcastInDim S4096x1 ![0, 1] bcast_S1x1_S4096x1_0_1
        (broadcastInDim S1x1 ![1] bcast_S1_S1x1_1 (constantI S1 32 99999#32)))))
    (constantI S_ 1 1#1) reducesTo_S4096x1_S4096_d1 h_S_

/-- The movie rows: the gathered row where the start index is inside the table, a fill value elsewhere. -/
def takeA (E : FVec F S100000x128 .f32) (ids : IVec S4096 32) : FVec F S4096x128 .f32 :=
  select (broadcastInDim S4096x128 ![0] bcast_S4096_S4096x128_0 (okA ids))
    (Host.gather gather_S100000x128_S4096x1_S4096x128_1_0_n_n_0_1_1128 E (idxA ids))
    (broadcastInDim S4096x128 ![] bcast_S_S4096x128 (constant S_ .f32 0x7FC00000#32))

/-- The genre table with row 0 overwritten by zeros. -/
def tabB (Ge : FVec F S32x128 .f32) : FVec F S32x128 .f32 :=
  Host.scatter scatter_S32x128_S1_S128_0_0_0_0 (fun _ b => b) Ge
    (broadcastInDim S1 ![] bcast_S_S1 (constantI S_ 32 0#32))
    (broadcastInDim S128 ![] bcast_S_S128 (constant S_ .f32 0x00000000#32))

/-- Genre ids with the negative ones moved up by the table height. -/
def wrapC (gen : IVec S4096x8 32) : IVec S4096x8 32 :=
  select (cmpi .slt gen (broadcastInDim S4096x8 ![] bcast_S_S4096x8 (constantI S_ 32 0#32)))
    (addi gen (broadcastInDim S4096x8 ![] bcast_S_S4096x8 (constantI S_ 32 32#32))) gen

/-- The same with a trailing unit axis: the start indices. -/
def idxC (gen : IVec S4096x8 32) : IVec S4096x8x1 32 :=
  broadcastInDim S4096x8x1 ![0, 1] bcast_S4096x8_S4096x8x1_0_1 (wrapC gen)

/-- Per batch row and slot: is the start index inside the genre table. -/
def okC (gen : IVec S4096x8 32) : IVec S4096x8 1 :=
  Host.reduce IntOp.andi
    (andi (cmpi .sge (idxC gen) (broadcastInDim S4096x8x1 ![] bcast_S_S4096x8x1 (constantI S_ 32 0#32)))
      (cmpi .sle (idxC gen) (broadcastInDim S4096x8x1 ![0, 1, 2] bcast_S1x1x1_S4096x8x1_0_1_2
        (broadcastInDim S1x1x1 ![2] bcast_S1_S1x1x1_2 (constantI S1 32 31#32)))))
    (constantI S_ 1 1#1) reducesTo_S4096x8x1_S4096x8_d2 h_S_

/-- The genre rows: the gathered row where the start index is inside the table, a fill value elsewhere. -/
def takeC (T : FVec F S32x128 .f32) (gen : IVec S4096x8 32) : FVec F S4096x8x128 .f32 :=
  select (broadcastInDim S4096x8x128 ![0, 1] bcast_S4096x8_S4096x8x128_0_1 (okC gen))
    (Host.gather gather_S32x128_S4096x8x1_S4096x8x128_2_0_n_n_0_2_1128 T (idxC gen))
    (broadcastInDim S4096x8x128 ![] bcast_S_S4096x8x128 (constant S_ .f32 0x7FC00000#32))

/-- The mean of the eight genre rows. -/
def meanD (g : FVec F S4096x8x128 .f32) : FVec F S4096x128 .f32 :=
  Host.divf (Host.reduceAdd g (constant S_ .f32 0x00000000#32) reducesTo_S4096x8x128_S4096x128_d1 h_S_)
    (broadcastInDim S4096x128 ![] bcast_S_S4096x128 (constant S_ .f32 0x41000000#32))

/-- The first layer's input: the movie row beside the genre mean. -/
def catD (mv : FVec F S4096x128 .f32) (g : FVec F S4096x8x128 .f32) : FVec F S4096x256 .f32 :=
  concatenate S4096x256 1 [⟨S4096x128, mv⟩, ⟨S4096x128, meanD g⟩] concatenates_S4096x128_S4096x128_S4096x256_d1

/-- The first dense layer with its rectifier. -/
def layerE (x : FVec F S4096x256 .f32) (W : FVec F S512x256 .f32) (b : FVec F S512 .f32) : FVec F S4096x512 .f32 :=
  maximumf
    (addf (Host.dotGeneral dot_S4096x256_S256x512_S4096x512_1_0_0_1_n_n none x (transpose S256x512 [1, 0] W transposes_S512x256_S256x512_1_0))
      (broadcastInDim S4096x512 ![0, 1] bcast_S1x512_S4096x512_0_1 (broadcastInDim S1x512 ![1] bcast_S512_S1x512_1 b)))
    (broadcastInDim S4096x512 ![] bcast_S_S4096x512 (constant S_ .f32 0x00000000#32))

/-- The second dense layer with its rectifier. -/
def layerF (x : FVec F S4096x512 .f32) (W : FVec F S256x512 .f32) (b : FVec F S256 .f32) : FVec F S4096x256 .f32 :=
  maximumf
    (addf (Host.dotGeneral dot_S4096x512_S512x256_S4096x256_1_0_0_1_n_n none x (transpose S512x256 [1, 0] W transposes_S256x512_S512x256_1_0))
      (broadcastInDim S4096x256 ![0, 1] bcast_S1x256_S4096x256_0_1 (broadcastInDim S1x256 ![1] bcast_S256_S1x256_1 b)))
    (broadcastInDim S4096x256 ![] bcast_S_S4096x256 (constant S_ .f32 0x00000000#32))

/-- The third dense layer with its rectifier. -/
def layerG (x : FVec F S4096x256 .f32) (W : FVec F S128x256 .f32) (b : FVec F S128 .f32) : FVec F S4096x128 .f32 :=
  maximumf
    (addf (Host.dotGeneral dot_S4096x256_S256x128_S4096x128_1_0_0_1_n_n none x (transpose S256x128 [1, 0] W transposes_S128x256_S256x128_1_0))
      (broadcastInDim S4096x128 ![0, 1] bcast_S1x128_S4096x128_0_1 (broadcastInDim S1x128 ![1] bcast_S128_S1x128_1 b)))
    (broadcastInDim S4096x128 ![] bcast_S_S4096x128 (constant S_ .f32 0x00000000#32))

/-- The Euclidean norm of each row, kept as a column. -/
def normH (h : FVec F S4096x128 .f32) : FVec F S4096x1 .f32 :=
  Host.sqrt (broadcastInDim S4096x1 ![0] bcast_S4096_S4096x1_0
    (Host.reduceAdd (mulf h h) (constant S_ .f32 0x00000000#32) reducesTo_S4096x128_S4096_d1 h_S_))

/-- Each row divided by its norm, the norm bounded below. -/
def outH (h : FVec F S4096x128 .f32) : FVec F S4096x128 .f32 :=
  Host.divf h (broadcastInDim S4096x128 ![0, 1] bcast_S4096x1_S4096x128_0_1
    (maximumf (normH h) (broadcastInDim S4096x1 ![] bcast_S_S4096x1 (constant S_ .f32 0x2B8CBCCC#32))))

/-- The whole result as one term of the ten argument arrays. -/
def refOut (ids : IVec S4096 32) (gen : IVec S4096x8 32) (E : FVec F S100000x128 .f32) (Ge : FVec F S32x128 .f32)
    (W1 : FVec F S512x256 .f32) (b1 : FVec F S512 .f32) (W2 : FVec F S256x512 .f32) (b2 : FVec F S256 .f32)
    (W3 : FVec F S128x256 .f32) (b3 : FVec F S128 .f32) : FVec F S4096x128 .f32 :=
  outH (layerG (layerF (layerE (catD (takeA E ids) (takeC (tabB Ge) gen)) W1 b1) W2 b2) W3 b3)

end Cert.RefRun

end
-- ==== Proof.LibTypedRef.lean ====
/-
  Typed buffer references: the transport between a value's type and its buffer's declared type.

  An operation of an outlined function reads and writes its buffers through a typed reference, which carries a proof
  that the buffer's declared type is the value's type and moves contents along it. The transport there and back is
  the identity, and a transported value equals any value it is heterogeneously equal to: both by substituting the
  type equation, with nothing computed.
-/
import Idealize.ShloMosaic.Lib.StableHlo

noncomputable section

namespace Idealize.ShloMosaic.StableHlo.TRef

variable {sig : RefSig} {Val : EltTy → Type} {T : BufTy}

/-- Contents moved to the buffer's declared type and back are the contents. -/
theorem ofBuf_toBuf (x : TRef sig T) (w : T.Contents Val) : x.ofBuf (x.toBuf w) = w := by
  obtain ⟨r, rfl, _, _⟩ := x
  rfl

/-- Buffer contents read at the value's type are any value they are heterogeneously equal to. -/
theorem ofBuf_eq_of_heq (x : TRef sig T) (v : x.ref.ty.Contents Val) (w : T.Contents Val) (h : HEq v w) :
    x.ofBuf v = w := by
  obtain ⟨r, rfl, _, _⟩ := x
  exact eq_of_heq h

/-- A value written at the buffer's declared type is any buffer contents it is heterogeneously equal to. -/
theorem toBuf_eq_of_heq (x : TRef sig T) (w : T.Contents Val) (v : x.ref.ty.Contents Val) (h : HEq w v) :
    x.toBuf w = v := by
  obtain ⟨r, rfl, _, _⟩ := x
  exact eq_of_heq h

end Idealize.ShloMosaic.StableHlo.TRef

end
-- ==== Proof.RefAfter.lean ====
/-
  What the reference's straight line leaves in its result buffer and in its arguments.

  The fold of the ninety-one operations' results, read at the result buffer, is the composed term of the ten argument
  arrays: each operation's result is its function applied to its operands' contents, an outlined function's operation
  moving contents along the equation between its buffer's declared type and its value's type, which is the identity.
  Read at an argument buffer, the fold is the argument's launch contents: no operation writes an argument.
-/
import proofs.«216483_g44830868636102_cont_8to1c4_483_48_alg».proof.Proof.RefOps
import proofs.«216483_g44830868636102_cont_8to1c4_483_48_alg».proof.Proof.RefTerm
import proofs.«216483_g44830868636102_cont_8to1c4_483_48_alg».proof.Proof.LibTypedRef

noncomputable section

namespace Cert.RefRun

open Cert.ReferenceIdeal Cert.ReferenceIdeal.Facts₀ Idealize.ShloMosaic Idealize.ShloMosaic.TcCoe Idealize.SL.Sem Idealize.ShloMosaic.StableHlo

variable [Cert.ReferenceIdeal.Facts] {F : FTy → Type} [FloatOps F]

/-- Two `[4096, 128]` arrays side by side: the concatenation as a function of its two pieces. -/
def cat2 (a b : FVec F S4096x128 .f32) : FVec F S4096x256 .f32 :=
  concatenate S4096x256 1 [⟨S4096x128, a⟩, ⟨S4096x128, b⟩] concatenates_S4096x128_S4096x128_S4096x256_d1

theorem cat2_eq (a b : FVec F S4096x128 .f32) (h : Shape.Concatenates [S4096x128, S4096x128] S4096x256 1) :
    concatenate S4096x256 1 [⟨S4096x128, a⟩, ⟨S4096x128, b⟩] h = cat2 a b := rfl

set_option maxHeartbeats 8000000 in
set_option maxRecDepth 8192 in
/-- The result buffer after the line: the composed term of the arguments' contents. -/
theorem after_v31 (V : Valuation τ sig (Elt F)) :
    after ops V (main_v31 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  -- each operation's result at its own buffer is its function's value, at another buffer what was there; the
  -- concatenation is read as a function of its two pieces so that the pieces' contents are rewritten in turn
  simp (disch := decide) only [after_cons, after_nil, nullary_result', unary_result', binary_result', ternary_result',
    nullary_result_ne', unary_result_ne', binary_result_ne', ternary_result_ne', cat2_eq]
  simp only [TRef.ofBuf_toBuf]
  simp only [cast_eq]
  simp only [cat2, refOut, outH, normH, layerG, layerF, layerE, catD, meanD, takeC, okC, idxC, wrapC, tabB, takeA, okA, idxA, wrapA]

set_option maxHeartbeats 2000000 in
/-- No operation writes argument 0. -/
theorem after_arg0 (V : Valuation τ sig (Elt F)) :
    after ops V (main_arg0 : DevRef τ sig) = V (main_arg0 : DevRef τ sig) := by
  after_results_simp

set_option maxHeartbeats 2000000 in
/-- No operation writes argument 1. -/
theorem after_arg1 (V : Valuation τ sig (Elt F)) :
    after ops V (main_arg1 : DevRef τ sig) = V (main_arg1 : DevRef τ sig) := by
  after_results_simp

set_option maxHeartbeats 2000000 in
/-- No operation writes argument 2. -/
theorem after_arg2 (V : Valuation τ sig (Elt F)) :
    after ops V (main_arg2 : DevRef τ sig) = V (main_arg2 : DevRef τ sig) := by
  after_results_simp

set_option maxHeartbeats 2000000 in
/-- No operation writes argument 3. -/
theorem after_arg3 (V : Valuation τ sig (Elt F)) :
    after ops V (main_arg3 : DevRef τ sig) = V (main_arg3 : DevRef τ sig) := by
  after_results_simp

set_option maxHeartbeats 2000000 in
/-- No operation writes argument 4. -/
theorem after_arg4 (V : Valuation τ sig (Elt F)) :
    after ops V (main_arg4 : DevRef τ sig) = V (main_arg4 : DevRef τ sig) := by
  after_results_simp

set_option maxHeartbeats 2000000 in
/-- No operation writes argument 5. -/
theorem after_arg5 (V : Valuation τ sig (Elt F)) :
    after ops V (main_arg5 : DevRef τ sig) = V (main_arg5 : DevRef τ sig) := by
  after_results_simp

set_option maxHeartbeats 2000000 in
/-- No operation writes argument 6. -/
theorem after_arg6 (V : Valuation τ sig (Elt F)) :
    after ops V (main_arg6 : DevRef τ sig) = V (main_arg6 : DevRef τ sig) := by
  after_results_simp

set_option maxHeartbeats 2000000 in
/-- No operation writes argument 7. -/
theorem after_arg7 (V : Valuation τ sig (Elt F)) :
    after ops V (main_arg7 : DevRef τ sig) = V (main_arg7 : DevRef τ sig) := by
  after_results_simp

set_option maxHeartbeats 2000000 in
/-- No operation writes argument 8. -/
theorem after_arg8 (V : Valuation τ sig (Elt F)) :
    after ops V (main_arg8 : DevRef τ sig) = V (main_arg8 : DevRef τ sig) := by
  after_results_simp

set_option maxHeartbeats 2000000 in
/-- No operation writes argument 9. -/
theorem after_arg9 (V : Valuation τ sig (Elt F)) :
    after ops V (main_arg9 : DevRef τ sig) = V (main_arg9 : DevRef τ sig) := by
  after_results_simp

end Cert.RefRun

end
-- ==== Proof.LibRowGatherScatter.lean ====
/-
  Row gather and row scatter-add, read at an index.

  What \`x[idx]\` of a matrix \`x : [N, C]\` at an integer vector \`idx : [E]\` (carried as \`[E, 1]\`) lowers to is a
  \`stablehlo.gather\` of whole rows: result element \`(e, k)\` is \`x\` at row \`idx[e]\` (read signed, clamped into
  \`[0, N − 1]\`) and column \`k\`. What a segment sum of rows \`upd : [E, C]\` into \`[N, C]\` lowers to is a
  \`stablehlo.scatter\` with an \`add\` body: operand element \`(n, k)\` receives every \`upd (e, k)\` whose index \`idx[e]\`,
  read signed and not clamped, is exactly \`n\`.
-/
import Idealize.ShloMosaic.Lib.ValueIdx
import Idealize.ShloMosaic.PureOps.Ideal

noncomputable section

open scoped BigOperators

namespace Cert.RowOps

open Idealize.ShloMosaic Idealize.ShloMosaic.ValueIdx

/-! ## The row gather -/

/-- The dimension numbers of a row gather: operand \`[N, C]\`, start indices \`[E, 1]\`, result \`[E, C]\`; offset axis
    \`1\`, collapsed operand axis \`0\`, the start index naming operand axis \`0\`, slices of one whole row. Their
    conditions \`wf\` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads for edge \`e\`: the start index read signed and clamped into \`[0, N − 1]\`. -/
def gatherRow {N E w : Nat} (hN : 0 < N) (idx : IVec ⟨2, ![E, 1]⟩ w) (e : Fin E) : Fin N :=
  ⟨min (idx (ix2 e 0)).toInt.toNat (N - 1), by omega⟩

/-- The row gather at \`(e, k)\` is the operand at row \`gatherRow e\` (the clamped start index) and column \`k\`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (gatherRow hN idx e) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hst : (rowGatherDims N E C wf).start (ix2 e k) idx 1 = 0 := by
      unfold GatherDims.start
      rw [dif_neg (fun h => absurd (List.mem_singleton.mp h) (show (1 : Fin 2) ≠ 0 by decide))]
    rw [hst]
    simp only [Nat.add_zero, Nat.zero_add]
    unfold GatherDims.offCoord
    rw [dif_pos ((GatherDims.mem_sKept _ _).mpr
      ⟨fun h => absurd (List.mem_singleton.mp h) (show (1 : Fin 2) ≠ 0 by decide), List.not_mem_nil⟩)]
    rfl

/-! ## The row scatter-add -/

/-- The dimension numbers of a row scatter: operand \`[N, C]\`, scatter indices \`[E, 1]\`, updates \`[E, C]\`; update
    window axis \`1\`, inserted operand axis \`0\`, the scatter index naming operand axis \`0\`. Their conditions \`wf\` are
    decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- The operand axes the update windows go to are the ones that are not inserted. -/
theorem rowScatter_mem_sKept (a : Fin 2) :
    a ∈ (rowScatterDims N E C wf).sKept ↔ a ∉ (rowScatterDims N E C wf).insertedWindowDims := by
  simp [ScatterDims.sKept, Shape.kept, List.mem_filter, List.mem_finRange]

/-- On the row axis the window of update \`(e, k)\` starts at the scatter index \`idx[e]\`, read signed. -/
theorem rowScatter_start0 (idx : IVec ⟨2, ![E, 1]⟩ w) (e : Fin E) (k : Fin C) :
    (rowScatterDims N E C wf).start (ix2 e k) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at \`0\`: the scatter index names the row axis only. -/
theorem rowScatter_start1 (idx : IVec ⟨2, ![E, 1]⟩ w) (e : Fin E) (k : Fin C) :
    (rowScatterDims N E C wf).start (ix2 e k) idx 1 = 0 := by
  unfold ScatterDims.start
  rw [dif_neg (fun h => absurd (List.mem_singleton.mp h) (show (1 : Fin 2) ≠ 0 by decide))]

/-- The row axis is an inserted one: the window coordinate there is \`0\`. -/
theorem rowScatter_window0 (e : Fin E) (k : Fin C) : (rowScatterDims N E C wf).window (ix2 e k) 0 = 0 := by
  unfold ScatterDims.window
  rw [dif_neg (fun h => ((rowScatter_mem_sKept wf 0).mp h) (List.mem_singleton.mpr rfl))]

/-- On the column axis the window coordinate of update \`(e, k)\` is \`k\`. -/
theorem rowScatter_window1 (e : Fin E) (k : Fin C) : (rowScatterDims N E C wf).window (ix2 e k) 1 = k.val := by
  unfold ScatterDims.window
  rw [dif_pos ((rowScatter_mem_sKept wf 1).mpr
    (fun h => absurd (List.mem_singleton.mp h) (show (1 : Fin 2) ≠ 0 by decide)))]
  rfl

end Scatter

/-- Update \`(e, k)\` lands on operand element \`(n, k')\` exactly when the columns agree and the scatter index \`idx[e]\`,
    read signed, is the row \`n\`. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k')
      ↔ (k = k' ∧ (idx (ix2 e 0)).toInt = (n.val : Int)) := by
  have hk := k.isLt
  have hn := n.isLt
  unfold ScatterDims.resultIdx?
  constructor
  · intro h
    by_cases hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a
    · rw [dif_pos hall] at h
      have heq := Option.some.inj h
      have h0 : ((rowScatterDims N E C wf).start (ix2 e k) idx 0 + (rowScatterDims N E C wf).window (ix2 e k) 0).toNat
          = n.val := congrArg (fun f => (f 0).val) heq
      have h1 : ((rowScatterDims N E C wf).start (ix2 e k) idx 1 + (rowScatterDims N E C wf).window (ix2 e k) 1).toNat
          = k'.val := congrArg (fun f => (f 1).val) heq
      have b0 := (hall 0).1
      rw [rowScatter_start0, rowScatter_window0] at h0 b0
      rw [rowScatter_start1, rowScatter_window1] at h1
      refine ⟨Fin.ext ?_, ?_⟩
      · omega
      · omega
    · rw [dif_neg hall] at h
      exact absurd h (by simp)
  · rintro ⟨rfl, hi⟩
    have hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a := by
      intro a
      match a with
      | ⟨0, _⟩ =>
        show 0 ≤ (rowScatterDims N E C wf).start (ix2 e k) idx 0 + (rowScatterDims N E C wf).window (ix2 e k) 0
          ∧ (rowScatterDims N E C wf).start (ix2 e k) idx 0 + (rowScatterDims N E C wf).window (ix2 e k) 0 < (N : Int)
        rw [rowScatter_start0, rowScatter_window0, hi]
        omega
      | ⟨1, _⟩ =>
        show 0 ≤ (rowScatterDims N E C wf).start (ix2 e k) idx 1 + (rowScatterDims N E C wf).window (ix2 e k) 1
          ∧ (rowScatterDims N E C wf).start (ix2 e k) idx 1 + (rowScatterDims N E C wf).window (ix2 e k) 1 < (C : Int)
        rw [rowScatter_start1, rowScatter_window1]
        omega
    rw [dif_pos hall]
    congr 1
    funext a
    refine Fin.ext ?_
    match a with
    | ⟨0, _⟩ =>
      show ((rowScatterDims N E C wf).start (ix2 e k) idx 0 + (rowScatterDims N E C wf).window (ix2 e k) 0).toNat = n.val
      rw [rowScatter_start0, rowScatter_window0, hi]
      omega
    | ⟨1, _⟩ =>
      show ((rowScatterDims N E C wf).start (ix2 e k) idx 1 + (rowScatterDims N E C wf).window (ix2 e k) 1).toNat = k.val
      rw [rowScatter_start1, rowScatter_window1]
      omega

/-- THE ROW SCATTER-ADD AT \`(n, k)\`: the operand element plus the sum of the update elements \`upd (e, k)\` over the
    edges \`e\` whose scatter index \`idx[e]\`, read signed and not clamped, is the row \`n\`. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k)
        + ∑ e ∈ Finset.univ.filter (fun e : Fin E => (idx (ix2 e 0)).toInt = (n.val : Int)), upd (ix2 e k) := by
  unfold Ideal.hostScatterAdd
  congr 1
  -- the update indices that land on \`(n, k)\` are the \`(e, k)\` with \`idx[e] = n\`: re-index by the edge coordinate
  refine Finset.sum_nbij' (fun j => (j 0 : Fin E)) (fun e => ix2 e k) ?_ ?_ ?_ ?_ ?_
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    exact Finset.mem_filter.mpr ⟨Finset.mem_univ _, h.2⟩
  · intro e he
    exact Finset.mem_filter.mpr ⟨Finset.mem_univ _,
      (rowScatter_resultIdx_iff wf idx e k n k).mpr ⟨rfl, (Finset.mem_filter.mp he).2⟩⟩
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show ix2 a k = ix2 a b
    rw [h.1]
  · intro e _
    rfl
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show upd (ix2 a b) = upd (ix2 a k)
    rw [h.1]

end Cert.RowOps

end
-- ==== Proof.RefRead.lean ====
/-
  The reference's stages before the dense layers, read at an index on the extended reals.

  Under the two index ranges (movie ids at most 99999, genre ids at most 31) the negative-index wrap is the identity
  and the range check is true everywhere, so each gather reads the table at the row the id names. The scatter that
  overwrites row 0 of the genre table with zeros gives the table with its padding row zero; the sum over the eight
  genre slots divided by eight is the mean; the concatenation puts the movie row before the genre mean.
-/
import proofs.«216483_g44830868636102_cont_8to1c4_483_48_alg».proof.Proof.RefTerm
import proofs.«216483_g44830868636102_cont_8to1c4_483_48_alg».proof.Proof.Spec
import proofs.«216483_g44830868636102_cont_8to1c4_483_48_alg».proof.Proof.LibRowGatherScatter
import Idealize.ShloMosaic.PureOps.Ideal.Laws
import Idealize.ShloMosaic.Lib.Pipeline.Value
import Idealize.ShloMosaic.Lib.ValueIdx

noncomputable section

open scoped BigOperators

namespace Cert.RefRun

open Cert.ReferenceIdeal Cert.ReferenceIdeal.Facts₀ Idealize.ShloMosaic Idealize.SL.Sem Idealize.ShloMosaic.ValueIdx

variable [Cert.ReferenceIdeal.Facts]

/-! ## A row gather at a matrix of start indices -/

/-- The dimension numbers of a gather of whole rows of an `[N, C]` operand at start indices `[R, S, 1]`, result
    `[R, S, C]`: offset axis `2`, collapsed operand axis `0`, the start index naming operand axis `0`. -/
abbrev rowGather3Dims (N R S C : Nat)
    (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- The gather at `(r, s, k)` is the operand at the row the start index `idx[r, s, 0]` names (read signed, clamped
    into `[0, N − 1]`) and column `k`. -/
theorem rowGather3_apply {α : Type} {N R S C w : Nat} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (r : Fin R) (s : Fin S) (k : Fin C) :
    Host.gather (rowGather3Dims N R S C wf) x idx (ix3 r s k)
      = x (ix2 (⟨min (idx (ix3 r s 0)).toInt.toNat (N - 1), by omega⟩ : Fin N) k) := by
  unfold Host.gather
  congr 1
  funext a
  refine Fin.ext ?_
  match a with
  | ⟨0, _⟩ =>
    show (rowGather3Dims N R S C wf).start (ix3 r s k) idx 0 + (rowGather3Dims N R S C wf).batchCoord (ix3 r s k) 0
      + (rowGather3Dims N R S C wf).offCoord (ix3 r s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather3Dims N R S C wf).startIndexMap from List.mem_singleton.mpr rfl)]
    have hsi : (rowGather3Dims N R S C wf).siIdx (ix3 r s k) ⟨List.idxOf (0 : Fin 2) (rowGather3Dims N R S C wf).startIndexMap,
        List.idxOf_lt_length_iff.2 (List.mem_singleton.mpr rfl)⟩ = ix3 r s 0 := by
      funext b; refine Fin.ext ?_
      match b with
      | ⟨0, _⟩ => rfl
      | ⟨1, _⟩ => rfl
      | ⟨2, _⟩ => rfl
    rw [hsi]
    rfl
  | ⟨1, _⟩ =>
    show (rowGather3Dims N R S C wf).start (ix3 r s k) idx 1 + (rowGather3Dims N R S C wf).batchCoord (ix3 r s k) 1
      + (rowGather3Dims N R S C wf).offCoord (ix3 r s k) 1 = k.val
    rw [GatherDims.batchCoord_eq_zero _ _ _ List.not_mem_nil]
    have hst : (rowGather3Dims N R S C wf).start (ix3 r s k) idx 1 = 0 := by
      unfold GatherDims.start
      rw [dif_neg (fun h => absurd (List.mem_singleton.mp h) (show (1 : Fin 2) ≠ 0 by decide))]
    rw [hst]
    simp only [Nat.add_zero, Nat.zero_add]
    unfold GatherDims.offCoord
    rw [dif_pos ((GatherDims.mem_sKept _ _).mpr
      ⟨fun h => absurd (List.mem_singleton.mp h) (show (1 : Fin 2) ≠ 0 by decide), List.not_mem_nil⟩)]
    rfl

/-! ## One row overwritten -/

/-- The dimension numbers of a scatter of one `[C]` row into an `[N, C]` operand at one scalar index: the update's
    axis is a window axis going to operand axis `1`, operand axis `0` is inserted and named by the index. -/
abbrev rowSetDims (N C : Nat) (wf : ScatterDims.WF ⟨2, ![N, C]⟩ ⟨1, ![1]⟩ ⟨1, ![C]⟩ [0] [0] [0] 0) :
    ScatterDims ⟨2, ![N, C]⟩ ⟨1, ![1]⟩ ⟨1, ![C]⟩ where
  updateWindowDims := [0]
  insertedWindowDims := [0]
  scatterDimsToOperandDims := [0]
  indexVectorDim := 0
  wf := wf

/-- The index array holding zero. -/
abbrev zeroIdx : IVec ⟨1, ![1]⟩ 32 := fun _ => 0#32

section RowSet
variable {N C : Nat} (wf : ScatterDims.WF ⟨2, ![N, C]⟩ ⟨1, ![1]⟩ ⟨1, ![C]⟩ [0] [0] [0] 0)

theorem rowSet_mem_sKept (a : Fin 2) :
    a ∈ (rowSetDims N C wf).sKept ↔ a ∉ (rowSetDims N C wf).insertedWindowDims := by
  simp [ScatterDims.sKept, Shape.kept, List.mem_filter, List.mem_finRange]

/-- With the index zero, update entry `c` lands on operand entry `(0, c)`. -/
theorem rowSet_resultIdx_ix1 (hN : 0 < N) (c : Fin C) :
    (rowSetDims N C wf).resultIdx? (ix1 c) zeroIdx = some (ix2 (⟨0, hN⟩ : Fin N) c) := by
  have hs0 : (rowSetDims N C wf).start (ix1 c) zeroIdx 0 = 0 := by
    unfold ScatterDims.start
    rw [dif_pos (show (0 : Fin 2) ∈ (rowSetDims N C wf).scatterDimsToOperandDims from List.mem_singleton.mpr rfl)]
    rfl
  have hs1 : (rowSetDims N C wf).start (ix1 c) zeroIdx 1 = 0 := by
    unfold ScatterDims.start
    rw [dif_neg (fun h => absurd (List.mem_singleton.mp h) (show (1 : Fin 2) ≠ 0 by decide))]
  have hw0 : (rowSetDims N C wf).window (ix1 c) 0 = 0 := by
    unfold ScatterDims.window
    rw [dif_neg (fun h => ((rowSet_mem_sKept wf 0).mp h) (List.mem_singleton.mpr rfl))]
  have hw1 : (rowSetDims N C wf).window (ix1 c) 1 = c.val := by
    unfold ScatterDims.window
    rw [dif_pos ((rowSet_mem_sKept wf 1).mpr
      (fun h => absurd (List.mem_singleton.mp h) (show (1 : Fin 2) ≠ 0 by decide)))]
    rfl
  have hc := c.isLt
  have hall : ∀ a, 0 ≤ (rowSetDims N C wf).start (ix1 c) zeroIdx a + (rowSetDims N C wf).window (ix1 c) a
      ∧ (rowSetDims N C wf).start (ix1 c) zeroIdx a + (rowSetDims N C wf).window (ix1 c) a
        < (⟨2, ![N, C]⟩ : Shape).size a := by
    intro a
    match a with
    | ⟨0, _⟩ =>
      show 0 ≤ (rowSetDims N C wf).start (ix1 c) zeroIdx 0 + (rowSetDims N C wf).window (ix1 c) 0
        ∧ (rowSetDims N C wf).start (ix1 c) zeroIdx 0 + (rowSetDims N C wf).window (ix1 c) 0 < (N : Int)
      rw [hs0, hw0]; omega
    | ⟨1, _⟩ =>
      show 0 ≤ (rowSetDims N C wf).start (ix1 c) zeroIdx 1 + (rowSetDims N C wf).window (ix1 c) 1
        ∧ (rowSetDims N C wf).start (ix1 c) zeroIdx 1 + (rowSetDims N C wf).window (ix1 c) 1 < (C : Int)
      rw [hs1, hw1]; omega
  unfold ScatterDims.resultIdx?
  rw [dif_pos hall]
  congr 1
  funext a
  refine Fin.ext ?_
  match a with
  | ⟨0, _⟩ =>
    show ((rowSetDims N C wf).start (ix1 c) zeroIdx 0 + (rowSetDims N C wf).window (ix1 c) 0).toNat = 0
    rw [hs0, hw0]; rfl
  | ⟨1, _⟩ =>
    show ((rowSetDims N C wf).start (ix1 c) zeroIdx 1 + (rowSetDims N C wf).window (ix1 c) 1).toNat = c.val
    rw [hs1, hw1]; omega

/-- The same at any update index. -/
theorem rowSet_resultIdx (hN : 0 < N) (j : (⟨1, ![C]⟩ : Shape).Idx) :
    (rowSetDims N C wf).resultIdx? j zeroIdx = some (ix2 (⟨0, hN⟩ : Fin N) (j 0)) := by
  obtain ⟨c, rfl⟩ : ∃ c : Fin C, j = ix1 c := ⟨j 0, eq_ix1 j⟩
  exact rowSet_resultIdx_ix1 wf hN c

end RowSet

open Classical in
/-- A fold of steps each overwriting one entry: an entry some step targets holds that step's value (here a function
    of the target alone), any other entry its initial value. -/
theorem fold_overwrite {ι κ β : Type} (step : (ι → β) → κ → (ι → β)) (tgt : κ → ι) (val : κ → β) (v : ι → β)
    (hstep : ∀ r n i', step r n i' = if i' = tgt n then val n else r i') (hval : ∀ n, val n = v (tgt n)) (i' : ι) :
    ∀ (l : List κ) (x : ι → β), l.foldl step x i' = if ∃ n ∈ l, i' = tgt n then v i' else x i' := by
  intro l
  induction l with
  | nil => intro x; simp
  | cons n l ih =>
    intro x
    rw [List.foldl_cons, ih, hstep]
    by_cases h1 : ∃ m ∈ l, i' = tgt m
    · rw [if_pos h1, if_pos (by obtain ⟨m, hm, e⟩ := h1; exact ⟨m, List.mem_cons_of_mem _ hm, e⟩)]
    · rw [if_neg h1]
      by_cases h2 : i' = tgt n
      · rw [if_pos h2, if_pos ⟨n, List.mem_cons_self, h2⟩, hval, h2]
      · rw [if_neg h2, if_neg]
        rintro ⟨m, hm, e⟩
        rcases List.mem_cons.mp hm with rfl | hm
        · exact h2 e
        · exact h1 ⟨m, hm, e⟩

section RowSetApply
variable {N C : Nat} (wf : ScatterDims.WF ⟨2, ![N, C]⟩ ⟨1, ![1]⟩ ⟨1, ![C]⟩ [0] [0] [0] 0)

/-- THE ROW SET AT `(g, c)`: with the index zero, row `0` holds the update, the other rows the operand. -/
theorem rowSet_apply {α : Type} (hN : 0 < N) (x : (⟨2, ![N, C]⟩ : Shape).Idx → α) (upd : (⟨1, ![C]⟩ : Shape).Idx → α)
    (g : Fin N) (c : Fin C) :
    Host.scatter (rowSetDims N C wf) (fun _ b => b) x zeroIdx upd (ix2 g c)
      = if g.val = 0 then upd (ix1 c) else x (ix2 g c) := by
  unfold Host.scatter
  refine (fold_overwrite (ι := (⟨2, ![N, C]⟩ : Shape).Idx) _
    (fun n => (ix2 (⟨0, hN⟩ : Fin N) ((((⟨1, ![C]⟩ : Shape).rowMajor.symm n) 0 : Fin C)) : (⟨2, ![N, C]⟩ : Shape).Idx))
    (fun n => upd ((⟨1, ![C]⟩ : Shape).rowMajor.symm n)) (fun i => upd (ix1 (i 1))) ?_ ?_ (ix2 g c) _ x).trans ?_
  · intro r n i'
    simp only [rowSet_resultIdx wf hN]
    by_cases h : i' = (ix2 (⟨0, hN⟩ : Fin N) ((((⟨1, ![C]⟩ : Shape).rowMajor.symm n) 0 : Fin C)) : (⟨2, ![N, C]⟩ : Shape).Idx)
    · exact (if_pos h).trans (if_pos h).symm
    · exact (if_neg h).trans (if_neg h).symm
  · intro n
    exact congrArg upd (eq_ix1 _)
  by_cases hg : g.val = 0
  · rw [if_pos hg]
    refine if_pos ⟨(⟨1, ![C]⟩ : Shape).rowMajor (ix1 c), List.mem_finRange _, ?_⟩
    rw [Equiv.symm_apply_apply]
    funext a
    match a with
    | ⟨0, _⟩ => exact Fin.ext hg
    | ⟨1, _⟩ => rfl
  · rw [if_neg hg]
    exact if_neg (by rintro ⟨n, -, e⟩; exact hg (congrArg (fun f => (f 0).val) e))

end RowSetApply

/-! ## Index words in range -/

/-- A word whose unsigned value is below `2^31` reads the same signed. -/
theorem toInt_of_le {x : BitVec 32} {n : Nat} (hn : n < 2147483648) (h : x.toNat ≤ n) : x.toInt = (x.toNat : Int) := by
  rw [BitVec.toInt_eq_toNat_cond]
  split
  · rfl
  · omega

theorem toInt_ofNat_small {n : Nat} (hn : n < 2147483648) : (BitVec.ofNat 32 n).toInt = (n : Int) := by
  have h1 : (BitVec.ofNat 32 n).toNat = n := by rw [BitVec.toNat_ofNat]; omega
  rw [toInt_of_le hn (le_of_eq h1), h1]

theorem slt_zero_of_le {x : BitVec 32} {n : Nat} (hn : n < 2147483648) (h : x.toNat ≤ n) :
    IntOp.cmpi .slt x 0#32 = 0#1 := by
  show BitVec.ofBool (x.slt 0#32) = 0#1
  have : x.slt 0#32 = false := by
    rw [BitVec.slt, toInt_of_le hn h]
    simp
  rw [this]; rfl

theorem sge_zero_of_le {x : BitVec 32} {n : Nat} (hn : n < 2147483648) (h : x.toNat ≤ n) :
    IntOp.cmpi .sge x 0#32 = 1#1 := by
  show BitVec.ofBool ((0#32 : BitVec 32).sle x) = 1#1
  have : (0#32 : BitVec 32).sle x = true := by
    rw [BitVec.sle, toInt_of_le hn h]
    simp
  rw [this]; rfl

theorem sle_of_le {x : BitVec 32} {n : Nat} (hn : n < 2147483648) (h : x.toNat ≤ n) :
    IntOp.cmpi .sle x (BitVec.ofNat 32 n) = 1#1 := by
  show BitVec.ofBool (x.sle (BitVec.ofNat 32 n)) = 1#1
  have : x.sle (BitVec.ofNat 32 n) = true := by
    rw [BitVec.sle, toInt_of_le hn h, toInt_ofNat_small hn]
    simp [h]
  rw [this]; rfl

/-- The conjunction over an axis of an array that is true everywhere is true. -/
theorem reduce_and_one {s t u : Shape} {axes : List (Fin s.rank)} (x : IVec s 1) (init : IVec u 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize (List.filter _ _) = l
  have h11 : IntOp.andi (1#1 : BitVec 1) 1#1 = 1#1 := by decide
  induction l with
  | nil => rfl
  | cons n l ih => rw [List.foldl_cons, hx, h11]; exact ih

/-! ## The stages before the dense layers, read at an index -/

section Stages
open Cert.Spec

/-- In range, the movie ids are not moved. -/
theorem wrapA_apply (ids : IVec S4096 32) (hids : ∀ j, (ids j).toNat ≤ 99999) (j : S4096.Idx) : wrapA ids j = ids j := by
  show Scalar.select (IntOp.cmpi .slt (ids j) 0#32) _ (ids j) = ids j
  rw [slt_zero_of_le (by decide) (hids j), select_zero]

theorem idxA_apply (ids : IVec S4096 32) (hids : ∀ j, (ids j).toNat ≤ 99999) (b : Fin 4096) (u : Fin 1) :
    idxA ids (ix2 b u) = ids (ix1 b) := by
  unfold idxA
  rw [broadcastInDim_apply ![0] bcast_S4096_S4096x1_0 _ (ix2 b u) (ix1 b) (fun a => by fin_cases a; rfl)]
  exact wrapA_apply ids hids _

theorem okA_apply (ids : IVec S4096 32) (hids : ∀ j, (ids j).toNat ≤ 99999) (j : S4096.Idx) : okA ids j = 1#1 := by
  unfold okA
  refine reduce_and_one _ _ _ _ (fun i => ?_) (fun _ => rfl) j
  obtain ⟨p, q, rfl⟩ : ∃ (p : Fin 4096) (q : Fin 1), i = ix2 p q := ⟨i 0, i 1, eq_ix2 i⟩
  show IntOp.andi (IntOp.cmpi .sge (idxA ids (ix2 p q)) 0#32) (IntOp.cmpi .sle (idxA ids (ix2 p q)) (BitVec.ofNat 32 99999)) = 1#1
  rw [idxA_apply ids hids, sge_zero_of_le (by decide) (hids _), sle_of_le (by decide) (hids _)]
  decide

/-- THE MOVIE ROWS at `(b, d)`: the movie table at the row the id names. -/
theorem takeA_apply (E : FVec Ideal S100000x128 .f32) (ids : IVec S4096 32) (hids : ∀ j, (ids j).toNat ≤ 99999)
    (b : Fin 4096) (d : Fin 128) : takeA E ids (ix2 b d) = movieVec ids E b d := by
  unfold takeA
  rw [select_apply,
    broadcastInDim_apply ![0] bcast_S4096_S4096x128_0 _ (ix2 b d) (ix1 b) (fun a => by fin_cases a; rfl),
    okA_apply ids hids, select_one]
  show Host.gather (Cert.RowOps.rowGatherDims 100000 4096 128 gather_S100000x128_S4096x1_S4096x128_1_0_n_n_0_1_1128_wf) E (idxA ids) (ix2 b d) = _
  rw [Cert.RowOps.rowGather_apply (by decide)]
  unfold movieVec
  congr 2
  refine Fin.ext ?_
  show min (idxA ids (ix2 b 0)).toInt.toNat (100000 - 1) = min (ids (ix1 b)).toNat 99999
  rw [idxA_apply ids hids, toInt_of_le (by decide) (hids _)]
  rfl

/-- In range, the genre ids are not moved. -/
theorem wrapC_apply (gen : IVec S4096x8 32) (hgen : ∀ j, (gen j).toNat ≤ 31) (j : S4096x8.Idx) : wrapC gen j = gen j := by
  show Scalar.select (IntOp.cmpi .slt (gen j) 0#32) _ (gen j) = gen j
  rw [slt_zero_of_le (by decide) (hgen j), select_zero]

theorem idxC_apply (gen : IVec S4096x8 32) (hgen : ∀ j, (gen j).toNat ≤ 31) (b : Fin 4096) (s : Fin 8) (u : Fin 1) :
    idxC gen (ix3 b s u) = gen (ix2 b s) := by
  unfold idxC
  rw [broadcastInDim_apply ![0, 1] bcast_S4096x8_S4096x8x1_0_1 _ (ix3 b s u) (ix2 b s) (fun a => by fin_cases a <;> rfl)]
  exact wrapC_apply gen hgen _

theorem okC_apply (gen : IVec S4096x8 32) (hgen : ∀ j, (gen j).toNat ≤ 31) (j : S4096x8.Idx) : okC gen j = 1#1 := by
  unfold okC
  refine reduce_and_one _ _ _ _ (fun i => ?_) (fun _ => rfl) j
  obtain ⟨p, s, q, rfl⟩ : ∃ (p : Fin 4096) (s : Fin 8) (q : Fin 1), i = ix3 p s q := ⟨i 0, i 1, i 2, eq_ix3 i⟩
  show IntOp.andi (IntOp.cmpi .sge (idxC gen (ix3 p s q)) 0#32) (IntOp.cmpi .sle (idxC gen (ix3 p s q)) (BitVec.ofNat 32 31)) = 1#1
  rw [idxC_apply gen hgen, sge_zero_of_le (by decide) (hgen _), sle_of_le (by decide) (hgen _)]
  decide

/-- THE GENRE ROWS at `(b, s, d)`: the table at the row the id names. -/
theorem takeC_apply (T : FVec Ideal S32x128 .f32) (gen : IVec S4096x8 32) (hgen : ∀ j, (gen j).toNat ≤ 31)
    (b : Fin 4096) (s : Fin 8) (d : Fin 128) : takeC T gen (ix3 b s d) = T (ix2 (genreRow (gen (ix2 b s))) d) := by
  unfold takeC
  rw [select_apply,
    broadcastInDim_apply ![0, 1] bcast_S4096x8_S4096x8x128_0_1 _ (ix3 b s d) (ix2 b s) (fun a => by fin_cases a <;> rfl),
    okC_apply gen hgen, select_one]
  show Host.gather (rowGather3Dims 32 4096 8 128 gather_S32x128_S4096x8x1_S4096x8x128_2_0_n_n_0_2_1128_wf) T (idxC gen) (ix3 b s d) = _
  rw [rowGather3_apply (by decide)]
  congr 2
  refine Fin.ext ?_
  show min (idxC gen (ix3 b s 0)).toInt.toNat (32 - 1) = min (gen (ix2 b s)).toNat 31
  rw [idxC_apply gen hgen, toInt_of_le (by decide) (hgen _)]
  rfl

/-- THE GENRE TABLE at `(g, d)`: zero in row 0, the table elsewhere. -/
theorem tabB_apply (Ge : FVec Ideal S32x128 .f32) (g : Fin 32) (d : Fin 128) : tabB Ge (ix2 g d) = genreTab Ge g d := by
  unfold tabB genreTab
  show Host.scatter (rowSetDims 32 128 scatter_S32x128_S1_S128_0_0_0_0_wf) (fun _ b => b) Ge zeroIdx _ (ix2 g d) = _
  rw [rowSet_apply _ (by decide)]
  by_cases hg : g.val = 0
  · rw [if_pos hg, if_pos hg]
    show Ideal.ofBits .f32 0x00000000#32 = 0
    exact Ideal.ofBits_zero_f32
  · rw [if_neg hg, if_neg hg]

/-- THE GENRE MEAN at `(b, d)`: the sum of the eight rows' entries, divided by eight. -/
theorem meanD_apply (g : FVec Ideal S4096x8x128 .f32) (b : Fin 4096) (d : Fin 128) :
    meanD g (ix2 b d) = Ideal.div (∑ s : Fin 8, g (ix3 b s d)) eight := by
  unfold meanD
  show Ideal.div (Ideal.hostReduceAdd reducesTo_S4096x8x128_S4096x128_d1 g (Ideal.ofBits .f32 0x00000000#32) (ix2 b d))
    (Ideal.ofBits .f32 0x41000000#32) = _
  rw [Ideal.hostReduceAdd_single reducesTo_S4096x8x128_S4096x128_d1 (by decide : S4096x8x128.Reduces [1] S4096x128),
    Ideal.ofBits_zero_f32, zero_add]
  unfold eight
  congr 1
  refine Finset.sum_congr rfl fun k _ => congrArg g ?_
  funext a; refine Fin.ext ?_
  fin_cases a <;> rfl

/-- THE FIRST LAYER'S INPUT at `(b, k)`: the movie row's entry below 128, the genre mean's above. -/
theorem catD_apply (mv : FVec Ideal S4096x128 .f32) (g : FVec Ideal S4096x8x128 .f32) (b : Fin 4096) (k : Fin 256) :
    catD mv g (ix2 b k) = xrow (fun d => mv (ix2 b d)) (fun d => meanD g (ix2 b d)) k := by
  unfold catD xrow
  by_cases hk : k.val < 128
  · rw [dif_pos hk]
    exact concatenate_pair_apply_left 1 mv (meanD g) concatenates_S4096x128_S4096x128_S4096x256_d1 (ix2 b k) rfl
      (ix2 b ⟨k.val, hk⟩) (fun a => by fin_cases a <;> rfl)
  · rw [dif_neg hk]
    exact concatenate_pair_apply_right 1 mv (meanD g) concatenates_S4096x128_S4096x128_S4096x256_d1 (ix2 b k) rfl rfl
      (ix2 b ⟨k.val - 128, by have := k.isLt; omega⟩)
      (fun a ha => by fin_cases a; · rfl
                      · exact absurd rfl ha)
      (by show k.val - 128 + 128 = k.val; omega)

end Stages

end Cert.RefRun

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.RefReadTail.lean ====
/-
  The reference's dense tail at the extended reals.

  From the joined input rows on, the reference applies three dense layers, each a product with the transposed
  coefficient matrix plus an offset row and a rectifier, and divides each row of the result by its Euclidean norm
  bounded below. Read at one entry of one row, that is the specification's output row.
-/
import Idealize.ShloMosaic.PureOps.Ideal.Laws
import Idealize.ShloMosaic.Lib.Pipeline.Value
import Idealize.ShloMosaic.Lib.ValueIdx
import proofs.«216483_g44830868636102_cont_8to1c4_483_48_alg».proof.Proof.RefTerm
import proofs.«216483_g44830868636102_cont_8to1c4_483_48_alg».proof.Proof.Spec
import proofs.«216483_g44830868636102_cont_8to1c4_483_48_alg».proof.Proof.LibPlainDot
import proofs.«216483_g44830868636102_cont_8to1c4_483_48_alg».proof.Proof.LibKeepdims

noncomputable section

open scoped BigOperators

namespace Cert.RefRun

open Cert.ReferenceIdeal Cert.ReferenceIdeal.Facts₀ Idealize.ShloMosaic Idealize.SL.Sem Idealize.ShloMosaic.ValueIdx

variable [Cert.ReferenceIdeal.Facts]

/-! ## The three layers -/

/-- The dense layer at an output entry: the row's product with the coefficient row, plus the offset, rectified. -/
theorem layerE_apply (x : FVec Ideal S4096x256 .f32) (W : FVec Ideal S512x256 .f32) (b : FVec Ideal S512 .f32)
    (r : Fin 4096) (n : Fin 512) :
    layerE x W b (ix2 r n)
      = Cert.Spec.dense (fun k => x (ix2 r k)) (fun n k => W (ix2 n k)) (fun n => b (ix1 n)) n := by
  have hdot : Host.dotGeneral dot_S4096x256_S256x512_S4096x512_1_0_0_1_n_n none x (transpose S256x512 [1, 0] W transposes_S512x256_S256x512_1_0) (ix2 r n)
      = ∑ k : Fin 256, x (ix2 r k) * W (ix2 n k) := by
    show FloatOps.dotGeneral (PlainDot.dims 4096 256 512 dot_S4096x256_S256x512_S4096x512_1_0_0_1_n_n_wf) none .single x _ (ix2 r n) = _
    rw [PlainDot.dotGeneral_apply]
    refine Finset.sum_congr rfl fun k _ => ?_
    rw [transpose_apply [1, 0] W transposes_S512x256_S256x512_1_0 (ix2 k n) (ix2 n k) (fun a => by fin_cases a <;> rfl)]
  have hb : broadcastInDim S4096x512 ![0, 1] bcast_S1x512_S4096x512_0_1 (broadcastInDim S1x512 ![1] bcast_S512_S1x512_1 b) (ix2 r n) = b (ix1 n) := by
    rw [broadcastInDim_apply ![0, 1] bcast_S1x512_S4096x512_0_1 _ (ix2 r n) (ix2 (0 : Fin 1) n) (fun a => by fin_cases a <;> rfl),
      broadcastInDim_apply ![1] bcast_S512_S1x512_1 b (ix2 (0 : Fin 1) n) (ix1 n) (fun a => by fin_cases a; rfl)]
  have hz : broadcastInDim S4096x512 ![] bcast_S_S4096x512 (constant (F := Ideal) S_ .f32 0x00000000#32) (ix2 r n) = 0 := by
    rw [broadcastInDim_apply ![] bcast_S_S4096x512 _ (ix2 r n) ix0 (fun a => a.elim0), constant_apply, Ideal.ofBits_zero_f32]
  unfold layerE Cert.Spec.dense
  rw [maximumf_apply, addf_apply, hdot, hb, hz]

/-- The dense layer at an output entry: the row's product with the coefficient row, plus the offset, rectified. -/
theorem layerF_apply (x : FVec Ideal S4096x512 .f32) (W : FVec Ideal S256x512 .f32) (b : FVec Ideal S256 .f32)
    (r : Fin 4096) (n : Fin 256) :
    layerF x W b (ix2 r n)
      = Cert.Spec.dense (fun k => x (ix2 r k)) (fun n k => W (ix2 n k)) (fun n => b (ix1 n)) n := by
  have hdot : Host.dotGeneral dot_S4096x512_S512x256_S4096x256_1_0_0_1_n_n none x (transpose S512x256 [1, 0] W transposes_S256x512_S512x256_1_0) (ix2 r n)
      = ∑ k : Fin 512, x (ix2 r k) * W (ix2 n k) := by
    show FloatOps.dotGeneral (PlainDot.dims 4096 512 256 dot_S4096x512_S512x256_S4096x256_1_0_0_1_n_n_wf) none .single x _ (ix2 r n) = _
    rw [PlainDot.dotGeneral_apply]
    refine Finset.sum_congr rfl fun k _ => ?_
    rw [transpose_apply [1, 0] W transposes_S256x512_S512x256_1_0 (ix2 k n) (ix2 n k) (fun a => by fin_cases a <;> rfl)]
  have hb : broadcastInDim S4096x256 ![0, 1] bcast_S1x256_S4096x256_0_1 (broadcastInDim S1x256 ![1] bcast_S256_S1x256_1 b) (ix2 r n) = b (ix1 n) := by
    rw [broadcastInDim_apply ![0, 1] bcast_S1x256_S4096x256_0_1 _ (ix2 r n) (ix2 (0 : Fin 1) n) (fun a => by fin_cases a <;> rfl),
      broadcastInDim_apply ![1] bcast_S256_S1x256_1 b (ix2 (0 : Fin 1) n) (ix1 n) (fun a => by fin_cases a; rfl)]
  have hz : broadcastInDim S4096x256 ![] bcast_S_S4096x256 (constant (F := Ideal) S_ .f32 0x00000000#32) (ix2 r n) = 0 := by
    rw [broadcastInDim_apply ![] bcast_S_S4096x256 _ (ix2 r n) ix0 (fun a => a.elim0), constant_apply, Ideal.ofBits_zero_f32]
  unfold layerF Cert.Spec.dense
  rw [maximumf_apply, addf_apply, hdot, hb, hz]

/-- The dense layer at an output entry: the row's product with the coefficient row, plus the offset, rectified. -/
theorem layerG_apply (x : FVec Ideal S4096x256 .f32) (W : FVec Ideal S128x256 .f32) (b : FVec Ideal S128 .f32)
    (r : Fin 4096) (n : Fin 128) :
    layerG x W b (ix2 r n)
      = Cert.Spec.dense (fun k => x (ix2 r k)) (fun n k => W (ix2 n k)) (fun n => b (ix1 n)) n := by
  have hdot : Host.dotGeneral dot_S4096x256_S256x128_S4096x128_1_0_0_1_n_n none x (transpose S256x128 [1, 0] W transposes_S128x256_S256x128_1_0) (ix2 r n)
      = ∑ k : Fin 256, x (ix2 r k) * W (ix2 n k) := by
    show FloatOps.dotGeneral (PlainDot.dims 4096 256 128 dot_S4096x256_S256x128_S4096x128_1_0_0_1_n_n_wf) none .single x _ (ix2 r n) = _
    rw [PlainDot.dotGeneral_apply]
    refine Finset.sum_congr rfl fun k _ => ?_
    rw [transpose_apply [1, 0] W transposes_S128x256_S256x128_1_0 (ix2 k n) (ix2 n k) (fun a => by fin_cases a <;> rfl)]
  have hb : broadcastInDim S4096x128 ![0, 1] bcast_S1x128_S4096x128_0_1 (broadcastInDim S1x128 ![1] bcast_S128_S1x128_1 b) (ix2 r n) = b (ix1 n) := by
    rw [broadcastInDim_apply ![0, 1] bcast_S1x128_S4096x128_0_1 _ (ix2 r n) (ix2 (0 : Fin 1) n) (fun a => by fin_cases a <;> rfl),
      broadcastInDim_apply ![1] bcast_S128_S1x128_1 b (ix2 (0 : Fin 1) n) (ix1 n) (fun a => by fin_cases a; rfl)]
  have hz : broadcastInDim S4096x128 ![] bcast_S_S4096x128 (constant (F := Ideal) S_ .f32 0x00000000#32) (ix2 r n) = 0 := by
    rw [broadcastInDim_apply ![] bcast_S_S4096x128 _ (ix2 r n) ix0 (fun a => a.elim0), constant_apply, Ideal.ofBits_zero_f32]
  unfold layerG Cert.Spec.dense
  rw [maximumf_apply, addf_apply, hdot, hb, hz]

/-! ## The norm and the division -/

/-- The host's square root at an index is the square root of the element. -/
theorem hostSqrt_apply {s : Shape} {φ : FTy} (x : FVec Ideal s φ) (i : s.Idx) : Host.sqrt x i = Ideal.sqrt (x i) := rfl

/-- The host's quotient at an index is the quotient of the elements. -/
theorem hostDivf_apply {s : Shape} {φ : FTy} (x y : FVec Ideal s φ) (i : s.Idx) :
    Host.divf x y i = Ideal.div (x i) (y i) := rfl

/-- The norm column at row r: the square root of the sum of the row's squares. -/
theorem normH_apply (h : FVec Ideal S4096x128 .f32) (r : Fin 4096) (u : Fin 1) :
    normH h (ix2 r u) = Ideal.sqrt (∑ k : Fin 128, h (ix2 r k) * h (ix2 r k)) := by
  have hR : S4096x128.Reduces [1] S4096 := by decide
  have hsum : Host.reduceAdd (mulf h h) (constant (F := Ideal) S_ .f32 0x00000000#32) reducesTo_S4096x128_S4096_d1 h_S_ (ix1 r)
      = ∑ k : Fin 128, h (ix2 r k) * h (ix2 r k) := by
    show Ideal.hostReduceAdd reducesTo_S4096x128_S4096_d1 (mulf h h) (Ideal.ofBits .f32 0x00000000#32) (ix1 r) = _
    rw [Ideal.hostReduceAdd_single _ hR, Ideal.ofBits_zero_f32, zero_add]
    exact Finset.sum_congr rfl fun k _ => by rw [Keepdims.lift_row hR r k]; rfl
  unfold normH
  rw [hostSqrt_apply, broadcastInDim_apply ![0] bcast_S4096_S4096x1_0 _ (ix2 r u) (ix1 r) (fun a => by fin_cases a; rfl), hsum]

/-- A row divided by its bounded norm, read at (r, d). -/
theorem outH_apply (h : FVec Ideal S4096x128 .f32) (r : Fin 4096) (d : Fin 128) :
    outH h (ix2 r d)
      = Ideal.div (h (ix2 r d)) (max (Ideal.sqrt (∑ k : Fin 128, h (ix2 r k) * h (ix2 r k))) Cert.Spec.eps) := by
  have hz : broadcastInDim S4096x1 ![] bcast_S_S4096x1 (constant (F := Ideal) S_ .f32 0x2B8CBCCC#32) (ix2 r (0 : Fin 1))
      = Cert.Spec.eps := by
    rw [broadcastInDim_apply ![] bcast_S_S4096x1 _ (ix2 r (0 : Fin 1)) ix0 (fun a => a.elim0), constant_apply]
    rfl
  unfold outH
  rw [hostDivf_apply, broadcastInDim_apply ![0, 1] bcast_S4096x1_S4096x128_0_1 _ (ix2 r d) (ix2 r (0 : Fin 1)) (fun a => by fin_cases a <;> rfl),
    maximumf_apply, normH_apply, hz]

/-! ## The tail is the specification's output row -/

/-- THE DENSE TAIL: the three layers and the normalisation applied to the joined rows x, read at (r, d), is the
    specification's output row of row r of x at entry d. -/
theorem tail_apply (x : FVec Ideal S4096x256 .f32) (W1 : FVec Ideal S512x256 .f32) (b1 : FVec Ideal S512 .f32)
    (W2 : FVec Ideal S256x512 .f32) (b2 : FVec Ideal S256 .f32) (W3 : FVec Ideal S128x256 .f32) (b3 : FVec Ideal S128 .f32)
    (r : Fin 4096) (d : Fin 128) :
    outH (layerG (layerF (layerE x W1 b1) W2 b2) W3 b3) (ix2 r d)
      = Cert.Spec.outRow (fun k => x (ix2 r k)) (fun n k => W1 (ix2 n k)) (fun n => b1 (ix1 n))
          (fun n k => W2 (ix2 n k)) (fun n => b2 (ix1 n)) (fun n k => W3 (ix2 n k)) (fun n => b3 (ix1 n)) d := by
  have hG : ∀ e : Fin 128, layerG (layerF (layerE x W1 b1) W2 b2) W3 b3 (ix2 r e)
      = Cert.Spec.hidden (fun k => x (ix2 r k)) (fun n k => W1 (ix2 n k)) (fun n => b1 (ix1 n))
          (fun n k => W2 (ix2 n k)) (fun n => b2 (ix1 n)) (fun n k => W3 (ix2 n k)) (fun n => b3 (ix1 n)) e := by
    intro e
    rw [layerG_apply]
    unfold Cert.Spec.hidden
    refine congrArg (fun v => Cert.Spec.dense v _ _ e) (funext fun k => ?_)
    rw [layerF_apply]
    refine congrArg (fun v => Cert.Spec.dense v _ _ k) (funext fun n => ?_)
    rw [layerE_apply]
  rw [outH_apply, hG d, Finset.sum_congr rfl fun k _ => by rw [hG k]]
  rfl

end Cert.RefRun

end
-- ==== Proof.RefValue.lean ====
/-
  The reference's run at the specification.

  On the extended reals, under the two index ranges, the composed term the reference leaves in its result buffer is
  the specification `Cert.Spec.out` of the ten argument arrays: index by index, the stages before the dense layers
  give the first layer's input row, and the three layers, the norm and the division give the output row. So every
  weakly fair execution of the reference terminates with the result buffer at the specification and the arguments
  unchanged.
-/
import proofs.«216483_g44830868636102_cont_8to1c4_483_48_alg».proof.Proof.RefAfter
import proofs.«216483_g44830868636102_cont_8to1c4_483_48_alg».proof.Proof.RefRead
import proofs.«216483_g44830868636102_cont_8to1c4_483_48_alg».proof.Proof.RefReadTail

noncomputable section

open scoped BigOperators

namespace Cert.RefRun

open Cert.ReferenceIdeal Cert.ReferenceIdeal.Facts₀ Idealize.ShloMosaic Idealize.ShloMosaic.TcCoe Idealize.SL.Sem Idealize.ShloMosaic.StableHlo
  Idealize.ShloMosaic.ValueIdx

variable [Cert.ReferenceIdeal.Facts]

/-- THE VALUE: on the extended reals, under the two index ranges, the composed term is the specification. -/
theorem refOut_eq_spec (ids : IVec S4096 32) (gen : IVec S4096x8 32) (E : FVec Ideal S100000x128 .f32)
    (Ge : FVec Ideal S32x128 .f32) (W1 : FVec Ideal S512x256 .f32) (b1 : FVec Ideal S512 .f32)
    (W2 : FVec Ideal S256x512 .f32) (b2 : FVec Ideal S256 .f32) (W3 : FVec Ideal S128x256 .f32) (b3 : FVec Ideal S128 .f32)
    (hids : ∀ j, (ids j).toNat ≤ 99999) (hgen : ∀ j, (gen j).toNat ≤ 31) :
    refOut (F := Ideal) ids gen E Ge W1 b1 W2 b2 W3 b3 = Cert.Spec.out ids gen E Ge W1 b1 W2 b2 W3 b3 := by
  funext j
  obtain ⟨b, d, rfl⟩ : ∃ (b : Fin 4096) (d : Fin 128), j = ix2 b d := ⟨j 0, j 1, eq_ix2 j⟩
  unfold refOut
  rw [tail_apply, Cert.Spec.out_apply]
  congr 1
  funext k
  rw [catD_apply]
  congr 1
  · funext d'
    exact takeA_apply E ids hids b d'
  · funext d'
    rw [meanD_apply]
    unfold Cert.Spec.genreVec
    refine congrArg (fun t => Ideal.div t Cert.Spec.eight) ?_
    refine Finset.sum_congr rfl fun s _ => ?_
    rw [takeC_apply _ gen hgen, tabB_apply]

/-- THE RUN: every weakly fair execution of the reference, from any memory with zero counters whose movie ids are at
    most 99999 and genre ids at most 31, terminates with the result buffer at the specification of the ten argument
    arrays and the arguments unchanged. -/
theorem run (m : (ℓ : Loc nD τ sig) → Buf (Elt Ideal) ℓ) (g : Dev nD → PrngReg)
    (hids : ∀ (c : Dev nD) j, ((m ((c.tc : Thread nD τ).loc main_arg0) : IVec S4096 32) j).toNat ≤ 99999)
    (hgen : ∀ (c : Dev nD) j, ((m ((c.tc : Thread nD τ).loc main_arg1) : IVec S4096x8 32) j).toNat ≤ 31) :
    θ_run (defs (F := Ideal)) (onTc (τ := τ) (main (F := Ideal))) ⟨m, fun _ => 0, g⟩ (fun r => ∀ c : Dev nD,
      r.2.mem ((c.tc : Thread nD τ).loc main_v31)
        = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c main_v31).trans ((after_v31 _).trans (refOut_eq_spec _ _ _ _ _ _ _ _ _ _ (hids c) (hgen c))),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _)⟩)
    (run_after m g)

end Cert.RefRun

end
-- ==== Proof.lean ====
/-
  The claim: the kernel program (a movie-table row gather on the SparseCore's tiles, then two TensorCore calls — the mean
  of eight genre-table rows as a one-hot count contracted with the table, and three dense layers with a rectifier each
  followed by a division by the row's Euclidean norm) and its reference compute the same array on the extended reals,
  and each program runs to the end leaving its arguments as they were.

  The kernel's run, for either float instance: every unscoped buffer of the TensorCore ends at the last contents of a
  fold through @main — the gather call puts the gathered rows in its result array, a stretch of host operations applies
  them, a TensorCore call leaves its arrays at what the pipeline's write-backs make of them. The three frames are that
  run, and the reference's, with the values dropped. For the value claim the fold's last contents at the result array are
  read at the ideal instance: block by block the second call's arithmetic of the gathered movie rows, of the first call's
  result (which is the genre mean: a sum over table rows of count times row equals the sum of the eight rows the ids
  name, for ids in range and a finite table) and of the weights is the specification's normalised output row (the
  contraction over 256 inputs splits into the movie half and the genre half; multiplying by the reciprocal of a positive
  real is dividing by it), and the reference's term is the same function operation by operation. The precondition
  supplies the id ranges (the gather's rows exist; the genre ids name table rows) and the finiteness of every float
  argument (the count-times-row exchange and the reciprocal law fail at infinities).
-/
import proofs.«216483_g44830868636102_cont_8to1c4_483_48_alg».proof.Defs
import proofs.«216483_g44830868636102_cont_8to1c4_483_48_alg».proof.Proof.Gen.Kernel
import proofs.«216483_g44830868636102_cont_8to1c4_483_48_alg».proof.Proof.Gen.KernelIdeal
import proofs.«216483_g44830868636102_cont_8to1c4_483_48_alg».proof.Proof.Gen.ReferenceIdeal
import proofs.«216483_g44830868636102_cont_8to1c4_483_48_alg».proof.Proof.Gen.Pre_input_domain
import proofs.«216483_g44830868636102_cont_8to1c4_483_48_alg».proof.Proof.PreDecode
import proofs.«216483_g44830868636102_cont_8to1c4_483_48_alg».proof.Proof.KLaunch
import proofs.«216483_g44830868636102_cont_8to1c4_483_48_alg».proof.Proof.KGatherBody
import proofs.«216483_g44830868636102_cont_8to1c4_483_48_alg».proof.Proof.KBridgeArgs
import proofs.«216483_g44830868636102_cont_8to1c4_483_48_alg».proof.Proof.KBridgeOut
import proofs.«216483_g44830868636102_cont_8to1c4_483_48_alg».proof.Proof.WLaunch
import proofs.«216483_g44830868636102_cont_8to1c4_483_48_alg».proof.Proof.WGatherBody
import proofs.«216483_g44830868636102_cont_8to1c4_483_48_alg».proof.Proof.WBridgeArgs
import proofs.«216483_g44830868636102_cont_8to1c4_483_48_alg».proof.Proof.RefValue
import Idealize.ShloMosaic.Adequacy
import Idealize.ShloMosaic.Init

noncomputable section

namespace Cert.Proof

open Idealize.ShloMosaic Idealize.SL.Sem

/-- The precondition bounds every movie id by the table's last row, at either instance. -/
theorem idsOK_word (m : (ℓ : Loc Cert.Kernel.nD Cert.Kernel.τ Cert.Kernel.sig) → Buf (Elt Bits) ℓ) (h : Cert.Pre_Kernel m) :
    Cert.Kernel.KS.IdsOK m := fun d j => Cert.PreDecode.ids_le _ _ _ _ _ _ _ _ _ _ (h d) j
theorem idsOK_ideal (m : (ℓ : Loc Cert.KernelIdeal.nD Cert.KernelIdeal.τ Cert.KernelIdeal.sig) → Buf (Elt Ideal) ℓ) (h : Cert.Pre_KernelIdeal m) :
    Cert.KernelIdeal.KS.IdsOK m := fun d j => Cert.PreDecode.ids_le _ _ _ _ _ _ _ _ _ _ (h d) j

/-- The word-level program runs and leaves its arguments: its run, the values dropped. -/
theorem frame_word : Cert.frame_Kernel := fun m ρ hpre =>
  (θ_run Cert.Kernel.defs _ _).mono (fun r h c =>
    ⟨(h c _ (Cert.Kernel.KS.mem_uc Cert.Kernel.main_arg0 (by decide))).trans (Cert.Kernel.KS.W5_main_arg0 m c),
      (h c _ (Cert.Kernel.KS.mem_uc Cert.Kernel.main_arg1 (by decide))).trans (Cert.Kernel.KS.W5_main_arg1 m c),
      (h c _ (Cert.Kernel.KS.mem_uc Cert.Kernel.main_arg2 (by decide))).trans (Cert.Kernel.KS.W5_main_arg2 m c),
      (h c _ (Cert.Kernel.KS.mem_uc Cert.Kernel.main_arg3 (by decide))).trans (Cert.Kernel.KS.W5_main_arg3 m c),
      (h c _ (Cert.Kernel.KS.mem_uc Cert.Kernel.main_arg4 (by decide))).trans (Cert.Kernel.KS.W5_main_arg4 m c),
      (h c _ (Cert.Kernel.KS.mem_uc Cert.Kernel.main_arg5 (by decide))).trans (Cert.Kernel.KS.W5_main_arg5 m c),
      (h c _ (Cert.Kernel.KS.mem_uc Cert.Kernel.main_arg6 (by decide))).trans (Cert.Kernel.KS.W5_main_arg6 m c),
      (h c _ (Cert.Kernel.KS.mem_uc Cert.Kernel.main_arg7 (by decide))).trans (Cert.Kernel.KS.W5_main_arg7 m c),
      (h c _ (Cert.Kernel.KS.mem_uc Cert.Kernel.main_arg8 (by decide))).trans (Cert.Kernel.KS.W5_main_arg8 m c),
      (h c _ (Cert.Kernel.KS.mem_uc Cert.Kernel.main_arg9 (by decide))).trans (Cert.Kernel.KS.W5_main_arg9 m c)⟩)
    (Cert.Kernel.KS.run (F := Bits) m ρ (Cert.Kernel.KS.tileObl m (idsOK_word m hpre)))

/-- The idealized program likewise. -/
theorem frame_ideal : Cert.frame_KernelIdeal := fun m ρ hpre =>
  (θ_run Cert.KernelIdeal.defs _ _).mono (fun r h c =>
    ⟨(h c _ (Cert.KernelIdeal.KS.mem_uc Cert.KernelIdeal.main_arg0 (by decide))).trans (Cert.KernelIdeal.KS.W5_main_arg0 m c),
      (h c _ (Cert.KernelIdeal.KS.mem_uc Cert.KernelIdeal.main_arg1 (by decide))).trans (Cert.KernelIdeal.KS.W5_main_arg1 m c),
      (h c _ (Cert.KernelIdeal.KS.mem_uc Cert.KernelIdeal.main_arg2 (by decide))).trans (Cert.KernelIdeal.KS.W5_main_arg2 m c),
      (h c _ (Cert.KernelIdeal.KS.mem_uc Cert.KernelIdeal.main_arg3 (by decide))).trans (Cert.KernelIdeal.KS.W5_main_arg3 m c),
      (h c _ (Cert.KernelIdeal.KS.mem_uc Cert.KernelIdeal.main_arg4 (by decide))).trans (Cert.KernelIdeal.KS.W5_main_arg4 m c),
      (h c _ (Cert.KernelIdeal.KS.mem_uc Cert.KernelIdeal.main_arg5 (by decide))).trans (Cert.KernelIdeal.KS.W5_main_arg5 m c),
      (h c _ (Cert.KernelIdeal.KS.mem_uc Cert.KernelIdeal.main_arg6 (by decide))).trans (Cert.KernelIdeal.KS.W5_main_arg6 m c),
      (h c _ (Cert.KernelIdeal.KS.mem_uc Cert.KernelIdeal.main_arg7 (by decide))).trans (Cert.KernelIdeal.KS.W5_main_arg7 m c),
      (h c _ (Cert.KernelIdeal.KS.mem_uc Cert.KernelIdeal.main_arg8 (by decide))).trans (Cert.KernelIdeal.KS.W5_main_arg8 m c),
      (h c _ (Cert.KernelIdeal.KS.mem_uc Cert.KernelIdeal.main_arg9 (by decide))).trans (Cert.KernelIdeal.KS.W5_main_arg9 m c)⟩)
    (Cert.KernelIdeal.KS.run (F := Ideal) m ρ (Cert.KernelIdeal.KS.tileObl m (idsOK_ideal m hpre)))

/-- The reference runs and leaves its arguments: its run, the value dropped. -/
theorem frame_ref : Cert.frame_ReferenceIdeal := fun m ρ hpre =>
  (θ_run Cert.ReferenceIdeal.defs _ _).mono (fun _ h c => (h c).2)
    (Cert.RefRun.run m ρ (fun c j => Cert.PreDecode.ids_le _ _ _ _ _ _ _ _ _ _ (hpre c) j)
      (fun c j => Cert.PreDecode.genres_le _ _ _ _ _ _ _ _ _ _ (hpre c) j))

/-- Both programs end with the specification's array in their result, from memories that agree on the arguments. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨?_,
      (h c _ (Cert.KernelIdeal.KS.mem_uc Cert.KernelIdeal.main_arg0 (by decide))).trans (Cert.KernelIdeal.KS.W5_main_arg0 m c),
      (h c _ (Cert.KernelIdeal.KS.mem_uc Cert.KernelIdeal.main_arg1 (by decide))).trans (Cert.KernelIdeal.KS.W5_main_arg1 m c),
      (h c _ (Cert.KernelIdeal.KS.mem_uc Cert.KernelIdeal.main_arg2 (by decide))).trans (Cert.KernelIdeal.KS.W5_main_arg2 m c),
      (h c _ (Cert.KernelIdeal.KS.mem_uc Cert.KernelIdeal.main_arg3 (by decide))).trans (Cert.KernelIdeal.KS.W5_main_arg3 m c),
      (h c _ (Cert.KernelIdeal.KS.mem_uc Cert.KernelIdeal.main_arg4 (by decide))).trans (Cert.KernelIdeal.KS.W5_main_arg4 m c),
      (h c _ (Cert.KernelIdeal.KS.mem_uc Cert.KernelIdeal.main_arg5 (by decide))).trans (Cert.KernelIdeal.KS.W5_main_arg5 m c),
      (h c _ (Cert.KernelIdeal.KS.mem_uc Cert.KernelIdeal.main_arg6 (by decide))).trans (Cert.KernelIdeal.KS.W5_main_arg6 m c),
      (h c _ (Cert.KernelIdeal.KS.mem_uc Cert.KernelIdeal.main_arg7 (by decide))).trans (Cert.KernelIdeal.KS.W5_main_arg7 m c),
      (h c _ (Cert.KernelIdeal.KS.mem_uc Cert.KernelIdeal.main_arg8 (by decide))).trans (Cert.KernelIdeal.KS.W5_main_arg8 m c),
      (h c _ (Cert.KernelIdeal.KS.mem_uc Cert.KernelIdeal.main_arg9 (by decide))).trans (Cert.KernelIdeal.KS.W5_main_arg9 m c)⟩)
      (Cert.KernelIdeal.KS.run (F := Ideal) m ρ (Cert.KernelIdeal.KS.tileObl m (idsOK_ideal m hpre)))
    exact (h c _ (Cert.KernelIdeal.KS.mem_uc Cert.KernelIdeal.main_v10 (by decide))).trans (Cert.KernelIdeal.KS.out_eq_of_pre m hpre c)
  · have hpre' : Cert.Pre_ReferenceIdeal m' := fun c => by
      rw [(hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2]
      exact hpre c
    refine (θ_run Cert.ReferenceIdeal.defs _ _).mono (fun r h c => ⟨?_, (h c).2⟩)
      (Cert.RefRun.run m' ρ' (fun c j => Cert.PreDecode.ids_le _ _ _ _ _ _ _ _ _ _ (hpre' c) j)
        (fun c j => Cert.PreDecode.genres_le _ _ _ _ _ _ _ _ _ _ (hpre' c) j))
    rw [(h c).1, (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_input_domain.Gen.facts,
    frame_word, frame_ideal, frame_ref, trivial, algebraic⟩

end Cert.Proof

end
